-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v229)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v229) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v339) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x6x16 : Shape := ⟨3, ![2, 6, 16]⟩
abbrev S2x16 : Shape := ⟨2, ![2, 16]⟩
abbrev S2x16x32 : Shape := ⟨3, ![2, 16, 32]⟩
abbrev S2x32 : Shape := ⟨2, ![2, 32]⟩
abbrev S16x32 : Shape := ⟨2, ![16, 32]⟩
abbrev S32 : Shape := ⟨1, ![32]⟩
abbrev S7x32x64 : Shape := ⟨3, ![7, 32, 64]⟩
abbrev S7x64 : Shape := ⟨2, ![7, 64]⟩
abbrev S32x64 : Shape := ⟨2, ![32, 64]⟩
abbrev S64 : Shape := ⟨1, ![64]⟩
abbrev S2x800000 : Shape := ⟨2, ![2, 800000]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S2x6x16 : S_.BroadcastsInDim S2x6x16 (![] : Fin 0 → Fin S2x6x16.rank)
  reducesTo_S2x6x16_S_d0_1_2 : S2x6x16.ReducesTo [0, 1, 2] S_
  bcast_S_S2x16 : S_.BroadcastsInDim S2x16 (![] : Fin 0 → Fin S2x16.rank)
  reducesTo_S2x16_S_d0_1 : S2x16.ReducesTo [0, 1] S_
  bcast_S_S2x16x32 : S_.BroadcastsInDim S2x16x32 (![] : Fin 0 → Fin S2x16x32.rank)
  reducesTo_S2x16x32_S_d0_1_2 : S2x16x32.ReducesTo [0, 1, 2] S_
  bcast_S_S2x32 : S_.BroadcastsInDim S2x32 (![] : Fin 0 → Fin S2x32.rank)
  reducesTo_S2x32_S_d0_1 : S2x32.ReducesTo [0, 1] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S7x32x64 : S_.BroadcastsInDim S7x32x64 (![] : Fin 0 → Fin S7x32x64.rank)
  reducesTo_S7x32x64_S_d0_1_2 : S7x32x64.ReducesTo [0, 1, 2] S_
  bcast_S_S7x64 : S_.BroadcastsInDim S7x64 (![] : Fin 0 → Fin S7x64.rank)
  reducesTo_S7x64_S_d0_1 : S7x64.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S7x64 .f32) (main_arg12 : FVec F S32x64 .f32) (main_arg13 : FVec F S64 .f32) (main_v48 : IVec S_ 1) (main_v49 : FVec F S7x32x64 .f32) (main_v50 : FVec F S7x32x64 .f32) : IVec S_ 1 :=
  let main_v51 : IVec S7x32x64 1 := cmpf .olt main_v49 main_v50
  let main_c_19 : IVec S_ 1 := constantI S_ 1 1#1
  let main_v52 : IVec S_ 1 := (fun x v => Host.reduce IntOp.andi x v reducesTo_S7x32x64_S_d0_1_2 h_S_) main_v51 main_c_19
  let main_v53 : IVec S_ 1 := andi main_v48 main_v52
  let main_v54 : FVec F S7x64 .f32 := Host.absf main_arg11
  let main_cst_20 : FVec F S_ .f32 := constant S_ .f32 0x7F800000#32
  let main_v55 : FVec F S7x64 .f32 := broadcastInDim S7x64 ![] bcast_S_S7x64 main_cst_20
  let main_v56 : IVec S7x64 1 := cmpf .olt main_v54 main_v55
  let main_c_21 : IVec S_ 1 := constantI S_ 1 1#1
  let main_v57 : IVec S_ 1 := (fun x v => Host.reduce IntOp.andi x v reducesTo_S7x64_S_d0_1 h_S_) main_v56 main_c_21
  let main_v58 : IVec S_ 1 := andi main_v53 main_v57
  let main_v59 : FVec F S32x64 .f32 := Host.absf main_arg12
  let main_cst_22 : FVec F S_ .f32 := constant S_ .f32 0x7F800000#32
  let main_v60 : FVec F S32x64 .f32 := broadcastInDim S32x64 ![] bcast_S_S32x64 main_cst_22
  let main_v61 : IVec S32x64 1 := cmpf .olt main_v59 main_v60
  let main_c_23 : IVec S_ 1 := constantI S_ 1 1#1
  let main_v62 : IVec S_ 1 := (fun x v => Host.reduce IntOp.andi x v reducesTo_S32x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg7 : FVec F S16x32 .f32) (main_arg8 : FVec F S32 .f32) (main_arg9 : FVec F S7x32x64 .f32) (main_arg10 : FVec F S7x32x64 .f32) (main_arg11 : FVec F S7x64 .f32) (main_arg12 : FVec F S32x64 .f32) (main_arg13 : FVec F S64 .f32) (main_v33 : IVec S_ 1) : IVec S_ 1 :=
  let main_v34 : FVec F S16x32 .f32 := Host.absf main_arg7
  let main_cst_12 : FVec F S_ .f32 := constant S_ .f32 0x7F800000#32
  let main_v35 : FVec F S16x32 .f32 := broadcastInDim S16x32 ![] bcast_S_S16x32 main_cst_12
  let main_v36 : IVec S16x32 1 := cmpf .olt main_v34 main_v35
  let main_c_13 : IVec S_ 1 := constantI S_ 1 1#1
  let main_v37 : IVec S_ 1 := (fun x v => Host.reduce IntOp.andi x v reducesTo_S16x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S7x32x64 .f32 := Host.absf main_arg9
  let main_cst_16 : FVec F S_ .f32 := constant S_ .f32 0x7F800000#32
  let main_v45 : FVec F S7x32x64 .f32 := broadcastInDim S7x32x64 ![] bcast_S_S7x32x64 main_cst_16
  let main_v46 : IVec S7x32x64 1 := cmpf .olt main_v44 main_v45
  let main_c_17 : IVec S_ 1 := constantI S_ 1 1#1
  let main_v47 : IVec S_ 1 := (fun x v => Host.reduce IntOp.andi x v reducesTo_S7x32x64_S_d0_1_2 h_S_) main_v46 main_c_17
  let main_v48 : IVec S_ 1 := andi main_v43 main_v47
  let main_v49 : FVec F S7x32x64 .f32 := Host.absf main_arg10
  let main_cst_18 : FVec F S_ .f32 := constant S_ .f32 0x7F800000#32
  let main_v50 : FVec F S7x32x64 .f32 := broadcastInDim S7x32x64 ![] bcast_S_S7x32x64 main_cst_18
  fn_part3 (F := F) main_arg11 main_arg12 main_arg13 main_v48 main_v49 main_v50

def fn_part1 {F : FTy → Type} [FloatOps F] (main_arg4 : FVec F S2x16x32 .f32) (main_arg5 : FVec F S2x16x32 .f32) (main_arg6 : FVec F S2x32 .f32) (main_arg7 : FVec F S16x32 .f32) (main_arg8 : FVec F S32 .f32) (main_arg9 : FVec F S7x32x64 .f32) (main_arg10 : FVec F S7x32x64 .f32) (main_arg11 : FVec F S7x64 .f32) (main_arg12 : FVec F S32x64 .f32) (main_arg13 : FVec F S64 .f32) (main_v13 : IVec S_ 1) (main_v16 : IVec S2x16 1) : IVec S_ 1 :=
  let main_c_5 : IVec S_ 1 := constantI S_ 1 1#1
  let main_v17 : IVec S_ 1 := (fun x v => Host.reduce IntOp.andi x v reducesTo_S2x16_S_d0_1 h_S_) main_v16 main_c_5
  let main_v18 : IVec S_ 1 := andi main_v13 main_v17
  let main_v19 : FVec F S2x16x32 .f32 := Host.absf main_arg4
  let main_cst_6 : FVec F S_ .f32 := constant S_ .f32 0x7F800000#32
  let main_v20 : FVec F S2x16x32 .f32 := broadcastInDim S2x16x32 ![] bcast_S_S2x16x32 main_cst_6
  let main_v21 : IVec S2x16x32 1 := cmpf .olt main_v19 main_v20
  let main_c_7 : IVec S_ 1 := constantI S_ 1 1#1
  let main_v22 : IVec S_ 1 := (fun x v => Host.reduce IntOp.andi x v reducesTo_S2x16x32_S_d0_1_2 h_S_) main_v21 main_c_7
  let main_v23 : IVec S_ 1 := andi main_v18 main_v22
  let main_v24 : FVec F S2x16x32 .f32 := Host.absf main_arg5
  let main_cst_8 : FVec F S_ .f32 := constant S_ .f32 0x7F800000#32
  let main_v25 : FVec F S2x16x32 .f32 := broadcastInDim S2x16x32 ![] bcast_S_S2x16x32 main_cst_8
  let main_v26 : IVec S2x16x32 1 := cmpf .olt main_v24 main_v25
  let main_c_9 : IVec S_ 1 := constantI S_ 1 1#1
  let main_v27 : IVec S_ 1 := (fun x v => Host.reduce IntOp.andi x v reducesTo_S2x16x32_S_d0_1_2 h_S_) main_v26 main_c_9
  let main_v28 : IVec S_ 1 := andi main_v23 main_v27
  let main_v29 : FVec F S2x32 .f32 := Host.absf main_arg6
  let main_cst_10 : FVec F S_ .f32 := constant S_ .f32 0x7F800000#32
  let main_v30 : FVec F S2x32 .f32 := broadcastInDim S2x32 ![] bcast_S_S2x32 main_cst_10
  let main_v31 : IVec S2x32 1 := cmpf .olt main_v29 main_v30
  let main_c_11 : IVec S_ 1 := constantI S_ 1 1#1
  let main_v32 : IVec S_ 1 := (fun x v => Host.reduce IntOp.andi x v reducesTo_S2x32_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S100000x6 .f32) (main_arg1 : FVec F S2x6x16 .f32) (main_arg2 : FVec F S2x6x16 .f32) (main_arg3 : FVec F S2x16 .f32) (main_arg4 : FVec F S2x16x32 .f32) (main_arg5 : FVec F S2x16x32 .f32) (main_arg6 : FVec F S2x32 .f32) (main_arg7 : FVec F S16x32 .f32) (main_arg8 : FVec F S32 .f32) (main_arg9 : FVec F S7x32x64 .f32) (main_arg10 : FVec F S7x32x64 .f32) (main_arg11 : FVec F S7x64 .f32) (main_arg12 : FVec F S32x64 .f32) (main_arg13 : FVec F S64 .f32) (main_arg14 : IVec S2x800000 32) (main_arg15 : IVec S2x800000 32) (main_arg16 : IVec S2x800000 32) (main_arg17 : IVec S2x800000 32) (main_arg18 : IVec S2x800000 32) (main_arg19 : IVec S2x800000 32) (main_arg20 : IVec S2x800000 32) (main_arg21 : IVec S2x800000 32) (main_arg22 : IVec S2x800000 32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S2x6x16 .f32 := Host.absf main_arg1
  let main_cst_0 : FVec F S_ .f32 := constant S_ .f32 0x7F800000#32
  let main_v5 : FVec F S2x6x16 .f32 := broadcastInDim S2x6x16 ![] bcast_S_S2x6x16 main_cst_0
  let main_v6 : IVec S2x6x16 1 := cmpf .olt main_v4 main_v5
  let main_c_1 : IVec S_ 1 := constantI S_ 1 1#1
  let main_v7 : IVec S_ 1 := (fun x v => Host.reduce IntOp.andi x v reducesTo_S2x6x16_S_d0_1_2 h_S_) main_v6 main_c_1
  let main_v8 : IVec S_ 1 := andi main_v3 main_v7
  let main_v9 : FVec F S2x6x16 .f32 := Host.absf main_arg2
  let main_cst_2 : FVec F S_ .f32 := constant S_ .f32 0x7F800000#32
  let main_v10 : FVec F S2x6x16 .f32 := broadcastInDim S2x6x16 ![] bcast_S_S2x6x16 main_cst_2
  let main_v11 : IVec S2x6x16 1 := cmpf .olt main_v9 main_v10
  let main_c_3 : IVec S_ 1 := constantI S_ 1 1#1
  let main_v12 : IVec S_ 1 := (fun x v => Host.reduce IntOp.andi x v reducesTo_S2x6x16_S_d0_1_2 h_S_) main_v11 main_c_3
  let main_v13 : IVec S_ 1 := andi main_v8 main_v12
  let main_v14 : FVec F S2x16 .f32 := Host.absf main_arg3
  let main_cst_4 : FVec F S_ .f32 := constant S_ .f32 0x7F800000#32
  let main_v15 : FVec F S2x16 .f32 := broadcastInDim S2x16 ![] bcast_S_S2x16 main_cst_4
  let main_v16 : IVec S2x16 1 := cmpf .olt main_v14 main_v15
  fn_part1 (F := F) main_arg4 main_arg5 main_arg6 main_arg7 main_arg8 main_arg9 main_arg10 main_arg11 main_arg12 main_arg13 main_v13 main_v16
-- ==== Kernel.lean ====
abbrev S100000x6 : Shape := ⟨2, ![100000, 6]⟩
abbrev S2x6x16 : Shape := ⟨3, ![2, 6, 16]⟩
abbrev S2x16 : Shape := ⟨2, ![2, 16]⟩
abbrev S2x16x32 : Shape := ⟨3, ![2, 16, 32]⟩
abbrev S2x32 : Shape := ⟨2, ![2, 32]⟩
abbrev S16x32 : Shape := ⟨2, ![16, 32]⟩
abbrev S32 : Shape := ⟨1, ![32]⟩
abbrev S7x32x64 : Shape := ⟨3, ![7, 32, 64]⟩
abbrev S7x64 : Shape := ⟨2, ![7, 64]⟩
abbrev S32x64 : Shape := ⟨2, ![32, 64]⟩
abbrev S64 : Shape := ⟨1, ![64]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x6 : Shape := ⟨2, ![800000, 6]⟩
abbrev S100000x12 : Shape := ⟨2, ![100000, 12]⟩
abbrev S100000x18 : Shape := ⟨2, ![100000, 18]⟩
abbrev S1x6x16 : Shape := ⟨3, ![1, 6, 16]⟩
abbrev S6x16 : Shape := ⟨2, ![6, 16]⟩
abbrev S18x16 : Shape := ⟨2, ![18, 16]⟩
abbrev S16 : Shape := ⟨1, ![16]⟩
abbrev S1x16 : Shape := ⟨2, ![1, 16]⟩
abbrev S100000x16 : Shape := ⟨2, ![100000, 16]⟩
abbrev S10000x18 : Shape := ⟨2, ![10000, 18]⟩
abbrev S10000x16 : Shape := ⟨2, ![10000, 16]⟩
abbrev S800000x16 : Shape := ⟨2, ![800000, 16]⟩
abbrev S100000x32 : Shape := ⟨2, ![100000, 32]⟩
abbrev S100000x48 : Shape := ⟨2, ![100000, 48]⟩
abbrev S1x16x32 : Shape := ⟨3, ![1, 16, 32]⟩
abbrev S48x32 : Shape := ⟨2, ![48, 32]⟩
abbrev S1x32 : Shape := ⟨2, ![1, 32]⟩
abbrev S10000x48 : Shape := ⟨2, ![10000, 48]⟩
abbrev S10000x32 : Shape := ⟨2, ![10000, 32]⟩
abbrev S800000x32 : Shape := ⟨2, ![800000, 32]⟩
abbrev S100000 : Shape := ⟨1, ![100000]⟩
abbrev S100000x1 : Shape := ⟨2, ![100000, 1]⟩
abbrev S100000x224 : Shape := ⟨2, ![100000, 224]⟩
abbrev S100000x256 : Shape := ⟨2, ![100000, 256]⟩
abbrev S1x32x64 : Shape := ⟨3, ![1, 32, 64]⟩
abbrev S256x64 : Shape := ⟨2, ![256, 64]⟩
abbrev S1x64 : Shape := ⟨2, ![1, 64]⟩
abbrev S100000x64 : Shape := ⟨2, ![100000, 64]⟩
abbrev S10000x256 : Shape := ⟨2, ![10000, 256]⟩
abbrev S10000x64 : Shape := ⟨2, ![10000, 64]⟩

abbrev nBuf : Space → Nat
  | .hbm => 302
  | .vmem => 18
  | .smem => 0
  | _ => 0

abbrev hbmTy0_0 (i : Nat) : BufTy := match i % 128 with
  | 0 => ⟨S100000x6, .f32⟩
  | 1 => ⟨S2x6x16, .f32⟩
  | 2 => ⟨S2x6x16, .f32⟩
  | 3 => ⟨S2x16, .f32⟩
  | 4 => ⟨S2x16x32, .f32⟩
  | 5 => ⟨S2x16x32, .f32⟩
  | 6 => ⟨S2x32, .f32⟩
  | 7 => ⟨S16x32, .f32⟩
  | 8 => ⟨S32, .f32⟩
  | 9 => ⟨S7x32x64, .f32⟩
  | 10 => ⟨S7x32x64, .f32⟩
  | 11 => ⟨S7x64, .f32⟩
  | 12 => ⟨S32x64, .f32⟩
  | 13 => ⟨S64, .f32⟩
  | 14 => ⟨S2x800000, .i32⟩
  | 15 => ⟨S2x800000, .i32⟩
  | 16 => ⟨S2x800000, .i32⟩
  | 17 => ⟨S2x800000, .i32⟩
  | 18 => ⟨S2x800000, .i32⟩
  | 19 => ⟨S2x800000, .i32⟩
  | 20 => ⟨S2x800000, .i32⟩
  | 21 => ⟨S2x800000, .i32⟩
  | 22 => ⟨S2x800000, .i32⟩
  | 23 => ⟨S1x800000, .i32⟩
  | 24 => ⟨S800000, .i32⟩
  | 25 => ⟨S1x800000, .i32⟩
  | 26 => ⟨S800000, .i32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x6, .f32⟩
  | 36 => ⟨S_, .f32⟩
  | 37 => ⟨S100000x6, .f32⟩
  | 38 => ⟨S800000x1, .i32⟩
  | 39 => ⟨S100000x6, .f32⟩
  | 40 => ⟨S1x800000, .i32⟩
  | 41 => ⟨S800000, .i32⟩
  | 42 => ⟨S1x800000, .i32⟩
  | 43 => ⟨S800000, .i32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x6, .f32⟩
  | 53 => ⟨S_, .f32⟩
  | 54 => ⟨S100000x6, .f32⟩
  | 55 => ⟨S800000x1, .i32⟩
  | 56 => ⟨S100000x6, .f32⟩
  | 57 => ⟨S100000x12, .f32⟩
  | 58 => ⟨S100000x18, .f32⟩
  | 59 => ⟨S1x6x16, .f32⟩
  | 60 => ⟨S6x16, .f32⟩
  | 61 => ⟨S1x6x16, .f32⟩
  | 62 => ⟨S6x16, .f32⟩
  | 63 => ⟨S_, .f32⟩
  | 64 => ⟨S6x16, .f32⟩
  | 65 => ⟨S18x16, .f32⟩
  | 66 => ⟨S_, .f32⟩
  | 67 => ⟨S16, .f32⟩
  | 68 => ⟨S1x16, .f32⟩
  | 69 => ⟨S100000x16, .f32⟩
  | 70 => ⟨S1x800000, .i32⟩
  | 71 => ⟨S800000, .i32⟩
  | 72 => ⟨S1x800000, .i32⟩
  | 73 => ⟨S800000, .i32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x16, .f32⟩
  | 83 => ⟨S_, .f32⟩
  | 84 => ⟨S100000x16, .f32⟩
  | 85 => ⟨S800000x1, .i32⟩
  | 86 => ⟨S100000x16, .f32⟩
  | 87 => ⟨S1x800000, .i32⟩
  | 88 => ⟨S800000, .i32⟩
  | 89 => ⟨S1x800000, .i32⟩
  | 90 => ⟨S800000, .i32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x16, .f32⟩
  | 100 => ⟨S_, .f32⟩
  | 101 => ⟨S100000x16, .f32⟩
  | 102 => ⟨S800000x1, .i32⟩
  | 103 => ⟨S100000x16, .f32⟩
  | 104 => ⟨S100000x32, .f32⟩
  | 105 => ⟨S100000x48, .f32⟩
  | 106 => ⟨S1x16x32, .f32⟩
  | 107 => ⟨S16x32, .f32⟩
  | 108 => ⟨S1x16x32, .f32⟩
  | 109 => ⟨S16x32, .f32⟩
  | 110 => ⟨S_, .f32⟩
  | 111 => ⟨S16x32, .f32⟩
  | 112 => ⟨S16x32, .f32⟩
  | 113 => ⟨S48x32, .f32⟩
  | 114 => ⟨S_, .f32⟩
  | 115 => ⟨S32, .f32⟩
  | 116 => ⟨S32, .f32⟩
  | 117 => ⟨S1x32, .f32⟩
  | 118 => ⟨S100000x32, .f32⟩
  | 119 => ⟨S1x800000, .i32⟩
  | 120 => ⟨S800000, .i32⟩
  | 121 => ⟨S1x800000, .i32⟩
  | 122 => ⟨S800000, .i32⟩
  | 123 => ⟨S_, .i32⟩
  | 124 => ⟨S800000, .i32⟩
  | 125 => ⟨S800000, .i1⟩
  | 126 => ⟨S_, .i32⟩
  | 127 => ⟨S800000, .i32⟩
  | _ => ⟨S100000x6, .f32⟩

abbrev hbmTy0_1 (i : Nat) : BufTy := match i % 128 with
  | 0 => ⟨S800000, .i32⟩
  | 1 => ⟨S800000, .i32⟩
  | 2 => ⟨S800000x1, .i32⟩
  | 3 => ⟨S800000x32, .f32⟩
  | 4 => ⟨S_, .f32⟩
  | 5 => ⟨S100000x32, .f32⟩
  | 6 => ⟨S800000x1, .i32⟩
  | 7 => ⟨S100000x32, .f32⟩
  | 8 => ⟨S1x800000, .i32⟩
  | 9 => ⟨S800000, .i32⟩
  | 10 => ⟨S1x800000, .i32⟩
  | 11 => ⟨S800000, .i32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x32, .f32⟩
  | 21 => ⟨S_, .f32⟩
  | 22 => ⟨S100000x32, .f32⟩
  | 23 => ⟨S800000x1, .i32⟩
  | 24 => ⟨S100000x32, .f32⟩
  | 25 => ⟨S1x800000, .i32⟩
  | 26 => ⟨S800000, .i32⟩
  | 27 => ⟨S1x800000, .i32⟩
  | 28 => ⟨S800000, .i32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x32, .f32⟩
  | 38 => ⟨S_, .f32⟩
  | 39 => ⟨S100000x32, .f32⟩
  | 40 => ⟨S800000x1, .i32⟩
  | 41 => ⟨S100000x32, .f32⟩
  | 42 => ⟨S_, .f32⟩
  | 43 => ⟨S800000, .f32⟩
  | 44 => ⟨S_, .f32⟩
  | 45 => ⟨S100000, .f32⟩
  | 46 => ⟨S800000x1, .i32⟩
  | 47 => ⟨S100000, .f32⟩
  | 48 => ⟨S_, .f32⟩
  | 49 => ⟨S100000, .f32⟩
  | 50 => ⟨S100000, .f32⟩
  | 51 => ⟨S100000x1, .f32⟩
  | 52 => ⟨S100000x32, .f32⟩
  | 53 => ⟨S100000x32, .f32⟩
  | 54 => ⟨S1x800000, .i32⟩
  | 55 => ⟨S800000, .i32⟩
  | 56 => ⟨S1x800000, .i32⟩
  | 57 => ⟨S800000, .i32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x32, .f32⟩
  | 67 => ⟨S_, .f32⟩
  | 68 => ⟨S100000x32, .f32⟩
  | 69 => ⟨S800000x1, .i32⟩
  | 70 => ⟨S100000x32, .f32⟩
  | 71 => ⟨S_, .f32⟩
  | 72 => ⟨S800000, .f32⟩
  | 73 => ⟨S_, .f32⟩
  | 74 => ⟨S100000, .f32⟩
  | 75 => ⟨S800000x1, .i32⟩
  | 76 => ⟨S100000, .f32⟩
  | 77 => ⟨S_, .f32⟩
  | 78 => ⟨S100000, .f32⟩
  | 79 => ⟨S100000, .f32⟩
  | 80 => ⟨S100000x1, .f32⟩
  | 81 => ⟨S100000x32, .f32⟩
  | 82 => ⟨S100000x32, .f32⟩
  | 83 => ⟨S1x800000, .i32⟩
  | 84 => ⟨S800000, .i32⟩
  | 85 => ⟨S1x800000, .i32⟩
  | 86 => ⟨S800000, .i32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x32, .f32⟩
  | 96 => ⟨S_, .f32⟩
  | 97 => ⟨S100000x32, .f32⟩
  | 98 => ⟨S800000x1, .i32⟩
  | 99 => ⟨S100000x32, .f32⟩
  | 100 => ⟨S1x800000, .i32⟩
  | 101 => ⟨S800000, .i32⟩
  | 102 => ⟨S1x800000, .i32⟩
  | 103 => ⟨S800000, .i32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x32, .f32⟩
  | 113 => ⟨S_, .f32⟩
  | 114 => ⟨S100000x32, .f32⟩
  | 115 => ⟨S800000x1, .i32⟩
  | 116 => ⟨S100000x32, .f32⟩
  | 117 => ⟨S1x800000, .i32⟩
  | 118 => ⟨S800000, .i32⟩
  | 119 => ⟨S1x800000, .i32⟩
  | 120 => ⟨S800000, .i32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S100000x6, .f32⟩

abbrev hbmTy0_2 (i : Nat) : BufTy := match i % 128 with
  | 0 => ⟨S800000x1, .i32⟩
  | 1 => ⟨S800000x32, .f32⟩
  | 2 => ⟨S_, .f32⟩
  | 3 => ⟨S100000x32, .f32⟩
  | 4 => ⟨S800000x1, .i32⟩
  | 5 => ⟨S100000x32, .f32⟩
  | 6 => ⟨S_, .f32⟩
  | 7 => ⟨S800000, .f32⟩
  | 8 => ⟨S_, .f32⟩
  | 9 => ⟨S100000, .f32⟩
  | 10 => ⟨S800000x1, .i32⟩
  | 11 => ⟨S100000, .f32⟩
  | 12 => ⟨S_, .f32⟩
  | 13 => ⟨S100000, .f32⟩
  | 14 => ⟨S100000, .f32⟩
  | 15 => ⟨S100000x1, .f32⟩
  | 16 => ⟨S100000x32, .f32⟩
  | 17 => ⟨S100000x32, .f32⟩
  | 18 => ⟨S100000x224, .f32⟩
  | 19 => ⟨S100000x256, .f32⟩
  | 20 => ⟨S1x32x64, .f32⟩
  | 21 => ⟨S32x64, .f32⟩
  | 22 => ⟨S1x32x64, .f32⟩
  | 23 => ⟨S32x64, .f32⟩
  | 24 => ⟨S1x32x64, .f32⟩
  | 25 => ⟨S32x64, .f32⟩
  | 26 => ⟨S1x32x64, .f32⟩
  | 27 => ⟨S32x64, .f32⟩
  | 28 => ⟨S1x32x64, .f32⟩
  | 29 => ⟨S32x64, .f32⟩
  | 30 => ⟨S1x32x64, .f32⟩
  | 31 => ⟨S32x64, .f32⟩
  | 32 => ⟨S1x32x64, .f32⟩
  | 33 => ⟨S32x64, .f32⟩
  | 34 => ⟨S_, .f32⟩
  | 35 => ⟨S32x64, .f32⟩
  | 36 => ⟨S32x64, .f32⟩
  | 37 => ⟨S256x64, .f32⟩
  | 38 => ⟨S_, .f32⟩
  | 39 => ⟨S64, .f32⟩
  | 40 => ⟨S64, .f32⟩
  | 41 => ⟨S1x64, .f32⟩
  | 42 => ⟨S100000x64, .f32⟩
  | 43 => ⟨S_, .f32⟩
  | 44 => ⟨S100000x64, .f32⟩
  | 45 => ⟨S100000x64, .f32⟩
  | _ => ⟨S100000x6, .f32⟩

abbrev hbmTy (i : Nat) : BufTy := match i / 128 with
  | 0 => hbmTy0_0 i
  | 1 => hbmTy0_1 i
  | 2 => hbmTy0_2 i
  | _ => ⟨S100000x6, .f32⟩

abbrev bufTy : (tb : Table) → Fin (tcTables nBuf tb) → BufTy
  | .hbm, ⟨i, _⟩ => hbmTy i
  | .local _ .vmem, ⟨0, _⟩ => ⟨S10000x18, .f32⟩
  | .local _ .vmem, ⟨1, _⟩ => ⟨S10000x18, .f32⟩
  | .local _ .vmem, ⟨2, _⟩ => ⟨S18x16, .f32⟩
  | .local _ .vmem, ⟨3, _⟩ => ⟨S1x16, .f32⟩
  | .local _ .vmem, ⟨4, _⟩ => ⟨S10000x16, .f32⟩
  | .local _ .vmem, ⟨5, _⟩ => ⟨S10000x16, .f32⟩
  | .local _ .vmem, ⟨6, _⟩ => ⟨S10000x48, .f32⟩
  | .local _ .vmem, ⟨7, _⟩ => ⟨S10000x48, .f32⟩
  | .local _ .vmem, ⟨8, _⟩ => ⟨S48x32, .f32⟩
  | .local _ .vmem, ⟨9, _⟩ => ⟨S1x32, .f32⟩
  | .local _ .vmem, ⟨10, _⟩ => ⟨S10000x32, .f32⟩
  | .local _ .vmem, ⟨11, _⟩ => ⟨S10000x32, .f32⟩
  | .local _ .vmem, ⟨12, _⟩ => ⟨S10000x256, .f32⟩
  | .local _ .vmem, ⟨13, _⟩ => ⟨S10000x256, .f32⟩
  | .local _ .vmem, ⟨14, _⟩ => ⟨S256x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_1 : Ref sig .tc := ⟨.hbm, 44, rfl⟩
abbrev main_v18 : Ref sig .tc := ⟨.hbm, 45, rfl⟩
abbrev main_v19 : Ref sig .tc := ⟨.hbm, 46, rfl⟩
abbrev main_c_2 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_3 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_4 : Ref sig .tc := ⟨.hbm, 63, rfl⟩
abbrev main_v34 : Ref sig .tc := ⟨.hbm, 64, rfl⟩
abbrev main_v35 : Ref sig .tc := ⟨.hbm, 65, rfl⟩
abbrev main_cst_5 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_c_6 : Ref sig .tc := ⟨.hbm, 74, rfl⟩
abbrev main_v43 : Ref sig .tc := ⟨.hbm, 75, rfl⟩
abbrev main_v44 : Ref sig .tc := ⟨.hbm, 76, rfl⟩
abbrev main_c_7 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_8 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_9 : Ref sig .tc := ⟨.hbm, 91, rfl⟩
abbrev main_v57 : Ref sig .tc := ⟨.hbm, 92, rfl⟩
abbrev main_v58 : Ref sig .tc := ⟨.hbm, 93, rfl⟩
abbrev main_c_10 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_11 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_12 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_13 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_c_14 : Ref sig .tc := ⟨.hbm, 123, rfl⟩
abbrev main_v84 : Ref sig .tc := ⟨.hbm, 124, rfl⟩
abbrev main_v85 : Ref sig .tc := ⟨.hbm, 125, rfl⟩
abbrev main_c_15 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_16 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_c_17 : Ref sig .tc := ⟨.hbm, 140, rfl⟩
abbrev main_v98 : Ref sig .tc := ⟨.hbm, 141, rfl⟩
abbrev main_v99 : Ref sig .tc := ⟨.hbm, 142, rfl⟩
abbrev main_c_18 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_19 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_c_20 : Ref sig .tc := ⟨.hbm, 157, rfl⟩
abbrev main_v112 : Ref sig .tc := ⟨.hbm, 158, rfl⟩
abbrev main_v113 : Ref sig .tc := ⟨.hbm, 159, rfl⟩
abbrev main_c_21 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_cst_22 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_23 : Ref sig .tc := ⟨.hbm, 170, rfl⟩
abbrev main_v122 : Ref sig .tc := ⟨.hbm, 171, rfl⟩
abbrev main_cst_24 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_cst_25 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_c_26 : Ref sig .tc := ⟨.hbm, 186, rfl⟩
abbrev main_v135 : Ref sig .tc := ⟨.hbm, 187, rfl⟩
abbrev main_v136 : Ref sig .tc := ⟨.hbm, 188, rfl⟩
abbrev main_c_27 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_cst_28 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_cst_29 : Ref sig .tc := ⟨.hbm, 199, rfl⟩
abbrev main_v145 : Ref sig .tc := ⟨.hbm, 200, rfl⟩
abbrev main_cst_30 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_cst_31 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_c_32 : Ref sig .tc := ⟨.hbm, 215, rfl⟩
abbrev main_v158 : Ref sig .tc := ⟨.hbm, 216, rfl⟩
abbrev main_v159 : Ref sig .tc := ⟨.hbm, 217, rfl⟩
abbrev main_c_33 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_cst_34 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_c_35 : Ref sig .tc := ⟨.hbm, 232, rfl⟩
abbrev main_v172 : Ref sig .tc := ⟨.hbm, 233, rfl⟩
abbrev main_v173 : Ref sig .tc := ⟨.hbm, 234, rfl⟩
abbrev main_c_36 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_cst_37 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_c_38 : Ref sig .tc := ⟨.hbm, 249, rfl⟩
abbrev main_v186 : Ref sig .tc := ⟨.hbm, 250, rfl⟩
abbrev main_v187 : Ref sig .tc := ⟨.hbm, 251, rfl⟩
abbrev main_c_39 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_cst_40 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_cst_41 : Ref sig .tc := ⟨.hbm, 262, rfl⟩
abbrev main_v196 : Ref sig .tc := ⟨.hbm, 263, rfl⟩
abbrev main_cst_42 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_cst_43 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_cst_44 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩
abbrev main_cst_45 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_v227 : Ref sig .tc := ⟨.hbm, 298, rfl⟩
abbrev main_cst_46 : Ref sig .tc := ⟨.hbm, 299, rfl⟩
abbrev main_v228 : Ref sig .tc := ⟨.hbm, 300, rfl⟩
abbrev main_v229 : Ref sig .tc := ⟨.hbm, 301, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x18 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S18x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S48x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x6 : S_.BroadcastsInDim S100000x6 (![] : Fin 0 → Fin S100000x6.rank)
  concatenates_S100000x6_S100000x6_S100000x12_d1 : Shape.Concatenates [S100000x6, S100000x6] S100000x12 1
  concatenates_S100000x12_S100000x6_S100000x18_d1 : Shape.Concatenates [S100000x12, S100000x6] S100000x18 1
  slices_S2x6x16_S1x6x16_0_0_0 : S2x6x16.Slices ![0, 0, 0] S1x6x16
  shapeCasts_S1x6x16_S6x16 : S1x6x16.ShapeCasts S6x16
  slices_S2x6x16_S1x6x16_1_0_0 : S2x6x16.Slices ![1, 0, 0] S1x6x16
  reducesTo_S2x6x16_S6x16_d0 : S2x6x16.ReducesTo [0] S6x16
  h_S_ : 0 < S_.numel
  concatenates_S6x16_S6x16_S6x16_S18x16_d0 : Shape.Concatenates [S6x16, S6x16, S6x16] S18x16 0
  reducesTo_S2x16_S16_d0 : S2x16.ReducesTo [0] S16
  shapeCasts_S16_S1x16 : S16.ShapeCasts S1x16
  inb_S10000x18_S10000x18_0_0 : ∀ a, (![0, 0] : Fin 2 → Nat) a + S10000x18.size a ≤ S10000x18.size a
  h_S10000x18 : 0 < S10000x18.numel
  shapeCasts_S10000x18_S10000x18 : S10000x18.ShapeCasts S10000x18
  bitsLt_bf16_f32 : FTy.bits .bf16 < FTy.bits .f32
  inb_S18x16_S18x16_0_0 : ∀ a, (![0, 0] : Fin 2 → Nat) a + S18x16.size a ≤ S18x16.size a
  h_S18x16 : 0 < S18x16.numel
  shapeCasts_S18x16_S18x16 : S18x16.ShapeCasts S18x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S_S100000x16 : S_.BroadcastsInDim S100000x16 (![] : Fin 0 → Fin S100000x16.rank)
  concatenates_S100000x16_S100000x16_S100000x32_d1 : Shape.Concatenates [S100000x16, S100000x16] S100000x32 1
  concatenates_S100000x32_S100000x16_S100000x48_d1 : Shape.Concatenates [S100000x32, S100000x16] S100000x48 1
  slices_S2x16x32_S1x16x32_0_0_0 : S2x16x32.Slices ![0, 0, 0] S1x16x32
  shapeCasts_S1x16x32_S16x32 : S1x16x32.ShapeCasts S16x32
  slices_S2x16x32_S1x16x32_1_0_0 : S2x16x32.Slices ![1, 0, 0] S1x16x32
  reducesTo_S2x16x32_S16x32_d0 : S2x16x32.ReducesTo [0] S16x32
  concatenates_S16x32_S16x32_S16x32_S48x32_d0 : Shape.Concatenates [S16x32, S16x32, S16x32] S48x32 0
  reducesTo_S2x32_S32_d0 : S2x32.ReducesTo [0] S32
  shapeCasts_S32_S1x32 : S32.ShapeCasts S1x32
  inb_S10000x48_S10000x48_0_0 : ∀ a, (![0, 0] : Fin 2 → Nat) a + S10000x48.size a ≤ S10000x48.size a
  h_S10000x48 : 0 < S10000x48.numel
  shapeCasts_S10000x48_S10000x48 : S10000x48.ShapeCasts S10000x48
  inb_S48x32_S48x32_0_0 : ∀ a, (![0, 0] : Fin 2 → Nat) a + S48x32.size a ≤ S48x32.size a
  h_S48x32 : 0 < S48x32.numel
  shapeCasts_S48x32_S48x32 : S48x32.ShapeCasts S48x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  concatenates_S100000x32_S100000x32_S100000x32_S100000x32_S100000x32_S100000x32_S100000x32_S100000x224_d1 : Shape.Concatenates [S100000x32, S100000x32, S100000x32, S100000x32, S100000x32, S100000x32, S100000x32] S100000x224 1
  concatenates_S100000x224_S100000x32_S100000x256_d1 : Shape.Concatenates [S100000x224, S100000x32] S100000x256 1
  slices_S7x32x64_S1x32x64_0_0_0 : S7x32x64.Slices ![0, 0, 0] S1x32x64
  shapeCasts_S1x32x64_S32x64 : S1x32x64.ShapeCasts S32x64
  slices_S7x32x64_S1x32x64_1_0_0 : S7x32x64.Slices ![1, 0, 0] S1x32x64
  slices_S7x32x64_S1x32x64_2_0_0 : S7x32x64.Slices ![2, 0, 0] S1x32x64
  slices_S7x32x64_S1x32x64_3_0_0 : S7x32x64.Slices ![3, 0, 0] S1x32x64
  slices_S7x32x64_S1x32x64_4_0_0 : S7x32x64.Slices ![4, 0, 0] S1x32x64
  slices_S7x32x64_S1x32x64_5_0_0 : S7x32x64.Slices ![5, 0, 0] S1x32x64
  slices_S7x32x64_S1x32x64_6_0_0 : S7x32x64.Slices ![6, 0, 0] S1x32x64
  reducesTo_S7x32x64_S32x64_d0 : S7x32x64.ReducesTo [0] S32x64
  concatenates_S32x64_S32x64_S32x64_S32x64_S32x64_S32x64_S32x64_S32x64_S256x64_d0 : Shape.Concatenates [S32x64, S32x64, S32x64, S32x64, S32x64, S32x64, S32x64, S32x64] S256x64 0
  reducesTo_S7x64_S64_d0 : S7x64.ReducesTo [0] S64
  shapeCasts_S64_S1x64 : S64.ShapeCasts S1x64
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  gather_S100000x6_S800000x1_S800000x6_1_0_n_n_0_1_16_wf : GatherDims.WF S100000x6 S800000x1 S800000x6 [1] [0] [] [0] [] 1 ![1, 6]
  scatter_S100000x6_S800000x1_S800000x6_1_0_0_1_wf : ScatterDims.WF S100000x6 S800000x1 S800000x6 [1] [0] [0] 1
  dot_S10000x18_S18x16_S10000x16_1_0_0_1_n_n_wf : DotDims.WF S10000x18 S18x16 S10000x16 [1] [0] [0] [1] [] []
  gather_S100000x16_S800000x1_S800000x16_1_0_n_n_0_1_116_wf : GatherDims.WF S100000x16 S800000x1 S800000x16 [1] [0] [] [0] [] 1 ![1, 16]
  scatter_S100000x16_S800000x1_S800000x16_1_0_0_1_wf : ScatterDims.WF S100000x16 S800000x1 S800000x16 [1] [0] [0] 1
  dot_S10000x48_S48x32_S10000x32_1_0_0_1_n_n_wf : DotDims.WF S10000x48 S48x32 S10000x32 [1] [0] [0] [1] [] []
  gather_S100000x32_S800000x1_S800000x32_1_0_n_n_0_1_132_wf : GatherDims.WF S100000x32 S800000x1 S800000x32 [1] [0] [] [0] [] 1 ![1, 32]
  scatter_S100000x32_S800000x1_S800000x32_1_0_0_1_wf : ScatterDims.WF S100000x32 S800000x1 S800000x32 [1] [0] [0] 1
  scatter_S100000_S800000x1_S800000_n_0_0_1_wf : ScatterDims.WF S100000 S800000x1 S800000 [] [0] [0] 1
  dot_S10000x256_S256x64_S10000x64_1_0_0_1_n_n_wf : DotDims.WF S10000x256 S256x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x18.size a ≤ S100000x18.size a
  hwx0_0 : ∀ i : grid0.Coords, EltTy.bits .f32 = 32 ∨ (Rect.block (s := S100000x18) S10000x18.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S18x16.size a ≤ S18x16.size a
  hwx0_1 : ∀ i : grid0.Coords, EltTy.bits .f32 = 32 ∨ (Rect.block (s := S18x16) S18x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x16.size a ≤ S100000x16.size a
  hwx0_3 : ∀ i : grid0.Coords, EltTy.bits .f32 = 32 ∨ (Rect.block (s := S100000x16) S10000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x48.size a ≤ S100000x48.size a
  hwx1_0 : ∀ i : grid1.Coords, EltTy.bits .f32 = 32 ∨ (Rect.block (s := S100000x48) S10000x48.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S48x32.size a ≤ S48x32.size a
  hwx1_1 : ∀ i : grid1.Coords, EltTy.bits .f32 = 32 ∨ (Rect.block (s := S48x32) S48x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x256.size a ≤ S100000x256.size a
  hwx2_0 : ∀ i : grid2.Coords, EltTy.bits .f32 = 32 ∨ (Rect.block (s := S100000x256) S10000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .f32 = 32 ∨ (Rect.block (s := S256x64) S256x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)

variable [Facts₀]

def gather_S100000x6_S800000x1_S800000x6_1_0_n_n_0_1_16 : GatherDims S100000x6 S800000x1 S800000x6 where
  offsetDims := [1]
  collapsedSliceDims := [0]
  operandBatchingDims := []
  startIndicesBatchingDims := []
  startIndexMap := [0]
  indexVectorDim := 1
  sliceSizes := ![1, 6]
  wf := gather_S100000x6_S800000x1_S800000x6_1_0_n_n_0_1_16_wf
def scatter_S100000x6_S800000x1_S800000x6_1_0_0_1 : ScatterDims S100000x6 S800000x1 S800000x6 where
  updateWindowDims := [1]
  insertedWindowDims := [0]
  scatterDimsToOperandDims := [0]
  indexVectorDim := 1
  wf := scatter_S100000x6_S800000x1_S800000x6_1_0_0_1_wf
def dot_S10000x18_S18x16_S10000x16_1_0_0_1_n_n : DotDims S10000x18 S18x16 S10000x16 where
  lhsContracting := [1]
  rhsContracting := [0]
  lhsNonContracting := [0]
  rhsNonContracting := [1]
  lhsBatch := []
  rhsBatch := []
  wf := dot_S10000x18_S18x16_S10000x16_1_0_0_1_n_n_wf
def gather_S100000x16_S800000x1_S800000x16_1_0_n_n_0_1_116 : GatherDims S100000x16 S800000x1 S800000x16 where
  offsetDims := [1]
  collapsedSliceDims := [0]
  operandBatchingDims := []
  startIndicesBatchingDims := []
  startIndexMap := [0]
  indexVectorDim := 1
  sliceSizes := ![1, 16]
  wf := gather_S100000x16_S800000x1_S800000x16_1_0_n_n_0_1_116_wf
def scatter_S100000x16_S800000x1_S800000x16_1_0_0_1 : ScatterDims S100000x16 S800000x1 S800000x16 where
  updateWindowDims := [1]
  insertedWindowDims := [0]
  scatterDimsToOperandDims := [0]
  indexVectorDim := 1
  wf := scatter_S100000x16_S800000x1_S800000x16_1_0_0_1_wf
def dot_S10000x48_S48x32_S10000x32_1_0_0_1_n_n : DotDims S10000x48 S48x32 S10000x32 where
  lhsContracting := [1]
  rhsContracting := [0]
  lhsNonContracting := [0]
  rhsNonContracting := [1]
  lhsBatch := []
  rhsBatch := []
  wf := dot_S10000x48_S48x32_S10000x32_1_0_0_1_n_n_wf
def gather_S100000x32_S800000x1_S800000x32_1_0_n_n_0_1_132 : GatherDims S100000x32 S800000x1 S800000x32 where
  offsetDims := [1]
  collapsedSliceDims := [0]
  operandBatchingDims := []
  startIndicesBatchingDims := []
  startIndexMap := [0]
  indexVectorDim := 1
  sliceSizes := ![1, 32]
  wf := gather_S100000x32_S800000x1_S800000x32_1_0_n_n_0_1_132_wf
def scatter_S100000x32_S800000x1_S800000x32_1_0_0_1 : ScatterDims S100000x32 S800000x1 S800000x32 where
  updateWindowDims := [1]
  insertedWindowDims := [0]
  scatterDimsToOperandDims := [0]
  indexVectorDim := 1
  wf := scatter_S100000x32_S800000x1_S800000x32_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf

abbrev win0_0 : Pipeline.Window sig grid0 :=
  Pipeline.Window.ofSpec (Memref.whole main_v29) S10000x18.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S18x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S10000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v68) S10000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v75) S48x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v78) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v79) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v206) S10000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v223) S256x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v226) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v227) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x6 : Shape := ⟨2, ![100000, 6]⟩
abbrev S2x6x16 : Shape := ⟨3, ![2, 6, 16]⟩
abbrev S2x16 : Shape := ⟨2, ![2, 16]⟩
abbrev S2x16x32 : Shape := ⟨3, ![2, 16, 32]⟩
abbrev S2x32 : Shape := ⟨2, ![2, 32]⟩
abbrev S16x32 : Shape := ⟨2, ![16, 32]⟩
abbrev S32 : Shape := ⟨1, ![32]⟩
abbrev S7x32x64 : Shape := ⟨3, ![7, 32, 64]⟩
abbrev S7x64 : Shape := ⟨2, ![7, 64]⟩
abbrev S32x64 : Shape := ⟨2, ![32, 64]⟩
abbrev S64 : Shape := ⟨1, ![64]⟩
abbrev S2x800000 : Shape := ⟨2, ![2, 800000]⟩
abbrev S_ : Shape := ⟨0, ![]⟩
abbrev S100000x16 : Shape := ⟨2, ![100000, 16]⟩
abbrev S1x800000 : Shape := ⟨2, ![1, 800000]⟩
abbrev S800000 : Shape := ⟨1, ![800000]⟩
abbrev S800000x1 : Shape := ⟨2, ![800000, 1]⟩
abbrev S800000x6 : Shape := ⟨2, ![800000, 6]⟩
abbrev S1x6x16 : Shape := ⟨3, ![1, 6, 16]⟩
abbrev S6x16 : Shape := ⟨2, ![6, 16]⟩
abbrev S1x16 : Shape := ⟨2, ![1, 16]⟩
abbrev S16 : Shape := ⟨1, ![16]⟩
abbrev S100000x32 : Shape := ⟨2, ![100000, 32]⟩
abbrev S800000x16 : Shape := ⟨2, ![800000, 16]⟩
abbrev S1x16x32 : Shape := ⟨3, ![1, 16, 32]⟩
abbrev S1x32 : Shape := ⟨2, ![1, 32]⟩
abbrev S100000x64 : Shape := ⟨2, ![100000, 64]⟩
abbrev S800000x32 : Shape := ⟨2, ![800000, 32]⟩
abbrev S1x32x64 : Shape := ⟨3, ![1, 32, 64]⟩
abbrev S1x64 : Shape := ⟨2, ![1, 64]⟩
abbrev S100000 : Shape := ⟨1, ![100000]⟩
abbrev S100000x1 : Shape := ⟨2, ![100000, 1]⟩

abbrev nBuf : Space → Nat
  | .hbm => 414
  | .vmem => 0
  | .smem => 0
  | _ => 0

abbrev hbmTy0_0 (i : Nat) : BufTy := match i % 128 with
  | 0 => ⟨S100000x6, .f32⟩
  | 1 => ⟨S2x6x16, .f32⟩
  | 2 => ⟨S2x6x16, .f32⟩
  | 3 => ⟨S2x16, .f32⟩
  | 4 => ⟨S2x16x32, .f32⟩
  | 5 => ⟨S2x16x32, .f32⟩
  | 6 => ⟨S2x32, .f32⟩
  | 7 => ⟨S16x32, .f32⟩
  | 8 => ⟨S32, .f32⟩
  | 9 => ⟨S7x32x64, .f32⟩
  | 10 => ⟨S7x32x64, .f32⟩
  | 11 => ⟨S7x64, .f32⟩
  | 12 => ⟨S32x64, .f32⟩
  | 13 => ⟨S64, .f32⟩
  | 14 => ⟨S2x800000, .i32⟩
  | 15 => ⟨S2x800000, .i32⟩
  | 16 => ⟨S2x800000, .i32⟩
  | 17 => ⟨S2x800000, .i32⟩
  | 18 => ⟨S2x800000, .i32⟩
  | 19 => ⟨S2x800000, .i32⟩
  | 20 => ⟨S2x800000, .i32⟩
  | 21 => ⟨S2x800000, .i32⟩
  | 22 => ⟨S2x800000, .i32⟩
  | 23 => ⟨S_, .f32⟩
  | 24 => ⟨S100000x16, .f32⟩
  | 25 => ⟨S1x800000, .i32⟩
  | 26 => ⟨S800000, .i32⟩
  | 27 => ⟨S1x800000, .i32⟩
  | 28 => ⟨S800000, .i32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x6, .f32⟩
  | 38 => ⟨S_, .f32⟩
  | 39 => ⟨S100000x6, .f32⟩
  | 40 => ⟨S800000x1, .i32⟩
  | 41 => ⟨S100000x6, .f32⟩
  | 42 => ⟨S1x6x16, .f32⟩
  | 43 => ⟨S6x16, .f32⟩
  | 44 => ⟨S100000x16, .f32⟩
  | 45 => ⟨S100000x16, .f32⟩
  | 46 => ⟨S1x6x16, .f32⟩
  | 47 => ⟨S6x16, .f32⟩
  | 48 => ⟨S100000x16, .f32⟩
  | 49 => ⟨S100000x16, .f32⟩
  | 50 => ⟨S1x16, .f32⟩
  | 51 => ⟨S16, .f32⟩
  | 52 => ⟨S1x16, .f32⟩
  | 53 => ⟨S100000x16, .f32⟩
  | 54 => ⟨S100000x16, .f32⟩
  | 55 => ⟨S1x800000, .i32⟩
  | 56 => ⟨S800000, .i32⟩
  | 57 => ⟨S1x800000, .i32⟩
  | 58 => ⟨S800000, .i32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x6, .f32⟩
  | 68 => ⟨S_, .f32⟩
  | 69 => ⟨S100000x6, .f32⟩
  | 70 => ⟨S800000x1, .i32⟩
  | 71 => ⟨S100000x6, .f32⟩
  | 72 => ⟨S1x6x16, .f32⟩
  | 73 => ⟨S6x16, .f32⟩
  | 74 => ⟨S100000x16, .f32⟩
  | 75 => ⟨S100000x16, .f32⟩
  | 76 => ⟨S1x6x16, .f32⟩
  | 77 => ⟨S6x16, .f32⟩
  | 78 => ⟨S100000x16, .f32⟩
  | 79 => ⟨S100000x16, .f32⟩
  | 80 => ⟨S1x16, .f32⟩
  | 81 => ⟨S16, .f32⟩
  | 82 => ⟨S1x16, .f32⟩
  | 83 => ⟨S100000x16, .f32⟩
  | 84 => ⟨S100000x16, .f32⟩
  | 85 => ⟨S_, .f32⟩
  | 86 => ⟨S100000x32, .f32⟩
  | 87 => ⟨S1x800000, .i32⟩
  | 88 => ⟨S800000, .i32⟩
  | 89 => ⟨S1x800000, .i32⟩
  | 90 => ⟨S800000, .i32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x16, .f32⟩
  | 100 => ⟨S_, .f32⟩
  | 101 => ⟨S100000x16, .f32⟩
  | 102 => ⟨S800000x1, .i32⟩
  | 103 => ⟨S100000x16, .f32⟩
  | 104 => ⟨S1x16x32, .f32⟩
  | 105 => ⟨S16x32, .f32⟩
  | 106 => ⟨S100000x32, .f32⟩
  | 107 => ⟨S100000x32, .f32⟩
  | 108 => ⟨S1x16x32, .f32⟩
  | 109 => ⟨S16x32, .f32⟩
  | 110 => ⟨S100000x32, .f32⟩
  | 111 => ⟨S100000x32, .f32⟩
  | 112 => ⟨S1x32, .f32⟩
  | 113 => ⟨S32, .f32⟩
  | 114 => ⟨S1x32, .f32⟩
  | 115 => ⟨S100000x32, .f32⟩
  | 116 => ⟨S100000x32, .f32⟩
  | 117 => ⟨S1x800000, .i32⟩
  | 118 => ⟨S800000, .i32⟩
  | 119 => ⟨S1x800000, .i32⟩
  | 120 => ⟨S800000, .i32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S100000x6, .f32⟩

abbrev hbmTy0_1 (i : Nat) : BufTy := match i % 128 with
  | 0 => ⟨S800000x1, .i32⟩
  | 1 => ⟨S800000x16, .f32⟩
  | 2 => ⟨S_, .f32⟩
  | 3 => ⟨S100000x16, .f32⟩
  | 4 => ⟨S800000x1, .i32⟩
  | 5 => ⟨S100000x16, .f32⟩
  | 6 => ⟨S1x16x32, .f32⟩
  | 7 => ⟨S16x32, .f32⟩
  | 8 => ⟨S100000x32, .f32⟩
  | 9 => ⟨S100000x32, .f32⟩
  | 10 => ⟨S1x16x32, .f32⟩
  | 11 => ⟨S16x32, .f32⟩
  | 12 => ⟨S100000x32, .f32⟩
  | 13 => ⟨S100000x32, .f32⟩
  | 14 => ⟨S1x32, .f32⟩
  | 15 => ⟨S32, .f32⟩
  | 16 => ⟨S1x32, .f32⟩
  | 17 => ⟨S100000x32, .f32⟩
  | 18 => ⟨S100000x32, .f32⟩
  | 19 => ⟨S100000x32, .f32⟩
  | 20 => ⟨S100000x32, .f32⟩
  | 21 => ⟨S1x32, .f32⟩
  | 22 => ⟨S100000x32, .f32⟩
  | 23 => ⟨S100000x32, .f32⟩
  | 24 => ⟨S_, .f32⟩
  | 25 => ⟨S100000x32, .f32⟩
  | 26 => ⟨S100000x32, .f32⟩
  | 27 => ⟨S_, .f32⟩
  | 28 => ⟨S100000x64, .f32⟩
  | 29 => ⟨S1x800000, .i32⟩
  | 30 => ⟨S800000, .i32⟩
  | 31 => ⟨S1x800000, .i32⟩
  | 32 => ⟨S800000, .i32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x32, .f32⟩
  | 42 => ⟨S_, .f32⟩
  | 43 => ⟨S100000x32, .f32⟩
  | 44 => ⟨S800000x1, .i32⟩
  | 45 => ⟨S100000x32, .f32⟩
  | 46 => ⟨S1x32x64, .f32⟩
  | 47 => ⟨S32x64, .f32⟩
  | 48 => ⟨S100000x64, .f32⟩
  | 49 => ⟨S100000x64, .f32⟩
  | 50 => ⟨S1x32x64, .f32⟩
  | 51 => ⟨S32x64, .f32⟩
  | 52 => ⟨S100000x64, .f32⟩
  | 53 => ⟨S100000x64, .f32⟩
  | 54 => ⟨S1x64, .f32⟩
  | 55 => ⟨S64, .f32⟩
  | 56 => ⟨S1x64, .f32⟩
  | 57 => ⟨S100000x64, .f32⟩
  | 58 => ⟨S100000x64, .f32⟩
  | 59 => ⟨S1x800000, .i32⟩
  | 60 => ⟨S800000, .i32⟩
  | 61 => ⟨S1x800000, .i32⟩
  | 62 => ⟨S800000, .i32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x32, .f32⟩
  | 72 => ⟨S_, .f32⟩
  | 73 => ⟨S100000x32, .f32⟩
  | 74 => ⟨S800000x1, .i32⟩
  | 75 => ⟨S100000x32, .f32⟩
  | 76 => ⟨S1x32x64, .f32⟩
  | 77 => ⟨S32x64, .f32⟩
  | 78 => ⟨S100000x64, .f32⟩
  | 79 => ⟨S100000x64, .f32⟩
  | 80 => ⟨S1x32x64, .f32⟩
  | 81 => ⟨S32x64, .f32⟩
  | 82 => ⟨S100000x64, .f32⟩
  | 83 => ⟨S100000x64, .f32⟩
  | 84 => ⟨S1x64, .f32⟩
  | 85 => ⟨S64, .f32⟩
  | 86 => ⟨S1x64, .f32⟩
  | 87 => ⟨S100000x64, .f32⟩
  | 88 => ⟨S100000x64, .f32⟩
  | 89 => ⟨S1x800000, .i32⟩
  | 90 => ⟨S800000, .i32⟩
  | 91 => ⟨S1x800000, .i32⟩
  | 92 => ⟨S800000, .i32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x32, .f32⟩
  | 102 => ⟨S_, .f32⟩
  | 103 => ⟨S100000x32, .f32⟩
  | 104 => ⟨S800000x1, .i32⟩
  | 105 => ⟨S100000x32, .f32⟩
  | 106 => ⟨S_, .f32⟩
  | 107 => ⟨S800000, .f32⟩
  | 108 => ⟨S_, .f32⟩
  | 109 => ⟨S100000, .f32⟩
  | 110 => ⟨S800000x1, .i32⟩
  | 111 => ⟨S100000, .f32⟩
  | 112 => ⟨S_, .f32⟩
  | 113 => ⟨S100000, .f32⟩
  | 114 => ⟨S100000, .f32⟩
  | 115 => ⟨S100000x1, .f32⟩
  | 116 => ⟨S100000x32, .f32⟩
  | 117 => ⟨S100000x32, .f32⟩
  | 118 => ⟨S1x32x64, .f32⟩
  | 119 => ⟨S32x64, .f32⟩
  | 120 => ⟨S100000x64, .f32⟩
  | 121 => ⟨S100000x64, .f32⟩
  | 122 => ⟨S1x32x64, .f32⟩
  | 123 => ⟨S32x64, .f32⟩
  | 124 => ⟨S100000x64, .f32⟩
  | 125 => ⟨S100000x64, .f32⟩
  | 126 => ⟨S1x64, .f32⟩
  | 127 => ⟨S64, .f32⟩
  | _ => ⟨S100000x6, .f32⟩

abbrev hbmTy0_2 (i : Nat) : BufTy := match i % 128 with
  | 0 => ⟨S1x64, .f32⟩
  | 1 => ⟨S100000x64, .f32⟩
  | 2 => ⟨S100000x64, .f32⟩
  | 3 => ⟨S1x800000, .i32⟩
  | 4 => ⟨S800000, .i32⟩
  | 5 => ⟨S1x800000, .i32⟩
  | 6 => ⟨S800000, .i32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x32, .f32⟩
  | 16 => ⟨S_, .f32⟩
  | 17 => ⟨S100000x32, .f32⟩
  | 18 => ⟨S800000x1, .i32⟩
  | 19 => ⟨S100000x32, .f32⟩
  | 20 => ⟨S_, .f32⟩
  | 21 => ⟨S800000, .f32⟩
  | 22 => ⟨S_, .f32⟩
  | 23 => ⟨S100000, .f32⟩
  | 24 => ⟨S800000x1, .i32⟩
  | 25 => ⟨S100000, .f32⟩
  | 26 => ⟨S_, .f32⟩
  | 27 => ⟨S100000, .f32⟩
  | 28 => ⟨S100000, .f32⟩
  | 29 => ⟨S100000x1, .f32⟩
  | 30 => ⟨S100000x32, .f32⟩
  | 31 => ⟨S100000x32, .f32⟩
  | 32 => ⟨S1x32x64, .f32⟩
  | 33 => ⟨S32x64, .f32⟩
  | 34 => ⟨S100000x64, .f32⟩
  | 35 => ⟨S100000x64, .f32⟩
  | 36 => ⟨S1x32x64, .f32⟩
  | 37 => ⟨S32x64, .f32⟩
  | 38 => ⟨S100000x64, .f32⟩
  | 39 => ⟨S100000x64, .f32⟩
  | 40 => ⟨S1x64, .f32⟩
  | 41 => ⟨S64, .f32⟩
  | 42 => ⟨S1x64, .f32⟩
  | 43 => ⟨S100000x64, .f32⟩
  | 44 => ⟨S100000x64, .f32⟩
  | 45 => ⟨S1x800000, .i32⟩
  | 46 => ⟨S800000, .i32⟩
  | 47 => ⟨S1x800000, .i32⟩
  | 48 => ⟨S800000, .i32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x32, .f32⟩
  | 58 => ⟨S_, .f32⟩
  | 59 => ⟨S100000x32, .f32⟩
  | 60 => ⟨S800000x1, .i32⟩
  | 61 => ⟨S100000x32, .f32⟩
  | 62 => ⟨S1x32x64, .f32⟩
  | 63 => ⟨S32x64, .f32⟩
  | 64 => ⟨S100000x64, .f32⟩
  | 65 => ⟨S100000x64, .f32⟩
  | 66 => ⟨S1x32x64, .f32⟩
  | 67 => ⟨S32x64, .f32⟩
  | 68 => ⟨S100000x64, .f32⟩
  | 69 => ⟨S100000x64, .f32⟩
  | 70 => ⟨S1x64, .f32⟩
  | 71 => ⟨S64, .f32⟩
  | 72 => ⟨S1x64, .f32⟩
  | 73 => ⟨S100000x64, .f32⟩
  | 74 => ⟨S100000x64, .f32⟩
  | 75 => ⟨S1x800000, .i32⟩
  | 76 => ⟨S800000, .i32⟩
  | 77 => ⟨S1x800000, .i32⟩
  | 78 => ⟨S800000, .i32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x32, .f32⟩
  | 88 => ⟨S_, .f32⟩
  | 89 => ⟨S100000x32, .f32⟩
  | 90 => ⟨S800000x1, .i32⟩
  | 91 => ⟨S100000x32, .f32⟩
  | 92 => ⟨S1x32x64, .f32⟩
  | 93 => ⟨S32x64, .f32⟩
  | 94 => ⟨S100000x64, .f32⟩
  | 95 => ⟨S100000x64, .f32⟩
  | 96 => ⟨S1x32x64, .f32⟩
  | 97 => ⟨S32x64, .f32⟩
  | 98 => ⟨S100000x64, .f32⟩
  | 99 => ⟨S100000x64, .f32⟩
  | 100 => ⟨S1x64, .f32⟩
  | 101 => ⟨S64, .f32⟩
  | 102 => ⟨S1x64, .f32⟩
  | 103 => ⟨S100000x64, .f32⟩
  | 104 => ⟨S100000x64, .f32⟩
  | 105 => ⟨S1x800000, .i32⟩
  | 106 => ⟨S800000, .i32⟩
  | 107 => ⟨S1x800000, .i32⟩
  | 108 => ⟨S800000, .i32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x32, .f32⟩
  | 118 => ⟨S_, .f32⟩
  | 119 => ⟨S100000x32, .f32⟩
  | 120 => ⟨S800000x1, .i32⟩
  | 121 => ⟨S100000x32, .f32⟩
  | 122 => ⟨S_, .f32⟩
  | 123 => ⟨S800000, .f32⟩
  | 124 => ⟨S_, .f32⟩
  | 125 => ⟨S100000, .f32⟩
  | 126 => ⟨S800000x1, .i32⟩
  | 127 => ⟨S100000, .f32⟩
  | _ => ⟨S100000x6, .f32⟩

abbrev hbmTy0_3 (i : Nat) : BufTy := match i % 128 with
  | 0 => ⟨S_, .f32⟩
  | 1 => ⟨S100000, .f32⟩
  | 2 => ⟨S100000, .f32⟩
  | 3 => ⟨S100000x1, .f32⟩
  | 4 => ⟨S100000x32, .f32⟩
  | 5 => ⟨S100000x32, .f32⟩
  | 6 => ⟨S1x32x64, .f32⟩
  | 7 => ⟨S32x64, .f32⟩
  | 8 => ⟨S100000x64, .f32⟩
  | 9 => ⟨S100000x64, .f32⟩
  | 10 => ⟨S1x32x64, .f32⟩
  | 11 => ⟨S32x64, .f32⟩
  | 12 => ⟨S100000x64, .f32⟩
  | 13 => ⟨S100000x64, .f32⟩
  | 14 => ⟨S1x64, .f32⟩
  | 15 => ⟨S64, .f32⟩
  | 16 => ⟨S1x64, .f32⟩
  | 17 => ⟨S100000x64, .f32⟩
  | 18 => ⟨S100000x64, .f32⟩
  | 19 => ⟨S100000x64, .f32⟩
  | 20 => ⟨S100000x64, .f32⟩
  | 21 => ⟨S1x64, .f32⟩
  | 22 => ⟨S100000x64, .f32⟩
  | 23 => ⟨S100000x64, .f32⟩
  | 24 => ⟨S_, .f32⟩
  | 25 => ⟨S100000x64, .f32⟩
  | 26 => ⟨S100000x64, .f32⟩
  | 27 => ⟨S_, .f32⟩
  | 28 => ⟨S100000x64, .f32⟩
  | 29 => ⟨S100000x64, .f32⟩
  | _ => ⟨S100000x6, .f32⟩

abbrev hbmTy (i : Nat) : BufTy := match i / 128 with
  | 0 => hbmTy0_0 i
  | 1 => hbmTy0_1 i
  | 2 => hbmTy0_2 i
  | 3 => hbmTy0_3 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_cst : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_c : Ref sig .tc := ⟨.hbm, 29, rfl⟩
abbrev main_v5 : Ref sig .tc := ⟨.hbm, 30, rfl⟩
abbrev main_v6 : Ref sig .tc := ⟨.hbm, 31, rfl⟩
abbrev main_c_0 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_1 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_2 : Ref sig .tc := ⟨.hbm, 59, rfl⟩
abbrev main_v32 : Ref sig .tc := ⟨.hbm, 60, rfl⟩
abbrev main_v33 : Ref sig .tc := ⟨.hbm, 61, rfl⟩
abbrev main_c_3 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_4 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_5 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_6 : Ref sig .tc := ⟨.hbm, 91, rfl⟩
abbrev main_v60 : Ref sig .tc := ⟨.hbm, 92, rfl⟩
abbrev main_v61 : Ref sig .tc := ⟨.hbm, 93, rfl⟩
abbrev main_c_7 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_8 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_c_9 : Ref sig .tc := ⟨.hbm, 121, rfl⟩
abbrev main_v87 : Ref sig .tc := ⟨.hbm, 122, rfl⟩
abbrev main_v88 : Ref sig .tc := ⟨.hbm, 123, rfl⟩
abbrev main_c_10 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_11 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_call0_cst : Ref sig .tc := ⟨.hbm, 152, rfl⟩
abbrev main_call0_v0 : Ref sig .tc := ⟨.hbm, 153, rfl⟩
abbrev main_v115 : Ref sig .tc := ⟨.hbm, 154, rfl⟩
abbrev main_cst_12 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_c_13 : Ref sig .tc := ⟨.hbm, 161, rfl⟩
abbrev main_v121 : Ref sig .tc := ⟨.hbm, 162, rfl⟩
abbrev main_v122 : Ref sig .tc := ⟨.hbm, 163, rfl⟩
abbrev main_c_14 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_cst_15 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_c_16 : Ref sig .tc := ⟨.hbm, 191, rfl⟩
abbrev main_v148 : Ref sig .tc := ⟨.hbm, 192, rfl⟩
abbrev main_v149 : Ref sig .tc := ⟨.hbm, 193, rfl⟩
abbrev main_c_17 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_cst_18 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_c_19 : Ref sig .tc := ⟨.hbm, 221, rfl⟩
abbrev main_v175 : Ref sig .tc := ⟨.hbm, 222, rfl⟩
abbrev main_v176 : Ref sig .tc := ⟨.hbm, 223, rfl⟩
abbrev main_c_20 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_cst_21 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_cst_22 : Ref sig .tc := ⟨.hbm, 234, rfl⟩
abbrev main_v185 : Ref sig .tc := ⟨.hbm, 235, rfl⟩
abbrev main_cst_23 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_cst_24 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_c_25 : Ref sig .tc := ⟨.hbm, 263, rfl⟩
abbrev main_v211 : Ref sig .tc := ⟨.hbm, 264, rfl⟩
abbrev main_v212 : Ref sig .tc := ⟨.hbm, 265, rfl⟩
abbrev main_c_26 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_cst_27 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_cst_28 : Ref sig .tc := ⟨.hbm, 276, rfl⟩
abbrev main_v221 : Ref sig .tc := ⟨.hbm, 277, rfl⟩
abbrev main_cst_29 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_cst_30 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_v244 : Ref sig .tc := ⟨.hbm, 302, rfl⟩
abbrev main_v245 : Ref sig .tc := ⟨.hbm, 303, rfl⟩
abbrev main_v246 : Ref sig .tc := ⟨.hbm, 304, rfl⟩
abbrev main_c_31 : Ref sig .tc := ⟨.hbm, 305, rfl⟩
abbrev main_v247 : Ref sig .tc := ⟨.hbm, 306, rfl⟩
abbrev main_v248 : Ref sig .tc := ⟨.hbm, 307, rfl⟩
abbrev main_c_32 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_v252 : Ref sig .tc := ⟨.hbm, 312, rfl⟩
abbrev main_v253 : Ref sig .tc := ⟨.hbm, 313, rfl⟩
abbrev main_cst_33 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_v258 : Ref sig .tc := ⟨.hbm, 319, rfl⟩
abbrev main_v259 : Ref sig .tc := ⟨.hbm, 320, rfl⟩
abbrev main_v260 : Ref sig .tc := ⟨.hbm, 321, rfl⟩
abbrev main_v261 : Ref sig .tc := ⟨.hbm, 322, rfl⟩
abbrev main_v262 : Ref sig .tc := ⟨.hbm, 323, rfl⟩
abbrev main_v263 : Ref sig .tc := ⟨.hbm, 324, rfl⟩
abbrev main_v264 : Ref sig .tc := ⟨.hbm, 325, rfl⟩
abbrev main_v265 : Ref sig .tc := ⟨.hbm, 326, rfl⟩
abbrev main_v266 : Ref sig .tc := ⟨.hbm, 327, rfl⟩
abbrev main_v267 : Ref sig .tc := ⟨.hbm, 328, rfl⟩
abbrev main_v268 : Ref sig .tc := ⟨.hbm, 329, rfl⟩
abbrev main_v269 : Ref sig .tc := ⟨.hbm, 330, rfl⟩
abbrev main_v270 : Ref sig .tc := ⟨.hbm, 331, rfl⟩
abbrev main_v271 : Ref sig .tc := ⟨.hbm, 332, rfl⟩
abbrev main_v272 : Ref sig .tc := ⟨.hbm, 333, rfl⟩
abbrev main_v273 : Ref sig .tc := ⟨.hbm, 334, rfl⟩
abbrev main_c_34 : Ref sig .tc := ⟨.hbm, 335, rfl⟩
abbrev main_v274 : Ref sig .tc := ⟨.hbm, 336, rfl⟩
abbrev main_v275 : Ref sig .tc := ⟨.hbm, 337, rfl⟩
abbrev main_c_35 : Ref sig .tc := ⟨.hbm, 338, rfl⟩
abbrev main_v276 : Ref sig .tc := ⟨.hbm, 339, rfl⟩
abbrev main_v277 : Ref sig .tc := ⟨.hbm, 340, rfl⟩
abbrev main_v278 : Ref sig .tc := ⟨.hbm, 341, rfl⟩
abbrev main_v279 : Ref sig .tc := ⟨.hbm, 342, rfl⟩
abbrev main_v280 : Ref sig .tc := ⟨.hbm, 343, rfl⟩
abbrev main_cst_36 : Ref sig .tc := ⟨.hbm, 344, rfl⟩
abbrev main_v281 : Ref sig .tc := ⟨.hbm, 345, rfl⟩
abbrev main_v282 : Ref sig .tc := ⟨.hbm, 346, rfl⟩
abbrev main_v283 : Ref sig .tc := ⟨.hbm, 347, rfl⟩
abbrev main_v284 : Ref sig .tc := ⟨.hbm, 348, rfl⟩
abbrev main_v285 : Ref sig .tc := ⟨.hbm, 349, rfl⟩
abbrev main_v286 : Ref sig .tc := ⟨.hbm, 350, rfl⟩
abbrev main_v287 : Ref sig .tc := ⟨.hbm, 351, rfl⟩
abbrev main_v288 : Ref sig .tc := ⟨.hbm, 352, rfl⟩
abbrev main_v289 : Ref sig .tc := ⟨.hbm, 353, rfl⟩
abbrev main_v290 : Ref sig .tc := ⟨.hbm, 354, rfl⟩
abbrev main_v291 : Ref sig .tc := ⟨.hbm, 355, rfl⟩
abbrev main_v292 : Ref sig .tc := ⟨.hbm, 356, rfl⟩
abbrev main_v293 : Ref sig .tc := ⟨.hbm, 357, rfl⟩
abbrev main_v294 : Ref sig .tc := ⟨.hbm, 358, rfl⟩
abbrev main_v295 : Ref sig .tc := ⟨.hbm, 359, rfl⟩
abbrev main_v296 : Ref sig .tc := ⟨.hbm, 360, rfl⟩
abbrev main_v297 : Ref sig .tc := ⟨.hbm, 361, rfl⟩
abbrev main_v298 : Ref sig .tc := ⟨.hbm, 362, rfl⟩
abbrev main_v299 : Ref sig .tc := ⟨.hbm, 363, rfl⟩
abbrev main_v300 : Ref sig .tc := ⟨.hbm, 364, rfl⟩
abbrev main_c_37 : Ref sig .tc := ⟨.hbm, 365, rfl⟩
abbrev main_v301 : Ref sig .tc := ⟨.hbm, 366, rfl⟩
abbrev main_v302 : Ref sig .tc := ⟨.hbm, 367, rfl⟩
abbrev main_c_38 : Ref sig .tc := ⟨.hbm, 368, rfl⟩
abbrev main_v303 : Ref sig .tc := ⟨.hbm, 369, rfl⟩
abbrev main_v304 : Ref sig .tc := ⟨.hbm, 370, rfl⟩
abbrev main_v305 : Ref sig .tc := ⟨.hbm, 371, rfl⟩
abbrev main_v306 : Ref sig .tc := ⟨.hbm, 372, rfl⟩
abbrev main_v307 : Ref sig .tc := ⟨.hbm, 373, rfl⟩
abbrev main_cst_39 : Ref sig .tc := ⟨.hbm, 374, rfl⟩
abbrev main_v308 : Ref sig .tc := ⟨.hbm, 375, rfl⟩
abbrev main_v309 : Ref sig .tc := ⟨.hbm, 376, rfl⟩
abbrev main_v310 : Ref sig .tc := ⟨.hbm, 377, rfl⟩
abbrev main_cst_40 : Ref sig .tc := ⟨.hbm, 378, rfl⟩
abbrev main_v311 : Ref sig .tc := ⟨.hbm, 379, rfl⟩
abbrev main_cst_41 : Ref sig .tc := ⟨.hbm, 380, rfl⟩
abbrev main_v312 : Ref sig .tc := ⟨.hbm, 381, rfl⟩
abbrev main_v313 : Ref sig .tc := ⟨.hbm, 382, rfl⟩
abbrev main_v314 : Ref sig .tc := ⟨.hbm, 383, rfl⟩
abbrev main_cst_42 : Ref sig .tc := ⟨.hbm, 384, rfl⟩
abbrev main_v315 : Ref sig .tc := ⟨.hbm, 385, rfl⟩
abbrev main_v316 : Ref sig .tc := ⟨.hbm, 386, rfl⟩
abbrev main_v317 : Ref sig .tc := ⟨.hbm, 387, rfl⟩
abbrev main_v318 : Ref sig .tc := ⟨.hbm, 388, rfl⟩
abbrev main_v319 : Ref sig .tc := ⟨.hbm, 389, rfl⟩
abbrev main_v320 : Ref sig .tc := ⟨.hbm, 390, rfl⟩
abbrev main_v321 : Ref sig .tc := ⟨.hbm, 391, rfl⟩
abbrev main_v322 : Ref sig .tc := ⟨.hbm, 392, rfl⟩
abbrev main_v323 : Ref sig .tc := ⟨.hbm, 393, rfl⟩
abbrev main_v324 : Ref sig .tc := ⟨.hbm, 394, rfl⟩
abbrev main_v325 : Ref sig .tc := ⟨.hbm, 395, rfl⟩
abbrev main_v326 : Ref sig .tc := ⟨.hbm, 396, rfl⟩
abbrev main_v327 : Ref sig .tc := ⟨.hbm, 397, rfl⟩
abbrev main_v328 : Ref sig .tc := ⟨.hbm, 398, rfl⟩
abbrev main_v329 : Ref sig .tc := ⟨.hbm, 399, rfl⟩
abbrev main_v330 : Ref sig .tc := ⟨.hbm, 400, rfl⟩
abbrev main_v331 : Ref sig .tc := ⟨.hbm, 401, rfl⟩
abbrev main_v332 : Ref sig .tc := ⟨.hbm, 402, rfl⟩
abbrev main_v333 : Ref sig .tc := ⟨.hbm, 403, rfl⟩
abbrev main_v334 : Ref sig .tc := ⟨.hbm, 404, rfl⟩
abbrev main_v335 : Ref sig .tc := ⟨.hbm, 405, rfl⟩
abbrev main_v336 : Ref sig .tc := ⟨.hbm, 406, rfl⟩
abbrev main_v337 : Ref sig .tc := ⟨.hbm, 407, rfl⟩
abbrev main_call1_cst : Ref sig .tc := ⟨.hbm, 408, rfl⟩
abbrev main_call1_v0 : Ref sig .tc := ⟨.hbm, 409, rfl⟩
abbrev main_v338 : Ref sig .tc := ⟨.hbm, 410, rfl⟩
abbrev main_call2_cst : Ref sig .tc := ⟨.hbm, 411, rfl⟩
abbrev main_call2_v0 : Ref sig .tc := ⟨.hbm, 412, rfl⟩
abbrev main_v339 : Ref sig .tc := ⟨.hbm, 413, rfl⟩

abbrev nD : Nat := 1
abbrev τ : Topo := Topo.v7x

variable {F : FTy → Type} [FloatOps F]

class Facts₀ : Prop where
  bcast_S_S100000x16 : S_.BroadcastsInDim S100000x16 (![] : Fin 0 → Fin S100000x16.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x6 : S_.BroadcastsInDim S100000x6 (![] : Fin 0 → Fin S100000x6.rank)
  slices_S2x6x16_S1x6x16_0_0_0 : S2x6x16.Slices ![0, 0, 0] S1x6x16
  shapeCasts_S1x6x16_S6x16 : S1x6x16.ShapeCasts S6x16
  slices_S2x16_S1x16_0_0 : S2x16.Slices ![0, 0] S1x16
  shapeCasts_S1x16_S16 : S1x16.ShapeCasts S16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  slices_S2x6x16_S1x6x16_1_0_0 : S2x6x16.Slices ![1, 0, 0] S1x6x16
  slices_S2x16_S1x16_1_0 : S2x16.Slices ![1, 0] S1x16
  bcast_S_S100000x32 : S_.BroadcastsInDim S100000x32 (![] : Fin 0 → Fin S100000x32.rank)
  slices_S2x16x32_S1x16x32_0_0_0 : S2x16x32.Slices ![0, 0, 0] S1x16x32
  shapeCasts_S1x16x32_S16x32 : S1x16x32.ShapeCasts S16x32
  slices_S2x32_S1x32_0_0 : S2x32.Slices ![0, 0] S1x32
  shapeCasts_S1x32_S32 : S1x32.ShapeCasts S32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  slices_S2x16x32_S1x16x32_1_0_0 : S2x16x32.Slices ![1, 0, 0] S1x16x32
  slices_S2x32_S1x32_1_0 : S2x32.Slices ![1, 0] S1x32
  bcast_S_S100000x64 : S_.BroadcastsInDim S100000x64 (![] : Fin 0 → Fin S100000x64.rank)
  slices_S7x32x64_S1x32x64_0_0_0 : S7x32x64.Slices ![0, 0, 0] S1x32x64
  shapeCasts_S1x32x64_S32x64 : S1x32x64.ShapeCasts S32x64
  slices_S7x64_S1x64_0_0 : S7x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S7x32x64_S1x32x64_1_0_0 : S7x32x64.Slices ![1, 0, 0] S1x32x64
  slices_S7x64_S1x64_1_0 : S7x64.Slices ![1, 0] S1x64
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  slices_S7x32x64_S1x32x64_2_0_0 : S7x32x64.Slices ![2, 0, 0] S1x32x64
  slices_S7x64_S1x64_2_0 : S7x64.Slices ![2, 0] S1x64
  slices_S7x32x64_S1x32x64_3_0_0 : S7x32x64.Slices ![3, 0, 0] S1x32x64
  slices_S7x64_S1x64_3_0 : S7x64.Slices ![3, 0] S1x64
  slices_S7x32x64_S1x32x64_4_0_0 : S7x32x64.Slices ![4, 0, 0] S1x32x64
  slices_S7x64_S1x64_4_0 : S7x64.Slices ![4, 0] S1x64
  slices_S7x32x64_S1x32x64_5_0_0 : S7x32x64.Slices ![5, 0, 0] S1x32x64
  slices_S7x64_S1x64_5_0 : S7x64.Slices ![5, 0] S1x64
  slices_S7x32x64_S1x32x64_6_0_0 : S7x32x64.Slices ![6, 0, 0] S1x32x64
  slices_S7x64_S1x64_6_0 : S7x64.Slices ![6, 0] S1x64
  gather_S100000x6_S800000x1_S800000x6_1_0_n_n_0_1_16_wf : GatherDims.WF S100000x6 S800000x1 S800000x6 [1] [0] [] [0] [] 1 ![1, 6]
  scatter_S100000x6_S800000x1_S800000x6_1_0_0_1_wf : ScatterDims.WF S100000x6 S800000x1 S800000x6 [1] [0] [0] 1
  dot_S100000x6_S6x16_S100000x16_1_0_0_1_n_n_wf : DotDims.WF S100000x6 S6x16 S100000x16 [1] [0] [0] [1] [] []
  gather_S100000x16_S800000x1_S800000x16_1_0_n_n_0_1_116_wf : GatherDims.WF S100000x16 S800000x1 S800000x16 [1] [0] [] [0] [] 1 ![1, 16]
  scatter_S100000x16_S800000x1_S800000x16_1_0_0_1_wf : ScatterDims.WF S100000x16 S800000x1 S800000x16 [1] [0] [0] 1
  dot_S100000x16_S16x32_S100000x32_1_0_0_1_n_n_wf : DotDims.WF S100000x16 S16x32 S100000x32 [1] [0] [0] [1] [] []
  gather_S100000x32_S800000x1_S800000x32_1_0_n_n_0_1_132_wf : GatherDims.WF S100000x32 S800000x1 S800000x32 [1] [0] [] [0] [] 1 ![1, 32]
  scatter_S100000x32_S800000x1_S800000x32_1_0_0_1_wf : ScatterDims.WF S100000x32 S800000x1 S800000x32 [1] [0] [0] 1
  dot_S100000x32_S32x64_S100000x64_1_0_0_1_n_n_wf : DotDims.WF S100000x32 S32x64 S100000x64 [1] [0] [0] [1] [] []
  scatter_S100000_S800000x1_S800000_n_0_0_1_wf : ScatterDims.WF S100000 S800000x1 S800000 [] [0] [0] 1

variable [Facts₀]

def gather_S100000x6_S800000x1_S800000x6_1_0_n_n_0_1_16 : GatherDims S100000x6 S800000x1 S800000x6 where
  offsetDims := [1]
  collapsedSliceDims := [0]
  operandBatchingDims := []
  startIndicesBatchingDims := []
  startIndexMap := [0]
  indexVectorDim := 1
  sliceSizes := ![1, 6]
  wf := gather_S100000x6_S800000x1_S800000x6_1_0_n_n_0_1_16_wf
def scatter_S100000x6_S800000x1_S800000x6_1_0_0_1 : ScatterDims S100000x6 S800000x1 S800000x6 where
  updateWindowDims := [1]
  insertedWindowDims := [0]
  scatterDimsToOperandDims := [0]
  indexVectorDim := 1
  wf := scatter_S100000x6_S800000x1_S800000x6_1_0_0_1_wf
def dot_S100000x6_S6x16_S100000x16_1_0_0_1_n_n : DotDims S100000x6 S6x16 S100000x16 where
  lhsContracting := [1]
  rhsContracting := [0]
  lhsNonContracting := [0]
  rhsNonContracting := [1]
  lhsBatch := []
  rhsBatch := []
  wf := dot_S100000x6_S6x16_S100000x16_1_0_0_1_n_n_wf
def gather_S100000x16_S800000x1_S800000x16_1_0_n_n_0_1_116 : GatherDims S100000x16 S800000x1 S800000x16 where
  offsetDims := [1]
  collapsedSliceDims := [0]
  operandBatchingDims := []
  startIndicesBatchingDims := []
  startIndexMap := [0]
  indexVectorDim := 1
  sliceSizes := ![1, 16]
  wf := gather_S100000x16_S800000x1_S800000x16_1_0_n_n_0_1_116_wf
def scatter_S100000x16_S800000x1_S800000x16_1_0_0_1 : ScatterDims S100000x16 S800000x1 S800000x16 where
  updateWindowDims := [1]
  insertedWindowDims := [0]
  scatterDimsToOperandDims := [0]
  indexVectorDim := 1
  wf := scatter_S100000x16_S800000x1_S800000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S800000x1_S800000x32_1_0_n_n_0_1_132 : GatherDims S100000x32 S800000x1 S800000x32 where
  offsetDims := [1]
  collapsedSliceDims := [0]
  operandBatchingDims := []
  startIndicesBatchingDims := []
  startIndexMap := [0]
  indexVectorDim := 1
  sliceSizes := ![1, 32]
  wf := gather_S100000x32_S800000x1_S800000x32_1_0_n_n_0_1_132_wf
def scatter_S100000x32_S800000x1_S800000x32_1_0_0_1 : ScatterDims S100000x32 S800000x1 S800000x32 where
  updateWindowDims := [1]
  insertedWindowDims := [0]
  scatterDimsToOperandDims := [0]
  indexVectorDim := 1
  wf := scatter_S100000x32_S800000x1_S800000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf

class Facts : Prop extends Facts₀ where

variable [Facts]
-- ==== Proof.K.Reg0.lean ====
import proofs.«147223_j52493090291996_1_alg».proof.Proof.Gen.Kernel.Launch
import proofs.«147223_j52493090291996_1_alg».proof.Proof.Gen.Kernel.Skeleton
import proofs.«147223_j52493090291996_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main (the dense layer `cc0__linear_kernel`, pipeline 0), at a parameter `V`

`V` is the TensorCore's buffer contents when the region is entered. The layer's body reads its three input
blocks whole (rows 10000x18, weights 18x16, bias 1x16) and overwrites its whole output block (10000x16) with one
payload of the three, so after the body the output's staging buffer is that payload and every input's staging
buffer is its block, untouched. -/

-- membership in a rectangle of 10000 rows: the structural recursion goes once per coordinate of the long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its index has not moved, so the block left by the previous point is the block of this one. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where the window is not
    fetched its index has not moved, so the block left by the previous point is the block of this one. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): where the window is not
    fetched its index has not moved, so the block left by the previous point is the block of this one. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each memref whole -/

abbrev r0_0 : Rect S10000x18 := Rect.unit (s := S10000x18) ![0, 0] S10000x18.size inb_S10000x18_S10000x18_0_0
abbrev r0_1 : Rect S18x16 := Rect.unit (s := S18x16) ![0, 0] S18x16.size inb_S18x16_S18x16_0_0
abbrev r0_2 : Rect S1x16 := Rect.unit (s := S1x16) ![0, 0] S1x16.size inb_S1x16_S1x16_0_0
abbrev r0_3 : Rect S10000x16 := Rect.unit (s := S10000x16) ![0, 0] S10000x16.size inb_S10000x16_S10000x16_0_0

/-! ## What the body leaves in the output window's buffer -/

/-- Window 3's staging buffer after the body, from the input windows' blocks: its one store, of the layer's
    payload at the three blocks read whole, over the whole buffer. -/
def out0_3 (x0 : Vec F S10000x18 .f32) (x1 : Vec F S18x16 .f32) (x2 : Vec F S1x16 .f32) : Vec F S10000x16 .f32 :=
  View.canon [⟨r0_3, k0_pay1 (View.ld x0 r0_0) (View.ld x1 r0_1) (View.ld x2 r0_2)⟩]

/-- The one store is of the whole buffer, so it covers it. -/
theorem cover0_3 (p0 : Vec F S10000x16 .f32) (y : S10000x16.Idx) :
    ∃ pc ∈ ([⟨r0_3, p0⟩] : List (View.Piece (Elt F) S10000x16 .f32)), y ∈ pc.1.set :=
  View.cover_of_tiled [⟨r0_3, p0⟩] S10000x16.size (by rfl) y

/-! ## The body's triple -/

set_option maxHeartbeats 1000000 in
/-- The kernel body on whole staging memrefs, the inputs' at contents `x0 x1 x2` and the output's at anything, runs to
    the continuation holding the inputs' as they were and the output's at `out0_3` of the inputs: three loads, a
    load of the output that nothing reads, and the store of the payload. -/
theorem sound_kernel0 (c : Dev nD) (E : Set ℕ) (i : grid0.Coords) (arg1 : Memref sig .tc .vmem S10000x18 .f32) (harg1 : arg1.IsWhole) (arg2 : Memref sig .tc .vmem S18x16 .f32) (harg2 : arg2.IsWhole) (arg3 : Memref sig .tc .vmem S1x16 .f32) (harg3 : arg3.IsWhole) (arg4 : Memref sig .tc .vmem S10000x16 .f32) (harg4 : arg4.IsWhole)
    (x0 : Vec F S10000x18 .f32) (x1 : Vec F S18x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Reg1.lean ====
import proofs.«147223_j52493090291996_1_alg».proof.Proof.Gen.Kernel.Launch
import proofs.«147223_j52493090291996_1_alg».proof.Proof.Gen.Kernel.Skeleton
import proofs.«147223_j52493090291996_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of @main (the dense layer `cc1__linear_kernel`, pipeline 1), at a parameter `V`

`V` is the TensorCore's buffer contents when the region is entered. The layer's body reads its three input
blocks whole (rows 10000x48, weights 48x32, bias 1x32) and overwrites its whole output block (10000x32) with one
payload of the three, so after the body the output's staging buffer is that payload and every input's staging
buffer is its block, untouched. -/

-- membership in a rectangle of 10000 rows: the structural recursion goes once per coordinate of the long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its index has not moved, so the block left by the previous point is the block of this one. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): where the window is not
    fetched its index has not moved, so the block left by the previous point is the block of this one. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): where the window is not
    fetched its index has not moved, so the block left by the previous point is the block of this one. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each memref whole -/

abbrev r1_0 : Rect S10000x48 := Rect.unit (s := S10000x48) ![0, 0] S10000x48.size inb_S10000x48_S10000x48_0_0
abbrev r1_1 : Rect S48x32 := Rect.unit (s := S48x32) ![0, 0] S48x32.size inb_S48x32_S48x32_0_0
abbrev r1_2 : Rect S1x32 := Rect.unit (s := S1x32) ![0, 0] S1x32.size inb_S1x32_S1x32_0_0
abbrev r1_3 : Rect S10000x32 := Rect.unit (s := S10000x32) ![0, 0] S10000x32.size inb_S10000x32_S10000x32_0_0

/-! ## What the body leaves in the output window's buffer -/

/-- Window 3's staging buffer after the body, from the input windows' blocks: its one store, of the layer's
    payload at the three blocks read whole, over the whole buffer. -/
def out1_3 (x0 : Vec F S10000x48 .f32) (x1 : Vec F S48x32 .f32) (x2 : Vec F S1x32 .f32) : Vec F S10000x32 .f32 :=
  View.canon [⟨r1_3, k1_pay1 (View.ld x0 r1_0) (View.ld x1 r1_1) (View.ld x2 r1_2)⟩]

/-- The one store is of the whole buffer, so it covers it. -/
theorem cover1_3 (p0 : Vec F S10000x32 .f32) (y : S10000x32.Idx) :
    ∃ pc ∈ ([⟨r1_3, p0⟩] : List (View.Piece (Elt F) S10000x32 .f32)), y ∈ pc.1.set :=
  View.cover_of_tiled [⟨r1_3, p0⟩] S10000x32.size (by rfl) y

/-! ## The body's triple -/

set_option maxHeartbeats 1000000 in
/-- The kernel body on whole staging memrefs, the inputs' at contents `x0 x1 x2` and the output's at anything, runs to
    the continuation holding the inputs' as they were and the output's at `out1_3` of the inputs: three loads, a
    load of the output that nothing reads, and the store of the payload. -/
theorem sound_kernel1 (c : Dev nD) (E : Set ℕ) (i : grid1.Coords) (arg1 : Memref sig .tc .vmem S10000x48 .f32) (harg1 : arg1.IsWhole) (arg2 : Memref sig .tc .vmem S48x32 .f32) (harg2 : arg2.IsWhole) (arg3 : Memref sig .tc .vmem S1x32 .f32) (harg3 : arg3.IsWhole) (arg4 : Memref sig .tc .vmem S10000x32 .f32) (harg4 : arg4.IsWhole)
    (x0 : Vec F S10000x48 .f32) (x1 : Vec F S48x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and the output's at `out1_3` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Reg2.lean ====
import proofs.«147223_j52493090291996_1_alg».proof.Proof.Gen.Kernel.Launch
import proofs.«147223_j52493090291996_1_alg».proof.Proof.Gen.Kernel.Skeleton
import proofs.«147223_j52493090291996_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main (the dense layer `cc2__linear_kernel`, pipeline 2), at a parameter `V`

`V` is the TensorCore's buffer contents when the region is entered. The layer's body reads its three input
blocks whole (rows 10000x256, weights 256x64, bias 1x64) and overwrites its whole output block (10000x64) with one
payload of the three, so after the body the output's staging buffer is that payload and every input's staging
buffer is its block, untouched. -/

-- membership in a rectangle of 10000 rows: the structural recursion goes once per coordinate of the long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the window is not
    fetched its index has not moved, so the block left by the previous point is the block of this one. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): where the window is not
    fetched its index has not moved, so the block left by the previous point is the block of this one. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): where the window is not
    fetched its index has not moved, so the block left by the previous point is the block of this one. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each memref whole -/

abbrev r2_0 : Rect S10000x256 := Rect.unit (s := S10000x256) ![0, 0] S10000x256.size inb_S10000x256_S10000x256_0_0
abbrev r2_1 : Rect S256x64 := Rect.unit (s := S256x64) ![0, 0] S256x64.size inb_S256x64_S256x64_0_0
abbrev r2_2 : Rect S1x64 := Rect.unit (s := S1x64) ![0, 0] S1x64.size inb_S1x64_S1x64_0_0
abbrev r2_3 : Rect S10000x64 := Rect.unit (s := S10000x64) ![0, 0] S10000x64.size inb_S10000x64_S10000x64_0_0

/-! ## What the body leaves in the output window's buffer -/

/-- Window 3's staging buffer after the body, from the input windows' blocks: its one store, of the layer's
    payload at the three blocks read whole, over the whole buffer. -/
def out2_3 (x0 : Vec F S10000x256 .f32) (x1 : Vec F S256x64 .f32) (x2 : Vec F S1x64 .f32) : Vec F S10000x64 .f32 :=
  View.canon [⟨r2_3, k2_pay1 (View.ld x0 r2_0) (View.ld x1 r2_1) (View.ld x2 r2_2)⟩]

/-- The one store is of the whole buffer, so it covers it. -/
theorem cover2_3 (p0 : Vec F S10000x64 .f32) (y : S10000x64.Idx) :
    ∃ pc ∈ ([⟨r2_3, p0⟩] : List (View.Piece (Elt F) S10000x64 .f32)), y ∈ pc.1.set :=
  View.cover_of_tiled [⟨r2_3, p0⟩] S10000x64.size (by rfl) y

/-! ## The body's triple -/

set_option maxHeartbeats 1000000 in
/-- The kernel body on whole staging memrefs, the inputs' at contents `x0 x1 x2` and the output's at anything, runs to
    the continuation holding the inputs' as they were and the output's at `out2_3` of the inputs: three loads, a
    load of the output that nothing reads, and the store of the payload. -/
theorem sound_kernel2 (c : Dev nD) (E : Set ℕ) (i : grid2.Coords) (arg1 : Memref sig .tc .vmem S10000x256 .f32) (harg1 : arg1.IsWhole) (arg2 : Memref sig .tc .vmem S256x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x256 .f32) (x1 : Vec F S256x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at
    point `t` each input's buffer at its block and the output's at `out2_3` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Fold.lean ====
import proofs.«147223_j52493090291996_1_alg».proof.Proof.K.Reg0
import proofs.«147223_j52493090291996_1_alg».proof.Proof.K.Reg1
import proofs.«147223_j52493090291996_1_alg».proof.Proof.K.Reg2

/-! # The buffer contents at each boundary of @main's seven segments: a fold from the launch memory

@main is four stretches of host operations with the three dense layers between them. `W0` is the launch
memory; a stretch takes `W` to `StableHlo.after` of its operations; a layer takes `W` to `W` with its four arrays
at what its pipeline leaves. No host operation writes an argument array (each writes its own result buffer) and no
layer's window is an argument array, so each argument reads back, at every boundary, to the launch memory. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The fold -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b

/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The layer's result array at the region's exit: the output window's write-backs folded over all the points. -/
theorem W2_out (c : Dev nD) : W2 m ρ c (Proc.devRef .tc main_v38) = (dat0 (V1 m ρ) c).arrAt 3 cfg0.N :=
  W2_arr m ρ c 3
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b

/-- At region 1's exit: its arrays at what the pipeline leaves (the inputs as entered, the output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The layer's result array at the region's exit: the output window's write-backs folded over all the points. -/
theorem W4_out (c : Dev nD) : W4 m ρ c (Proc.devRef .tc main_v79) = (dat1 (V3 m ρ) c).arrAt 3 cfg1.N :=
  W4_arr m ρ c 3
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b

/-- At region 2's exit: its arrays at what the pipeline leaves (the inputs as entered, the output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The layer's result array at the region's exit: the output window's write-backs folded over all the points. -/
theorem W6_out (c : Dev nD) : W6 m ρ c (Proc.devRef .tc main_v227) = (dat2 (V5 m ρ) c).arrAt 3 cfg2.N :=
  W6_arr m ρ c 3
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (the return). -/
abbrev W7 : Dev nD → Valuation τ sig (Elt F) := fun c => StableHlo.after hostOps3 (W6 m ρ c)

/-! ## What each stretch writes, and what it therefore leaves -/

/-- The references `hostOps0`'s operations write: each operation's result. -/
abbrev hostOps0_W : List (Ref sig .tc) := [main_v0, main_v1, main_v2, main_v3, main_c, main_v4, main_v5, main_c_0, main_v6, main_v7, main_v8, main_v9, main_v10, main_cst, main_v11, main_v12, main_v13, main_v14, main_v15, main_v16, main_v17, main_c_1, main_v18, main_v19, main_c_2, main_v20, main_v21, main_v22, main_v23, main_v24, main_cst_3, main_v25, main_v26, main_v27, main_v28, main_v29, main_v30, main_v31, main_v32, main_v33, main_cst_4, main_v34, main_v35, main_cst_5, main_v36, main_v37]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1`'s operations write: each operation's result. -/
abbrev hostOps1_W : List (Ref sig .tc) := [main_v39, main_v40, main_v41, main_v42, main_c_6, main_v43, main_v44, main_c_7, main_v45, main_v46, main_v47, main_v48, main_v49, main_cst_8, main_v50, main_v51, main_v52, main_v53, main_v54, main_v55, main_v56, main_c_9, main_v57, main_v58, main_c_10, main_v59, main_v60, main_v61, main_v62, main_v63, main_cst_11, main_v64, main_v65, main_v66, main_v67, main_v68, main_v69, main_v70, main_v71, main_v72, main_cst_12, main_v73, main_v74, main_v75, main_cst_13, main_v76, main_v77, main_v78]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps2`'s operations write: each operation's result. -/
abbrev hostOps2_W : List (Ref sig .tc) := [main_v80, main_v81, main_v82, main_v83, main_c_14, main_v84, main_v85, main_c_15, main_v86, main_v87, main_v88, main_v89, main_v90, main_cst_16, main_v91, main_v92, main_v93, main_v94, main_v95, main_v96, main_v97, main_c_17, main_v98, main_v99, main_c_18, main_v100, main_v101, main_v102, main_v103, main_v104, main_cst_19, main_v105, main_v106, main_v107, main_v108, main_v109, main_v110, main_v111, main_c_20, main_v112, main_v113, main_c_21, main_v114, main_v115, main_v116, main_v117, main_v118, main_cst_22, main_v119, main_v120, main_v121, main_cst_23, main_v122, main_cst_24, main_v123, main_v124, main_v125, main_cst_25, main_v126, main_v127, main_v128, main_v129, main_v130, main_v131, main_v132, main_v133, main_v134, main_c_26, main_v135, main_v136, main_c_27, main_v137, main_v138, main_v139, main_v140, main_v141, main_cst_28, main_v142, main_v143, main_v144, main_cst_29, main_v145, main_cst_30, main_v146, main_v147, main_v148, main_cst_31, main_v149, main_v150, main_v151, main_v152, main_v153, main_v154, main_v155, main_v156, main_v157, main_c_32, main_v158, main_v159, main_c_33, main_v160, main_v161, main_v162, main_v163, main_v164, main_cst_34, main_v165, main_v166, main_v167, main_v168, main_v169, main_v170, main_v171, main_c_35, main_v172, main_v173, main_c_36, main_v174, main_v175, main_v176, main_v177, main_v178, main_cst_37, main_v179, main_v180, main_v181, main_v182, main_v183, main_v184, main_v185, main_c_38, main_v186, main_v187, main_c_39, main_v188, main_v189, main_v190, main_v191, main_v192, main_cst_40, main_v193, main_v194, main_v195, main_cst_41, main_v196, main_cst_42, main_v197, main_v198, main_v199, main_cst_43, main_v200, main_v201, main_v202, main_v203, main_v204, main_v205, main_v206, main_v207, main_v208, main_v209, main_v210, main_v211, main_v212, main_v213, main_v214, main_v215, main_v216, main_v217, main_v218, main_v219, main_v220, main_cst_44, main_v221, main_v222, main_v223, main_cst_45, main_v224, main_v225, main_v226]
set_option maxHeartbeats 4000000 in
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps3`'s operations write: each operation's result. -/
abbrev hostOps3_W : List (Ref sig .tc) := [main_cst_46, main_v228, main_v229]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- A stretch leaves every buffer none of its operations writes. -/
theorem W1_of (c : Dev nD) (r : Ref sig .tc) (h : r ∉ (hostOps0_W : List (Ref sig .tc))) : W1 m ρ c (Proc.devRef .tc r) = W0 m ρ c (Proc.devRef .tc r) :=
  StableHlo.after_of_writes_sub hostOps0 _ hostOps0_writes h
theorem W3_of (c : Dev nD) (r : Ref sig .tc) (h : r ∉ (hostOps1_W : List (Ref sig .tc))) : W3 m ρ c (Proc.devRef .tc r) = W2 m ρ c (Proc.devRef .tc r) :=
  StableHlo.after_of_writes_sub hostOps1 _ hostOps1_writes h
theorem W5_of (c : Dev nD) (r : Ref sig .tc) (h : r ∉ (hostOps2_W : List (Ref sig .tc))) : W5 m ρ c (Proc.devRef .tc r) = W4 m ρ c (Proc.devRef .tc r) :=
  StableHlo.after_of_writes_sub hostOps2 _ hostOps2_writes h
theorem W7_of (c : Dev nD) (r : Ref sig .tc) (h : r ∉ (hostOps3_W : List (Ref sig .tc))) : W7 m ρ c (Proc.devRef .tc r) = W6 m ρ c (Proc.devRef .tc r) :=
  StableHlo.after_of_writes_sub hostOps3 _ hostOps3_writes h

/-! ## The arguments are as launched at every boundary -/

/-- The argument arrays of @main. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

/-- No stretch writes an argument array, -/
theorem arg_not_written0 : ∀ r ∈ (argRefs : List (Ref sig .tc)), r ∉ (hostOps0_W : List (Ref sig .tc)) := by decide
theorem arg_not_written1 : ∀ r ∈ (argRefs : List (Ref sig .tc)), r ∉ (hostOps1_W : List (Ref sig .tc)) := by decide
theorem arg_not_written2 : ∀ r ∈ (argRefs : List (Ref sig .tc)), r ∉ (hostOps2_W : List (Ref sig .tc)) := by decide
theorem arg_not_written3 : ∀ r ∈ (argRefs : List (Ref sig .tc)), r ∉ (hostOps3_W : List (Ref sig .tc)) := by decide
/-- and no layer's window is over one. -/
theorem arg_not_arr0 : ∀ r ∈ (argRefs : List (Ref sig .tc)), ∀ w, Pipeline.arrRef spec0 w ≠ r := by decide
theorem arg_not_arr1 : ∀ r ∈ (argRefs : List (Ref sig .tc)), ∀ w, Pipeline.arrRef spec1 w ≠ r := by decide
theorem arg_not_arr2 : ∀ r ∈ (argRefs : List (Ref sig .tc)), ∀ w, Pipeline.arrRef spec2 w ≠ r := by decide

section Arg
variable (c : Dev nD) (b : Ref sig .tc) (hb : b ∈ (argRefs : List (Ref sig .tc)))
include hb
/-- An argument array at each boundary holds what it held at launch: boundary by boundary, a stretch does not write
    it and a layer's exit differs from its entry at the layer's arrays only. -/
theorem W1_arg : W1 m ρ c (Proc.devRef .tc b) = m ((c : Thread nD τ).loc b) := (W1_of m ρ c b (arg_not_written0 b hb)).trans rfl
theorem W2_arg : W2 m ρ c (Proc.devRef .tc b) = m ((c : Thread nD τ).loc b) := (W2_of_ne m ρ c b (arg_not_arr0 b hb)).trans (W1_arg m ρ c b hb)
theorem W3_arg : W3 m ρ c (Proc.devRef .tc b) = m ((c : Thread nD τ).loc b) := (W3_of m ρ c b (arg_not_written1 b hb)).trans (W2_arg m ρ c b hb)
theorem W4_arg : W4 m ρ c (Proc.devRef .tc b) = m ((c : Thread nD τ).loc b) := (W4_of_ne m ρ c b (arg_not_arr1 b hb)).trans (W3_arg m ρ c b hb)
theorem W5_arg : W5 m ρ c (Proc.devRef .tc b) = m ((c : Thread nD τ).loc b) := (W5_of m ρ c b (arg_not_written2 b hb)).trans (W4_arg m ρ c b hb)
theorem W6_arg : W6 m ρ c (Proc.devRef .tc b) = m ((c : Thread nD τ).loc b) := (W6_of_ne m ρ c b (arg_not_arr2 b hb)).trans (W5_arg m ρ c b hb)
theorem W7_arg : W7 m ρ c (Proc.devRef .tc b) = m ((c : Thread nD τ).loc b) := (W7_of m ρ c b (arg_not_written3 b hb)).trans (W6_arg m ρ c b hb)
end Arg

/-! ### Argument by argument -/

theorem main_arg0_mem : main_arg0 ∈ (argRefs : List (Ref sig .tc)) := by decide
theorem main_arg1_mem : main_arg1 ∈ (argRefs : List (Ref sig .tc)) := by decide
theorem main_arg2_mem : main_arg2 ∈ (argRefs : List (Ref sig .tc)) := by decide
theorem main_arg3_mem : main_arg3 ∈ (argRefs : List (Ref sig .tc)) := by decide
theorem main_arg4_mem : main_arg4 ∈ (argRefs : List (Ref sig .tc)) := by decide
theorem main_arg5_mem : main_arg5 ∈ (argRefs : List (Ref sig .tc)) := by decide
theorem main_arg6_mem : main_arg6 ∈ (argRefs : List (Ref sig .tc)) := by decide
theorem main_arg7_mem : main_arg7 ∈ (argRefs : List (Ref sig .tc)) := by decide
theorem main_arg8_mem : main_arg8 ∈ (argRefs : List (Ref sig .tc)) := by decide
theorem main_arg9_mem : main_arg9 ∈ (argRefs : List (Ref sig .tc)) := by decide
theorem main_arg10_mem : main_arg10 ∈ (argRefs : List (Ref sig .tc)) := by decide
theorem main_arg11_mem : main_arg11 ∈ (argRefs : List (Ref sig .tc)) := by decide
theorem main_arg12_mem : main_arg12 ∈ (argRefs : List (Ref sig .tc)) := by decide
theorem main_arg13_mem : main_arg13 ∈ (argRefs : List (Ref sig .tc)) := by decide
theorem main_arg14_mem : main_arg14 ∈ (argRefs : List (Ref sig .tc)) := by decide
theorem main_arg15_mem : main_arg15 ∈ (argRefs : List (Ref sig .tc)) := by decide
theorem main_arg16_mem : main_arg16 ∈ (argRefs : List (Ref sig .tc)) := by decide
theorem main_arg17_mem : main_arg17 ∈ (argRefs : List (Ref sig .tc)) := by decide
theorem main_arg18_mem : main_arg18 ∈ (argRefs : List (Ref sig .tc)) := by decide
theorem main_arg19_mem : main_arg19 ∈ (argRefs : List (Ref sig .tc)) := by decide
theorem main_arg20_mem : main_arg20 ∈ (argRefs : List (Ref sig .tc)) := by decide
theorem main_arg21_mem : main_arg21 ∈ (argRefs : List (Ref sig .tc)) := by decide
theorem main_arg22_mem : main_arg22 ∈ (argRefs : List (Ref sig .tc)) := by decide

theorem W2_main_arg0 (c : Dev nD) : W2 m ρ c (Proc.devRef .tc main_arg0) = m ((c : Thread nD τ).loc main_arg0) := W2_arg m ρ c main_arg0 main_arg0_mem
theorem W2_main_arg1 (c : Dev nD) : W2 m ρ c (Proc.devRef .tc main_arg1) = m ((c : Thread nD τ).loc main_arg1) := W2_arg m ρ c main_arg1 main_arg1_mem
theorem W2_main_arg2 (c : Dev nD) : W2 m ρ c (Proc.devRef .tc main_arg2) = m ((c : Thread nD τ).loc main_arg2) := W2_arg m ρ c main_arg2 main_arg2_mem
theorem W2_main_arg3 (c : Dev nD) : W2 m ρ c (Proc.devRef .tc main_arg3) = m ((c : Thread nD τ).loc main_arg3) := W2_arg m ρ c main_arg3 main_arg3_mem
theorem W2_main_arg4 (c : Dev nD) : W2 m ρ c (Proc.devRef .tc main_arg4) = m ((c : Thread nD τ).loc main_arg4) := W2_arg m ρ c main_arg4 main_arg4_mem
theorem W2_main_arg5 (c : Dev nD) : W2 m ρ c (Proc.devRef .tc main_arg5) = m ((c : Thread nD τ).loc main_arg5) := W2_arg m ρ c main_arg5 main_arg5_mem
theorem W2_main_arg6 (c : Dev nD) : W2 m ρ c (Proc.devRef .tc main_arg6) = m ((c : Thread nD τ).loc main_arg6) := W2_arg m ρ c main_arg6 main_arg6_mem
theorem W2_main_arg7 (c : Dev nD) : W2 m ρ c (Proc.devRef .tc main_arg7) = m ((c : Thread nD τ).loc main_arg7) := W2_arg m ρ c main_arg7 main_arg7_mem
theorem W2_main_arg8 (c : Dev nD) : W2 m ρ c (Proc.devRef .tc main_arg8) = m ((c : Thread nD τ).loc main_arg8) := W2_arg m ρ c main_arg8 main_arg8_mem
theorem W2_main_arg9 (c : Dev nD) : W2 m ρ c (Proc.devRef .tc main_arg9) = m ((c : Thread nD τ).loc main_arg9) := W2_arg m ρ c main_arg9 main_arg9_mem
theorem W2_main_arg10 (c : Dev nD) : W2 m ρ c (Proc.devRef .tc main_arg10) = m ((c : Thread nD τ).loc main_arg10) := W2_arg m ρ c main_arg10 main_arg10_mem
theorem W2_main_arg11 (c : Dev nD) : W2 m ρ c (Proc.devRef .tc main_arg11) = m ((c : Thread nD τ).loc main_arg11) := W2_arg m ρ c main_arg11 main_arg11_mem
theorem W2_main_arg12 (c : Dev nD) : W2 m ρ c (Proc.devRef .tc main_arg12) = m ((c : Thread nD τ).loc main_arg12) := W2_arg m ρ c main_arg12 main_arg12_mem
theorem W2_main_arg13 (c : Dev nD) : W2 m ρ c (Proc.devRef .tc main_arg13) = m ((c : Thread nD τ).loc main_arg13) := W2_arg m ρ c main_arg13 main_arg13_mem
theorem W2_main_arg14 (c : Dev nD) : W2 m ρ c (Proc.devRef .tc main_arg14) = m ((c : Thread nD τ).loc main_arg14) := W2_arg m ρ c main_arg14 main_arg14_mem
theorem W2_main_arg15 (c : Dev nD) : W2 m ρ c (Proc.devRef .tc main_arg15) = m ((c : Thread nD τ).loc main_arg15) := W2_arg m ρ c main_arg15 main_arg15_mem
theorem W2_main_arg16 (c : Dev nD) : W2 m ρ c (Proc.devRef .tc main_arg16) = m ((c : Thread nD τ).loc main_arg16) := W2_arg m ρ c main_arg16 main_arg16_mem
theorem W2_main_arg17 (c : Dev nD) : W2 m ρ c (Proc.devRef .tc main_arg17) = m ((c : Thread nD τ).loc main_arg17) := W2_arg m ρ c main_arg17 main_arg17_mem
theorem W2_main_arg18 (c : Dev nD) : W2 m ρ c (Proc.devRef .tc main_arg18) = m ((c : Thread nD τ).loc main_arg18) := W2_arg m ρ c main_arg18 main_arg18_mem
theorem W2_main_arg19 (c : Dev nD) : W2 m ρ c (Proc.devRef .tc main_arg19) = m ((c : Thread nD τ).loc main_arg19) := W2_arg m ρ c main_arg19 main_arg19_mem
theorem W2_main_arg20 (c : Dev nD) : W2 m ρ c (Proc.devRef .tc main_arg20) = m ((c : Thread nD τ).loc main_arg20) := W2_arg m ρ c main_arg20 main_arg20_mem
theorem W2_main_arg21 (c : Dev nD) : W2 m ρ c (Proc.devRef .tc main_arg21) = m ((c : Thread nD τ).loc main_arg21) := W2_arg m ρ c main_arg21 main_arg21_mem
theorem W2_main_arg22 (c : Dev nD) : W2 m ρ c (Proc.devRef .tc main_arg22) = m ((c : Thread nD τ).loc main_arg22) := W2_arg m ρ c main_arg22 main_arg22_mem

theorem W4_main_arg0 (c : Dev nD) : W4 m ρ c (Proc.devRef .tc main_arg0) = m ((c : Thread nD τ).loc main_arg0) := W4_arg m ρ c main_arg0 main_arg0_mem
theorem W4_main_arg1 (c : Dev nD) : W4 m ρ c (Proc.devRef .tc main_arg1) = m ((c : Thread nD τ).loc main_arg1) := W4_arg m ρ c main_arg1 main_arg1_mem
theorem W4_main_arg2 (c : Dev nD) : W4 m ρ c (Proc.devRef .tc main_arg2) = m ((c : Thread nD τ).loc main_arg2) := W4_arg m ρ c main_arg2 main_arg2_mem
theorem W4_main_arg3 (c : Dev nD) : W4 m ρ c (Proc.devRef .tc main_arg3) = m ((c : Thread nD τ).loc main_arg3) := W4_arg m ρ c main_arg3 main_arg3_mem
theorem W4_main_arg4 (c : Dev nD) : W4 m ρ c (Proc.devRef .tc main_arg4) = m ((c : Thread nD τ).loc main_arg4) := W4_arg m ρ c main_arg4 main_arg4_mem
theorem W4_main_arg5 (c : Dev nD) : W4 m ρ c (Proc.devRef .tc main_arg5) = m ((c : Thread nD τ).loc main_arg5) := W4_arg m ρ c main_arg5 main_arg5_mem
theorem W4_main_arg6 (c : Dev nD) : W4 m ρ c (Proc.devRef .tc main_arg6) = m ((c : Thread nD τ).loc main_arg6) := W4_arg m ρ c main_arg6 main_arg6_mem
theorem W4_main_arg7 (c : Dev nD) : W4 m ρ c (Proc.devRef .tc main_arg7) = m ((c : Thread nD τ).loc main_arg7) := W4_arg m ρ c main_arg7 main_arg7_mem
theorem W4_main_arg8 (c : Dev nD) : W4 m ρ c (Proc.devRef .tc main_arg8) = m ((c : Thread nD τ).loc main_arg8) := W4_arg m ρ c main_arg8 main_arg8_mem
theorem W4_main_arg9 (c : Dev nD) : W4 m ρ c (Proc.devRef .tc main_arg9) = m ((c : Thread nD τ).loc main_arg9) := W4_arg m ρ c main_arg9 main_arg9_mem
theorem W4_main_arg10 (c : Dev nD) : W4 m ρ c (Proc.devRef .tc main_arg10) = m ((c : Thread nD τ).loc main_arg10) := W4_arg m ρ c main_arg10 main_arg10_mem
theorem W4_main_arg11 (c : Dev nD) : W4 m ρ c (Proc.devRef .tc main_arg11) = m ((c : Thread nD τ).loc main_arg11) := W4_arg m ρ c main_arg11 main_arg11_mem
theorem W4_main_arg12 (c : Dev nD) : W4 m ρ c (Proc.devRef .tc main_arg12) = m ((c : Thread nD τ).loc main_arg12) := W4_arg m ρ c main_arg12 main_arg12_mem
theorem W4_main_arg13 (c : Dev nD) : W4 m ρ c (Proc.devRef .tc main_arg13) = m ((c : Thread nD τ).loc main_arg13) := W4_arg m ρ c main_arg13 main_arg13_mem
theorem W4_main_arg14 (c : Dev nD) : W4 m ρ c (Proc.devRef .tc main_arg14) = m ((c : Thread nD τ).loc main_arg14) := W4_arg m ρ c main_arg14 main_arg14_mem
theorem W4_main_arg15 (c : Dev nD) : W4 m ρ c (Proc.devRef .tc main_arg15) = m ((c : Thread nD τ).loc main_arg15) := W4_arg m ρ c main_arg15 main_arg15_mem
theorem W4_main_arg16 (c : Dev nD) : W4 m ρ c (Proc.devRef .tc main_arg16) = m ((c : Thread nD τ).loc main_arg16) := W4_arg m ρ c main_arg16 main_arg16_mem
theorem W4_main_arg17 (c : Dev nD) : W4 m ρ c (Proc.devRef .tc main_arg17) = m ((c : Thread nD τ).loc main_arg17) := W4_arg m ρ c main_arg17 main_arg17_mem
theorem W4_main_arg18 (c : Dev nD) : W4 m ρ c (Proc.devRef .tc main_arg18) = m ((c : Thread nD τ).loc main_arg18) := W4_arg m ρ c main_arg18 main_arg18_mem
theorem W4_main_arg19 (c : Dev nD) : W4 m ρ c (Proc.devRef .tc main_arg19) = m ((c : Thread nD τ).loc main_arg19) := W4_arg m ρ c main_arg19 main_arg19_mem
theorem W4_main_arg20 (c : Dev nD) : W4 m ρ c (Proc.devRef .tc main_arg20) = m ((c : Thread nD τ).loc main_arg20) := W4_arg m ρ c main_arg20 main_arg20_mem
theorem W4_main_arg21 (c : Dev nD) : W4 m ρ c (Proc.devRef .tc main_arg21) = m ((c : Thread nD τ).loc main_arg21) := W4_arg m ρ c main_arg21 main_arg21_mem
theorem W4_main_arg22 (c : Dev nD) : W4 m ρ c (Proc.devRef .tc main_arg22) = m ((c : Thread nD τ).loc main_arg22) := W4_arg m ρ c main_arg22 main_arg22_mem

theorem W6_main_arg0 (c : Dev nD) : W6 m ρ c (Proc.devRef .tc main_arg0) = m ((c : Thread nD τ).loc main_arg0) := W6_arg m ρ c main_arg0 main_arg0_mem
theorem W6_main_arg1 (c : Dev nD) : W6 m ρ c (Proc.devRef .tc main_arg1) = m ((c : Thread nD τ).loc main_arg1) := W6_arg m ρ c main_arg1 main_arg1_mem
theorem W6_main_arg2 (c : Dev nD) : W6 m ρ c (Proc.devRef .tc main_arg2) = m ((c : Thread nD τ).loc main_arg2) := W6_arg m ρ c main_arg2 main_arg2_mem
theorem W6_main_arg3 (c : Dev nD) : W6 m ρ c (Proc.devRef .tc main_arg3) = m ((c : Thread nD τ).loc main_arg3) := W6_arg m ρ c main_arg3 main_arg3_mem
theorem W6_main_arg4 (c : Dev nD) : W6 m ρ c (Proc.devRef .tc main_arg4) = m ((c : Thread nD τ).loc main_arg4) := W6_arg m ρ c main_arg4 main_arg4_mem
theorem W6_main_arg5 (c : Dev nD) : W6 m ρ c (Proc.devRef .tc main_arg5) = m ((c : Thread nD τ).loc main_arg5) := W6_arg m ρ c main_arg5 main_arg5_mem
theorem W6_main_arg6 (c : Dev nD) : W6 m ρ c (Proc.devRef .tc main_arg6) = m ((c : Thread nD τ).loc main_arg6) := W6_arg m ρ c main_arg6 main_arg6_mem
theorem W6_main_arg7 (c : Dev nD) : W6 m ρ c (Proc.devRef .tc main_arg7) = m ((c : Thread nD τ).loc main_arg7) := W6_arg m ρ c main_arg7 main_arg7_mem
theorem W6_main_arg8 (c : Dev nD) : W6 m ρ c (Proc.devRef .tc main_arg8) = m ((c : Thread nD τ).loc main_arg8) := W6_arg m ρ c main_arg8 main_arg8_mem
theorem W6_main_arg9 (c : Dev nD) : W6 m ρ c (Proc.devRef .tc main_arg9) = m ((c : Thread nD τ).loc main_arg9) := W6_arg m ρ c main_arg9 main_arg9_mem
theorem W6_main_arg10 (c : Dev nD) : W6 m ρ c (Proc.devRef .tc main_arg10) = m ((c : Thread nD τ).loc main_arg10) := W6_arg m ρ c main_arg10 main_arg10_mem
theorem W6_main_arg11 (c : Dev nD) : W6 m ρ c (Proc.devRef .tc main_arg11) = m ((c : Thread nD τ).loc main_arg11) := W6_arg m ρ c main_arg11 main_arg11_mem
theorem W6_main_arg12 (c : Dev nD) : W6 m ρ c (Proc.devRef .tc main_arg12) = m ((c : Thread nD τ).loc main_arg12) := W6_arg m ρ c main_arg12 main_arg12_mem
theorem W6_main_arg13 (c : Dev nD) : W6 m ρ c (Proc.devRef .tc main_arg13) = m ((c : Thread nD τ).loc main_arg13) := W6_arg m ρ c main_arg13 main_arg13_mem
theorem W6_main_arg14 (c : Dev nD) : W6 m ρ c (Proc.devRef .tc main_arg14) = m ((c : Thread nD τ).loc main_arg14) := W6_arg m ρ c main_arg14 main_arg14_mem
theorem W6_main_arg15 (c : Dev nD) : W6 m ρ c (Proc.devRef .tc main_arg15) = m ((c : Thread nD τ).loc main_arg15) := W6_arg m ρ c main_arg15 main_arg15_mem
theorem W6_main_arg16 (c : Dev nD) : W6 m ρ c (Proc.devRef .tc main_arg16) = m ((c : Thread nD τ).loc main_arg16) := W6_arg m ρ c main_arg16 main_arg16_mem
theorem W6_main_arg17 (c : Dev nD) : W6 m ρ c (Proc.devRef .tc main_arg17) = m ((c : Thread nD τ).loc main_arg17) := W6_arg m ρ c main_arg17 main_arg17_mem
theorem W6_main_arg18 (c : Dev nD) : W6 m ρ c (Proc.devRef .tc main_arg18) = m ((c : Thread nD τ).loc main_arg18) := W6_arg m ρ c main_arg18 main_arg18_mem
theorem W6_main_arg19 (c : Dev nD) : W6 m ρ c (Proc.devRef .tc main_arg19) = m ((c : Thread nD τ).loc main_arg19) := W6_arg m ρ c main_arg19 main_arg19_mem
theorem W6_main_arg20 (c : Dev nD) : W6 m ρ c (Proc.devRef .tc main_arg20) = m ((c : Thread nD τ).loc main_arg20) := W6_arg m ρ c main_arg20 main_arg20_mem
theorem W6_main_arg21 (c : Dev nD) : W6 m ρ c (Proc.devRef .tc main_arg21) = m ((c : Thread nD τ).loc main_arg21) := W6_arg m ρ c main_arg21 main_arg21_mem
theorem W6_main_arg22 (c : Dev nD) : W6 m ρ c (Proc.devRef .tc main_arg22) = m ((c : Thread nD τ).loc main_arg22) := W6_arg m ρ c main_arg22 main_arg22_mem

theorem W7_main_arg0 (c : Dev nD) : W7 m ρ c (Proc.devRef .tc main_arg0) = m ((c : Thread nD τ).loc main_arg0) := W7_arg m ρ c main_arg0 main_arg0_mem
theorem W7_main_arg1 (c : Dev nD) : W7 m ρ c (Proc.devRef .tc main_arg1) = m ((c : Thread nD τ).loc main_arg1) := W7_arg m ρ c main_arg1 main_arg1_mem
theorem W7_main_arg2 (c : Dev nD) : W7 m ρ c (Proc.devRef .tc main_arg2) = m ((c : Thread nD τ).loc main_arg2) := W7_arg m ρ c main_arg2 main_arg2_mem
theorem W7_main_arg3 (c : Dev nD) : W7 m ρ c (Proc.devRef .tc main_arg3) = m ((c : Thread nD τ).loc main_arg3) := W7_arg m ρ c main_arg3 main_arg3_mem
theorem W7_main_arg4 (c : Dev nD) : W7 m ρ c (Proc.devRef .tc main_arg4) = m ((c : Thread nD τ).loc main_arg4) := W7_arg m ρ c main_arg4 main_arg4_mem
theorem W7_main_arg5 (c : Dev nD) : W7 m ρ c (Proc.devRef .tc main_arg5) = m ((c : Thread nD τ).loc main_arg5) := W7_arg m ρ c main_arg5 main_arg5_mem
theorem W7_main_arg6 (c : Dev nD) : W7 m ρ c (Proc.devRef .tc main_arg6) = m ((c : Thread nD τ).loc main_arg6) := W7_arg m ρ c main_arg6 main_arg6_mem
theorem W7_main_arg7 (c : Dev nD) : W7 m ρ c (Proc.devRef .tc main_arg7) = m ((c : Thread nD τ).loc main_arg7) := W7_arg m ρ c main_arg7 main_arg7_mem
theorem W7_main_arg8 (c : Dev nD) : W7 m ρ c (Proc.devRef .tc main_arg8) = m ((c : Thread nD τ).loc main_arg8) := W7_arg m ρ c main_arg8 main_arg8_mem
theorem W7_main_arg9 (c : Dev nD) : W7 m ρ c (Proc.devRef .tc main_arg9) = m ((c : Thread nD τ).loc main_arg9) := W7_arg m ρ c main_arg9 main_arg9_mem
theorem W7_main_arg10 (c : Dev nD) : W7 m ρ c (Proc.devRef .tc main_arg10) = m ((c : Thread nD τ).loc main_arg10) := W7_arg m ρ c main_arg10 main_arg10_mem
theorem W7_main_arg11 (c : Dev nD) : W7 m ρ c (Proc.devRef .tc main_arg11) = m ((c : Thread nD τ).loc main_arg11) := W7_arg m ρ c main_arg11 main_arg11_mem
theorem W7_main_arg12 (c : Dev nD) : W7 m ρ c (Proc.devRef .tc main_arg12) = m ((c : Thread nD τ).loc main_arg12) := W7_arg m ρ c main_arg12 main_arg12_mem
theorem W7_main_arg13 (c : Dev nD) : W7 m ρ c (Proc.devRef .tc main_arg13) = m ((c : Thread nD τ).loc main_arg13) := W7_arg m ρ c main_arg13 main_arg13_mem
theorem W7_main_arg14 (c : Dev nD) : W7 m ρ c (Proc.devRef .tc main_arg14) = m ((c : Thread nD τ).loc main_arg14) := W7_arg m ρ c main_arg14 main_arg14_mem
theorem W7_main_arg15 (c : Dev nD) : W7 m ρ c (Proc.devRef .tc main_arg15) = m ((c : Thread nD τ).loc main_arg15) := W7_arg m ρ c main_arg15 main_arg15_mem
theorem W7_main_arg16 (c : Dev nD) : W7 m ρ c (Proc.devRef .tc main_arg16) = m ((c : Thread nD τ).loc main_arg16) := W7_arg m ρ c main_arg16 main_arg16_mem
theorem W7_main_arg17 (c : Dev nD) : W7 m ρ c (Proc.devRef .tc main_arg17) = m ((c : Thread nD τ).loc main_arg17) := W7_arg m ρ c main_arg17 main_arg17_mem
theorem W7_main_arg18 (c : Dev nD) : W7 m ρ c (Proc.devRef .tc main_arg18) = m ((c : Thread nD τ).loc main_arg18) := W7_arg m ρ c main_arg18 main_arg18_mem
theorem W7_main_arg19 (c : Dev nD) : W7 m ρ c (Proc.devRef .tc main_arg19) = m ((c : Thread nD τ).loc main_arg19) := W7_arg m ρ c main_arg19 main_arg19_mem
theorem W7_main_arg20 (c : Dev nD) : W7 m ρ c (Proc.devRef .tc main_arg20) = m ((c : Thread nD τ).loc main_arg20) := W7_arg m ρ c main_arg20 main_arg20_mem
theorem W7_main_arg21 (c : Dev nD) : W7 m ρ c (Proc.devRef .tc main_arg21) = m ((c : Thread nD τ).loc main_arg21) := W7_arg m ρ c main_arg21 main_arg21_mem
theorem W7_main_arg22 (c : Dev nD) : W7 m ρ c (Proc.devRef .tc main_arg22) = m ((c : Thread nD τ).loc main_arg22) := W7_arg m ρ c main_arg22 main_arg22_mem

end Cert.Kernel.Fr

end
-- ==== Proof.K.Run.lean ====
import proofs.«147223_j52493090291996_1_alg».proof.Proof.K.Fold

/-! # The run of @main: seven segments from the launch to the return

The four host stretches and the three dense layers as segments over one thread state — every unscoped buffer at
the boundary's contents (`W0` … `W7`), the generator register at some state, nothing owed. The run ends with every
unscoped buffer at `W7` (`run_main`); the argument arrays, which nothing writes, are there as launched (`frame`). -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
set_option maxHeartbeats 4000000 in
/-- No operation of `hostOps2` allocates a buffer. -/
theorem hostOps2_fresh : (hostOps2 : List (HloOp τ sig (Elt F))).Forall fun op => op.fresh = ∅ := by
  simp only [List.Forall]; repeat' constructor
/-- No operation of `hostOps3` allocates a buffer. -/
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W7`, the
    generator register at some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (the dense layer `cc0__linear_kernel`) over the thread state: entered from every unscoped buffer at
    `W1`, left at `W2`. Its arrays are split out of the unscoped buffers and put back at the exit contents; the
    generator register goes into the class invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (the dense layer `cc1__linear_kernel`) over the thread state: entered from every unscoped buffer at
    `W3`, left at `W4`. Its arrays are split out of the unscoped buffers and put back at the exit contents; the
    generator register goes into the class invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (the dense layer `cc2__linear_kernel`) over the thread state: entered from every unscoped buffer at
    `W5`, left at `W6`. Its arrays are split out of the unscoped buffers and put back at the exit contents; the
    generator register goes into the class invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last host stretch as a segment. Its end state is `Tₙ` beside the core owing nothing, which is the stretch's
    own end state with the two riders regrouped. -/
abbrev hsegLast : Pipeline.HostSeg (Name := ℕ) (U := UR sig nD τ) (pcfgs (F := F)) defs₀ 𝒱₀ L lv :=
  hseg hostOps3 hostOps3_sub hostOps3_fresh (W6 m ρ)

/-- @main's 7 segments in order: a host segment per stretch from its boundary's contents, a region per layer. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hsegLast m ρ) ]
/-- @main IS the run of the segments: `main_chain`, then the segments' run against that chain by the kernel's
    definitional check. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN, at any post `Q` that follows from every core's unscoped buffers being at `W7`: at the compiled mesh, from
    any memory with zero counters, every weakly fair execution of @main on the TensorCores terminates, nothing
    faulting, and every final state satisfies `Q`. -/
theorem run_main_of {Q : PUnit × MemSt nD τ sig (Elt F) → Prop}
    (hQ : ∀ s : MemSt nD τ sig (Elt F), (∀ c : Dev nD, ∀ b ∈ Pipeline.ucRefs τ sig, s.mem (((c : Thread nD τ)).1, b) = W7 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => show iprop(StableHlo.held (c : Thread nD τ) (Pipeline.ucRefs τ sig) (W7 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := hQ)

/-- THE RUN: every final state has every unscoped buffer of every core at the last boundary's contents `W7`. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W7 m ρ c b) :=
  run_main_of m ρ (fun s h c b hb => h c b hb)

/-- THE FRAME at any `F`: every final state has the argument arrays as launched — each is an unscoped buffer, at
    `W7` by the run, and `W7` at an argument is the launch memory (`W7_main_argK`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c),
     (h c _ (mem_uc main_arg14 (by decide))).trans (W7_main_arg14 m ρ c),
     (h c _ (mem_uc main_arg15 (by decide))).trans (W7_main_arg15 m ρ c),
     (h c _ (mem_uc main_arg16 (by decide))).trans (W7_main_arg16 m ρ c),
     (h c _ (mem_uc main_arg17 (by decide))).trans (W7_main_arg17 m ρ c),
     (h c _ (mem_uc main_arg18 (by decide))).trans (W7_main_arg18 m ρ c),
     (h c _ (mem_uc main_arg19 (by decide))).trans (W7_main_arg19 m ρ c),
     (h c _ (mem_uc main_arg20 (by decide))).trans (W7_main_arg20 m ρ c),
     (h c _ (mem_uc main_arg21 (by decide))).trans (W7_main_arg21 m ρ c),
     (h c _ (mem_uc main_arg22 (by decide))).trans (W7_main_arg22 m ρ c)⟩) (run_main m ρ)

/-- THE RESULT beside the frame: every final state has the result array `main_v229` at the last boundary's contents
    `W7` and the argument arrays as launched. -/
theorem run_result : θ_run defs (onTc (τ := τ) (main (F := F))) ⟨m, fun _ => 0, ρ⟩ (fun r => ∀ c : Dev nD,
      r.2.mem ((c.tc : Thread nD τ).loc main_v229) = W7 m ρ c (Proc.devRef .tc main_v229)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c =>
    ⟨h c _ (mem_uc main_v229 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c),
     (h c _ (mem_uc main_arg14 (by decide))).trans (W7_main_arg14 m ρ c),
     (h c _ (mem_uc main_arg15 (by decide))).trans (W7_main_arg15 m ρ c),
     (h c _ (mem_uc main_arg16 (by decide))).trans (W7_main_arg16 m ρ c),
     (h c _ (mem_uc main_arg17 (by decide))).trans (W7_main_arg17 m ρ c),
     (h c _ (mem_uc main_arg18 (by decide))).trans (W7_main_arg18 m ρ c),
     (h c _ (mem_uc main_arg19 (by decide))).trans (W7_main_arg19 m ρ c),
     (h c _ (mem_uc main_arg20 (by decide))).trans (W7_main_arg20 m ρ c),
     (h c _ (mem_uc main_arg21 (by decide))).trans (W7_main_arg21 m ρ c),
     (h c _ (mem_uc main_arg22 (by decide))).trans (W7_main_arg22 m ρ c)⟩) (run_main m ρ)

end Cert.Kernel.Fr

end
-- ==== Proof.KI.Reg0.lean ====
import proofs.«147223_j52493090291996_1_alg».proof.Proof.Gen.KernelIdeal.Launch
import proofs.«147223_j52493090291996_1_alg».proof.Proof.Gen.KernelIdeal.Skeleton
import proofs.«147223_j52493090291996_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main (the dense layer `cc0__linear_kernel`, pipeline 0), at a parameter `V`

`V` is the TensorCore's buffer contents when the region is entered. The layer's body reads its three input
blocks whole (rows 10000x18, weights 18x16, bias 1x16) and overwrites its whole output block (10000x16) with one
payload of the three, so after the body the output's staging buffer is that payload and every input's staging
buffer is its block, untouched. -/

-- membership in a rectangle of 10000 rows: the structural recursion goes once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its index has not moved, so the block left by the previous point is the block of this one. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where the window is not
    fetched its index has not moved, so the block left by the previous point is the block of this one. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): where the window is not
    fetched its index has not moved, so the block left by the previous point is the block of this one. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each memref whole -/

abbrev r0_0 : Rect S10000x18 := Rect.unit (s := S10000x18) ![0, 0] S10000x18.size inb_S10000x18_S10000x18_0_0
abbrev r0_1 : Rect S18x16 := Rect.unit (s := S18x16) ![0, 0] S18x16.size inb_S18x16_S18x16_0_0
abbrev r0_2 : Rect S1x16 := Rect.unit (s := S1x16) ![0, 0] S1x16.size inb_S1x16_S1x16_0_0
abbrev r0_3 : Rect S10000x16 := Rect.unit (s := S10000x16) ![0, 0] S10000x16.size inb_S10000x16_S10000x16_0_0

/-! ## What the body leaves in the output window's buffer -/

/-- Window 3's staging buffer after the body, from the input windows' blocks: its one store, of the layer's
    payload at the three blocks read whole, over the whole buffer. -/
def out0_3 (x0 : Vec F S10000x18 .f32) (x1 : Vec F S18x16 .f32) (x2 : Vec F S1x16 .f32) : Vec F S10000x16 .f32 :=
  View.canon [⟨r0_3, k0_pay1 (View.ld x0 r0_0) (View.ld x1 r0_1) (View.ld x2 r0_2)⟩]

/-- The one store is of the whole buffer, so it covers it. -/
theorem cover0_3 (p0 : Vec F S10000x16 .f32) (y : S10000x16.Idx) :
    ∃ pc ∈ ([⟨r0_3, p0⟩] : List (View.Piece (Elt F) S10000x16 .f32)), y ∈ pc.1.set :=
  View.cover_of_tiled [⟨r0_3, p0⟩] S10000x16.size (by rfl) y

/-! ## The body's triple -/

set_option maxHeartbeats 1000000 in
/-- The kernel body on whole staging memrefs, the inputs' at contents `x0 x1 x2` and the output's at anything, runs to
    the continuation holding the inputs' as they were and the output's at `out0_3` of the inputs: three loads, a
    load of the output that nothing reads, and the store of the payload. -/
theorem sound_kernel0 (c : Dev nD) (E : Set ℕ) (i : grid0.Coords) (arg1 : Memref sig .tc .vmem S10000x18 .f32) (harg1 : arg1.IsWhole) (arg2 : Memref sig .tc .vmem S18x16 .f32) (harg2 : arg2.IsWhole) (arg3 : Memref sig .tc .vmem S1x16 .f32) (harg3 : arg3.IsWhole) (arg4 : Memref sig .tc .vmem S10000x16 .f32) (harg4 : arg4.IsWhole)
    (x0 : Vec F S10000x18 .f32) (x1 : Vec F S18x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
import proofs.«147223_j52493090291996_1_alg».proof.Proof.Gen.KernelIdeal.Launch
import proofs.«147223_j52493090291996_1_alg».proof.Proof.Gen.KernelIdeal.Skeleton
import proofs.«147223_j52493090291996_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1 of @main (the dense layer `cc1__linear_kernel`, pipeline 1), at a parameter `V`

`V` is the TensorCore's buffer contents when the region is entered. The layer's body reads its three input
blocks whole (rows 10000x48, weights 48x32, bias 1x32) and overwrites its whole output block (10000x32) with one
payload of the three, so after the body the output's staging buffer is that payload and every input's staging
buffer is its block, untouched. -/

-- membership in a rectangle of 10000 rows: the structural recursion goes once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its index has not moved, so the block left by the previous point is the block of this one. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): where the window is not
    fetched its index has not moved, so the block left by the previous point is the block of this one. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): where the window is not
    fetched its index has not moved, so the block left by the previous point is the block of this one. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each memref whole -/

abbrev r1_0 : Rect S10000x48 := Rect.unit (s := S10000x48) ![0, 0] S10000x48.size inb_S10000x48_S10000x48_0_0
abbrev r1_1 : Rect S48x32 := Rect.unit (s := S48x32) ![0, 0] S48x32.size inb_S48x32_S48x32_0_0
abbrev r1_2 : Rect S1x32 := Rect.unit (s := S1x32) ![0, 0] S1x32.size inb_S1x32_S1x32_0_0
abbrev r1_3 : Rect S10000x32 := Rect.unit (s := S10000x32) ![0, 0] S10000x32.size inb_S10000x32_S10000x32_0_0

/-! ## What the body leaves in the output window's buffer -/

/-- Window 3's staging buffer after the body, from the input windows' blocks: its one store, of the layer's
    payload at the three blocks read whole, over the whole buffer. -/
def out1_3 (x0 : Vec F S10000x48 .f32) (x1 : Vec F S48x32 .f32) (x2 : Vec F S1x32 .f32) : Vec F S10000x32 .f32 :=
  View.canon [⟨r1_3, k1_pay1 (View.ld x0 r1_0) (View.ld x1 r1_1) (View.ld x2 r1_2)⟩]

/-- The one store is of the whole buffer, so it covers it. -/
theorem cover1_3 (p0 : Vec F S10000x32 .f32) (y : S10000x32.Idx) :
    ∃ pc ∈ ([⟨r1_3, p0⟩] : List (View.Piece (Elt F) S10000x32 .f32)), y ∈ pc.1.set :=
  View.cover_of_tiled [⟨r1_3, p0⟩] S10000x32.size (by rfl) y

/-! ## The body's triple -/

set_option maxHeartbeats 1000000 in
/-- The kernel body on whole staging memrefs, the inputs' at contents `x0 x1 x2` and the output's at anything, runs to
    the continuation holding the inputs' as they were and the output's at `out1_3` of the inputs: three loads, a
    load of the output that nothing reads, and the store of the payload. -/
theorem sound_kernel1 (c : Dev nD) (E : Set ℕ) (i : grid1.Coords) (arg1 : Memref sig .tc .vmem S10000x48 .f32) (harg1 : arg1.IsWhole) (arg2 : Memref sig .tc .vmem S48x32 .f32) (harg2 : arg2.IsWhole) (arg3 : Memref sig .tc .vmem S1x32 .f32) (harg3 : arg3.IsWhole) (arg4 : Memref sig .tc .vmem S10000x32 .f32) (harg4 : arg4.IsWhole)
    (x0 : Vec F S10000x48 .f32) (x1 : Vec F S48x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and the output's at `out1_3` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2.lean ====
import proofs.«147223_j52493090291996_1_alg».proof.Proof.Gen.KernelIdeal.Launch
import proofs.«147223_j52493090291996_1_alg».proof.Proof.Gen.KernelIdeal.Skeleton
import proofs.«147223_j52493090291996_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2 of @main (the dense layer `cc2__linear_kernel`, pipeline 2), at a parameter `V`

`V` is the TensorCore's buffer contents when the region is entered. The layer's body reads its three input
blocks whole (rows 10000x256, weights 256x64, bias 1x64) and overwrites its whole output block (10000x64) with one
payload of the three, so after the body the output's staging buffer is that payload and every input's staging
buffer is its block, untouched. -/

-- membership in a rectangle of 10000 rows: the structural recursion goes once per coordinate of the long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the window is not
    fetched its index has not moved, so the block left by the previous point is the block of this one. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): where the window is not
    fetched its index has not moved, so the block left by the previous point is the block of this one. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): where the window is not
    fetched its index has not moved, so the block left by the previous point is the block of this one. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each memref whole -/

abbrev r2_0 : Rect S10000x256 := Rect.unit (s := S10000x256) ![0, 0] S10000x256.size inb_S10000x256_S10000x256_0_0
abbrev r2_1 : Rect S256x64 := Rect.unit (s := S256x64) ![0, 0] S256x64.size inb_S256x64_S256x64_0_0
abbrev r2_2 : Rect S1x64 := Rect.unit (s := S1x64) ![0, 0] S1x64.size inb_S1x64_S1x64_0_0
abbrev r2_3 : Rect S10000x64 := Rect.unit (s := S10000x64) ![0, 0] S10000x64.size inb_S10000x64_S10000x64_0_0

/-! ## What the body leaves in the output window's buffer -/

/-- Window 3's staging buffer after the body, from the input windows' blocks: its one store, of the layer's
    payload at the three blocks read whole, over the whole buffer. -/
def out2_3 (x0 : Vec F S10000x256 .f32) (x1 : Vec F S256x64 .f32) (x2 : Vec F S1x64 .f32) : Vec F S10000x64 .f32 :=
  View.canon [⟨r2_3, k2_pay1 (View.ld x0 r2_0) (View.ld x1 r2_1) (View.ld x2 r2_2)⟩]

/-- The one store is of the whole buffer, so it covers it. -/
theorem cover2_3 (p0 : Vec F S10000x64 .f32) (y : S10000x64.Idx) :
    ∃ pc ∈ ([⟨r2_3, p0⟩] : List (View.Piece (Elt F) S10000x64 .f32)), y ∈ pc.1.set :=
  View.cover_of_tiled [⟨r2_3, p0⟩] S10000x64.size (by rfl) y

/-! ## The body's triple -/

set_option maxHeartbeats 1000000 in
/-- The kernel body on whole staging memrefs, the inputs' at contents `x0 x1 x2` and the output's at anything, runs to
    the continuation holding the inputs' as they were and the output's at `out2_3` of the inputs: three loads, a
    load of the output that nothing reads, and the store of the payload. -/
theorem sound_kernel2 (c : Dev nD) (E : Set ℕ) (i : grid2.Coords) (arg1 : Memref sig .tc .vmem S10000x256 .f32) (harg1 : arg1.IsWhole) (arg2 : Memref sig .tc .vmem S256x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x256 .f32) (x1 : Vec F S256x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at
    point `t` each input's buffer at its block and the output's at `out2_3` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Fold.lean ====
import proofs.«147223_j52493090291996_1_alg».proof.Proof.KI.Reg0
import proofs.«147223_j52493090291996_1_alg».proof.Proof.KI.Reg1
import proofs.«147223_j52493090291996_1_alg».proof.Proof.KI.Reg2

/-! # The buffer contents at each boundary of @main's seven segments: a fold from the launch memory

@main is four stretches of host operations with the three dense layers between them. `W0` is the launch
memory; a stretch takes `W` to `StableHlo.after` of its operations; a layer takes `W` to `W` with its four arrays
at what its pipeline leaves. No host operation writes an argument array (each writes its own result buffer) and no
layer's window is an argument array, so each argument reads back, at every boundary, to the launch memory. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The fold -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b

/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The layer's result array at the region's exit: the output window's write-backs folded over all the points. -/
theorem W2_out (c : Dev nD) : W2 m ρ c (Proc.devRef .tc main_v38) = (dat0 (V1 m ρ) c).arrAt 3 cfg0.N :=
  W2_arr m ρ c 3
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b

/-- At region 1's exit: its arrays at what the pipeline leaves (the inputs as entered, the output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The layer's result array at the region's exit: the output window's write-backs folded over all the points. -/
theorem W4_out (c : Dev nD) : W4 m ρ c (Proc.devRef .tc main_v79) = (dat1 (V3 m ρ) c).arrAt 3 cfg1.N :=
  W4_arr m ρ c 3
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b

/-- At region 2's exit: its arrays at what the pipeline leaves (the inputs as entered, the output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The layer's result array at the region's exit: the output window's write-backs folded over all the points. -/
theorem W6_out (c : Dev nD) : W6 m ρ c (Proc.devRef .tc main_v227) = (dat2 (V5 m ρ) c).arrAt 3 cfg2.N :=
  W6_arr m ρ c 3
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (the return). -/
abbrev W7 : Dev nD → Valuation τ sig (Elt F) := fun c => StableHlo.after hostOps3 (W6 m ρ c)

/-! ## What each stretch writes, and what it therefore leaves -/

/-- The references `hostOps0`'s operations write: each operation's result. -/
abbrev hostOps0_W : List (Ref sig .tc) := [main_v0, main_v1, main_v2, main_v3, main_c, main_v4, main_v5, main_c_0, main_v6, main_v7, main_v8, main_v9, main_v10, main_cst, main_v11, main_v12, main_v13, main_v14, main_v15, main_v16, main_v17, main_c_1, main_v18, main_v19, main_c_2, main_v20, main_v21, main_v22, main_v23, main_v24, main_cst_3, main_v25, main_v26, main_v27, main_v28, main_v29, main_v30, main_v31, main_v32, main_v33, main_cst_4, main_v34, main_v35, main_cst_5, main_v36, main_v37]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps1`'s operations write: each operation's result. -/
abbrev hostOps1_W : List (Ref sig .tc) := [main_v39, main_v40, main_v41, main_v42, main_c_6, main_v43, main_v44, main_c_7, main_v45, main_v46, main_v47, main_v48, main_v49, main_cst_8, main_v50, main_v51, main_v52, main_v53, main_v54, main_v55, main_v56, main_c_9, main_v57, main_v58, main_c_10, main_v59, main_v60, main_v61, main_v62, main_v63, main_cst_11, main_v64, main_v65, main_v66, main_v67, main_v68, main_v69, main_v70, main_v71, main_v72, main_cst_12, main_v73, main_v74, main_v75, main_cst_13, main_v76, main_v77, main_v78]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps2`'s operations write: each operation's result. -/
abbrev hostOps2_W : List (Ref sig .tc) := [main_v80, main_v81, main_v82, main_v83, main_c_14, main_v84, main_v85, main_c_15, main_v86, main_v87, main_v88, main_v89, main_v90, main_cst_16, main_v91, main_v92, main_v93, main_v94, main_v95, main_v96, main_v97, main_c_17, main_v98, main_v99, main_c_18, main_v100, main_v101, main_v102, main_v103, main_v104, main_cst_19, main_v105, main_v106, main_v107, main_v108, main_v109, main_v110, main_v111, main_c_20, main_v112, main_v113, main_c_21, main_v114, main_v115, main_v116, main_v117, main_v118, main_cst_22, main_v119, main_v120, main_v121, main_cst_23, main_v122, main_cst_24, main_v123, main_v124, main_v125, main_cst_25, main_v126, main_v127, main_v128, main_v129, main_v130, main_v131, main_v132, main_v133, main_v134, main_c_26, main_v135, main_v136, main_c_27, main_v137, main_v138, main_v139, main_v140, main_v141, main_cst_28, main_v142, main_v143, main_v144, main_cst_29, main_v145, main_cst_30, main_v146, main_v147, main_v148, main_cst_31, main_v149, main_v150, main_v151, main_v152, main_v153, main_v154, main_v155, main_v156, main_v157, main_c_32, main_v158, main_v159, main_c_33, main_v160, main_v161, main_v162, main_v163, main_v164, main_cst_34, main_v165, main_v166, main_v167, main_v168, main_v169, main_v170, main_v171, main_c_35, main_v172, main_v173, main_c_36, main_v174, main_v175, main_v176, main_v177, main_v178, main_cst_37, main_v179, main_v180, main_v181, main_v182, main_v183, main_v184, main_v185, main_c_38, main_v186, main_v187, main_c_39, main_v188, main_v189, main_v190, main_v191, main_v192, main_cst_40, main_v193, main_v194, main_v195, main_cst_41, main_v196, main_cst_42, main_v197, main_v198, main_v199, main_cst_43, main_v200, main_v201, main_v202, main_v203, main_v204, main_v205, main_v206, main_v207, main_v208, main_v209, main_v210, main_v211, main_v212, main_v213, main_v214, main_v215, main_v216, main_v217, main_v218, main_v219, main_v220, main_cst_44, main_v221, main_v222, main_v223, main_cst_45, main_v224, main_v225, main_v226]
set_option maxHeartbeats 4000000 in
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The references `hostOps3`'s operations write: each operation's result. -/
abbrev hostOps3_W : List (Ref sig .tc) := [main_cst_46, main_v228, main_v229]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- A stretch leaves every buffer none of its operations writes. -/
theorem W1_of (c : Dev nD) (r : Ref sig .tc) (h : r ∉ (hostOps0_W : List (Ref sig .tc))) : W1 m ρ c (Proc.devRef .tc r) = W0 m ρ c (Proc.devRef .tc r) :=
  StableHlo.after_of_writes_sub hostOps0 _ hostOps0_writes h
theorem W3_of (c : Dev nD) (r : Ref sig .tc) (h : r ∉ (hostOps1_W : List (Ref sig .tc))) : W3 m ρ c (Proc.devRef .tc r) = W2 m ρ c (Proc.devRef .tc r) :=
  StableHlo.after_of_writes_sub hostOps1 _ hostOps1_writes h
theorem W5_of (c : Dev nD) (r : Ref sig .tc) (h : r ∉ (hostOps2_W : List (Ref sig .tc))) : W5 m ρ c (Proc.devRef .tc r) = W4 m ρ c (Proc.devRef .tc r) :=
  StableHlo.after_of_writes_sub hostOps2 _ hostOps2_writes h
theorem W7_of (c : Dev nD) (r : Ref sig .tc) (h : r ∉ (hostOps3_W : List (Ref sig .tc))) : W7 m ρ c (Proc.devRef .tc r) = W6 m ρ c (Proc.devRef .tc r) :=
  StableHlo.after_of_writes_sub hostOps3 _ hostOps3_writes h

/-! ## The arguments are as launched at every boundary -/

/-- The argument arrays of @main. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

/-- No stretch writes an argument array, -/
theorem arg_not_written0 : ∀ r ∈ (argRefs : List (Ref sig .tc)), r ∉ (hostOps0_W : List (Ref sig .tc)) := by decide
theorem arg_not_written1 : ∀ r ∈ (argRefs : List (Ref sig .tc)), r ∉ (hostOps1_W : List (Ref sig .tc)) := by decide
theorem arg_not_written2 : ∀ r ∈ (argRefs : List (Ref sig .tc)), r ∉ (hostOps2_W : List (Ref sig .tc)) := by decide
theorem arg_not_written3 : ∀ r ∈ (argRefs : List (Ref sig .tc)), r ∉ (hostOps3_W : List (Ref sig .tc)) := by decide
/-- and no layer's window is over one. -/
theorem arg_not_arr0 : ∀ r ∈ (argRefs : List (Ref sig .tc)), ∀ w, Pipeline.arrRef spec0 w ≠ r := by decide
theorem arg_not_arr1 : ∀ r ∈ (argRefs : List (Ref sig .tc)), ∀ w, Pipeline.arrRef spec1 w ≠ r := by decide
theorem arg_not_arr2 : ∀ r ∈ (argRefs : List (Ref sig .tc)), ∀ w, Pipeline.arrRef spec2 w ≠ r := by decide

section Arg
variable (c : Dev nD) (b : Ref sig .tc) (hb : b ∈ (argRefs : List (Ref sig .tc)))
include hb
/-- An argument array at each boundary holds what it held at launch: boundary by boundary, a stretch does not write
    it and a layer's exit differs from its entry at the layer's arrays only. -/
theorem W1_arg : W1 m ρ c (Proc.devRef .tc b) = m ((c : Thread nD τ).loc b) := (W1_of m ρ c b (arg_not_written0 b hb)).trans rfl
theorem W2_arg : W2 m ρ c (Proc.devRef .tc b) = m ((c : Thread nD τ).loc b) := (W2_of_ne m ρ c b (arg_not_arr0 b hb)).trans (W1_arg m ρ c b hb)
theorem W3_arg : W3 m ρ c (Proc.devRef .tc b) = m ((c : Thread nD τ).loc b) := (W3_of m ρ c b (arg_not_written1 b hb)).trans (W2_arg m ρ c b hb)
theorem W4_arg : W4 m ρ c (Proc.devRef .tc b) = m ((c : Thread nD τ).loc b) := (W4_of_ne m ρ c b (arg_not_arr1 b hb)).trans (W3_arg m ρ c b hb)
theorem W5_arg : W5 m ρ c (Proc.devRef .tc b) = m ((c : Thread nD τ).loc b) := (W5_of m ρ c b (arg_not_written2 b hb)).trans (W4_arg m ρ c b hb)
theorem W6_arg : W6 m ρ c (Proc.devRef .tc b) = m ((c : Thread nD τ).loc b) := (W6_of_ne m ρ c b (arg_not_arr2 b hb)).trans (W5_arg m ρ c b hb)
theorem W7_arg : W7 m ρ c (Proc.devRef .tc b) = m ((c : Thread nD τ).loc b) := (W7_of m ρ c b (arg_not_written3 b hb)).trans (W6_arg m ρ c b hb)
end Arg

/-! ### Argument by argument -/

theorem main_arg0_mem : main_arg0 ∈ (argRefs : List (Ref sig .tc)) := by decide
theorem main_arg1_mem : main_arg1 ∈ (argRefs : List (Ref sig .tc)) := by decide
theorem main_arg2_mem : main_arg2 ∈ (argRefs : List (Ref sig .tc)) := by decide
theorem main_arg3_mem : main_arg3 ∈ (argRefs : List (Ref sig .tc)) := by decide
theorem main_arg4_mem : main_arg4 ∈ (argRefs : List (Ref sig .tc)) := by decide
theorem main_arg5_mem : main_arg5 ∈ (argRefs : List (Ref sig .tc)) := by decide
theorem main_arg6_mem : main_arg6 ∈ (argRefs : List (Ref sig .tc)) := by decide
theorem main_arg7_mem : main_arg7 ∈ (argRefs : List (Ref sig .tc)) := by decide
theorem main_arg8_mem : main_arg8 ∈ (argRefs : List (Ref sig .tc)) := by decide
theorem main_arg9_mem : main_arg9 ∈ (argRefs : List (Ref sig .tc)) := by decide
theorem main_arg10_mem : main_arg10 ∈ (argRefs : List (Ref sig .tc)) := by decide
theorem main_arg11_mem : main_arg11 ∈ (argRefs : List (Ref sig .tc)) := by decide
theorem main_arg12_mem : main_arg12 ∈ (argRefs : List (Ref sig .tc)) := by decide
theorem main_arg13_mem : main_arg13 ∈ (argRefs : List (Ref sig .tc)) := by decide
theorem main_arg14_mem : main_arg14 ∈ (argRefs : List (Ref sig .tc)) := by decide
theorem main_arg15_mem : main_arg15 ∈ (argRefs : List (Ref sig .tc)) := by decide
theorem main_arg16_mem : main_arg16 ∈ (argRefs : List (Ref sig .tc)) := by decide
theorem main_arg17_mem : main_arg17 ∈ (argRefs : List (Ref sig .tc)) := by decide
theorem main_arg18_mem : main_arg18 ∈ (argRefs : List (Ref sig .tc)) := by decide
theorem main_arg19_mem : main_arg19 ∈ (argRefs : List (Ref sig .tc)) := by decide
theorem main_arg20_mem : main_arg20 ∈ (argRefs : List (Ref sig .tc)) := by decide
theorem main_arg21_mem : main_arg21 ∈ (argRefs : List (Ref sig .tc)) := by decide
theorem main_arg22_mem : main_arg22 ∈ (argRefs : List (Ref sig .tc)) := by decide

theorem W2_main_arg0 (c : Dev nD) : W2 m ρ c (Proc.devRef .tc main_arg0) = m ((c : Thread nD τ).loc main_arg0) := W2_arg m ρ c main_arg0 main_arg0_mem
theorem W2_main_arg1 (c : Dev nD) : W2 m ρ c (Proc.devRef .tc main_arg1) = m ((c : Thread nD τ).loc main_arg1) := W2_arg m ρ c main_arg1 main_arg1_mem
theorem W2_main_arg2 (c : Dev nD) : W2 m ρ c (Proc.devRef .tc main_arg2) = m ((c : Thread nD τ).loc main_arg2) := W2_arg m ρ c main_arg2 main_arg2_mem
theorem W2_main_arg3 (c : Dev nD) : W2 m ρ c (Proc.devRef .tc main_arg3) = m ((c : Thread nD τ).loc main_arg3) := W2_arg m ρ c main_arg3 main_arg3_mem
theorem W2_main_arg4 (c : Dev nD) : W2 m ρ c (Proc.devRef .tc main_arg4) = m ((c : Thread nD τ).loc main_arg4) := W2_arg m ρ c main_arg4 main_arg4_mem
theorem W2_main_arg5 (c : Dev nD) : W2 m ρ c (Proc.devRef .tc main_arg5) = m ((c : Thread nD τ).loc main_arg5) := W2_arg m ρ c main_arg5 main_arg5_mem
theorem W2_main_arg6 (c : Dev nD) : W2 m ρ c (Proc.devRef .tc main_arg6) = m ((c : Thread nD τ).loc main_arg6) := W2_arg m ρ c main_arg6 main_arg6_mem
theorem W2_main_arg7 (c : Dev nD) : W2 m ρ c (Proc.devRef .tc main_arg7) = m ((c : Thread nD τ).loc main_arg7) := W2_arg m ρ c main_arg7 main_arg7_mem
theorem W2_main_arg8 (c : Dev nD) : W2 m ρ c (Proc.devRef .tc main_arg8) = m ((c : Thread nD τ).loc main_arg8) := W2_arg m ρ c main_arg8 main_arg8_mem
theorem W2_main_arg9 (c : Dev nD) : W2 m ρ c (Proc.devRef .tc main_arg9) = m ((c : Thread nD τ).loc main_arg9) := W2_arg m ρ c main_arg9 main_arg9_mem
theorem W2_main_arg10 (c : Dev nD) : W2 m ρ c (Proc.devRef .tc main_arg10) = m ((c : Thread nD τ).loc main_arg10) := W2_arg m ρ c main_arg10 main_arg10_mem
theorem W2_main_arg11 (c : Dev nD) : W2 m ρ c (Proc.devRef .tc main_arg11) = m ((c : Thread nD τ).loc main_arg11) := W2_arg m ρ c main_arg11 main_arg11_mem
theorem W2_main_arg12 (c : Dev nD) : W2 m ρ c (Proc.devRef .tc main_arg12) = m ((c : Thread nD τ).loc main_arg12) := W2_arg m ρ c main_arg12 main_arg12_mem
theorem W2_main_arg13 (c : Dev nD) : W2 m ρ c (Proc.devRef .tc main_arg13) = m ((c : Thread nD τ).loc main_arg13) := W2_arg m ρ c main_arg13 main_arg13_mem
theorem W2_main_arg14 (c : Dev nD) : W2 m ρ c (Proc.devRef .tc main_arg14) = m ((c : Thread nD τ).loc main_arg14) := W2_arg m ρ c main_arg14 main_arg14_mem
theorem W2_main_arg15 (c : Dev nD) : W2 m ρ c (Proc.devRef .tc main_arg15) = m ((c : Thread nD τ).loc main_arg15) := W2_arg m ρ c main_arg15 main_arg15_mem
theorem W2_main_arg16 (c : Dev nD) : W2 m ρ c (Proc.devRef .tc main_arg16) = m ((c : Thread nD τ).loc main_arg16) := W2_arg m ρ c main_arg16 main_arg16_mem
theorem W2_main_arg17 (c : Dev nD) : W2 m ρ c (Proc.devRef .tc main_arg17) = m ((c : Thread nD τ).loc main_arg17) := W2_arg m ρ c main_arg17 main_arg17_mem
theorem W2_main_arg18 (c : Dev nD) : W2 m ρ c (Proc.devRef .tc main_arg18) = m ((c : Thread nD τ).loc main_arg18) := W2_arg m ρ c main_arg18 main_arg18_mem
theorem W2_main_arg19 (c : Dev nD) : W2 m ρ c (Proc.devRef .tc main_arg19) = m ((c : Thread nD τ).loc main_arg19) := W2_arg m ρ c main_arg19 main_arg19_mem
theorem W2_main_arg20 (c : Dev nD) : W2 m ρ c (Proc.devRef .tc main_arg20) = m ((c : Thread nD τ).loc main_arg20) := W2_arg m ρ c main_arg20 main_arg20_mem
theorem W2_main_arg21 (c : Dev nD) : W2 m ρ c (Proc.devRef .tc main_arg21) = m ((c : Thread nD τ).loc main_arg21) := W2_arg m ρ c main_arg21 main_arg21_mem
theorem W2_main_arg22 (c : Dev nD) : W2 m ρ c (Proc.devRef .tc main_arg22) = m ((c : Thread nD τ).loc main_arg22) := W2_arg m ρ c main_arg22 main_arg22_mem

theorem W4_main_arg0 (c : Dev nD) : W4 m ρ c (Proc.devRef .tc main_arg0) = m ((c : Thread nD τ).loc main_arg0) := W4_arg m ρ c main_arg0 main_arg0_mem
theorem W4_main_arg1 (c : Dev nD) : W4 m ρ c (Proc.devRef .tc main_arg1) = m ((c : Thread nD τ).loc main_arg1) := W4_arg m ρ c main_arg1 main_arg1_mem
theorem W4_main_arg2 (c : Dev nD) : W4 m ρ c (Proc.devRef .tc main_arg2) = m ((c : Thread nD τ).loc main_arg2) := W4_arg m ρ c main_arg2 main_arg2_mem
theorem W4_main_arg3 (c : Dev nD) : W4 m ρ c (Proc.devRef .tc main_arg3) = m ((c : Thread nD τ).loc main_arg3) := W4_arg m ρ c main_arg3 main_arg3_mem
theorem W4_main_arg4 (c : Dev nD) : W4 m ρ c (Proc.devRef .tc main_arg4) = m ((c : Thread nD τ).loc main_arg4) := W4_arg m ρ c main_arg4 main_arg4_mem
theorem W4_main_arg5 (c : Dev nD) : W4 m ρ c (Proc.devRef .tc main_arg5) = m ((c : Thread nD τ).loc main_arg5) := W4_arg m ρ c main_arg5 main_arg5_mem
theorem W4_main_arg6 (c : Dev nD) : W4 m ρ c (Proc.devRef .tc main_arg6) = m ((c : Thread nD τ).loc main_arg6) := W4_arg m ρ c main_arg6 main_arg6_mem
theorem W4_main_arg7 (c : Dev nD) : W4 m ρ c (Proc.devRef .tc main_arg7) = m ((c : Thread nD τ).loc main_arg7) := W4_arg m ρ c main_arg7 main_arg7_mem
theorem W4_main_arg8 (c : Dev nD) : W4 m ρ c (Proc.devRef .tc main_arg8) = m ((c : Thread nD τ).loc main_arg8) := W4_arg m ρ c main_arg8 main_arg8_mem
theorem W4_main_arg9 (c : Dev nD) : W4 m ρ c (Proc.devRef .tc main_arg9) = m ((c : Thread nD τ).loc main_arg9) := W4_arg m ρ c main_arg9 main_arg9_mem
theorem W4_main_arg10 (c : Dev nD) : W4 m ρ c (Proc.devRef .tc main_arg10) = m ((c : Thread nD τ).loc main_arg10) := W4_arg m ρ c main_arg10 main_arg10_mem
theorem W4_main_arg11 (c : Dev nD) : W4 m ρ c (Proc.devRef .tc main_arg11) = m ((c : Thread nD τ).loc main_arg11) := W4_arg m ρ c main_arg11 main_arg11_mem
theorem W4_main_arg12 (c : Dev nD) : W4 m ρ c (Proc.devRef .tc main_arg12) = m ((c : Thread nD τ).loc main_arg12) := W4_arg m ρ c main_arg12 main_arg12_mem
theorem W4_main_arg13 (c : Dev nD) : W4 m ρ c (Proc.devRef .tc main_arg13) = m ((c : Thread nD τ).loc main_arg13) := W4_arg m ρ c main_arg13 main_arg13_mem
theorem W4_main_arg14 (c : Dev nD) : W4 m ρ c (Proc.devRef .tc main_arg14) = m ((c : Thread nD τ).loc main_arg14) := W4_arg m ρ c main_arg14 main_arg14_mem
theorem W4_main_arg15 (c : Dev nD) : W4 m ρ c (Proc.devRef .tc main_arg15) = m ((c : Thread nD τ).loc main_arg15) := W4_arg m ρ c main_arg15 main_arg15_mem
theorem W4_main_arg16 (c : Dev nD) : W4 m ρ c (Proc.devRef .tc main_arg16) = m ((c : Thread nD τ).loc main_arg16) := W4_arg m ρ c main_arg16 main_arg16_mem
theorem W4_main_arg17 (c : Dev nD) : W4 m ρ c (Proc.devRef .tc main_arg17) = m ((c : Thread nD τ).loc main_arg17) := W4_arg m ρ c main_arg17 main_arg17_mem
theorem W4_main_arg18 (c : Dev nD) : W4 m ρ c (Proc.devRef .tc main_arg18) = m ((c : Thread nD τ).loc main_arg18) := W4_arg m ρ c main_arg18 main_arg18_mem
theorem W4_main_arg19 (c : Dev nD) : W4 m ρ c (Proc.devRef .tc main_arg19) = m ((c : Thread nD τ).loc main_arg19) := W4_arg m ρ c main_arg19 main_arg19_mem
theorem W4_main_arg20 (c : Dev nD) : W4 m ρ c (Proc.devRef .tc main_arg20) = m ((c : Thread nD τ).loc main_arg20) := W4_arg m ρ c main_arg20 main_arg20_mem
theorem W4_main_arg21 (c : Dev nD) : W4 m ρ c (Proc.devRef .tc main_arg21) = m ((c : Thread nD τ).loc main_arg21) := W4_arg m ρ c main_arg21 main_arg21_mem
theorem W4_main_arg22 (c : Dev nD) : W4 m ρ c (Proc.devRef .tc main_arg22) = m ((c : Thread nD τ).loc main_arg22) := W4_arg m ρ c main_arg22 main_arg22_mem

theorem W6_main_arg0 (c : Dev nD) : W6 m ρ c (Proc.devRef .tc main_arg0) = m ((c : Thread nD τ).loc main_arg0) := W6_arg m ρ c main_arg0 main_arg0_mem
theorem W6_main_arg1 (c : Dev nD) : W6 m ρ c (Proc.devRef .tc main_arg1) = m ((c : Thread nD τ).loc main_arg1) := W6_arg m ρ c main_arg1 main_arg1_mem
theorem W6_main_arg2 (c : Dev nD) : W6 m ρ c (Proc.devRef .tc main_arg2) = m ((c : Thread nD τ).loc main_arg2) := W6_arg m ρ c main_arg2 main_arg2_mem
theorem W6_main_arg3 (c : Dev nD) : W6 m ρ c (Proc.devRef .tc main_arg3) = m ((c : Thread nD τ).loc main_arg3) := W6_arg m ρ c main_arg3 main_arg3_mem
theorem W6_main_arg4 (c : Dev nD) : W6 m ρ c (Proc.devRef .tc main_arg4) = m ((c : Thread nD τ).loc main_arg4) := W6_arg m ρ c main_arg4 main_arg4_mem
theorem W6_main_arg5 (c : Dev nD) : W6 m ρ c (Proc.devRef .tc main_arg5) = m ((c : Thread nD τ).loc main_arg5) := W6_arg m ρ c main_arg5 main_arg5_mem
theorem W6_main_arg6 (c : Dev nD) : W6 m ρ c (Proc.devRef .tc main_arg6) = m ((c : Thread nD τ).loc main_arg6) := W6_arg m ρ c main_arg6 main_arg6_mem
theorem W6_main_arg7 (c : Dev nD) : W6 m ρ c (Proc.devRef .tc main_arg7) = m ((c : Thread nD τ).loc main_arg7) := W6_arg m ρ c main_arg7 main_arg7_mem
theorem W6_main_arg8 (c : Dev nD) : W6 m ρ c (Proc.devRef .tc main_arg8) = m ((c : Thread nD τ).loc main_arg8) := W6_arg m ρ c main_arg8 main_arg8_mem
theorem W6_main_arg9 (c : Dev nD) : W6 m ρ c (Proc.devRef .tc main_arg9) = m ((c : Thread nD τ).loc main_arg9) := W6_arg m ρ c main_arg9 main_arg9_mem
theorem W6_main_arg10 (c : Dev nD) : W6 m ρ c (Proc.devRef .tc main_arg10) = m ((c : Thread nD τ).loc main_arg10) := W6_arg m ρ c main_arg10 main_arg10_mem
theorem W6_main_arg11 (c : Dev nD) : W6 m ρ c (Proc.devRef .tc main_arg11) = m ((c : Thread nD τ).loc main_arg11) := W6_arg m ρ c main_arg11 main_arg11_mem
theorem W6_main_arg12 (c : Dev nD) : W6 m ρ c (Proc.devRef .tc main_arg12) = m ((c : Thread nD τ).loc main_arg12) := W6_arg m ρ c main_arg12 main_arg12_mem
theorem W6_main_arg13 (c : Dev nD) : W6 m ρ c (Proc.devRef .tc main_arg13) = m ((c : Thread nD τ).loc main_arg13) := W6_arg m ρ c main_arg13 main_arg13_mem
theorem W6_main_arg14 (c : Dev nD) : W6 m ρ c (Proc.devRef .tc main_arg14) = m ((c : Thread nD τ).loc main_arg14) := W6_arg m ρ c main_arg14 main_arg14_mem
theorem W6_main_arg15 (c : Dev nD) : W6 m ρ c (Proc.devRef .tc main_arg15) = m ((c : Thread nD τ).loc main_arg15) := W6_arg m ρ c main_arg15 main_arg15_mem
theorem W6_main_arg16 (c : Dev nD) : W6 m ρ c (Proc.devRef .tc main_arg16) = m ((c : Thread nD τ).loc main_arg16) := W6_arg m ρ c main_arg16 main_arg16_mem
theorem W6_main_arg17 (c : Dev nD) : W6 m ρ c (Proc.devRef .tc main_arg17) = m ((c : Thread nD τ).loc main_arg17) := W6_arg m ρ c main_arg17 main_arg17_mem
theorem W6_main_arg18 (c : Dev nD) : W6 m ρ c (Proc.devRef .tc main_arg18) = m ((c : Thread nD τ).loc main_arg18) := W6_arg m ρ c main_arg18 main_arg18_mem
theorem W6_main_arg19 (c : Dev nD) : W6 m ρ c (Proc.devRef .tc main_arg19) = m ((c : Thread nD τ).loc main_arg19) := W6_arg m ρ c main_arg19 main_arg19_mem
theorem W6_main_arg20 (c : Dev nD) : W6 m ρ c (Proc.devRef .tc main_arg20) = m ((c : Thread nD τ).loc main_arg20) := W6_arg m ρ c main_arg20 main_arg20_mem
theorem W6_main_arg21 (c : Dev nD) : W6 m ρ c (Proc.devRef .tc main_arg21) = m ((c : Thread nD τ).loc main_arg21) := W6_arg m ρ c main_arg21 main_arg21_mem
theorem W6_main_arg22 (c : Dev nD) : W6 m ρ c (Proc.devRef .tc main_arg22) = m ((c : Thread nD τ).loc main_arg22) := W6_arg m ρ c main_arg22 main_arg22_mem

theorem W7_main_arg0 (c : Dev nD) : W7 m ρ c (Proc.devRef .tc main_arg0) = m ((c : Thread nD τ).loc main_arg0) := W7_arg m ρ c main_arg0 main_arg0_mem
theorem W7_main_arg1 (c : Dev nD) : W7 m ρ c (Proc.devRef .tc main_arg1) = m ((c : Thread nD τ).loc main_arg1) := W7_arg m ρ c main_arg1 main_arg1_mem
theorem W7_main_arg2 (c : Dev nD) : W7 m ρ c (Proc.devRef .tc main_arg2) = m ((c : Thread nD τ).loc main_arg2) := W7_arg m ρ c main_arg2 main_arg2_mem
theorem W7_main_arg3 (c : Dev nD) : W7 m ρ c (Proc.devRef .tc main_arg3) = m ((c : Thread nD τ).loc main_arg3) := W7_arg m ρ c main_arg3 main_arg3_mem
theorem W7_main_arg4 (c : Dev nD) : W7 m ρ c (Proc.devRef .tc main_arg4) = m ((c : Thread nD τ).loc main_arg4) := W7_arg m ρ c main_arg4 main_arg4_mem
theorem W7_main_arg5 (c : Dev nD) : W7 m ρ c (Proc.devRef .tc main_arg5) = m ((c : Thread nD τ).loc main_arg5) := W7_arg m ρ c main_arg5 main_arg5_mem
theorem W7_main_arg6 (c : Dev nD) : W7 m ρ c (Proc.devRef .tc main_arg6) = m ((c : Thread nD τ).loc main_arg6) := W7_arg m ρ c main_arg6 main_arg6_mem
theorem W7_main_arg7 (c : Dev nD) : W7 m ρ c (Proc.devRef .tc main_arg7) = m ((c : Thread nD τ).loc main_arg7) := W7_arg m ρ c main_arg7 main_arg7_mem
theorem W7_main_arg8 (c : Dev nD) : W7 m ρ c (Proc.devRef .tc main_arg8) = m ((c : Thread nD τ).loc main_arg8) := W7_arg m ρ c main_arg8 main_arg8_mem
theorem W7_main_arg9 (c : Dev nD) : W7 m ρ c (Proc.devRef .tc main_arg9) = m ((c : Thread nD τ).loc main_arg9) := W7_arg m ρ c main_arg9 main_arg9_mem
theorem W7_main_arg10 (c : Dev nD) : W7 m ρ c (Proc.devRef .tc main_arg10) = m ((c : Thread nD τ).loc main_arg10) := W7_arg m ρ c main_arg10 main_arg10_mem
theorem W7_main_arg11 (c : Dev nD) : W7 m ρ c (Proc.devRef .tc main_arg11) = m ((c : Thread nD τ).loc main_arg11) := W7_arg m ρ c main_arg11 main_arg11_mem
theorem W7_main_arg12 (c : Dev nD) : W7 m ρ c (Proc.devRef .tc main_arg12) = m ((c : Thread nD τ).loc main_arg12) := W7_arg m ρ c main_arg12 main_arg12_mem
theorem W7_main_arg13 (c : Dev nD) : W7 m ρ c (Proc.devRef .tc main_arg13) = m ((c : Thread nD τ).loc main_arg13) := W7_arg m ρ c main_arg13 main_arg13_mem
theorem W7_main_arg14 (c : Dev nD) : W7 m ρ c (Proc.devRef .tc main_arg14) = m ((c : Thread nD τ).loc main_arg14) := W7_arg m ρ c main_arg14 main_arg14_mem
theorem W7_main_arg15 (c : Dev nD) : W7 m ρ c (Proc.devRef .tc main_arg15) = m ((c : Thread nD τ).loc main_arg15) := W7_arg m ρ c main_arg15 main_arg15_mem
theorem W7_main_arg16 (c : Dev nD) : W7 m ρ c (Proc.devRef .tc main_arg16) = m ((c : Thread nD τ).loc main_arg16) := W7_arg m ρ c main_arg16 main_arg16_mem
theorem W7_main_arg17 (c : Dev nD) : W7 m ρ c (Proc.devRef .tc main_arg17) = m ((c : Thread nD τ).loc main_arg17) := W7_arg m ρ c main_arg17 main_arg17_mem
theorem W7_main_arg18 (c : Dev nD) : W7 m ρ c (Proc.devRef .tc main_arg18) = m ((c : Thread nD τ).loc main_arg18) := W7_arg m ρ c main_arg18 main_arg18_mem
theorem W7_main_arg19 (c : Dev nD) : W7 m ρ c (Proc.devRef .tc main_arg19) = m ((c : Thread nD τ).loc main_arg19) := W7_arg m ρ c main_arg19 main_arg19_mem
theorem W7_main_arg20 (c : Dev nD) : W7 m ρ c (Proc.devRef .tc main_arg20) = m ((c : Thread nD τ).loc main_arg20) := W7_arg m ρ c main_arg20 main_arg20_mem
theorem W7_main_arg21 (c : Dev nD) : W7 m ρ c (Proc.devRef .tc main_arg21) = m ((c : Thread nD τ).loc main_arg21) := W7_arg m ρ c main_arg21 main_arg21_mem
theorem W7_main_arg22 (c : Dev nD) : W7 m ρ c (Proc.devRef .tc main_arg22) = m ((c : Thread nD τ).loc main_arg22) := W7_arg m ρ c main_arg22 main_arg22_mem

end Cert.KernelIdeal.Fr

end
-- ==== Proof.KI.Run.lean ====
import proofs.«147223_j52493090291996_1_alg».proof.Proof.KI.Fold

/-! # The run of @main: seven segments from the launch to the return

The four host stretches and the three dense layers as segments over one thread state — every unscoped buffer at
the boundary's contents (`W0` … `W7`), the generator register at some state, nothing owed. The run ends with every
unscoped buffer at `W7` (`run_main`); the argument arrays, which nothing writes, are there as launched (`frame`). -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
set_option maxHeartbeats 4000000 in
/-- No operation of `hostOps2` allocates a buffer. -/
theorem hostOps2_fresh : (hostOps2 : List (HloOp τ sig (Elt F))).Forall fun op => op.fresh = ∅ := by
  simp only [List.Forall]; repeat' constructor
/-- No operation of `hostOps3` allocates a buffer. -/
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W7`, the
    generator register at some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (the dense layer `cc0__linear_kernel`) over the thread state: entered from every unscoped buffer at
    `W1`, left at `W2`. Its arrays are split out of the unscoped buffers and put back at the exit contents; the
    generator register goes into the class invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (the dense layer `cc1__linear_kernel`) over the thread state: entered from every unscoped buffer at
    `W3`, left at `W4`. Its arrays are split out of the unscoped buffers and put back at the exit contents; the
    generator register goes into the class invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (the dense layer `cc2__linear_kernel`) over the thread state: entered from every unscoped buffer at
    `W5`, left at `W6`. Its arrays are split out of the unscoped buffers and put back at the exit contents; the
    generator register goes into the class invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last host stretch as a segment. Its end state is `Tₙ` beside the core owing nothing, which is the stretch's
    own end state with the two riders regrouped. -/
abbrev hsegLast : Pipeline.HostSeg (Name := ℕ) (U := UR sig nD τ) (pcfgs (F := F)) defs₀ 𝒱₀ L lv :=
  hseg hostOps3 hostOps3_sub hostOps3_fresh (W6 m ρ)

/-- @main's 7 segments in order: a host segment per stretch from its boundary's contents, a region per layer. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hsegLast m ρ) ]
/-- @main IS the run of the segments: `main_chain`, then the segments' run against that chain by the kernel's
    definitional check. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN, at any post `Q` that follows from every core's unscoped buffers being at `W7`: at the compiled mesh, from
    any memory with zero counters, every weakly fair execution of @main on the TensorCores terminates, nothing
    faulting, and every final state satisfies `Q`. -/
theorem run_main_of {Q : PUnit × MemSt nD τ sig (Elt F) → Prop}
    (hQ : ∀ s : MemSt nD τ sig (Elt F), (∀ c : Dev nD, ∀ b ∈ Pipeline.ucRefs τ sig, s.mem (((c : Thread nD τ)).1, b) = W7 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => show iprop(StableHlo.held (c : Thread nD τ) (Pipeline.ucRefs τ sig) (W7 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := hQ)

/-- THE RUN: every final state has every unscoped buffer of every core at the last boundary's contents `W7`. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W7 m ρ c b) :=
  run_main_of m ρ (fun s h c b hb => h c b hb)

/-- THE FRAME at any `F`: every final state has the argument arrays as launched — each is an unscoped buffer, at
    `W7` by the run, and `W7` at an argument is the launch memory (`W7_main_argK`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c),
     (h c _ (mem_uc main_arg14 (by decide))).trans (W7_main_arg14 m ρ c),
     (h c _ (mem_uc main_arg15 (by decide))).trans (W7_main_arg15 m ρ c),
     (h c _ (mem_uc main_arg16 (by decide))).trans (W7_main_arg16 m ρ c),
     (h c _ (mem_uc main_arg17 (by decide))).trans (W7_main_arg17 m ρ c),
     (h c _ (mem_uc main_arg18 (by decide))).trans (W7_main_arg18 m ρ c),
     (h c _ (mem_uc main_arg19 (by decide))).trans (W7_main_arg19 m ρ c),
     (h c _ (mem_uc main_arg20 (by decide))).trans (W7_main_arg20 m ρ c),
     (h c _ (mem_uc main_arg21 (by decide))).trans (W7_main_arg21 m ρ c),
     (h c _ (mem_uc main_arg22 (by decide))).trans (W7_main_arg22 m ρ c)⟩) (run_main m ρ)

/-- THE RESULT beside the frame: every final state has the result array `main_v229` at the last boundary's contents
    `W7` and the argument arrays as launched. -/
theorem run_result : θ_run defs (onTc (τ := τ) (main (F := F))) ⟨m, fun _ => 0, ρ⟩ (fun r => ∀ c : Dev nD,
      r.2.mem ((c.tc : Thread nD τ).loc main_v229) = W7 m ρ c (Proc.devRef .tc main_v229)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c =>
    ⟨h c _ (mem_uc main_v229 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c),
     (h c _ (mem_uc main_arg14 (by decide))).trans (W7_main_arg14 m ρ c),
     (h c _ (mem_uc main_arg15 (by decide))).trans (W7_main_arg15 m ρ c),
     (h c _ (mem_uc main_arg16 (by decide))).trans (W7_main_arg16 m ρ c),
     (h c _ (mem_uc main_arg17 (by decide))).trans (W7_main_arg17 m ρ c),
     (h c _ (mem_uc main_arg18 (by decide))).trans (W7_main_arg18 m ρ c),
     (h c _ (mem_uc main_arg19 (by decide))).trans (W7_main_arg19 m ρ c),
     (h c _ (mem_uc main_arg20 (by decide))).trans (W7_main_arg20 m ρ c),
     (h c _ (mem_uc main_arg21 (by decide))).trans (W7_main_arg21 m ρ c),
     (h c _ (mem_uc main_arg22 (by decide))).trans (W7_main_arg22 m ρ c)⟩) (run_main m ρ)

end Cert.KernelIdeal.Fr

end
-- ==== Proof.RefChunks.Win.lean ====
/-
  The reference program's @main as ONE straight line of 391 array operations.

  The program is printed in seven windows that @main runs in order; each window is the straight line of its own operations,
  and the line of the whole program is the seven lines one after the other. A function the program calls (the maximum with
  zero, three times) contributes its own three operations at the place of the call.
-/
import proofs.«147223_j52493090291996_1_alg».proof.Proof.Gen.ReferenceIdeal
import Idealize.ShloMosaic.Lib.StableHlo.Run

noncomputable section

namespace Cert.ReferenceIdeal.Chunks

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 0 in
/-- The operations of @main's window 0: operations 0 to 59 of the line (a called function's operations stand in its call's place). -/
abbrev opsW0 : List (HloOp τ sig (Elt F)) :=
  [ nullary main_cst (constant S_ .f32 0x00000000#32),
    unary main_cst main_v0 (broadcastInDim S100000x16 ![] bcast_S_S100000x16 : (⟨S_, .f32⟩ : BufTy).Contents (Elt F) → (⟨S100000x16, .f32⟩ : BufTy).Contents (Elt F)),
    unary main_arg14 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    unary main_arg14 main_v3 ((extractStridedSlice S1x800000 ![1, 0] · slices_S2x800000_S1x800000_1_0) : (⟨S2x800000, .i32⟩ : BufTy).Contents (Elt F) → (⟨S1x800000, .i32⟩ : BufTy).Contents (Elt F)),
    reshape main_v3 main_v4 rfl shapeCasts_S1x800000_S800000,
    nullary main_c (constantI S_ 32 0#32),
    unary main_c main_v5 (broadcastInDim S800000 ![] bcast_S_S800000 : (⟨S_, .i32⟩ : BufTy).Contents (Elt F) → (⟨S800000, .i32⟩ : BufTy).Contents (Elt F)),
    binary main_v2 main_v5 main_v6 (cmpi .slt : (⟨S800000, .i32⟩ : BufTy).Contents (Elt F) → (⟨S800000, .i32⟩ : BufTy).Contents (Elt F) → (⟨S800000, .i1⟩ : BufTy).Contents (Elt F)),
    nullary main_c_0 (constantI S_ 32 100000#32),
    unary main_c_0 main_v7 (broadcastInDim S800000 ![] bcast_S_S800000 : (⟨S_, .i32⟩ : BufTy).Contents (Elt F) → (⟨S800000, .i32⟩ : BufTy).Contents (Elt F)),
    binary main_v2 main_v7 main_v8 (addi : (⟨S800000, .i32⟩ : BufTy).Contents (Elt F) → (⟨S800000, .i32⟩ : BufTy).Contents (Elt F) → (⟨S800000, .i32⟩ : BufTy).Contents (Elt F)),
    ternary main_v6 main_v8 main_v2 main_v9 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v9 main_v10 (broadcastInDim S800000x1 ![0] bcast_S800000_S800000x1_0 : (⟨S800000, .i32⟩ : BufTy).Contents (Elt F) → (⟨S800000x1, .i32⟩ : BufTy).Contents (Elt F)),
    binary main_arg0 main_v10 main_v11 ((fun x i => Host.gather gather_S100000x6_S800000x1_S800000x6_1_0_n_n_0_1_16 x i) : (⟨S100000x6, .f32⟩ : BufTy).Contents (Elt F) → (⟨S800000x1, .i32⟩ : BufTy).Contents (Elt F) → (⟨S800000x6, .f32⟩ : BufTy).Contents (Elt F)),
    nullary main_cst_1 (constant S_ .f32 0x00000000#32),
    unary main_cst_1 main_v12 (broadcastInDim S100000x6 ![] bcast_S_S100000x6 : (⟨S_, .f32⟩ : BufTy).Contents (Elt F) → (⟨S100000x6, .f32⟩ : BufTy).Contents (Elt F)),
    unary main_v4 main_v13 (broadcastInDim S800000x1 ![0] bcast_S800000_S800000x1_0 : (⟨S800000, .i32⟩ : BufTy).Contents (Elt F) → (⟨S800000x1, .i32⟩ : BufTy).Contents (Elt F)),
    ternary main_v12 main_v13 main_v11 main_v14 ((fun x i u => Host.scatterAdd scatter_S100000x6_S800000x1_S800000x6_1_0_0_1 x i u) : (⟨S100000x6, .f32⟩ : BufTy).Contents (Elt F) → (⟨S800000x1, .i32⟩ : BufTy).Contents (Elt F) → (⟨S800000x6, .f32⟩ : BufTy).Contents (Elt F) → (⟨S100000x6, .f32⟩ : BufTy).Contents (Elt F)),
    unary main_arg1 main_v15 ((extractStridedSlice S1x6x16 ![0, 0, 0] · slices_S2x6x16_S1x6x16_0_0_0) : (⟨S2x6x16, .f32⟩ : BufTy).Contents (Elt F) → (⟨S1x6x16, .f32⟩ : BufTy).Contents (Elt F)),
    reshape main_v15 main_v16 rfl shapeCasts_S1x6x16_S6x16,
    binary main_v14 main_v16 main_v17 ((fun l r => Host.dotGeneral dot_S100000x6_S6x16_S100000x16_1_0_0_1_n_n none l r) : (⟨S100000x6, .f32⟩ : BufTy).Contents (Elt F) → (⟨S6x16, .f32⟩ : BufTy).Contents (Elt F) → (⟨S100000x16, .f32⟩ : BufTy).Contents (Elt F)),
    binary main_v0 main_v17 main_v18 (addf : (⟨S100000x16, .f32⟩ : BufTy).Contents (Elt F) → (⟨S100000x16, .f32⟩ : BufTy).Contents (Elt F) → (⟨S100000x16, .f32⟩ : BufTy).Contents (Elt F)),
    unary main_arg2 main_v19 ((extractStridedSlice S1x6x16 ![0, 0, 0] · slices_S2x6x16_S1x6x16_0_0_0) : (⟨S2x6x16, .f32⟩ : BufTy).Contents (Elt F) → (⟨S1x6x16, .f32⟩ : BufTy).Contents (Elt F)),
    reshape main_v19 main_v20 rfl shapeCasts_S1x6x16_S6x16,
    binary main_arg0 main_v20 main_v21 ((fun l r => Host.dotGeneral dot_S100000x6_S6x16_S100000x16_1_0_0_1_n_n none l r) : (⟨S100000x6, .f32⟩ : BufTy).Contents (Elt F) → (⟨S6x16, .f32⟩ : BufTy).Contents (Elt F) → (⟨S100000x16, .f32⟩ : BufTy).Contents (Elt F)),
    binary main_v18 main_v21 main_v22 (addf : (⟨S100000x16, .f32⟩ : BufTy).Contents (Elt F) → (⟨S100000x16, .f32⟩ : BufTy).Contents (Elt F) → (⟨S100000x16, .f32⟩ : BufTy).Contents (Elt F)),
    unary main_arg3 main_v23 ((extractStridedSlice S1x16 ![0, 0] · slices_S2x16_S1x16_0_0) : (⟨S2x16, .f32⟩ : BufTy).Contents (Elt F) → (⟨S1x16, .f32⟩ : BufTy).Contents (Elt F)),
    reshape main_v23 main_v24 rfl shapeCasts_S1x16_S16,
    unary main_v24 main_v25 (broadcastInDim S1x16 ![1] bcast_S16_S1x16_1 : (⟨S16, .f32⟩ : BufTy).Contents (Elt F) → (⟨S1x16, .f32⟩ : BufTy).Contents (Elt F)),
    unary main_v25 main_v26 (broadcastInDim S100000x16 ![0, 1] bcast_S1x16_S100000x16_0_1 : (⟨S1x16, .f32⟩ : BufTy).Contents (Elt F) → (⟨S100000x16, .f32⟩ : BufTy).Contents (Elt F)),
    binary main_v22 main_v26 main_v27 (addf : (⟨S100000x16, .f32⟩ : BufTy).Contents (Elt F) → (⟨S100000x16, .f32⟩ : BufTy).Contents (Elt F) → (⟨S100000x16, .f32⟩ : BufTy).Contents (Elt F)),
    unary main_arg15 main_v28 ((extractStridedSlice S1x800000 ![0, 0] · slices_S2x800000_S1x800000_0_0) : (⟨S2x800000, .i32⟩ : BufTy).Contents (Elt F) → (⟨S1x800000, .i32⟩ : BufTy).Contents (Elt F)),
    reshape main_v28 main_v29 rfl shapeCasts_S1x800000_S800000,
    unary main_arg15 main_v30 ((extractStridedSlice S1x800000 ![1, 0] · slices_S2x800000_S1x800000_1_0) : (⟨S2x800000, .i32⟩ : BufTy).Contents (Elt F) → (⟨S1x800000, .i32⟩ : BufTy).Contents (Elt F)),
    reshape main_v30 main_v31 rfl shapeCasts_S1x800000_S800000,
    nullary main_c_2 (constantI S_ 32 0#32),
    unary main_c_2 main_v32 (broadcastInDim S800000 ![] bcast_S_S800000 : (⟨S_, .i32⟩ : BufTy).Contents (Elt F) → (⟨S800000, .i32⟩ : BufTy).Contents (Elt F)),
    binary main_v29 main_v32 main_v33 (cmpi .slt : (⟨S800000, .i32⟩ : BufTy).Contents (Elt F) → (⟨S800000, .i32⟩ : BufTy).Contents (Elt F) → (⟨S800000, .i1⟩ : BufTy).Contents (Elt F)),
    nullary main_c_3 (constantI S_ 32 100000#32),
    unary main_c_3 main_v34 (broadcastInDim S800000 ![] bcast_S_S800000 : (⟨S_, .i32⟩ : BufTy).Contents (Elt F) → (⟨S800000, .i32⟩ : BufTy).Contents (Elt F)),
    binary main_v29 main_v34 main_v35 (addi : (⟨S800000, .i32⟩ : BufTy).Contents (Elt F) → (⟨S800000, .i32⟩ : BufTy).Contents (Elt F) → (⟨S800000, .i32⟩ : BufTy).Contents (Elt F)),
    ternary main_v33 main_v35 main_v29 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v36 main_v37 (broadcastInDim S800000x1 ![0] bcast_S800000_S800000x1_0 : (⟨S800000, .i32⟩ : BufTy).Contents (Elt F) → (⟨S800000x1, .i32⟩ : BufTy).Contents (Elt F)),
    binary main_arg0 main_v37 main_v38 ((fun x i => Host.gather gather_S100000x6_S800000x1_S800000x6_1_0_n_n_0_1_16 x i) : (⟨S100000x6, .f32⟩ : BufTy).Contents (Elt F) → (⟨S800000x1, .i32⟩ : BufTy).Contents (Elt F) → (⟨S800000x6, .f32⟩ : BufTy).Contents (Elt F)),
    nullary main_cst_4 (constant S_ .f32 0x00000000#32),
    unary main_cst_4 main_v39 (broadcastInDim S100000x6 ![] bcast_S_S100000x6 : (⟨S_, .f32⟩ : BufTy).Contents (Elt F) → (⟨S100000x6, .f32⟩ : BufTy).Contents (Elt F)),
    unary main_v31 main_v40 (broadcastInDim S800000x1 ![0] bcast_S800000_S800000x1_0 : (⟨S800000, .i32⟩ : BufTy).Contents (Elt F) → (⟨S800000x1, .i32⟩ : BufTy).Contents (Elt F)),
    ternary main_v39 main_v40 main_v38 main_v41 ((fun x i u => Host.scatterAdd scatter_S100000x6_S800000x1_S800000x6_1_0_0_1 x i u) : (⟨S100000x6, .f32⟩ : BufTy).Contents (Elt F) → (⟨S800000x1, .i32⟩ : BufTy).Contents (Elt F) → (⟨S800000x6, .f32⟩ : BufTy).Contents (Elt F) → (⟨S100000x6, .f32⟩ : BufTy).Contents (Elt F)),
    unary main_arg1 main_v42 ((extractStridedSlice S1x6x16 ![1, 0, 0] · slices_S2x6x16_S1x6x16_1_0_0) : (⟨S2x6x16, .f32⟩ : BufTy).Contents (Elt F) → (⟨S1x6x16, .f32⟩ : BufTy).Contents (Elt F)),
    reshape main_v42 main_v43 rfl shapeCasts_S1x6x16_S6x16,
    binary main_v41 main_v43 main_v44 ((fun l r => Host.dotGeneral dot_S100000x6_S6x16_S100000x16_1_0_0_1_n_n none l r) : (⟨S100000x6, .f32⟩ : BufTy).Contents (Elt F) → (⟨S6x16, .f32⟩ : BufTy).Contents (Elt F) → (⟨S100000x16, .f32⟩ : BufTy).Contents (Elt F)),
    binary main_v27 main_v44 main_v45 (addf : (⟨S100000x16, .f32⟩ : BufTy).Contents (Elt F) → (⟨S100000x16, .f32⟩ : BufTy).Contents (Elt F) → (⟨S100000x16, .f32⟩ : BufTy).Contents (Elt F)),
    unary main_arg2 main_v46 ((extractStridedSlice S1x6x16 ![1, 0, 0] · slices_S2x6x16_S1x6x16_1_0_0) : (⟨S2x6x16, .f32⟩ : BufTy).Contents (Elt F) → (⟨S1x6x16, .f32⟩ : BufTy).Contents (Elt F)),
    reshape main_v46 main_v47 rfl shapeCasts_S1x6x16_S6x16,
    binary main_arg0 main_v47 main_v48 ((fun l r => Host.dotGeneral dot_S100000x6_S6x16_S100000x16_1_0_0_1_n_n none l r) : (⟨S100000x6, .f32⟩ : BufTy).Contents (Elt F) → (⟨S6x16, .f32⟩ : BufTy).Contents (Elt F) → (⟨S100000x16, .f32⟩ : BufTy).Contents (Elt F)),
    binary main_v45 main_v48 main_v49 (addf : (⟨S100000x16, .f32⟩ : BufTy).Contents (Elt F) → (⟨S100000x16, .f32⟩ : BufTy).Contents (Elt F) → (⟨S100000x16, .f32⟩ : BufTy).Contents (Elt F)),
    unary main_arg3 main_v50 ((extractStridedSlice S1x16 ![1, 0] · slices_S2x16_S1x16_1_0) : (⟨S2x16, .f32⟩ : BufTy).Contents (Elt F) → (⟨S1x16, .f32⟩ : BufTy).Contents (Elt F)),
    reshape main_v50 main_v51 rfl shapeCasts_S1x16_S16,
    unary main_v51 main_v52 (broadcastInDim S1x16 ![1] bcast_S16_S1x16_1 : (⟨S16, .f32⟩ : BufTy).Contents (Elt F) → (⟨S1x16, .f32⟩ : BufTy).Contents (Elt F)) ]

set_option maxRecDepth 8192 in
set_option maxHeartbeats 4000000 in
/-- Window 0 of @main is the straight line of its operations. -/
theorem part0_eq (c : Dev nD) : main_part0 (F := F) c = seq opsW0 := rfl

set_option maxRecDepth 8192 in
/-- Every operation of window 0 touches buffers of the core's own references only. -/
theorem opsW0_sub : (opsW0 : List (HloOp τ sig (Elt F))).Forall fun op => op.bufs ⊆ tcRefs τ sig :=
  ⟨nullary_bufs_sub .., unary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., reshape_bufs_sub .., binary_bufs_sub .., binary_bufs_sub .., unary_bufs_sub .., reshape_bufs_sub .., unary_bufs_sub ..⟩

set_option maxHeartbeats 0 in
/-- The operations of @main's window 1: operations 60 to 119 of the line (a called function's operations stand in its call's place). -/
abbrev opsW1 : List (HloOp τ sig (Elt F)) :=
  [ unary main_v52 main_v53 (broadcastInDim S100000x16 ![0, 1] bcast_S1x16_S100000x16_0_1 : (⟨S1x16, .f32⟩ : BufTy).Contents (Elt F) → (⟨S100000x16, .f32⟩ : BufTy).Contents (Elt F)),
    binary main_v49 main_v53 main_v54 (addf : (⟨S100000x16, .f32⟩ : BufTy).Contents (Elt F) → (⟨S100000x16, .f32⟩ : BufTy).Contents (Elt F) → (⟨S100000x16, .f32⟩ : BufTy).Contents (Elt F)),
    nullary main_cst_5 (constant S_ .f32 0x00000000#32),
    unary main_cst_5 main_v55 (broadcastInDim S100000x32 ![] bcast_S_S100000x32 : (⟨S_, .f32⟩ : BufTy).Contents (Elt F) → (⟨S100000x32, .f32⟩ : BufTy).Contents (Elt F)),
    unary main_arg14 main_v56 ((extractStridedSlice S1x800000 ![0, 0] · slices_S2x800000_S1x800000_0_0) : (⟨S2x800000, .i32⟩ : BufTy).Contents (Elt F) → (⟨S1x800000, .i32⟩ : BufTy).Contents (Elt F)),
    reshape main_v56 main_v57 rfl shapeCasts_S1x800000_S800000,
    unary main_arg14 main_v58 ((extractStridedSlice S1x800000 ![1, 0] · slices_S2x800000_S1x800000_1_0) : (⟨S2x800000, .i32⟩ : BufTy).Contents (Elt F) → (⟨S1x800000, .i32⟩ : BufTy).Contents (Elt F)),
    reshape main_v58 main_v59 rfl shapeCasts_S1x800000_S800000,
    nullary main_c_6 (constantI S_ 32 0#32),
    unary main_c_6 main_v60 (broadcastInDim S800000 ![] bcast_S_S800000 : (⟨S_, .i32⟩ : BufTy).Contents (Elt F) → (⟨S800000, .i32⟩ : BufTy).Contents (Elt F)),
    binary main_v57 main_v60 main_v61 (cmpi .slt : (⟨S800000, .i32⟩ : BufTy).Contents (Elt F) → (⟨S800000, .i32⟩ : BufTy).Contents (Elt F) → (⟨S800000, .i1⟩ : BufTy).Contents (Elt F)),
    nullary main_c_7 (constantI S_ 32 100000#32),
    unary main_c_7 main_v62 (broadcastInDim S800000 ![] bcast_S_S800000 : (⟨S_, .i32⟩ : BufTy).Contents (Elt F) → (⟨S800000, .i32⟩ : BufTy).Contents (Elt F)),
    binary main_v57 main_v62 main_v63 (addi : (⟨S800000, .i32⟩ : BufTy).Contents (Elt F) → (⟨S800000, .i32⟩ : BufTy).Contents (Elt F) → (⟨S800000, .i32⟩ : BufTy).Contents (Elt F)),
    ternary main_v61 main_v63 main_v57 main_v64 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v64 main_v65 (broadcastInDim S800000x1 ![0] bcast_S800000_S800000x1_0 : (⟨S800000, .i32⟩ : BufTy).Contents (Elt F) → (⟨S800000x1, .i32⟩ : BufTy).Contents (Elt F)),
    binary main_v54 main_v65 main_v66 ((fun x i => Host.gather gather_S100000x16_S800000x1_S800000x16_1_0_n_n_0_1_116 x i) : (⟨S100000x16, .f32⟩ : BufTy).Contents (Elt F) → (⟨S800000x1, .i32⟩ : BufTy).Contents (Elt F) → (⟨S800000x16, .f32⟩ : BufTy).Contents (Elt F)),
    nullary main_cst_8 (constant S_ .f32 0x00000000#32),
    unary main_cst_8 main_v67 (broadcastInDim S100000x16 ![] bcast_S_S100000x16 : (⟨S_, .f32⟩ : BufTy).Contents (Elt F) → (⟨S100000x16, .f32⟩ : BufTy).Contents (Elt F)),
    unary main_v59 main_v68 (broadcastInDim S800000x1 ![0] bcast_S800000_S800000x1_0 : (⟨S800000, .i32⟩ : BufTy).Contents (Elt F) → (⟨S800000x1, .i32⟩ : BufTy).Contents (Elt F)),
    ternary main_v67 main_v68 main_v66 main_v69 ((fun x i u => Host.scatterAdd scatter_S100000x16_S800000x1_S800000x16_1_0_0_1 x i u) : (⟨S100000x16, .f32⟩ : BufTy).Contents (Elt F) → (⟨S800000x1, .i32⟩ : BufTy).Contents (Elt F) → (⟨S800000x16, .f32⟩ : BufTy).Contents (Elt F) → (⟨S100000x16, .f32⟩ : BufTy).Contents (Elt F)),
    unary main_arg4 main_v70 ((extractStridedSlice S1x16x32 ![0, 0, 0] · slices_S2x16x32_S1x16x32_0_0_0) : (⟨S2x16x32, .f32⟩ : BufTy).Contents (Elt F) → (⟨S1x16x32, .f32⟩ : BufTy).Contents (Elt F)),
    reshape main_v70 main_v71 rfl shapeCasts_S1x16x32_S16x32,
    binary main_v69 main_v71 main_v72 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    binary main_v55 main_v72 main_v73 (addf : (⟨S100000x32, .f32⟩ : BufTy).Contents (Elt F) → (⟨S100000x32, .f32⟩ : BufTy).Contents (Elt F) → (⟨S100000x32, .f32⟩ : BufTy).Contents (Elt F)),
    unary main_arg5 main_v74 ((extractStridedSlice S1x16x32 ![0, 0, 0] · slices_S2x16x32_S1x16x32_0_0_0) : (⟨S2x16x32, .f32⟩ : BufTy).Contents (Elt F) → (⟨S1x16x32, .f32⟩ : BufTy).Contents (Elt F)),
    reshape main_v74 main_v75 rfl shapeCasts_S1x16x32_S16x32,
    binary main_v54 main_v75 main_v76 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    binary main_v73 main_v76 main_v77 (addf : (⟨S100000x32, .f32⟩ : BufTy).Contents (Elt F) → (⟨S100000x32, .f32⟩ : BufTy).Contents (Elt F) → (⟨S100000x32, .f32⟩ : BufTy).Contents (Elt F)),
    unary main_arg6 main_v78 ((extractStridedSlice S1x32 ![0, 0] · slices_S2x32_S1x32_0_0) : (⟨S2x32, .f32⟩ : BufTy).Contents (Elt F) → (⟨S1x32, .f32⟩ : BufTy).Contents (Elt F)),
    reshape main_v78 main_v79 rfl shapeCasts_S1x32_S32,
    unary main_v79 main_v80 (broadcastInDim S1x32 ![1] bcast_S32_S1x32_1 : (⟨S32, .f32⟩ : BufTy).Contents (Elt F) → (⟨S1x32, .f32⟩ : BufTy).Contents (Elt F)),
    unary main_v80 main_v81 (broadcastInDim S100000x32 ![0, 1] bcast_S1x32_S100000x32_0_1 : (⟨S1x32, .f32⟩ : BufTy).Contents (Elt F) → (⟨S100000x32, .f32⟩ : BufTy).Contents (Elt F)),
    binary main_v77 main_v81 main_v82 (addf : (⟨S100000x32, .f32⟩ : BufTy).Contents (Elt F) → (⟨S100000x32, .f32⟩ : BufTy).Contents (Elt F) → (⟨S100000x32, .f32⟩ : BufTy).Contents (Elt F)),
    unary main_arg15 main_v83 ((extractStridedSlice S1x800000 ![0, 0] · slices_S2x800000_S1x800000_0_0) : (⟨S2x800000, .i32⟩ : BufTy).Contents (Elt F) → (⟨S1x800000, .i32⟩ : BufTy).Contents (Elt F)),
    reshape main_v83 main_v84 rfl shapeCasts_S1x800000_S800000,
    unary main_arg15 main_v85 ((extractStridedSlice S1x800000 ![1, 0] · slices_S2x800000_S1x800000_1_0) : (⟨S2x800000, .i32⟩ : BufTy).Contents (Elt F) → (⟨S1x800000, .i32⟩ : BufTy).Contents (Elt F)),
    reshape main_v85 main_v86 rfl shapeCasts_S1x800000_S800000,
    nullary main_c_9 (constantI S_ 32 0#32),
    unary main_c_9 main_v87 (broadcastInDim S800000 ![] bcast_S_S800000 : (⟨S_, .i32⟩ : BufTy).Contents (Elt F) → (⟨S800000, .i32⟩ : BufTy).Contents (Elt F)),
    binary main_v84 main_v87 main_v88 (cmpi .slt : (⟨S800000, .i32⟩ : BufTy).Contents (Elt F) → (⟨S800000, .i32⟩ : BufTy).Contents (Elt F) → (⟨S800000, .i1⟩ : BufTy).Contents (Elt F)),
    nullary main_c_10 (constantI S_ 32 100000#32),
    unary main_c_10 main_v89 (broadcastInDim S800000 ![] bcast_S_S800000 : (⟨S_, .i32⟩ : BufTy).Contents (Elt F) → (⟨S800000, .i32⟩ : BufTy).Contents (Elt F)),
    binary main_v84 main_v89 main_v90 (addi : (⟨S800000, .i32⟩ : BufTy).Contents (Elt F) → (⟨S800000, .i32⟩ : BufTy).Contents (Elt F) → (⟨S800000, .i32⟩ : BufTy).Contents (Elt F)),
    ternary main_v88 main_v90 main_v84 main_v91 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v91 main_v92 (broadcastInDim S800000x1 ![0] bcast_S800000_S800000x1_0 : (⟨S800000, .i32⟩ : BufTy).Contents (Elt F) → (⟨S800000x1, .i32⟩ : BufTy).Contents (Elt F)),
    binary main_v54 main_v92 main_v93 ((fun x i => Host.gather gather_S100000x16_S800000x1_S800000x16_1_0_n_n_0_1_116 x i) : (⟨S100000x16, .f32⟩ : BufTy).Contents (Elt F) → (⟨S800000x1, .i32⟩ : BufTy).Contents (Elt F) → (⟨S800000x16, .f32⟩ : BufTy).Contents (Elt F)),
    nullary main_cst_11 (constant S_ .f32 0x00000000#32),
    unary main_cst_11 main_v94 (broadcastInDim S100000x16 ![] bcast_S_S100000x16 : (⟨S_, .f32⟩ : BufTy).Contents (Elt F) → (⟨S100000x16, .f32⟩ : BufTy).Contents (Elt F)),
    unary main_v86 main_v95 (broadcastInDim S800000x1 ![0] bcast_S800000_S800000x1_0 : (⟨S800000, .i32⟩ : BufTy).Contents (Elt F) → (⟨S800000x1, .i32⟩ : BufTy).Contents (Elt F)),
    ternary main_v94 main_v95 main_v93 main_v96 ((fun x i u => Host.scatterAdd scatter_S100000x16_S800000x1_S800000x16_1_0_0_1 x i u) : (⟨S100000x16, .f32⟩ : BufTy).Contents (Elt F) → (⟨S800000x1, .i32⟩ : BufTy).Contents (Elt F) → (⟨S800000x16, .f32⟩ : BufTy).Contents (Elt F) → (⟨S100000x16, .f32⟩ : BufTy).Contents (Elt F)),
    unary main_arg4 main_v97 ((extractStridedSlice S1x16x32 ![1, 0, 0] · slices_S2x16x32_S1x16x32_1_0_0) : (⟨S2x16x32, .f32⟩ : BufTy).Contents (Elt F) → (⟨S1x16x32, .f32⟩ : BufTy).Contents (Elt F)),
    reshape main_v97 main_v98 rfl shapeCasts_S1x16x32_S16x32,
    binary main_v96 main_v98 main_v99 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    binary main_v82 main_v99 main_v100 (addf : (⟨S100000x32, .f32⟩ : BufTy).Contents (Elt F) → (⟨S100000x32, .f32⟩ : BufTy).Contents (Elt F) → (⟨S100000x32, .f32⟩ : BufTy).Contents (Elt F)),
    unary main_arg5 main_v101 ((extractStridedSlice S1x16x32 ![1, 0, 0] · slices_S2x16x32_S1x16x32_1_0_0) : (⟨S2x16x32, .f32⟩ : BufTy).Contents (Elt F) → (⟨S1x16x32, .f32⟩ : BufTy).Contents (Elt F)),
    reshape main_v101 main_v102 rfl shapeCasts_S1x16x32_S16x32,
    binary main_v54 main_v102 main_v103 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    binary main_v100 main_v103 main_v104 (addf : (⟨S100000x32, .f32⟩ : BufTy).Contents (Elt F) → (⟨S100000x32, .f32⟩ : BufTy).Contents (Elt F) → (⟨S100000x32, .f32⟩ : BufTy).Contents (Elt F)),
    unary main_arg6 main_v105 ((extractStridedSlice S1x32 ![1, 0] · slices_S2x32_S1x32_1_0) : (⟨S2x32, .f32⟩ : BufTy).Contents (Elt F) → (⟨S1x32, .f32⟩ : BufTy).Contents (Elt F)) ]

set_option maxRecDepth 8192 in
set_option maxHeartbeats 4000000 in
/-- Window 1 of @main is the straight line of its operations. -/
theorem part1_eq (c : Dev nD) : main_part1 (F := F) c = seq opsW1 := rfl

set_option maxRecDepth 8192 in
/-- Every operation of window 1 touches buffers of the core's own references only. -/
theorem opsW1_sub : (opsW1 : List (HloOp τ sig (Elt F))).Forall fun op => op.bufs ⊆ tcRefs τ sig :=
  ⟨unary_bufs_sub .., binary_bufs_sub .., nullary_bufs_sub .., unary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., reshape_bufs_sub .., binary_bufs_sub .., binary_bufs_sub .., unary_bufs_sub ..⟩

set_option maxHeartbeats 0 in
/-- The operations of @main's window 2: operations 120 to 181 of the line (a called function's operations stand in its call's place). -/
abbrev opsW2 : List (HloOp τ sig (Elt F)) :=
  [ reshape main_v105 main_v106 rfl shapeCasts_S1x32_S32,
    unary main_v106 main_v107 (broadcastInDim S1x32 ![1] bcast_S32_S1x32_1 : (⟨S32, .f32⟩ : BufTy).Contents (Elt F) → (⟨S1x32, .f32⟩ : BufTy).Contents (Elt F)),
    unary main_v107 main_v108 (broadcastInDim S100000x32 ![0, 1] bcast_S1x32_S100000x32_0_1 : (⟨S1x32, .f32⟩ : BufTy).Contents (Elt F) → (⟨S100000x32, .f32⟩ : BufTy).Contents (Elt F)),
    binary main_v104 main_v108 main_v109 (addf : (⟨S100000x32, .f32⟩ : BufTy).Contents (Elt F) → (⟨S100000x32, .f32⟩ : BufTy).Contents (Elt F) → (⟨S100000x32, .f32⟩ : BufTy).Contents (Elt F)),
    binary main_v54 main_arg7 main_v110 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    binary main_v109 main_v110 main_v111 (addf : (⟨S100000x32, .f32⟩ : BufTy).Contents (Elt F) → (⟨S100000x32, .f32⟩ : BufTy).Contents (Elt F) → (⟨S100000x32, .f32⟩ : BufTy).Contents (Elt F)),
    unary main_arg8 main_v112 (broadcastInDim S1x32 ![1] bcast_S32_S1x32_1 : (⟨S32, .f32⟩ : BufTy).Contents (Elt F) → (⟨S1x32, .f32⟩ : BufTy).Contents (Elt F)),
    unary main_v112 main_v113 (broadcastInDim S100000x32 ![0, 1] bcast_S1x32_S100000x32_0_1 : (⟨S1x32, .f32⟩ : BufTy).Contents (Elt F) → (⟨S100000x32, .f32⟩ : BufTy).Contents (Elt F)),
    binary main_v111 main_v113 main_v114 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x32, .f32⟩) main_call0_v0) (broadcastInDim S100000x32 ![] bcast_S_S100000x32),
    TRef.binary (TRef.of (T := ⟨S100000x32, .f32⟩) main_v114) (TRef.of (T := ⟨S100000x32, .f32⟩) main_call0_v0) (TRef.of (T := ⟨S100000x32, .f32⟩) main_v115) maximumf,
    nullary main_cst_12 (constant S_ .f32 0x00000000#32),
    unary main_cst_12 main_v116 (broadcastInDim S100000x64 ![] bcast_S_S100000x64 : (⟨S_, .f32⟩ : BufTy).Contents (Elt F) → (⟨S100000x64, .f32⟩ : BufTy).Contents (Elt F)),
    unary main_arg16 main_v117 ((extractStridedSlice S1x800000 ![0, 0] · slices_S2x800000_S1x800000_0_0) : (⟨S2x800000, .i32⟩ : BufTy).Contents (Elt F) → (⟨S1x800000, .i32⟩ : BufTy).Contents (Elt F)),
    reshape main_v117 main_v118 rfl shapeCasts_S1x800000_S800000,
    unary main_arg16 main_v119 ((extractStridedSlice S1x800000 ![1, 0] · slices_S2x800000_S1x800000_1_0) : (⟨S2x800000, .i32⟩ : BufTy).Contents (Elt F) → (⟨S1x800000, .i32⟩ : BufTy).Contents (Elt F)),
    reshape main_v119 main_v120 rfl shapeCasts_S1x800000_S800000,
    nullary main_c_13 (constantI S_ 32 0#32),
    unary main_c_13 main_v121 (broadcastInDim S800000 ![] bcast_S_S800000 : (⟨S_, .i32⟩ : BufTy).Contents (Elt F) → (⟨S800000, .i32⟩ : BufTy).Contents (Elt F)),
    binary main_v118 main_v121 main_v122 (cmpi .slt : (⟨S800000, .i32⟩ : BufTy).Contents (Elt F) → (⟨S800000, .i32⟩ : BufTy).Contents (Elt F) → (⟨S800000, .i1⟩ : BufTy).Contents (Elt F)),
    nullary main_c_14 (constantI S_ 32 100000#32),
    unary main_c_14 main_v123 (broadcastInDim S800000 ![] bcast_S_S800000 : (⟨S_, .i32⟩ : BufTy).Contents (Elt F) → (⟨S800000, .i32⟩ : BufTy).Contents (Elt F)),
    binary main_v118 main_v123 main_v124 (addi : (⟨S800000, .i32⟩ : BufTy).Contents (Elt F) → (⟨S800000, .i32⟩ : BufTy).Contents (Elt F) → (⟨S800000, .i32⟩ : BufTy).Contents (Elt F)),
    ternary main_v122 main_v124 main_v118 main_v125 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v125 main_v126 (broadcastInDim S800000x1 ![0] bcast_S800000_S800000x1_0 : (⟨S800000, .i32⟩ : BufTy).Contents (Elt F) → (⟨S800000x1, .i32⟩ : BufTy).Contents (Elt F)),
    binary main_v115 main_v126 main_v127 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    nullary main_cst_15 (constant S_ .f32 0x00000000#32),
    unary main_cst_15 main_v128 (broadcastInDim S100000x32 ![] bcast_S_S100000x32 : (⟨S_, .f32⟩ : BufTy).Contents (Elt F) → (⟨S100000x32, .f32⟩ : BufTy).Contents (Elt F)),
    unary main_v120 main_v129 (broadcastInDim S800000x1 ![0] bcast_S800000_S800000x1_0 : (⟨S800000, .i32⟩ : BufTy).Contents (Elt F) → (⟨S800000x1, .i32⟩ : BufTy).Contents (Elt F)),
    ternary main_v128 main_v129 main_v127 main_v130 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    unary main_arg9 main_v131 ((extractStridedSlice S1x32x64 ![0, 0, 0] · slices_S7x32x64_S1x32x64_0_0_0) : (⟨S7x32x64, .f32⟩ : BufTy).Contents (Elt F) → (⟨S1x32x64, .f32⟩ : BufTy).Contents (Elt F)),
    reshape main_v131 main_v132 rfl shapeCasts_S1x32x64_S32x64,
    binary main_v130 main_v132 main_v133 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v116 main_v133 main_v134 (addf : (⟨S100000x64, .f32⟩ : BufTy).Contents (Elt F) → (⟨S100000x64, .f32⟩ : BufTy).Contents (Elt F) → (⟨S100000x64, .f32⟩ : BufTy).Contents (Elt F)),
    unary main_arg10 main_v135 ((extractStridedSlice S1x32x64 ![0, 0, 0] · slices_S7x32x64_S1x32x64_0_0_0) : (⟨S7x32x64, .f32⟩ : BufTy).Contents (Elt F) → (⟨S1x32x64, .f32⟩ : BufTy).Contents (Elt F)),
    reshape main_v135 main_v136 rfl shapeCasts_S1x32x64_S32x64,
    binary main_v115 main_v136 main_v137 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v134 main_v137 main_v138 (addf : (⟨S100000x64, .f32⟩ : BufTy).Contents (Elt F) → (⟨S100000x64, .f32⟩ : BufTy).Contents (Elt F) → (⟨S100000x64, .f32⟩ : BufTy).Contents (Elt F)),
    unary main_arg11 main_v139 ((extractStridedSlice S1x64 ![0, 0] · slices_S7x64_S1x64_0_0) : (⟨S7x64, .f32⟩ : BufTy).Contents (Elt F) → (⟨S1x64, .f32⟩ : BufTy).Contents (Elt F)),
    reshape main_v139 main_v140 rfl shapeCasts_S1x64_S64,
    unary main_v140 main_v141 (broadcastInDim S1x64 ![1] bcast_S64_S1x64_1 : (⟨S64, .f32⟩ : BufTy).Contents (Elt F) → (⟨S1x64, .f32⟩ : BufTy).Contents (Elt F)),
    unary main_v141 main_v142 (broadcastInDim S100000x64 ![0, 1] bcast_S1x64_S100000x64_0_1 : (⟨S1x64, .f32⟩ : BufTy).Contents (Elt F) → (⟨S100000x64, .f32⟩ : BufTy).Contents (Elt F)),
    binary main_v138 main_v142 main_v143 (addf : (⟨S100000x64, .f32⟩ : BufTy).Contents (Elt F) → (⟨S100000x64, .f32⟩ : BufTy).Contents (Elt F) → (⟨S100000x64, .f32⟩ : BufTy).Contents (Elt F)),
    unary main_arg17 main_v144 ((extractStridedSlice S1x800000 ![0, 0] · slices_S2x800000_S1x800000_0_0) : (⟨S2x800000, .i32⟩ : BufTy).Contents (Elt F) → (⟨S1x800000, .i32⟩ : BufTy).Contents (Elt F)),
    reshape main_v144 main_v145 rfl shapeCasts_S1x800000_S800000,
    unary main_arg17 main_v146 ((extractStridedSlice S1x800000 ![1, 0] · slices_S2x800000_S1x800000_1_0) : (⟨S2x800000, .i32⟩ : BufTy).Contents (Elt F) → (⟨S1x800000, .i32⟩ : BufTy).Contents (Elt F)),
    reshape main_v146 main_v147 rfl shapeCasts_S1x800000_S800000,
    nullary main_c_16 (constantI S_ 32 0#32),
    unary main_c_16 main_v148 (broadcastInDim S800000 ![] bcast_S_S800000 : (⟨S_, .i32⟩ : BufTy).Contents (Elt F) → (⟨S800000, .i32⟩ : BufTy).Contents (Elt F)),
    binary main_v145 main_v148 main_v149 (cmpi .slt : (⟨S800000, .i32⟩ : BufTy).Contents (Elt F) → (⟨S800000, .i32⟩ : BufTy).Contents (Elt F) → (⟨S800000, .i1⟩ : BufTy).Contents (Elt F)),
    nullary main_c_17 (constantI S_ 32 100000#32),
    unary main_c_17 main_v150 (broadcastInDim S800000 ![] bcast_S_S800000 : (⟨S_, .i32⟩ : BufTy).Contents (Elt F) → (⟨S800000, .i32⟩ : BufTy).Contents (Elt F)),
    binary main_v145 main_v150 main_v151 (addi : (⟨S800000, .i32⟩ : BufTy).Contents (Elt F) → (⟨S800000, .i32⟩ : BufTy).Contents (Elt F) → (⟨S800000, .i32⟩ : BufTy).Contents (Elt F)),
    ternary main_v149 main_v151 main_v145 main_v152 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v152 main_v153 (broadcastInDim S800000x1 ![0] bcast_S800000_S800000x1_0 : (⟨S800000, .i32⟩ : BufTy).Contents (Elt F) → (⟨S800000x1, .i32⟩ : BufTy).Contents (Elt F)),
    binary main_v115 main_v153 main_v154 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    nullary main_cst_18 (constant S_ .f32 0x00000000#32),
    unary main_cst_18 main_v155 (broadcastInDim S100000x32 ![] bcast_S_S100000x32 : (⟨S_, .f32⟩ : BufTy).Contents (Elt F) → (⟨S100000x32, .f32⟩ : BufTy).Contents (Elt F)),
    unary main_v147 main_v156 (broadcastInDim S800000x1 ![0] bcast_S800000_S800000x1_0 : (⟨S800000, .i32⟩ : BufTy).Contents (Elt F) → (⟨S800000x1, .i32⟩ : BufTy).Contents (Elt F)),
    ternary main_v155 main_v156 main_v154 main_v157 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    unary main_arg9 main_v158 ((extractStridedSlice S1x32x64 ![1, 0, 0] · slices_S7x32x64_S1x32x64_1_0_0) : (⟨S7x32x64, .f32⟩ : BufTy).Contents (Elt F) → (⟨S1x32x64, .f32⟩ : BufTy).Contents (Elt F)) ]

set_option maxRecDepth 8192 in
set_option maxHeartbeats 4000000 in
/-- Window 2 of @main is the straight line of its operations. -/
theorem part2_eq (c : Dev nD) : main_part2 (F := F) c = seq opsW2 := rfl

set_option maxRecDepth 8192 in
/-- Every operation of window 2 touches buffers of the core's own references only. -/
theorem opsW2_sub : (opsW2 : List (HloOp τ sig (Elt F))).Forall fun op => op.bufs ⊆ tcRefs τ sig :=
  ⟨reshape_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub ..⟩

set_option maxHeartbeats 0 in
/-- The operations of @main's window 3: operations 182 to 241 of the line (a called function's operations stand in its call's place). -/
abbrev opsW3 : List (HloOp τ sig (Elt F)) :=
  [ reshape main_v158 main_v159 rfl shapeCasts_S1x32x64_S32x64,
    binary main_v157 main_v159 main_v160 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v143 main_v160 main_v161 (addf : (⟨S100000x64, .f32⟩ : BufTy).Contents (Elt F) → (⟨S100000x64, .f32⟩ : BufTy).Contents (Elt F) → (⟨S100000x64, .f32⟩ : BufTy).Contents (Elt F)),
    unary main_arg10 main_v162 ((extractStridedSlice S1x32x64 ![1, 0, 0] · slices_S7x32x64_S1x32x64_1_0_0) : (⟨S7x32x64, .f32⟩ : BufTy).Contents (Elt F) → (⟨S1x32x64, .f32⟩ : BufTy).Contents (Elt F)),
    reshape main_v162 main_v163 rfl shapeCasts_S1x32x64_S32x64,
    binary main_v115 main_v163 main_v164 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v161 main_v164 main_v165 (addf : (⟨S100000x64, .f32⟩ : BufTy).Contents (Elt F) → (⟨S100000x64, .f32⟩ : BufTy).Contents (Elt F) → (⟨S100000x64, .f32⟩ : BufTy).Contents (Elt F)),
    unary main_arg11 main_v166 ((extractStridedSlice S1x64 ![1, 0] · slices_S7x64_S1x64_1_0) : (⟨S7x64, .f32⟩ : BufTy).Contents (Elt F) → (⟨S1x64, .f32⟩ : BufTy).Contents (Elt F)),
    reshape main_v166 main_v167 rfl shapeCasts_S1x64_S64,
    unary main_v167 main_v168 (broadcastInDim S1x64 ![1] bcast_S64_S1x64_1 : (⟨S64, .f32⟩ : BufTy).Contents (Elt F) → (⟨S1x64, .f32⟩ : BufTy).Contents (Elt F)),
    unary main_v168 main_v169 (broadcastInDim S100000x64 ![0, 1] bcast_S1x64_S100000x64_0_1 : (⟨S1x64, .f32⟩ : BufTy).Contents (Elt F) → (⟨S100000x64, .f32⟩ : BufTy).Contents (Elt F)),
    binary main_v165 main_v169 main_v170 (addf : (⟨S100000x64, .f32⟩ : BufTy).Contents (Elt F) → (⟨S100000x64, .f32⟩ : BufTy).Contents (Elt F) → (⟨S100000x64, .f32⟩ : BufTy).Contents (Elt F)),
    unary main_arg18 main_v171 ((extractStridedSlice S1x800000 ![0, 0] · slices_S2x800000_S1x800000_0_0) : (⟨S2x800000, .i32⟩ : BufTy).Contents (Elt F) → (⟨S1x800000, .i32⟩ : BufTy).Contents (Elt F)),
    reshape main_v171 main_v172 rfl shapeCasts_S1x800000_S800000,
    unary main_arg18 main_v173 ((extractStridedSlice S1x800000 ![1, 0] · slices_S2x800000_S1x800000_1_0) : (⟨S2x800000, .i32⟩ : BufTy).Contents (Elt F) → (⟨S1x800000, .i32⟩ : BufTy).Contents (Elt F)),
    reshape main_v173 main_v174 rfl shapeCasts_S1x800000_S800000,
    nullary main_c_19 (constantI S_ 32 0#32),
    unary main_c_19 main_v175 (broadcastInDim S800000 ![] bcast_S_S800000 : (⟨S_, .i32⟩ : BufTy).Contents (Elt F) → (⟨S800000, .i32⟩ : BufTy).Contents (Elt F)),
    binary main_v172 main_v175 main_v176 (cmpi .slt : (⟨S800000, .i32⟩ : BufTy).Contents (Elt F) → (⟨S800000, .i32⟩ : BufTy).Contents (Elt F) → (⟨S800000, .i1⟩ : BufTy).Contents (Elt F)),
    nullary main_c_20 (constantI S_ 32 100000#32),
    unary main_c_20 main_v177 (broadcastInDim S800000 ![] bcast_S_S800000 : (⟨S_, .i32⟩ : BufTy).Contents (Elt F) → (⟨S800000, .i32⟩ : BufTy).Contents (Elt F)),
    binary main_v172 main_v177 main_v178 (addi : (⟨S800000, .i32⟩ : BufTy).Contents (Elt F) → (⟨S800000, .i32⟩ : BufTy).Contents (Elt F) → (⟨S800000, .i32⟩ : BufTy).Contents (Elt F)),
    ternary main_v176 main_v178 main_v172 main_v179 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v179 main_v180 (broadcastInDim S800000x1 ![0] bcast_S800000_S800000x1_0 : (⟨S800000, .i32⟩ : BufTy).Contents (Elt F) → (⟨S800000x1, .i32⟩ : BufTy).Contents (Elt F)),
    binary main_v115 main_v180 main_v181 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    nullary main_cst_21 (constant S_ .f32 0x00000000#32),
    unary main_cst_21 main_v182 (broadcastInDim S100000x32 ![] bcast_S_S100000x32 : (⟨S_, .f32⟩ : BufTy).Contents (Elt F) → (⟨S100000x32, .f32⟩ : BufTy).Contents (Elt F)),
    unary main_v174 main_v183 (broadcastInDim S800000x1 ![0] bcast_S800000_S800000x1_0 : (⟨S800000, .i32⟩ : BufTy).Contents (Elt F) → (⟨S800000x1, .i32⟩ : BufTy).Contents (Elt F)),
    ternary main_v182 main_v183 main_v181 main_v184 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    nullary main_cst_22 (constant S_ .f32 0x3F800000#32),
    unary main_cst_22 main_v185 (broadcastInDim S800000 ![] bcast_S_S800000 : (⟨S_, .f32⟩ : BufTy).Contents (Elt F) → (⟨S800000, .f32⟩ : BufTy).Contents (Elt F)),
    nullary main_cst_23 (constant S_ .f32 0x00000000#32),
    unary main_cst_23 main_v186 (broadcastInDim S100000 ![] bcast_S_S100000 : (⟨S_, .f32⟩ : BufTy).Contents (Elt F) → (⟨S100000, .f32⟩ : BufTy).Contents (Elt F)),
    unary main_v174 main_v187 (broadcastInDim S800000x1 ![0] bcast_S800000_S800000x1_0 : (⟨S800000, .i32⟩ : BufTy).Contents (Elt F) → (⟨S800000x1, .i32⟩ : BufTy).Contents (Elt F)),
    ternary main_v186 main_v187 main_v185 main_v188 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_24 (constant S_ .f32 0x3F800000#32),
    unary main_cst_24 main_v189 (broadcastInDim S100000 ![] bcast_S_S100000 : (⟨S_, .f32⟩ : BufTy).Contents (Elt F) → (⟨S100000, .f32⟩ : BufTy).Contents (Elt F)),
    binary main_v188 main_v189 main_v190 (maximumf : (⟨S100000, .f32⟩ : BufTy).Contents (Elt F) → (⟨S100000, .f32⟩ : BufTy).Contents (Elt F) → (⟨S100000, .f32⟩ : BufTy).Contents (Elt F)),
    unary main_v190 main_v191 (broadcastInDim S100000x1 ![0] bcast_S100000_S100000x1_0 : (⟨S100000, .f32⟩ : BufTy).Contents (Elt F) → (⟨S100000x1, .f32⟩ : BufTy).Contents (Elt F)),
    unary main_v191 main_v192 (broadcastInDim S100000x32 ![0, 1] bcast_S100000x1_S100000x32_0_1 : (⟨S100000x1, .f32⟩ : BufTy).Contents (Elt F) → (⟨S100000x32, .f32⟩ : BufTy).Contents (Elt F)),
    binary main_v184 main_v192 main_v193 (Host.divf : (⟨S100000x32, .f32⟩ : BufTy).Contents (Elt F) → (⟨S100000x32, .f32⟩ : BufTy).Contents (Elt F) → (⟨S100000x32, .f32⟩ : BufTy).Contents (Elt F)),
    unary main_arg9 main_v194 ((extractStridedSlice S1x32x64 ![2, 0, 0] · slices_S7x32x64_S1x32x64_2_0_0) : (⟨S7x32x64, .f32⟩ : BufTy).Contents (Elt F) → (⟨S1x32x64, .f32⟩ : BufTy).Contents (Elt F)),
    reshape main_v194 main_v195 rfl shapeCasts_S1x32x64_S32x64,
    binary main_v193 main_v195 main_v196 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v170 main_v196 main_v197 (addf : (⟨S100000x64, .f32⟩ : BufTy).Contents (Elt F) → (⟨S100000x64, .f32⟩ : BufTy).Contents (Elt F) → (⟨S100000x64, .f32⟩ : BufTy).Contents (Elt F)),
    unary main_arg10 main_v198 ((extractStridedSlice S1x32x64 ![2, 0, 0] · slices_S7x32x64_S1x32x64_2_0_0) : (⟨S7x32x64, .f32⟩ : BufTy).Contents (Elt F) → (⟨S1x32x64, .f32⟩ : BufTy).Contents (Elt F)),
    reshape main_v198 main_v199 rfl shapeCasts_S1x32x64_S32x64,
    binary main_v115 main_v199 main_v200 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v197 main_v200 main_v201 (addf : (⟨S100000x64, .f32⟩ : BufTy).Contents (Elt F) → (⟨S100000x64, .f32⟩ : BufTy).Contents (Elt F) → (⟨S100000x64, .f32⟩ : BufTy).Contents (Elt F)),
    unary main_arg11 main_v202 ((extractStridedSlice S1x64 ![2, 0] · slices_S7x64_S1x64_2_0) : (⟨S7x64, .f32⟩ : BufTy).Contents (Elt F) → (⟨S1x64, .f32⟩ : BufTy).Contents (Elt F)),
    reshape main_v202 main_v203 rfl shapeCasts_S1x64_S64,
    unary main_v203 main_v204 (broadcastInDim S1x64 ![1] bcast_S64_S1x64_1 : (⟨S64, .f32⟩ : BufTy).Contents (Elt F) → (⟨S1x64, .f32⟩ : BufTy).Contents (Elt F)),
    unary main_v204 main_v205 (broadcastInDim S100000x64 ![0, 1] bcast_S1x64_S100000x64_0_1 : (⟨S1x64, .f32⟩ : BufTy).Contents (Elt F) → (⟨S100000x64, .f32⟩ : BufTy).Contents (Elt F)),
    binary main_v201 main_v205 main_v206 (addf : (⟨S100000x64, .f32⟩ : BufTy).Contents (Elt F) → (⟨S100000x64, .f32⟩ : BufTy).Contents (Elt F) → (⟨S100000x64, .f32⟩ : BufTy).Contents (Elt F)),
    unary main_arg19 main_v207 ((extractStridedSlice S1x800000 ![0, 0] · slices_S2x800000_S1x800000_0_0) : (⟨S2x800000, .i32⟩ : BufTy).Contents (Elt F) → (⟨S1x800000, .i32⟩ : BufTy).Contents (Elt F)),
    reshape main_v207 main_v208 rfl shapeCasts_S1x800000_S800000,
    unary main_arg19 main_v209 ((extractStridedSlice S1x800000 ![1, 0] · slices_S2x800000_S1x800000_1_0) : (⟨S2x800000, .i32⟩ : BufTy).Contents (Elt F) → (⟨S1x800000, .i32⟩ : BufTy).Contents (Elt F)),
    reshape main_v209 main_v210 rfl shapeCasts_S1x800000_S800000,
    nullary main_c_25 (constantI S_ 32 0#32),
    unary main_c_25 main_v211 (broadcastInDim S800000 ![] bcast_S_S800000 : (⟨S_, .i32⟩ : BufTy).Contents (Elt F) → (⟨S800000, .i32⟩ : BufTy).Contents (Elt F)) ]

set_option maxRecDepth 8192 in
set_option maxHeartbeats 4000000 in
/-- Window 3 of @main is the straight line of its operations. -/
theorem part3_eq (c : Dev nD) : main_part3 (F := F) c = seq opsW3 := rfl

set_option maxRecDepth 8192 in
/-- Every operation of window 3 touches buffers of the core's own references only. -/
theorem opsW3_sub : (opsW3 : List (HloOp τ sig (Elt F))).Forall fun op => op.bufs ⊆ tcRefs τ sig :=
  ⟨reshape_bufs_sub .., binary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub ..⟩

set_option maxHeartbeats 0 in
/-- The operations of @main's window 4: operations 242 to 301 of the line (a called function's operations stand in its call's place). -/
abbrev opsW4 : List (HloOp τ sig (Elt F)) :=
  [ binary main_v208 main_v211 main_v212 (cmpi .slt : (⟨S800000, .i32⟩ : BufTy).Contents (Elt F) → (⟨S800000, .i32⟩ : BufTy).Contents (Elt F) → (⟨S800000, .i1⟩ : BufTy).Contents (Elt F)),
    nullary main_c_26 (constantI S_ 32 100000#32),
    unary main_c_26 main_v213 (broadcastInDim S800000 ![] bcast_S_S800000 : (⟨S_, .i32⟩ : BufTy).Contents (Elt F) → (⟨S800000, .i32⟩ : BufTy).Contents (Elt F)),
    binary main_v208 main_v213 main_v214 (addi : (⟨S800000, .i32⟩ : BufTy).Contents (Elt F) → (⟨S800000, .i32⟩ : BufTy).Contents (Elt F) → (⟨S800000, .i32⟩ : BufTy).Contents (Elt F)),
    ternary main_v212 main_v214 main_v208 main_v215 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v215 main_v216 (broadcastInDim S800000x1 ![0] bcast_S800000_S800000x1_0 : (⟨S800000, .i32⟩ : BufTy).Contents (Elt F) → (⟨S800000x1, .i32⟩ : BufTy).Contents (Elt F)),
    binary main_v115 main_v216 main_v217 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    nullary main_cst_27 (constant S_ .f32 0x00000000#32),
    unary main_cst_27 main_v218 (broadcastInDim S100000x32 ![] bcast_S_S100000x32 : (⟨S_, .f32⟩ : BufTy).Contents (Elt F) → (⟨S100000x32, .f32⟩ : BufTy).Contents (Elt F)),
    unary main_v210 main_v219 (broadcastInDim S800000x1 ![0] bcast_S800000_S800000x1_0 : (⟨S800000, .i32⟩ : BufTy).Contents (Elt F) → (⟨S800000x1, .i32⟩ : BufTy).Contents (Elt F)),
    ternary main_v218 main_v219 main_v217 main_v220 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    nullary main_cst_28 (constant S_ .f32 0x3F800000#32),
    unary main_cst_28 main_v221 (broadcastInDim S800000 ![] bcast_S_S800000 : (⟨S_, .f32⟩ : BufTy).Contents (Elt F) → (⟨S800000, .f32⟩ : BufTy).Contents (Elt F)),
    nullary main_cst_29 (constant S_ .f32 0x00000000#32),
    unary main_cst_29 main_v222 (broadcastInDim S100000 ![] bcast_S_S100000 : (⟨S_, .f32⟩ : BufTy).Contents (Elt F) → (⟨S100000, .f32⟩ : BufTy).Contents (Elt F)),
    unary main_v210 main_v223 (broadcastInDim S800000x1 ![0] bcast_S800000_S800000x1_0 : (⟨S800000, .i32⟩ : BufTy).Contents (Elt F) → (⟨S800000x1, .i32⟩ : BufTy).Contents (Elt F)),
    ternary main_v222 main_v223 main_v221 main_v224 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_30 (constant S_ .f32 0x3F800000#32),
    unary main_cst_30 main_v225 (broadcastInDim S100000 ![] bcast_S_S100000 : (⟨S_, .f32⟩ : BufTy).Contents (Elt F) → (⟨S100000, .f32⟩ : BufTy).Contents (Elt F)),
    binary main_v224 main_v225 main_v226 (maximumf : (⟨S100000, .f32⟩ : BufTy).Contents (Elt F) → (⟨S100000, .f32⟩ : BufTy).Contents (Elt F) → (⟨S100000, .f32⟩ : BufTy).Contents (Elt F)),
    unary main_v226 main_v227 (broadcastInDim S100000x1 ![0] bcast_S100000_S100000x1_0 : (⟨S100000, .f32⟩ : BufTy).Contents (Elt F) → (⟨S100000x1, .f32⟩ : BufTy).Contents (Elt F)),
    unary main_v227 main_v228 (broadcastInDim S100000x32 ![0, 1] bcast_S100000x1_S100000x32_0_1 : (⟨S100000x1, .f32⟩ : BufTy).Contents (Elt F) → (⟨S100000x32, .f32⟩ : BufTy).Contents (Elt F)),
    binary main_v220 main_v228 main_v229 (Host.divf : (⟨S100000x32, .f32⟩ : BufTy).Contents (Elt F) → (⟨S100000x32, .f32⟩ : BufTy).Contents (Elt F) → (⟨S100000x32, .f32⟩ : BufTy).Contents (Elt F)),
    unary main_arg9 main_v230 ((extractStridedSlice S1x32x64 ![3, 0, 0] · slices_S7x32x64_S1x32x64_3_0_0) : (⟨S7x32x64, .f32⟩ : BufTy).Contents (Elt F) → (⟨S1x32x64, .f32⟩ : BufTy).Contents (Elt F)),
    reshape main_v230 main_v231 rfl shapeCasts_S1x32x64_S32x64,
    binary main_v229 main_v231 main_v232 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v206 main_v232 main_v233 (addf : (⟨S100000x64, .f32⟩ : BufTy).Contents (Elt F) → (⟨S100000x64, .f32⟩ : BufTy).Contents (Elt F) → (⟨S100000x64, .f32⟩ : BufTy).Contents (Elt F)),
    unary main_arg10 main_v234 ((extractStridedSlice S1x32x64 ![3, 0, 0] · slices_S7x32x64_S1x32x64_3_0_0) : (⟨S7x32x64, .f32⟩ : BufTy).Contents (Elt F) → (⟨S1x32x64, .f32⟩ : BufTy).Contents (Elt F)),
    reshape main_v234 main_v235 rfl shapeCasts_S1x32x64_S32x64,
    binary main_v115 main_v235 main_v236 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v233 main_v236 main_v237 (addf : (⟨S100000x64, .f32⟩ : BufTy).Contents (Elt F) → (⟨S100000x64, .f32⟩ : BufTy).Contents (Elt F) → (⟨S100000x64, .f32⟩ : BufTy).Contents (Elt F)),
    unary main_arg11 main_v238 ((extractStridedSlice S1x64 ![3, 0] · slices_S7x64_S1x64_3_0) : (⟨S7x64, .f32⟩ : BufTy).Contents (Elt F) → (⟨S1x64, .f32⟩ : BufTy).Contents (Elt F)),
    reshape main_v238 main_v239 rfl shapeCasts_S1x64_S64,
    unary main_v239 main_v240 (broadcastInDim S1x64 ![1] bcast_S64_S1x64_1 : (⟨S64, .f32⟩ : BufTy).Contents (Elt F) → (⟨S1x64, .f32⟩ : BufTy).Contents (Elt F)),
    unary main_v240 main_v241 (broadcastInDim S100000x64 ![0, 1] bcast_S1x64_S100000x64_0_1 : (⟨S1x64, .f32⟩ : BufTy).Contents (Elt F) → (⟨S100000x64, .f32⟩ : BufTy).Contents (Elt F)),
    binary main_v237 main_v241 main_v242 (addf : (⟨S100000x64, .f32⟩ : BufTy).Contents (Elt F) → (⟨S100000x64, .f32⟩ : BufTy).Contents (Elt F) → (⟨S100000x64, .f32⟩ : BufTy).Contents (Elt F)),
    unary main_arg20 main_v243 ((extractStridedSlice S1x800000 ![0, 0] · slices_S2x800000_S1x800000_0_0) : (⟨S2x800000, .i32⟩ : BufTy).Contents (Elt F) → (⟨S1x800000, .i32⟩ : BufTy).Contents (Elt F)),
    reshape main_v243 main_v244 rfl shapeCasts_S1x800000_S800000,
    unary main_arg20 main_v245 ((extractStridedSlice S1x800000 ![1, 0] · slices_S2x800000_S1x800000_1_0) : (⟨S2x800000, .i32⟩ : BufTy).Contents (Elt F) → (⟨S1x800000, .i32⟩ : BufTy).Contents (Elt F)),
    reshape main_v245 main_v246 rfl shapeCasts_S1x800000_S800000,
    nullary main_c_31 (constantI S_ 32 0#32),
    unary main_c_31 main_v247 (broadcastInDim S800000 ![] bcast_S_S800000 : (⟨S_, .i32⟩ : BufTy).Contents (Elt F) → (⟨S800000, .i32⟩ : BufTy).Contents (Elt F)),
    binary main_v244 main_v247 main_v248 (cmpi .slt : (⟨S800000, .i32⟩ : BufTy).Contents (Elt F) → (⟨S800000, .i32⟩ : BufTy).Contents (Elt F) → (⟨S800000, .i1⟩ : BufTy).Contents (Elt F)),
    nullary main_c_32 (constantI S_ 32 100000#32),
    unary main_c_32 main_v249 (broadcastInDim S800000 ![] bcast_S_S800000 : (⟨S_, .i32⟩ : BufTy).Contents (Elt F) → (⟨S800000, .i32⟩ : BufTy).Contents (Elt F)),
    binary main_v244 main_v249 main_v250 (addi : (⟨S800000, .i32⟩ : BufTy).Contents (Elt F) → (⟨S800000, .i32⟩ : BufTy).Contents (Elt F) → (⟨S800000, .i32⟩ : BufTy).Contents (Elt F)),
    ternary main_v248 main_v250 main_v244 main_v251 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v251 main_v252 (broadcastInDim S800000x1 ![0] bcast_S800000_S800000x1_0 : (⟨S800000, .i32⟩ : BufTy).Contents (Elt F) → (⟨S800000x1, .i32⟩ : BufTy).Contents (Elt F)),
    binary main_v115 main_v252 main_v253 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    nullary main_cst_33 (constant S_ .f32 0x00000000#32),
    unary main_cst_33 main_v254 (broadcastInDim S100000x32 ![] bcast_S_S100000x32 : (⟨S_, .f32⟩ : BufTy).Contents (Elt F) → (⟨S100000x32, .f32⟩ : BufTy).Contents (Elt F)),
    unary main_v246 main_v255 (broadcastInDim S800000x1 ![0] bcast_S800000_S800000x1_0 : (⟨S800000, .i32⟩ : BufTy).Contents (Elt F) → (⟨S800000x1, .i32⟩ : BufTy).Contents (Elt F)),
    ternary main_v254 main_v255 main_v253 main_v256 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    unary main_arg9 main_v257 ((extractStridedSlice S1x32x64 ![4, 0, 0] · slices_S7x32x64_S1x32x64_4_0_0) : (⟨S7x32x64, .f32⟩ : BufTy).Contents (Elt F) → (⟨S1x32x64, .f32⟩ : BufTy).Contents (Elt F)),
    reshape main_v257 main_v258 rfl shapeCasts_S1x32x64_S32x64,
    binary main_v256 main_v258 main_v259 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v242 main_v259 main_v260 (addf : (⟨S100000x64, .f32⟩ : BufTy).Contents (Elt F) → (⟨S100000x64, .f32⟩ : BufTy).Contents (Elt F) → (⟨S100000x64, .f32⟩ : BufTy).Contents (Elt F)),
    unary main_arg10 main_v261 ((extractStridedSlice S1x32x64 ![4, 0, 0] · slices_S7x32x64_S1x32x64_4_0_0) : (⟨S7x32x64, .f32⟩ : BufTy).Contents (Elt F) → (⟨S1x32x64, .f32⟩ : BufTy).Contents (Elt F)),
    reshape main_v261 main_v262 rfl shapeCasts_S1x32x64_S32x64,
    binary main_v115 main_v262 main_v263 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)) ]

set_option maxRecDepth 8192 in
set_option maxHeartbeats 4000000 in
/-- Window 4 of @main is the straight line of its operations. -/
theorem part4_eq (c : Dev nD) : main_part4 (F := F) c = seq opsW4 := rfl

set_option maxRecDepth 8192 in
/-- Every operation of window 4 touches buffers of the core's own references only. -/
theorem opsW4_sub : (opsW4 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., reshape_bufs_sub .., binary_bufs_sub ..⟩

set_option maxHeartbeats 0 in
/-- The operations of @main's window 5: operations 302 to 361 of the line (a called function's operations stand in its call's place). -/
abbrev opsW5 : List (HloOp τ sig (Elt F)) :=
  [ binary main_v260 main_v263 main_v264 (addf : (⟨S100000x64, .f32⟩ : BufTy).Contents (Elt F) → (⟨S100000x64, .f32⟩ : BufTy).Contents (Elt F) → (⟨S100000x64, .f32⟩ : BufTy).Contents (Elt F)),
    unary main_arg11 main_v265 ((extractStridedSlice S1x64 ![4, 0] · slices_S7x64_S1x64_4_0) : (⟨S7x64, .f32⟩ : BufTy).Contents (Elt F) → (⟨S1x64, .f32⟩ : BufTy).Contents (Elt F)),
    reshape main_v265 main_v266 rfl shapeCasts_S1x64_S64,
    unary main_v266 main_v267 (broadcastInDim S1x64 ![1] bcast_S64_S1x64_1 : (⟨S64, .f32⟩ : BufTy).Contents (Elt F) → (⟨S1x64, .f32⟩ : BufTy).Contents (Elt F)),
    unary main_v267 main_v268 (broadcastInDim S100000x64 ![0, 1] bcast_S1x64_S100000x64_0_1 : (⟨S1x64, .f32⟩ : BufTy).Contents (Elt F) → (⟨S100000x64, .f32⟩ : BufTy).Contents (Elt F)),
    binary main_v264 main_v268 main_v269 (addf : (⟨S100000x64, .f32⟩ : BufTy).Contents (Elt F) → (⟨S100000x64, .f32⟩ : BufTy).Contents (Elt F) → (⟨S100000x64, .f32⟩ : BufTy).Contents (Elt F)),
    unary main_arg21 main_v270 ((extractStridedSlice S1x800000 ![0, 0] · slices_S2x800000_S1x800000_0_0) : (⟨S2x800000, .i32⟩ : BufTy).Contents (Elt F) → (⟨S1x800000, .i32⟩ : BufTy).Contents (Elt F)),
    reshape main_v270 main_v271 rfl shapeCasts_S1x800000_S800000,
    unary main_arg21 main_v272 ((extractStridedSlice S1x800000 ![1, 0] · slices_S2x800000_S1x800000_1_0) : (⟨S2x800000, .i32⟩ : BufTy).Contents (Elt F) → (⟨S1x800000, .i32⟩ : BufTy).Contents (Elt F)),
    reshape main_v272 main_v273 rfl shapeCasts_S1x800000_S800000,
    nullary main_c_34 (constantI S_ 32 0#32),
    unary main_c_34 main_v274 (broadcastInDim S800000 ![] bcast_S_S800000 : (⟨S_, .i32⟩ : BufTy).Contents (Elt F) → (⟨S800000, .i32⟩ : BufTy).Contents (Elt F)),
    binary main_v271 main_v274 main_v275 (cmpi .slt : (⟨S800000, .i32⟩ : BufTy).Contents (Elt F) → (⟨S800000, .i32⟩ : BufTy).Contents (Elt F) → (⟨S800000, .i1⟩ : BufTy).Contents (Elt F)),
    nullary main_c_35 (constantI S_ 32 100000#32),
    unary main_c_35 main_v276 (broadcastInDim S800000 ![] bcast_S_S800000 : (⟨S_, .i32⟩ : BufTy).Contents (Elt F) → (⟨S800000, .i32⟩ : BufTy).Contents (Elt F)),
    binary main_v271 main_v276 main_v277 (addi : (⟨S800000, .i32⟩ : BufTy).Contents (Elt F) → (⟨S800000, .i32⟩ : BufTy).Contents (Elt F) → (⟨S800000, .i32⟩ : BufTy).Contents (Elt F)),
    ternary main_v275 main_v277 main_v271 main_v278 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v278 main_v279 (broadcastInDim S800000x1 ![0] bcast_S800000_S800000x1_0 : (⟨S800000, .i32⟩ : BufTy).Contents (Elt F) → (⟨S800000x1, .i32⟩ : BufTy).Contents (Elt F)),
    binary main_v115 main_v279 main_v280 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    nullary main_cst_36 (constant S_ .f32 0x00000000#32),
    unary main_cst_36 main_v281 (broadcastInDim S100000x32 ![] bcast_S_S100000x32 : (⟨S_, .f32⟩ : BufTy).Contents (Elt F) → (⟨S100000x32, .f32⟩ : BufTy).Contents (Elt F)),
    unary main_v273 main_v282 (broadcastInDim S800000x1 ![0] bcast_S800000_S800000x1_0 : (⟨S800000, .i32⟩ : BufTy).Contents (Elt F) → (⟨S800000x1, .i32⟩ : BufTy).Contents (Elt F)),
    ternary main_v281 main_v282 main_v280 main_v283 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    unary main_arg9 main_v284 ((extractStridedSlice S1x32x64 ![5, 0, 0] · slices_S7x32x64_S1x32x64_5_0_0) : (⟨S7x32x64, .f32⟩ : BufTy).Contents (Elt F) → (⟨S1x32x64, .f32⟩ : BufTy).Contents (Elt F)),
    reshape main_v284 main_v285 rfl shapeCasts_S1x32x64_S32x64,
    binary main_v283 main_v285 main_v286 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v269 main_v286 main_v287 (addf : (⟨S100000x64, .f32⟩ : BufTy).Contents (Elt F) → (⟨S100000x64, .f32⟩ : BufTy).Contents (Elt F) → (⟨S100000x64, .f32⟩ : BufTy).Contents (Elt F)),
    unary main_arg10 main_v288 ((extractStridedSlice S1x32x64 ![5, 0, 0] · slices_S7x32x64_S1x32x64_5_0_0) : (⟨S7x32x64, .f32⟩ : BufTy).Contents (Elt F) → (⟨S1x32x64, .f32⟩ : BufTy).Contents (Elt F)),
    reshape main_v288 main_v289 rfl shapeCasts_S1x32x64_S32x64,
    binary main_v115 main_v289 main_v290 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v287 main_v290 main_v291 (addf : (⟨S100000x64, .f32⟩ : BufTy).Contents (Elt F) → (⟨S100000x64, .f32⟩ : BufTy).Contents (Elt F) → (⟨S100000x64, .f32⟩ : BufTy).Contents (Elt F)),
    unary main_arg11 main_v292 ((extractStridedSlice S1x64 ![5, 0] · slices_S7x64_S1x64_5_0) : (⟨S7x64, .f32⟩ : BufTy).Contents (Elt F) → (⟨S1x64, .f32⟩ : BufTy).Contents (Elt F)),
    reshape main_v292 main_v293 rfl shapeCasts_S1x64_S64,
    unary main_v293 main_v294 (broadcastInDim S1x64 ![1] bcast_S64_S1x64_1 : (⟨S64, .f32⟩ : BufTy).Contents (Elt F) → (⟨S1x64, .f32⟩ : BufTy).Contents (Elt F)),
    unary main_v294 main_v295 (broadcastInDim S100000x64 ![0, 1] bcast_S1x64_S100000x64_0_1 : (⟨S1x64, .f32⟩ : BufTy).Contents (Elt F) → (⟨S100000x64, .f32⟩ : BufTy).Contents (Elt F)),
    binary main_v291 main_v295 main_v296 (addf : (⟨S100000x64, .f32⟩ : BufTy).Contents (Elt F) → (⟨S100000x64, .f32⟩ : BufTy).Contents (Elt F) → (⟨S100000x64, .f32⟩ : BufTy).Contents (Elt F)),
    unary main_arg22 main_v297 ((extractStridedSlice S1x800000 ![0, 0] · slices_S2x800000_S1x800000_0_0) : (⟨S2x800000, .i32⟩ : BufTy).Contents (Elt F) → (⟨S1x800000, .i32⟩ : BufTy).Contents (Elt F)),
    reshape main_v297 main_v298 rfl shapeCasts_S1x800000_S800000,
    unary main_arg22 main_v299 ((extractStridedSlice S1x800000 ![1, 0] · slices_S2x800000_S1x800000_1_0) : (⟨S2x800000, .i32⟩ : BufTy).Contents (Elt F) → (⟨S1x800000, .i32⟩ : BufTy).Contents (Elt F)),
    reshape main_v299 main_v300 rfl shapeCasts_S1x800000_S800000,
    nullary main_c_37 (constantI S_ 32 0#32),
    unary main_c_37 main_v301 (broadcastInDim S800000 ![] bcast_S_S800000 : (⟨S_, .i32⟩ : BufTy).Contents (Elt F) → (⟨S800000, .i32⟩ : BufTy).Contents (Elt F)),
    binary main_v298 main_v301 main_v302 (cmpi .slt : (⟨S800000, .i32⟩ : BufTy).Contents (Elt F) → (⟨S800000, .i32⟩ : BufTy).Contents (Elt F) → (⟨S800000, .i1⟩ : BufTy).Contents (Elt F)),
    nullary main_c_38 (constantI S_ 32 100000#32),
    unary main_c_38 main_v303 (broadcastInDim S800000 ![] bcast_S_S800000 : (⟨S_, .i32⟩ : BufTy).Contents (Elt F) → (⟨S800000, .i32⟩ : BufTy).Contents (Elt F)),
    binary main_v298 main_v303 main_v304 (addi : (⟨S800000, .i32⟩ : BufTy).Contents (Elt F) → (⟨S800000, .i32⟩ : BufTy).Contents (Elt F) → (⟨S800000, .i32⟩ : BufTy).Contents (Elt F)),
    ternary main_v302 main_v304 main_v298 main_v305 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v305 main_v306 (broadcastInDim S800000x1 ![0] bcast_S800000_S800000x1_0 : (⟨S800000, .i32⟩ : BufTy).Contents (Elt F) → (⟨S800000x1, .i32⟩ : BufTy).Contents (Elt F)),
    binary main_v115 main_v306 main_v307 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    nullary main_cst_39 (constant S_ .f32 0x00000000#32),
    unary main_cst_39 main_v308 (broadcastInDim S100000x32 ![] bcast_S_S100000x32 : (⟨S_, .f32⟩ : BufTy).Contents (Elt F) → (⟨S100000x32, .f32⟩ : BufTy).Contents (Elt F)),
    unary main_v300 main_v309 (broadcastInDim S800000x1 ![0] bcast_S800000_S800000x1_0 : (⟨S800000, .i32⟩ : BufTy).Contents (Elt F) → (⟨S800000x1, .i32⟩ : BufTy).Contents (Elt F)),
    ternary main_v308 main_v309 main_v307 main_v310 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    nullary main_cst_40 (constant S_ .f32 0x3F800000#32),
    unary main_cst_40 main_v311 (broadcastInDim S800000 ![] bcast_S_S800000 : (⟨S_, .f32⟩ : BufTy).Contents (Elt F) → (⟨S800000, .f32⟩ : BufTy).Contents (Elt F)),
    nullary main_cst_41 (constant S_ .f32 0x00000000#32),
    unary main_cst_41 main_v312 (broadcastInDim S100000 ![] bcast_S_S100000 : (⟨S_, .f32⟩ : BufTy).Contents (Elt F) → (⟨S100000, .f32⟩ : BufTy).Contents (Elt F)),
    unary main_v300 main_v313 (broadcastInDim S800000x1 ![0] bcast_S800000_S800000x1_0 : (⟨S800000, .i32⟩ : BufTy).Contents (Elt F) → (⟨S800000x1, .i32⟩ : BufTy).Contents (Elt F)),
    ternary main_v312 main_v313 main_v311 main_v314 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_42 (constant S_ .f32 0x3F800000#32) ]

set_option maxRecDepth 8192 in
set_option maxHeartbeats 4000000 in
/-- Window 5 of @main is the straight line of its operations. -/
theorem part5_eq (c : Dev nD) : main_part5 (F := F) c = seq opsW5 := rfl

set_option maxRecDepth 8192 in
/-- Every operation of window 5 touches buffers of the core's own references only. -/
theorem opsW5_sub : (opsW5 : List (HloOp τ sig (Elt F))).Forall fun op => op.bufs ⊆ tcRefs τ sig :=
  ⟨binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub ..⟩

set_option maxHeartbeats 0 in
/-- The operations of @main's window 6: operations 362 to 390 of the line (a called function's operations stand in its call's place). -/
abbrev opsW6 : List (HloOp τ sig (Elt F)) :=
  [ unary main_cst_42 main_v315 (broadcastInDim S100000 ![] bcast_S_S100000 : (⟨S_, .f32⟩ : BufTy).Contents (Elt F) → (⟨S100000, .f32⟩ : BufTy).Contents (Elt F)),
    binary main_v314 main_v315 main_v316 (maximumf : (⟨S100000, .f32⟩ : BufTy).Contents (Elt F) → (⟨S100000, .f32⟩ : BufTy).Contents (Elt F) → (⟨S100000, .f32⟩ : BufTy).Contents (Elt F)),
    unary main_v316 main_v317 (broadcastInDim S100000x1 ![0] bcast_S100000_S100000x1_0 : (⟨S100000, .f32⟩ : BufTy).Contents (Elt F) → (⟨S100000x1, .f32⟩ : BufTy).Contents (Elt F)),
    unary main_v317 main_v318 (broadcastInDim S100000x32 ![0, 1] bcast_S100000x1_S100000x32_0_1 : (⟨S100000x1, .f32⟩ : BufTy).Contents (Elt F) → (⟨S100000x32, .f32⟩ : BufTy).Contents (Elt F)),
    binary main_v310 main_v318 main_v319 (Host.divf : (⟨S100000x32, .f32⟩ : BufTy).Contents (Elt F) → (⟨S100000x32, .f32⟩ : BufTy).Contents (Elt F) → (⟨S100000x32, .f32⟩ : BufTy).Contents (Elt F)),
    unary main_arg9 main_v320 ((extractStridedSlice S1x32x64 ![6, 0, 0] · slices_S7x32x64_S1x32x64_6_0_0) : (⟨S7x32x64, .f32⟩ : BufTy).Contents (Elt F) → (⟨S1x32x64, .f32⟩ : BufTy).Contents (Elt F)),
    reshape main_v320 main_v321 rfl shapeCasts_S1x32x64_S32x64,
    binary main_v319 main_v321 main_v322 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v296 main_v322 main_v323 (addf : (⟨S100000x64, .f32⟩ : BufTy).Contents (Elt F) → (⟨S100000x64, .f32⟩ : BufTy).Contents (Elt F) → (⟨S100000x64, .f32⟩ : BufTy).Contents (Elt F)),
    unary main_arg10 main_v324 ((extractStridedSlice S1x32x64 ![6, 0, 0] · slices_S7x32x64_S1x32x64_6_0_0) : (⟨S7x32x64, .f32⟩ : BufTy).Contents (Elt F) → (⟨S1x32x64, .f32⟩ : BufTy).Contents (Elt F)),
    reshape main_v324 main_v325 rfl shapeCasts_S1x32x64_S32x64,
    binary main_v115 main_v325 main_v326 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v323 main_v326 main_v327 (addf : (⟨S100000x64, .f32⟩ : BufTy).Contents (Elt F) → (⟨S100000x64, .f32⟩ : BufTy).Contents (Elt F) → (⟨S100000x64, .f32⟩ : BufTy).Contents (Elt F)),
    unary main_arg11 main_v328 ((extractStridedSlice S1x64 ![6, 0] · slices_S7x64_S1x64_6_0) : (⟨S7x64, .f32⟩ : BufTy).Contents (Elt F) → (⟨S1x64, .f32⟩ : BufTy).Contents (Elt F)),
    reshape main_v328 main_v329 rfl shapeCasts_S1x64_S64,
    unary main_v329 main_v330 (broadcastInDim S1x64 ![1] bcast_S64_S1x64_1 : (⟨S64, .f32⟩ : BufTy).Contents (Elt F) → (⟨S1x64, .f32⟩ : BufTy).Contents (Elt F)),
    unary main_v330 main_v331 (broadcastInDim S100000x64 ![0, 1] bcast_S1x64_S100000x64_0_1 : (⟨S1x64, .f32⟩ : BufTy).Contents (Elt F) → (⟨S100000x64, .f32⟩ : BufTy).Contents (Elt F)),
    binary main_v327 main_v331 main_v332 (addf : (⟨S100000x64, .f32⟩ : BufTy).Contents (Elt F) → (⟨S100000x64, .f32⟩ : BufTy).Contents (Elt F) → (⟨S100000x64, .f32⟩ : BufTy).Contents (Elt F)),
    binary main_v115 main_arg12 main_v333 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v332 main_v333 main_v334 (addf : (⟨S100000x64, .f32⟩ : BufTy).Contents (Elt F) → (⟨S100000x64, .f32⟩ : BufTy).Contents (Elt F) → (⟨S100000x64, .f32⟩ : BufTy).Contents (Elt F)),
    unary main_arg13 main_v335 (broadcastInDim S1x64 ![1] bcast_S64_S1x64_1 : (⟨S64, .f32⟩ : BufTy).Contents (Elt F) → (⟨S1x64, .f32⟩ : BufTy).Contents (Elt F)),
    unary main_v335 main_v336 (broadcastInDim S100000x64 ![0, 1] bcast_S1x64_S100000x64_0_1 : (⟨S1x64, .f32⟩ : BufTy).Contents (Elt F) → (⟨S100000x64, .f32⟩ : BufTy).Contents (Elt F)),
    binary main_v334 main_v336 main_v337 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v337) (TRef.of (T := ⟨S100000x64, .f32⟩) main_call1_v0) (TRef.of (T := ⟨S100000x64, .f32⟩) main_v338) maximumf,
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v338) (TRef.of (T := ⟨S100000x64, .f32⟩) main_call2_v0) (TRef.of (T := ⟨S100000x64, .f32⟩) main_v339) maximumf ]

set_option maxRecDepth 8192 in
set_option maxHeartbeats 4000000 in
/-- Window 6 of @main is the straight line of its operations. -/
theorem part6_eq (c : Dev nD) : main_part6 (F := F) c = seq opsW6 := rfl

set_option maxRecDepth 8192 in
/-- Every operation of window 6 touches buffers of the core's own references only. -/
theorem opsW6_sub : (opsW6 : List (HloOp τ sig (Elt F))).Forall fun op => op.bufs ⊆ tcRefs τ sig :=
  ⟨unary_bufs_sub .., binary_bufs_sub .., unary_bufs_sub .., unary_bufs_sub .., binary_bufs_sub .., unary_bufs_sub .., reshape_bufs_sub .., binary_bufs_sub .., binary_bufs_sub .., unary_bufs_sub .., reshape_bufs_sub .., binary_bufs_sub .., binary_bufs_sub .., unary_bufs_sub .., reshape_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub ..⟩

/-! ## The whole line -/

/-- @main's 391 operations, in order: the seven windows' lines one after the other. -/
abbrev ops : List (HloOp τ sig (Elt F)) := opsW0 ++ (opsW1 ++ (opsW2 ++ (opsW3 ++ (opsW4 ++ (opsW5 ++ opsW6)))))

set_option maxRecDepth 8192 in
/-- @main is the straight line of its operations. -/
theorem main_eq (c : Dev nD) : main (F := F) c = seq ops := by
  simp only [ops, seq_append, ← part0_eq c, ← part1_eq c, ← part2_eq c, ← part3_eq c, ← part4_eq c, ← part5_eq c, ← part6_eq c]
  rfl

/-- The program scopes no buffer and no semaphore on the core. -/
theorem scopedRefs_eq : (Finset.univ.filter fun b : Ref sig .tc => b.isScoped) = ∅ := by decide
theorem scopedSems_eq : (Finset.univ.filter fun sm : SemLoc sig => sm.isScoped .tc) = ∅ := by decide

/-- Every operation of the line touches buffers of the core's own references only. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp opsW0_sub op h, List.forall_iff_forall_mem.mp opsW1_sub op h, List.forall_iff_forall_mem.mp opsW2_sub op h, List.forall_iff_forall_mem.mp opsW3_sub op h, List.forall_iff_forall_mem.mp opsW4_sub op h, List.forall_iff_forall_mem.mp opsW5_sub op h, List.forall_iff_forall_mem.mp opsW6_sub op h]

end Cert.ReferenceIdeal.Chunks

end
-- ==== Proof.RefChunks.Layers1.lean ====
/-
  The first two layers of the reference network, each as a stretch of the program's operations read from any buffer contents:
  what the stretch leaves in the layer's output buffer is the layer's staged value of the argument arrays (and, for the second
  layer, of the first layer's output taken as it stands), and the buffers it does not write keep their contents.
-/
import proofs.«147223_j52493090291996_1_alg».proof.Proof.RefRead
import Idealize.ShloMosaic.Lib.StableHlo.Run

noncomputable section

namespace Cert.ReferenceIdeal.Chunks

open Cert.ReferenceIdeal Cert.ReferenceIdeal.Gen Idealize.ShloMosaic Idealize.ShloMosaic.TcCoe Idealize.SL.Sem Idealize.ShloMosaic.StableHlo

variable {F : FTy → Type} [FloatOps F]

/-- One operation writes its result buffer and nothing else, and that buffer is in the stretch's list of written buffers. -/
local macro "written" : tactic =>
  `(tactic| (simp only [nullary_writes, unary_writes, binary_writes, ternary_writes, quaternary_writes, reshape_writes, binaryIndexed_writes, unaryIndexed_writes, nary_writes, Finset.singleton_subset_iff, List.mem_toFinset]; exact List.mem_map_of_mem (by decide)))

set_option maxHeartbeats 0 in
/-- The first layer: operations 0 to 61, through the sum that writes the layer's output `main_v54`. -/
abbrev opsA : List (HloOp τ sig (Elt F)) :=
  [ nullary main_cst (constant S_ .f32 0x00000000#32),
    unary main_cst main_v0 (broadcastInDim S100000x16 ![] bcast_S_S100000x16 : (⟨S_, .f32⟩ : BufTy).Contents (Elt F) → (⟨S100000x16, .f32⟩ : BufTy).Contents (Elt F)),
    unary main_arg14 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    unary main_arg14 main_v3 ((extractStridedSlice S1x800000 ![1, 0] · slices_S2x800000_S1x800000_1_0) : (⟨S2x800000, .i32⟩ : BufTy).Contents (Elt F) → (⟨S1x800000, .i32⟩ : BufTy).Contents (Elt F)),
    reshape main_v3 main_v4 rfl shapeCasts_S1x800000_S800000,
    nullary main_c (constantI S_ 32 0#32),
    unary main_c main_v5 (broadcastInDim S800000 ![] bcast_S_S800000 : (⟨S_, .i32⟩ : BufTy).Contents (Elt F) → (⟨S800000, .i32⟩ : BufTy).Contents (Elt F)),
    binary main_v2 main_v5 main_v6 (cmpi .slt : (⟨S800000, .i32⟩ : BufTy).Contents (Elt F) → (⟨S800000, .i32⟩ : BufTy).Contents (Elt F) → (⟨S800000, .i1⟩ : BufTy).Contents (Elt F)),
    nullary main_c_0 (constantI S_ 32 100000#32),
    unary main_c_0 main_v7 (broadcastInDim S800000 ![] bcast_S_S800000 : (⟨S_, .i32⟩ : BufTy).Contents (Elt F) → (⟨S800000, .i32⟩ : BufTy).Contents (Elt F)),
    binary main_v2 main_v7 main_v8 (addi : (⟨S800000, .i32⟩ : BufTy).Contents (Elt F) → (⟨S800000, .i32⟩ : BufTy).Contents (Elt F) → (⟨S800000, .i32⟩ : BufTy).Contents (Elt F)),
    ternary main_v6 main_v8 main_v2 main_v9 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v9 main_v10 (broadcastInDim S800000x1 ![0] bcast_S800000_S800000x1_0 : (⟨S800000, .i32⟩ : BufTy).Contents (Elt F) → (⟨S800000x1, .i32⟩ : BufTy).Contents (Elt F)),
    binary main_arg0 main_v10 main_v11 ((fun x i => Host.gather gather_S100000x6_S800000x1_S800000x6_1_0_n_n_0_1_16 x i) : (⟨S100000x6, .f32⟩ : BufTy).Contents (Elt F) → (⟨S800000x1, .i32⟩ : BufTy).Contents (Elt F) → (⟨S800000x6, .f32⟩ : BufTy).Contents (Elt F)),
    nullary main_cst_1 (constant S_ .f32 0x00000000#32),
    unary main_cst_1 main_v12 (broadcastInDim S100000x6 ![] bcast_S_S100000x6 : (⟨S_, .f32⟩ : BufTy).Contents (Elt F) → (⟨S100000x6, .f32⟩ : BufTy).Contents (Elt F)),
    unary main_v4 main_v13 (broadcastInDim S800000x1 ![0] bcast_S800000_S800000x1_0 : (⟨S800000, .i32⟩ : BufTy).Contents (Elt F) → (⟨S800000x1, .i32⟩ : BufTy).Contents (Elt F)),
    ternary main_v12 main_v13 main_v11 main_v14 ((fun x i u => Host.scatterAdd scatter_S100000x6_S800000x1_S800000x6_1_0_0_1 x i u) : (⟨S100000x6, .f32⟩ : BufTy).Contents (Elt F) → (⟨S800000x1, .i32⟩ : BufTy).Contents (Elt F) → (⟨S800000x6, .f32⟩ : BufTy).Contents (Elt F) → (⟨S100000x6, .f32⟩ : BufTy).Contents (Elt F)),
    unary main_arg1 main_v15 ((extractStridedSlice S1x6x16 ![0, 0, 0] · slices_S2x6x16_S1x6x16_0_0_0) : (⟨S2x6x16, .f32⟩ : BufTy).Contents (Elt F) → (⟨S1x6x16, .f32⟩ : BufTy).Contents (Elt F)),
    reshape main_v15 main_v16 rfl shapeCasts_S1x6x16_S6x16,
    binary main_v14 main_v16 main_v17 ((fun l r => Host.dotGeneral dot_S100000x6_S6x16_S100000x16_1_0_0_1_n_n none l r) : (⟨S100000x6, .f32⟩ : BufTy).Contents (Elt F) → (⟨S6x16, .f32⟩ : BufTy).Contents (Elt F) → (⟨S100000x16, .f32⟩ : BufTy).Contents (Elt F)),
    binary main_v0 main_v17 main_v18 (addf : (⟨S100000x16, .f32⟩ : BufTy).Contents (Elt F) → (⟨S100000x16, .f32⟩ : BufTy).Contents (Elt F) → (⟨S100000x16, .f32⟩ : BufTy).Contents (Elt F)),
    unary main_arg2 main_v19 ((extractStridedSlice S1x6x16 ![0, 0, 0] · slices_S2x6x16_S1x6x16_0_0_0) : (⟨S2x6x16, .f32⟩ : BufTy).Contents (Elt F) → (⟨S1x6x16, .f32⟩ : BufTy).Contents (Elt F)),
    reshape main_v19 main_v20 rfl shapeCasts_S1x6x16_S6x16,
    binary main_arg0 main_v20 main_v21 ((fun l r => Host.dotGeneral dot_S100000x6_S6x16_S100000x16_1_0_0_1_n_n none l r) : (⟨S100000x6, .f32⟩ : BufTy).Contents (Elt F) → (⟨S6x16, .f32⟩ : BufTy).Contents (Elt F) → (⟨S100000x16, .f32⟩ : BufTy).Contents (Elt F)),
    binary main_v18 main_v21 main_v22 (addf : (⟨S100000x16, .f32⟩ : BufTy).Contents (Elt F) → (⟨S100000x16, .f32⟩ : BufTy).Contents (Elt F) → (⟨S100000x16, .f32⟩ : BufTy).Contents (Elt F)),
    unary main_arg3 main_v23 ((extractStridedSlice S1x16 ![0, 0] · slices_S2x16_S1x16_0_0) : (⟨S2x16, .f32⟩ : BufTy).Contents (Elt F) → (⟨S1x16, .f32⟩ : BufTy).Contents (Elt F)),
    reshape main_v23 main_v24 rfl shapeCasts_S1x16_S16,
    unary main_v24 main_v25 (broadcastInDim S1x16 ![1] bcast_S16_S1x16_1 : (⟨S16, .f32⟩ : BufTy).Contents (Elt F) → (⟨S1x16, .f32⟩ : BufTy).Contents (Elt F)),
    unary main_v25 main_v26 (broadcastInDim S100000x16 ![0, 1] bcast_S1x16_S100000x16_0_1 : (⟨S1x16, .f32⟩ : BufTy).Contents (Elt F) → (⟨S100000x16, .f32⟩ : BufTy).Contents (Elt F)),
    binary main_v22 main_v26 main_v27 (addf : (⟨S100000x16, .f32⟩ : BufTy).Contents (Elt F) → (⟨S100000x16, .f32⟩ : BufTy).Contents (Elt F) → (⟨S100000x16, .f32⟩ : BufTy).Contents (Elt F)),
    unary main_arg15 main_v28 ((extractStridedSlice S1x800000 ![0, 0] · slices_S2x800000_S1x800000_0_0) : (⟨S2x800000, .i32⟩ : BufTy).Contents (Elt F) → (⟨S1x800000, .i32⟩ : BufTy).Contents (Elt F)),
    reshape main_v28 main_v29 rfl shapeCasts_S1x800000_S800000,
    unary main_arg15 main_v30 ((extractStridedSlice S1x800000 ![1, 0] · slices_S2x800000_S1x800000_1_0) : (⟨S2x800000, .i32⟩ : BufTy).Contents (Elt F) → (⟨S1x800000, .i32⟩ : BufTy).Contents (Elt F)),
    reshape main_v30 main_v31 rfl shapeCasts_S1x800000_S800000,
    nullary main_c_2 (constantI S_ 32 0#32),
    unary main_c_2 main_v32 (broadcastInDim S800000 ![] bcast_S_S800000 : (⟨S_, .i32⟩ : BufTy).Contents (Elt F) → (⟨S800000, .i32⟩ : BufTy).Contents (Elt F)),
    binary main_v29 main_v32 main_v33 (cmpi .slt : (⟨S800000, .i32⟩ : BufTy).Contents (Elt F) → (⟨S800000, .i32⟩ : BufTy).Contents (Elt F) → (⟨S800000, .i1⟩ : BufTy).Contents (Elt F)),
    nullary main_c_3 (constantI S_ 32 100000#32),
    unary main_c_3 main_v34 (broadcastInDim S800000 ![] bcast_S_S800000 : (⟨S_, .i32⟩ : BufTy).Contents (Elt F) → (⟨S800000, .i32⟩ : BufTy).Contents (Elt F)),
    binary main_v29 main_v34 main_v35 (addi : (⟨S800000, .i32⟩ : BufTy).Contents (Elt F) → (⟨S800000, .i32⟩ : BufTy).Contents (Elt F) → (⟨S800000, .i32⟩ : BufTy).Contents (Elt F)),
    ternary main_v33 main_v35 main_v29 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v36 main_v37 (broadcastInDim S800000x1 ![0] bcast_S800000_S800000x1_0 : (⟨S800000, .i32⟩ : BufTy).Contents (Elt F) → (⟨S800000x1, .i32⟩ : BufTy).Contents (Elt F)),
    binary main_arg0 main_v37 main_v38 ((fun x i => Host.gather gather_S100000x6_S800000x1_S800000x6_1_0_n_n_0_1_16 x i) : (⟨S100000x6, .f32⟩ : BufTy).Contents (Elt F) → (⟨S800000x1, .i32⟩ : BufTy).Contents (Elt F) → (⟨S800000x6, .f32⟩ : BufTy).Contents (Elt F)),
    nullary main_cst_4 (constant S_ .f32 0x00000000#32),
    unary main_cst_4 main_v39 (broadcastInDim S100000x6 ![] bcast_S_S100000x6 : (⟨S_, .f32⟩ : BufTy).Contents (Elt F) → (⟨S100000x6, .f32⟩ : BufTy).Contents (Elt F)),
    unary main_v31 main_v40 (broadcastInDim S800000x1 ![0] bcast_S800000_S800000x1_0 : (⟨S800000, .i32⟩ : BufTy).Contents (Elt F) → (⟨S800000x1, .i32⟩ : BufTy).Contents (Elt F)),
    ternary main_v39 main_v40 main_v38 main_v41 ((fun x i u => Host.scatterAdd scatter_S100000x6_S800000x1_S800000x6_1_0_0_1 x i u) : (⟨S100000x6, .f32⟩ : BufTy).Contents (Elt F) → (⟨S800000x1, .i32⟩ : BufTy).Contents (Elt F) → (⟨S800000x6, .f32⟩ : BufTy).Contents (Elt F) → (⟨S100000x6, .f32⟩ : BufTy).Contents (Elt F)),
    unary main_arg1 main_v42 ((extractStridedSlice S1x6x16 ![1, 0, 0] · slices_S2x6x16_S1x6x16_1_0_0) : (⟨S2x6x16, .f32⟩ : BufTy).Contents (Elt F) → (⟨S1x6x16, .f32⟩ : BufTy).Contents (Elt F)),
    reshape main_v42 main_v43 rfl shapeCasts_S1x6x16_S6x16,
    binary main_v41 main_v43 main_v44 ((fun l r => Host.dotGeneral dot_S100000x6_S6x16_S100000x16_1_0_0_1_n_n none l r) : (⟨S100000x6, .f32⟩ : BufTy).Contents (Elt F) → (⟨S6x16, .f32⟩ : BufTy).Contents (Elt F) → (⟨S100000x16, .f32⟩ : BufTy).Contents (Elt F)),
    binary main_v27 main_v44 main_v45 (addf : (⟨S100000x16, .f32⟩ : BufTy).Contents (Elt F) → (⟨S100000x16, .f32⟩ : BufTy).Contents (Elt F) → (⟨S100000x16, .f32⟩ : BufTy).Contents (Elt F)),
    unary main_arg2 main_v46 ((extractStridedSlice S1x6x16 ![1, 0, 0] · slices_S2x6x16_S1x6x16_1_0_0) : (⟨S2x6x16, .f32⟩ : BufTy).Contents (Elt F) → (⟨S1x6x16, .f32⟩ : BufTy).Contents (Elt F)),
    reshape main_v46 main_v47 rfl shapeCasts_S1x6x16_S6x16,
    binary main_arg0 main_v47 main_v48 ((fun l r => Host.dotGeneral dot_S100000x6_S6x16_S100000x16_1_0_0_1_n_n none l r) : (⟨S100000x6, .f32⟩ : BufTy).Contents (Elt F) → (⟨S6x16, .f32⟩ : BufTy).Contents (Elt F) → (⟨S100000x16, .f32⟩ : BufTy).Contents (Elt F)),
    binary main_v45 main_v48 main_v49 (addf : (⟨S100000x16, .f32⟩ : BufTy).Contents (Elt F) → (⟨S100000x16, .f32⟩ : BufTy).Contents (Elt F) → (⟨S100000x16, .f32⟩ : BufTy).Contents (Elt F)),
    unary main_arg3 main_v50 ((extractStridedSlice S1x16 ![1, 0] · slices_S2x16_S1x16_1_0) : (⟨S2x16, .f32⟩ : BufTy).Contents (Elt F) → (⟨S1x16, .f32⟩ : BufTy).Contents (Elt F)),
    reshape main_v50 main_v51 rfl shapeCasts_S1x16_S16,
    unary main_v51 main_v52 (broadcastInDim S1x16 ![1] bcast_S16_S1x16_1 : (⟨S16, .f32⟩ : BufTy).Contents (Elt F) → (⟨S1x16, .f32⟩ : BufTy).Contents (Elt F)),
    unary main_v52 main_v53 (broadcastInDim S100000x16 ![0, 1] bcast_S1x16_S100000x16_0_1 : (⟨S1x16, .f32⟩ : BufTy).Contents (Elt F) → (⟨S100000x16, .f32⟩ : BufTy).Contents (Elt F)),
    binary main_v49 main_v53 main_v54 (addf : (⟨S100000x16, .f32⟩ : BufTy).Contents (Elt F) → (⟨S100000x16, .f32⟩ : BufTy).Contents (Elt F) → (⟨S100000x16, .f32⟩ : BufTy).Contents (Elt F)) ]

/-- The buffers these operations write, in order. -/
abbrev opsA_W : List (Ref sig .tc) := [main_cst, main_v0, main_v1, main_v2, main_v3, main_v4, main_c, main_v5, main_v6, main_c_0, main_v7, main_v8, main_v9, main_v10, main_v11, main_cst_1, main_v12, main_v13, main_v14, main_v15, main_v16, main_v17, main_v18, main_v19, main_v20, main_v21, main_v22, main_v23, main_v24, main_v25, main_v26, main_v27, main_v28, main_v29, main_v30, main_v31, main_c_2, main_v32, main_v33, main_c_3, main_v34, main_v35, main_v36, main_v37, main_v38, main_cst_4, main_v39, main_v40, main_v41, main_v42, main_v43, main_v44, main_v45, main_v46, main_v47, main_v48, main_v49, main_v50, main_v51, main_v52, main_v53, main_v54]

set_option maxRecDepth 8192 in
set_option maxHeartbeats 0 in
theorem opsA_writes : (opsA : List (HloOp τ sig (Elt F))).Forall fun op => op.writes ⊆ (opsA_W.map (Proc.devRef (τ := τ) .tc)).toFinset := by
  simp only [List.Forall]
  exact ⟨by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written⟩

/-- A buffer these operations do not write keeps its contents through them. -/
theorem opsA_keep (W : Valuation τ sig (Elt F)) (r : Ref sig .tc) (h : r ∉ opsA_W) :
    after (opsA (F := F)) W (Proc.devRef .tc r) = W (Proc.devRef .tc r) :=
  after_of_writes_sub opsA W opsA_writes h

set_option maxRecDepth 8192 in
set_option maxHeartbeats 0 in
/-- Every one of these operations determines what it writes. -/
theorem opsA_fresh : (opsA : List (HloOp τ sig (Elt F))).Forall fun op => op.fresh = ∅ := by
  simp only [List.Forall]
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 0 in
set_option maxRecDepth 8192 in
/-- This stretch, from any contents `W`, leaves in `main_v54` that buffer's staged value of the argument
    arrays as `W` holds them. -/
theorem opsA_stage (W : Valuation τ sig (Elt F)) (x0 : (⟨S100000x6, .f32⟩ : BufTy).Contents (Elt F)) (x1 : (⟨S2x6x16, .f32⟩ : BufTy).Contents (Elt F)) (x2 : (⟨S2x6x16, .f32⟩ : BufTy).Contents (Elt F)) (x3 : (⟨S2x16, .f32⟩ : BufTy).Contents (Elt F)) (x14 : (⟨S2x800000, .i32⟩ : BufTy).Contents (Elt F)) (x15 : (⟨S2x800000, .i32⟩ : BufTy).Contents (Elt F))
    (e0 : W (Proc.devRef .tc main_arg0) = x0) (e1 : W (Proc.devRef .tc main_arg1) = x1) (e2 : W (Proc.devRef .tc main_arg2) = x2) (e3 : W (Proc.devRef .tc main_arg3) = x3) (e14 : W (Proc.devRef .tc main_arg14) = x14) (e15 : W (Proc.devRef .tc main_arg15) = x15) :
    after (opsA (F := F)) W (Proc.devRef .tc main_v54) = ReadP.val_main_v54 (F := F) x0 x1 x2 x3 x14 x15 := by
  subst e0 e1 e2 e3 e14 e15
  after_results_simp
  rfl

set_option maxHeartbeats 0 in
/-- The second layer: operations 62 to 131, through the maximum with zero that writes the layer's output `main_v115`. -/
abbrev opsB : List (HloOp τ sig (Elt F)) :=
  [ nullary main_cst_5 (constant S_ .f32 0x00000000#32),
    unary main_cst_5 main_v55 (broadcastInDim S100000x32 ![] bcast_S_S100000x32 : (⟨S_, .f32⟩ : BufTy).Contents (Elt F) → (⟨S100000x32, .f32⟩ : BufTy).Contents (Elt F)),
    unary main_arg14 main_v56 ((extractStridedSlice S1x800000 ![0, 0] · slices_S2x800000_S1x800000_0_0) : (⟨S2x800000, .i32⟩ : BufTy).Contents (Elt F) → (⟨S1x800000, .i32⟩ : BufTy).Contents (Elt F)),
    reshape main_v56 main_v57 rfl shapeCasts_S1x800000_S800000,
    unary main_arg14 main_v58 ((extractStridedSlice S1x800000 ![1, 0] · slices_S2x800000_S1x800000_1_0) : (⟨S2x800000, .i32⟩ : BufTy).Contents (Elt F) → (⟨S1x800000, .i32⟩ : BufTy).Contents (Elt F)),
    reshape main_v58 main_v59 rfl shapeCasts_S1x800000_S800000,
    nullary main_c_6 (constantI S_ 32 0#32),
    unary main_c_6 main_v60 (broadcastInDim S800000 ![] bcast_S_S800000 : (⟨S_, .i32⟩ : BufTy).Contents (Elt F) → (⟨S800000, .i32⟩ : BufTy).Contents (Elt F)),
    binary main_v57 main_v60 main_v61 (cmpi .slt : (⟨S800000, .i32⟩ : BufTy).Contents (Elt F) → (⟨S800000, .i32⟩ : BufTy).Contents (Elt F) → (⟨S800000, .i1⟩ : BufTy).Contents (Elt F)),
    nullary main_c_7 (constantI S_ 32 100000#32),
    unary main_c_7 main_v62 (broadcastInDim S800000 ![] bcast_S_S800000 : (⟨S_, .i32⟩ : BufTy).Contents (Elt F) → (⟨S800000, .i32⟩ : BufTy).Contents (Elt F)),
    binary main_v57 main_v62 main_v63 (addi : (⟨S800000, .i32⟩ : BufTy).Contents (Elt F) → (⟨S800000, .i32⟩ : BufTy).Contents (Elt F) → (⟨S800000, .i32⟩ : BufTy).Contents (Elt F)),
    ternary main_v61 main_v63 main_v57 main_v64 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v64 main_v65 (broadcastInDim S800000x1 ![0] bcast_S800000_S800000x1_0 : (⟨S800000, .i32⟩ : BufTy).Contents (Elt F) → (⟨S800000x1, .i32⟩ : BufTy).Contents (Elt F)),
    binary main_v54 main_v65 main_v66 ((fun x i => Host.gather gather_S100000x16_S800000x1_S800000x16_1_0_n_n_0_1_116 x i) : (⟨S100000x16, .f32⟩ : BufTy).Contents (Elt F) → (⟨S800000x1, .i32⟩ : BufTy).Contents (Elt F) → (⟨S800000x16, .f32⟩ : BufTy).Contents (Elt F)),
    nullary main_cst_8 (constant S_ .f32 0x00000000#32),
    unary main_cst_8 main_v67 (broadcastInDim S100000x16 ![] bcast_S_S100000x16 : (⟨S_, .f32⟩ : BufTy).Contents (Elt F) → (⟨S100000x16, .f32⟩ : BufTy).Contents (Elt F)),
    unary main_v59 main_v68 (broadcastInDim S800000x1 ![0] bcast_S800000_S800000x1_0 : (⟨S800000, .i32⟩ : BufTy).Contents (Elt F) → (⟨S800000x1, .i32⟩ : BufTy).Contents (Elt F)),
    ternary main_v67 main_v68 main_v66 main_v69 ((fun x i u => Host.scatterAdd scatter_S100000x16_S800000x1_S800000x16_1_0_0_1 x i u) : (⟨S100000x16, .f32⟩ : BufTy).Contents (Elt F) → (⟨S800000x1, .i32⟩ : BufTy).Contents (Elt F) → (⟨S800000x16, .f32⟩ : BufTy).Contents (Elt F) → (⟨S100000x16, .f32⟩ : BufTy).Contents (Elt F)),
    unary main_arg4 main_v70 ((extractStridedSlice S1x16x32 ![0, 0, 0] · slices_S2x16x32_S1x16x32_0_0_0) : (⟨S2x16x32, .f32⟩ : BufTy).Contents (Elt F) → (⟨S1x16x32, .f32⟩ : BufTy).Contents (Elt F)),
    reshape main_v70 main_v71 rfl shapeCasts_S1x16x32_S16x32,
    binary main_v69 main_v71 main_v72 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    binary main_v55 main_v72 main_v73 (addf : (⟨S100000x32, .f32⟩ : BufTy).Contents (Elt F) → (⟨S100000x32, .f32⟩ : BufTy).Contents (Elt F) → (⟨S100000x32, .f32⟩ : BufTy).Contents (Elt F)),
    unary main_arg5 main_v74 ((extractStridedSlice S1x16x32 ![0, 0, 0] · slices_S2x16x32_S1x16x32_0_0_0) : (⟨S2x16x32, .f32⟩ : BufTy).Contents (Elt F) → (⟨S1x16x32, .f32⟩ : BufTy).Contents (Elt F)),
    reshape main_v74 main_v75 rfl shapeCasts_S1x16x32_S16x32,
    binary main_v54 main_v75 main_v76 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    binary main_v73 main_v76 main_v77 (addf : (⟨S100000x32, .f32⟩ : BufTy).Contents (Elt F) → (⟨S100000x32, .f32⟩ : BufTy).Contents (Elt F) → (⟨S100000x32, .f32⟩ : BufTy).Contents (Elt F)),
    unary main_arg6 main_v78 ((extractStridedSlice S1x32 ![0, 0] · slices_S2x32_S1x32_0_0) : (⟨S2x32, .f32⟩ : BufTy).Contents (Elt F) → (⟨S1x32, .f32⟩ : BufTy).Contents (Elt F)),
    reshape main_v78 main_v79 rfl shapeCasts_S1x32_S32,
    unary main_v79 main_v80 (broadcastInDim S1x32 ![1] bcast_S32_S1x32_1 : (⟨S32, .f32⟩ : BufTy).Contents (Elt F) → (⟨S1x32, .f32⟩ : BufTy).Contents (Elt F)),
    unary main_v80 main_v81 (broadcastInDim S100000x32 ![0, 1] bcast_S1x32_S100000x32_0_1 : (⟨S1x32, .f32⟩ : BufTy).Contents (Elt F) → (⟨S100000x32, .f32⟩ : BufTy).Contents (Elt F)),
    binary main_v77 main_v81 main_v82 (addf : (⟨S100000x32, .f32⟩ : BufTy).Contents (Elt F) → (⟨S100000x32, .f32⟩ : BufTy).Contents (Elt F) → (⟨S100000x32, .f32⟩ : BufTy).Contents (Elt F)),
    unary main_arg15 main_v83 ((extractStridedSlice S1x800000 ![0, 0] · slices_S2x800000_S1x800000_0_0) : (⟨S2x800000, .i32⟩ : BufTy).Contents (Elt F) → (⟨S1x800000, .i32⟩ : BufTy).Contents (Elt F)),
    reshape main_v83 main_v84 rfl shapeCasts_S1x800000_S800000,
    unary main_arg15 main_v85 ((extractStridedSlice S1x800000 ![1, 0] · slices_S2x800000_S1x800000_1_0) : (⟨S2x800000, .i32⟩ : BufTy).Contents (Elt F) → (⟨S1x800000, .i32⟩ : BufTy).Contents (Elt F)),
    reshape main_v85 main_v86 rfl shapeCasts_S1x800000_S800000,
    nullary main_c_9 (constantI S_ 32 0#32),
    unary main_c_9 main_v87 (broadcastInDim S800000 ![] bcast_S_S800000 : (⟨S_, .i32⟩ : BufTy).Contents (Elt F) → (⟨S800000, .i32⟩ : BufTy).Contents (Elt F)),
    binary main_v84 main_v87 main_v88 (cmpi .slt : (⟨S800000, .i32⟩ : BufTy).Contents (Elt F) → (⟨S800000, .i32⟩ : BufTy).Contents (Elt F) → (⟨S800000, .i1⟩ : BufTy).Contents (Elt F)),
    nullary main_c_10 (constantI S_ 32 100000#32),
    unary main_c_10 main_v89 (broadcastInDim S800000 ![] bcast_S_S800000 : (⟨S_, .i32⟩ : BufTy).Contents (Elt F) → (⟨S800000, .i32⟩ : BufTy).Contents (Elt F)),
    binary main_v84 main_v89 main_v90 (addi : (⟨S800000, .i32⟩ : BufTy).Contents (Elt F) → (⟨S800000, .i32⟩ : BufTy).Contents (Elt F) → (⟨S800000, .i32⟩ : BufTy).Contents (Elt F)),
    ternary main_v88 main_v90 main_v84 main_v91 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v91 main_v92 (broadcastInDim S800000x1 ![0] bcast_S800000_S800000x1_0 : (⟨S800000, .i32⟩ : BufTy).Contents (Elt F) → (⟨S800000x1, .i32⟩ : BufTy).Contents (Elt F)),
    binary main_v54 main_v92 main_v93 ((fun x i => Host.gather gather_S100000x16_S800000x1_S800000x16_1_0_n_n_0_1_116 x i) : (⟨S100000x16, .f32⟩ : BufTy).Contents (Elt F) → (⟨S800000x1, .i32⟩ : BufTy).Contents (Elt F) → (⟨S800000x16, .f32⟩ : BufTy).Contents (Elt F)),
    nullary main_cst_11 (constant S_ .f32 0x00000000#32),
    unary main_cst_11 main_v94 (broadcastInDim S100000x16 ![] bcast_S_S100000x16 : (⟨S_, .f32⟩ : BufTy).Contents (Elt F) → (⟨S100000x16, .f32⟩ : BufTy).Contents (Elt F)),
    unary main_v86 main_v95 (broadcastInDim S800000x1 ![0] bcast_S800000_S800000x1_0 : (⟨S800000, .i32⟩ : BufTy).Contents (Elt F) → (⟨S800000x1, .i32⟩ : BufTy).Contents (Elt F)),
    ternary main_v94 main_v95 main_v93 main_v96 ((fun x i u => Host.scatterAdd scatter_S100000x16_S800000x1_S800000x16_1_0_0_1 x i u) : (⟨S100000x16, .f32⟩ : BufTy).Contents (Elt F) → (⟨S800000x1, .i32⟩ : BufTy).Contents (Elt F) → (⟨S800000x16, .f32⟩ : BufTy).Contents (Elt F) → (⟨S100000x16, .f32⟩ : BufTy).Contents (Elt F)),
    unary main_arg4 main_v97 ((extractStridedSlice S1x16x32 ![1, 0, 0] · slices_S2x16x32_S1x16x32_1_0_0) : (⟨S2x16x32, .f32⟩ : BufTy).Contents (Elt F) → (⟨S1x16x32, .f32⟩ : BufTy).Contents (Elt F)),
    reshape main_v97 main_v98 rfl shapeCasts_S1x16x32_S16x32,
    binary main_v96 main_v98 main_v99 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    binary main_v82 main_v99 main_v100 (addf : (⟨S100000x32, .f32⟩ : BufTy).Contents (Elt F) → (⟨S100000x32, .f32⟩ : BufTy).Contents (Elt F) → (⟨S100000x32, .f32⟩ : BufTy).Contents (Elt F)),
    unary main_arg5 main_v101 ((extractStridedSlice S1x16x32 ![1, 0, 0] · slices_S2x16x32_S1x16x32_1_0_0) : (⟨S2x16x32, .f32⟩ : BufTy).Contents (Elt F) → (⟨S1x16x32, .f32⟩ : BufTy).Contents (Elt F)),
    reshape main_v101 main_v102 rfl shapeCasts_S1x16x32_S16x32,
    binary main_v54 main_v102 main_v103 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    binary main_v100 main_v103 main_v104 (addf : (⟨S100000x32, .f32⟩ : BufTy).Contents (Elt F) → (⟨S100000x32, .f32⟩ : BufTy).Contents (Elt F) → (⟨S100000x32, .f32⟩ : BufTy).Contents (Elt F)),
    unary main_arg6 main_v105 ((extractStridedSlice S1x32 ![1, 0] · slices_S2x32_S1x32_1_0) : (⟨S2x32, .f32⟩ : BufTy).Contents (Elt F) → (⟨S1x32, .f32⟩ : BufTy).Contents (Elt F)),
    reshape main_v105 main_v106 rfl shapeCasts_S1x32_S32,
    unary main_v106 main_v107 (broadcastInDim S1x32 ![1] bcast_S32_S1x32_1 : (⟨S32, .f32⟩ : BufTy).Contents (Elt F) → (⟨S1x32, .f32⟩ : BufTy).Contents (Elt F)),
    unary main_v107 main_v108 (broadcastInDim S100000x32 ![0, 1] bcast_S1x32_S100000x32_0_1 : (⟨S1x32, .f32⟩ : BufTy).Contents (Elt F) → (⟨S100000x32, .f32⟩ : BufTy).Contents (Elt F)),
    binary main_v104 main_v108 main_v109 (addf : (⟨S100000x32, .f32⟩ : BufTy).Contents (Elt F) → (⟨S100000x32, .f32⟩ : BufTy).Contents (Elt F) → (⟨S100000x32, .f32⟩ : BufTy).Contents (Elt F)),
    binary main_v54 main_arg7 main_v110 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    binary main_v109 main_v110 main_v111 (addf : (⟨S100000x32, .f32⟩ : BufTy).Contents (Elt F) → (⟨S100000x32, .f32⟩ : BufTy).Contents (Elt F) → (⟨S100000x32, .f32⟩ : BufTy).Contents (Elt F)),
    unary main_arg8 main_v112 (broadcastInDim S1x32 ![1] bcast_S32_S1x32_1 : (⟨S32, .f32⟩ : BufTy).Contents (Elt F) → (⟨S1x32, .f32⟩ : BufTy).Contents (Elt F)),
    unary main_v112 main_v113 (broadcastInDim S100000x32 ![0, 1] bcast_S1x32_S100000x32_0_1 : (⟨S1x32, .f32⟩ : BufTy).Contents (Elt F) → (⟨S100000x32, .f32⟩ : BufTy).Contents (Elt F)),
    binary main_v111 main_v113 main_v114 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x32, .f32⟩) main_call0_v0) (broadcastInDim S100000x32 ![] bcast_S_S100000x32),
    TRef.binary (TRef.of (T := ⟨S100000x32, .f32⟩) main_v114) (TRef.of (T := ⟨S100000x32, .f32⟩) main_call0_v0) (TRef.of (T := ⟨S100000x32, .f32⟩) main_v115) maximumf ]

/-- The buffers these operations write, in order. -/
abbrev opsB_W : List (Ref sig .tc) := [main_cst_5, main_v55, main_v56, main_v57, main_v58, main_v59, main_c_6, main_v60, main_v61, main_c_7, main_v62, main_v63, main_v64, main_v65, main_v66, main_cst_8, main_v67, main_v68, main_v69, main_v70, main_v71, main_v72, main_v73, main_v74, main_v75, main_v76, main_v77, main_v78, main_v79, main_v80, main_v81, main_v82, main_v83, main_v84, main_v85, main_v86, main_c_9, main_v87, main_v88, main_c_10, main_v89, main_v90, main_v91, main_v92, main_v93, main_cst_11, main_v94, main_v95, main_v96, main_v97, main_v98, main_v99, main_v100, main_v101, main_v102, main_v103, main_v104, main_v105, main_v106, main_v107, main_v108, main_v109, main_v110, main_v111, main_v112, main_v113, main_v114, main_call0_cst, main_call0_v0, main_v115]

set_option maxRecDepth 8192 in
set_option maxHeartbeats 0 in
theorem opsB_writes : (opsB : List (HloOp τ sig (Elt F))).Forall fun op => op.writes ⊆ (opsB_W.map (Proc.devRef (τ := τ) .tc)).toFinset := by
  simp only [List.Forall]
  exact ⟨by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written⟩

/-- A buffer these operations do not write keeps its contents through them. -/
theorem opsB_keep (W : Valuation τ sig (Elt F)) (r : Ref sig .tc) (h : r ∉ opsB_W) :
    after (opsB (F := F)) W (Proc.devRef .tc r) = W (Proc.devRef .tc r) :=
  after_of_writes_sub opsB W opsB_writes h

set_option maxRecDepth 8192 in
set_option maxHeartbeats 0 in
/-- Every one of these operations determines what it writes. -/
theorem opsB_fresh : (opsB : List (HloOp τ sig (Elt F))).Forall fun op => op.fresh = ∅ := by
  simp only [List.Forall]
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 0 in
set_option maxRecDepth 8192 in
/-- This stretch, from any contents `W` that hold the staged values of the earlier buffers it reads, leaves in `main_v115` that buffer's staged value of the argument
    arrays as `W` holds them. -/
theorem opsB_stage (W : Valuation τ sig (Elt F)) (x0 : (⟨S100000x6, .f32⟩ : BufTy).Contents (Elt F)) (x1 : (⟨S2x6x16, .f32⟩ : BufTy).Contents (Elt F)) (x2 : (⟨S2x6x16, .f32⟩ : BufTy).Contents (Elt F)) (x3 : (⟨S2x16, .f32⟩ : BufTy).Contents (Elt F)) (x4 : (⟨S2x16x32, .f32⟩ : BufTy).Contents (Elt F)) (x5 : (⟨S2x16x32, .f32⟩ : BufTy).Contents (Elt F)) (x6 : (⟨S2x32, .f32⟩ : BufTy).Contents (Elt F)) (x7 : (⟨S16x32, .f32⟩ : BufTy).Contents (Elt F)) (x8 : (⟨S32, .f32⟩ : BufTy).Contents (Elt F)) (x14 : (⟨S2x800000, .i32⟩ : BufTy).Contents (Elt F)) (x15 : (⟨S2x800000, .i32⟩ : BufTy).Contents (Elt F))
    (e0 : W (Proc.devRef .tc main_arg0) = x0) (e1 : W (Proc.devRef .tc main_arg1) = x1) (e2 : W (Proc.devRef .tc main_arg2) = x2) (e3 : W (Proc.devRef .tc main_arg3) = x3) (e4 : W (Proc.devRef .tc main_arg4) = x4) (e5 : W (Proc.devRef .tc main_arg5) = x5) (e6 : W (Proc.devRef .tc main_arg6) = x6) (e7 : W (Proc.devRef .tc main_arg7) = x7) (e8 : W (Proc.devRef .tc main_arg8) = x8) (e14 : W (Proc.devRef .tc main_arg14) = x14) (e15 : W (Proc.devRef .tc main_arg15) = x15)
    (h0 : W (Proc.devRef .tc main_v54) = ReadP.val_main_v54 (F := F) x0 x1 x2 x3 x14 x15) :
    after (opsB (F := F)) W (Proc.devRef .tc main_v115) = ReadP.val_main_v115 (F := F) x0 x1 x2 x3 x4 x5 x6 x7 x8 x14 x15 := by
  subst e0 e1 e2 e3 e4 e5 e6 e7 e8 e14 e15
  after_results_simp
  rw [h0]
  rfl

end Cert.ReferenceIdeal.Chunks

end
-- ==== Proof.RefChunks.Layers2.lean ====
/-
  The third layer of the reference network in eight stretches: one per relation (its messages gathered from the second layer's
  output, scatter-added at their targets, multiplied by the relation's weights and added onto the running sum), then the self
  term, the biases and the maxima with zero. Each stretch, read from any buffer contents that hold the staged values of the
  two earlier buffers it reads, leaves the staged value of its last buffer.
-/
import proofs.«147223_j52493090291996_1_alg».proof.Proof.RefRead
import Idealize.ShloMosaic.Lib.StableHlo.Run

noncomputable section

namespace Cert.ReferenceIdeal.Chunks

open Cert.ReferenceIdeal Cert.ReferenceIdeal.Gen Idealize.ShloMosaic Idealize.ShloMosaic.TcCoe Idealize.SL.Sem Idealize.ShloMosaic.StableHlo

variable {F : FTy → Type} [FloatOps F]

/-- One operation writes its result buffer and nothing else, and that buffer is in the stretch's list of written buffers. -/
local macro "written" : tactic =>
  `(tactic| (simp only [nullary_writes, unary_writes, binary_writes, ternary_writes, quaternary_writes, reshape_writes, binaryIndexed_writes, unaryIndexed_writes, nary_writes, Finset.singleton_subset_iff, List.mem_toFinset]; exact List.mem_map_of_mem (by decide)))

set_option maxHeartbeats 0 in
/-- The third layer, relation 1: its messages gathered from the second layer's output, scatter-added and multiplied by the relation's weights, added onto the running sum. -/
abbrev opsC1 : List (HloOp τ sig (Elt F)) :=
  [ nullary main_cst_12 (constant S_ .f32 0x00000000#32),
    unary main_cst_12 main_v116 (broadcastInDim S100000x64 ![] bcast_S_S100000x64 : (⟨S_, .f32⟩ : BufTy).Contents (Elt F) → (⟨S100000x64, .f32⟩ : BufTy).Contents (Elt F)),
    unary main_arg16 main_v117 ((extractStridedSlice S1x800000 ![0, 0] · slices_S2x800000_S1x800000_0_0) : (⟨S2x800000, .i32⟩ : BufTy).Contents (Elt F) → (⟨S1x800000, .i32⟩ : BufTy).Contents (Elt F)),
    reshape main_v117 main_v118 rfl shapeCasts_S1x800000_S800000,
    unary main_arg16 main_v119 ((extractStridedSlice S1x800000 ![1, 0] · slices_S2x800000_S1x800000_1_0) : (⟨S2x800000, .i32⟩ : BufTy).Contents (Elt F) → (⟨S1x800000, .i32⟩ : BufTy).Contents (Elt F)),
    reshape main_v119 main_v120 rfl shapeCasts_S1x800000_S800000,
    nullary main_c_13 (constantI S_ 32 0#32),
    unary main_c_13 main_v121 (broadcastInDim S800000 ![] bcast_S_S800000 : (⟨S_, .i32⟩ : BufTy).Contents (Elt F) → (⟨S800000, .i32⟩ : BufTy).Contents (Elt F)),
    binary main_v118 main_v121 main_v122 (cmpi .slt : (⟨S800000, .i32⟩ : BufTy).Contents (Elt F) → (⟨S800000, .i32⟩ : BufTy).Contents (Elt F) → (⟨S800000, .i1⟩ : BufTy).Contents (Elt F)),
    nullary main_c_14 (constantI S_ 32 100000#32),
    unary main_c_14 main_v123 (broadcastInDim S800000 ![] bcast_S_S800000 : (⟨S_, .i32⟩ : BufTy).Contents (Elt F) → (⟨S800000, .i32⟩ : BufTy).Contents (Elt F)),
    binary main_v118 main_v123 main_v124 (addi : (⟨S800000, .i32⟩ : BufTy).Contents (Elt F) → (⟨S800000, .i32⟩ : BufTy).Contents (Elt F) → (⟨S800000, .i32⟩ : BufTy).Contents (Elt F)),
    ternary main_v122 main_v124 main_v118 main_v125 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v125 main_v126 (broadcastInDim S800000x1 ![0] bcast_S800000_S800000x1_0 : (⟨S800000, .i32⟩ : BufTy).Contents (Elt F) → (⟨S800000x1, .i32⟩ : BufTy).Contents (Elt F)),
    binary main_v115 main_v126 main_v127 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    nullary main_cst_15 (constant S_ .f32 0x00000000#32),
    unary main_cst_15 main_v128 (broadcastInDim S100000x32 ![] bcast_S_S100000x32 : (⟨S_, .f32⟩ : BufTy).Contents (Elt F) → (⟨S100000x32, .f32⟩ : BufTy).Contents (Elt F)),
    unary main_v120 main_v129 (broadcastInDim S800000x1 ![0] bcast_S800000_S800000x1_0 : (⟨S800000, .i32⟩ : BufTy).Contents (Elt F) → (⟨S800000x1, .i32⟩ : BufTy).Contents (Elt F)),
    ternary main_v128 main_v129 main_v127 main_v130 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    unary main_arg9 main_v131 ((extractStridedSlice S1x32x64 ![0, 0, 0] · slices_S7x32x64_S1x32x64_0_0_0) : (⟨S7x32x64, .f32⟩ : BufTy).Contents (Elt F) → (⟨S1x32x64, .f32⟩ : BufTy).Contents (Elt F)),
    reshape main_v131 main_v132 rfl shapeCasts_S1x32x64_S32x64,
    binary main_v130 main_v132 main_v133 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v116 main_v133 main_v134 (addf : (⟨S100000x64, .f32⟩ : BufTy).Contents (Elt F) → (⟨S100000x64, .f32⟩ : BufTy).Contents (Elt F) → (⟨S100000x64, .f32⟩ : BufTy).Contents (Elt F)),
    unary main_arg10 main_v135 ((extractStridedSlice S1x32x64 ![0, 0, 0] · slices_S7x32x64_S1x32x64_0_0_0) : (⟨S7x32x64, .f32⟩ : BufTy).Contents (Elt F) → (⟨S1x32x64, .f32⟩ : BufTy).Contents (Elt F)),
    reshape main_v135 main_v136 rfl shapeCasts_S1x32x64_S32x64,
    binary main_v115 main_v136 main_v137 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v134 main_v137 main_v138 (addf : (⟨S100000x64, .f32⟩ : BufTy).Contents (Elt F) → (⟨S100000x64, .f32⟩ : BufTy).Contents (Elt F) → (⟨S100000x64, .f32⟩ : BufTy).Contents (Elt F)),
    unary main_arg11 main_v139 ((extractStridedSlice S1x64 ![0, 0] · slices_S7x64_S1x64_0_0) : (⟨S7x64, .f32⟩ : BufTy).Contents (Elt F) → (⟨S1x64, .f32⟩ : BufTy).Contents (Elt F)),
    reshape main_v139 main_v140 rfl shapeCasts_S1x64_S64,
    unary main_v140 main_v141 (broadcastInDim S1x64 ![1] bcast_S64_S1x64_1 : (⟨S64, .f32⟩ : BufTy).Contents (Elt F) → (⟨S1x64, .f32⟩ : BufTy).Contents (Elt F)),
    unary main_v141 main_v142 (broadcastInDim S100000x64 ![0, 1] bcast_S1x64_S100000x64_0_1 : (⟨S1x64, .f32⟩ : BufTy).Contents (Elt F) → (⟨S100000x64, .f32⟩ : BufTy).Contents (Elt F)),
    binary main_v138 main_v142 main_v143 (addf : (⟨S100000x64, .f32⟩ : BufTy).Contents (Elt F) → (⟨S100000x64, .f32⟩ : BufTy).Contents (Elt F) → (⟨S100000x64, .f32⟩ : BufTy).Contents (Elt F)) ]

/-- The buffers these operations write, in order. -/
abbrev opsC1_W : List (Ref sig .tc) := [main_cst_12, main_v116, main_v117, main_v118, main_v119, main_v120, main_c_13, main_v121, main_v122, main_c_14, main_v123, main_v124, main_v125, main_v126, main_v127, main_cst_15, main_v128, main_v129, main_v130, main_v131, main_v132, main_v133, main_v134, main_v135, main_v136, main_v137, main_v138, main_v139, main_v140, main_v141, main_v142, main_v143]

set_option maxRecDepth 8192 in
set_option maxHeartbeats 0 in
theorem opsC1_writes : (opsC1 : List (HloOp τ sig (Elt F))).Forall fun op => op.writes ⊆ (opsC1_W.map (Proc.devRef (τ := τ) .tc)).toFinset := by
  simp only [List.Forall]
  exact ⟨by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written⟩

/-- A buffer these operations do not write keeps its contents through them. -/
theorem opsC1_keep (W : Valuation τ sig (Elt F)) (r : Ref sig .tc) (h : r ∉ opsC1_W) :
    after (opsC1 (F := F)) W (Proc.devRef .tc r) = W (Proc.devRef .tc r) :=
  after_of_writes_sub opsC1 W opsC1_writes h

set_option maxRecDepth 8192 in
set_option maxHeartbeats 0 in
/-- Every one of these operations determines what it writes. -/
theorem opsC1_fresh : (opsC1 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 0 in
set_option maxRecDepth 8192 in
/-- This stretch, from any contents `W` that hold the staged values of the earlier buffers it reads, leaves in `main_v143` that buffer's staged value of the argument
    arrays as `W` holds them. -/
theorem opsC1_stage (W : Valuation τ sig (Elt F)) (x0 : (⟨S100000x6, .f32⟩ : BufTy).Contents (Elt F)) (x1 : (⟨S2x6x16, .f32⟩ : BufTy).Contents (Elt F)) (x2 : (⟨S2x6x16, .f32⟩ : BufTy).Contents (Elt F)) (x3 : (⟨S2x16, .f32⟩ : BufTy).Contents (Elt F)) (x4 : (⟨S2x16x32, .f32⟩ : BufTy).Contents (Elt F)) (x5 : (⟨S2x16x32, .f32⟩ : BufTy).Contents (Elt F)) (x6 : (⟨S2x32, .f32⟩ : BufTy).Contents (Elt F)) (x7 : (⟨S16x32, .f32⟩ : BufTy).Contents (Elt F)) (x8 : (⟨S32, .f32⟩ : BufTy).Contents (Elt F)) (x9 : (⟨S7x32x64, .f32⟩ : BufTy).Contents (Elt F)) (x10 : (⟨S7x32x64, .f32⟩ : BufTy).Contents (Elt F)) (x11 : (⟨S7x64, .f32⟩ : BufTy).Contents (Elt F)) (x14 : (⟨S2x800000, .i32⟩ : BufTy).Contents (Elt F)) (x15 : (⟨S2x800000, .i32⟩ : BufTy).Contents (Elt F)) (x16 : (⟨S2x800000, .i32⟩ : BufTy).Contents (Elt F))
    (e0 : W (Proc.devRef .tc main_arg0) = x0) (e1 : W (Proc.devRef .tc main_arg1) = x1) (e2 : W (Proc.devRef .tc main_arg2) = x2) (e3 : W (Proc.devRef .tc main_arg3) = x3) (e4 : W (Proc.devRef .tc main_arg4) = x4) (e5 : W (Proc.devRef .tc main_arg5) = x5) (e6 : W (Proc.devRef .tc main_arg6) = x6) (e7 : W (Proc.devRef .tc main_arg7) = x7) (e8 : W (Proc.devRef .tc main_arg8) = x8) (e9 : W (Proc.devRef .tc main_arg9) = x9) (e10 : W (Proc.devRef .tc main_arg10) = x10) (e11 : W (Proc.devRef .tc main_arg11) = x11) (e14 : W (Proc.devRef .tc main_arg14) = x14) (e15 : W (Proc.devRef .tc main_arg15) = x15) (e16 : W (Proc.devRef .tc main_arg16) = x16)
    (h0 : W (Proc.devRef .tc main_v115) = ReadP.val_main_v115 (F := F) x0 x1 x2 x3 x4 x5 x6 x7 x8 x14 x15) :
    after (opsC1 (F := F)) W (Proc.devRef .tc main_v143) = ReadP.val_main_v143 (F := F) x0 x1 x2 x3 x4 x5 x6 x7 x8 x9 x10 x11 x14 x15 x16 := by
  subst e0 e1 e2 e3 e4 e5 e6 e7 e8 e9 e10 e11 e14 e15 e16
  after_results_simp
  rw [h0]
  rfl

set_option maxHeartbeats 0 in
/-- The third layer, relation 2: its messages gathered from the second layer's output, scatter-added and multiplied by the relation's weights, added onto the running sum. -/
abbrev opsC2 : List (HloOp τ sig (Elt F)) :=
  [ unary main_arg17 main_v144 ((extractStridedSlice S1x800000 ![0, 0] · slices_S2x800000_S1x800000_0_0) : (⟨S2x800000, .i32⟩ : BufTy).Contents (Elt F) → (⟨S1x800000, .i32⟩ : BufTy).Contents (Elt F)),
    reshape main_v144 main_v145 rfl shapeCasts_S1x800000_S800000,
    unary main_arg17 main_v146 ((extractStridedSlice S1x800000 ![1, 0] · slices_S2x800000_S1x800000_1_0) : (⟨S2x800000, .i32⟩ : BufTy).Contents (Elt F) → (⟨S1x800000, .i32⟩ : BufTy).Contents (Elt F)),
    reshape main_v146 main_v147 rfl shapeCasts_S1x800000_S800000,
    nullary main_c_16 (constantI S_ 32 0#32),
    unary main_c_16 main_v148 (broadcastInDim S800000 ![] bcast_S_S800000 : (⟨S_, .i32⟩ : BufTy).Contents (Elt F) → (⟨S800000, .i32⟩ : BufTy).Contents (Elt F)),
    binary main_v145 main_v148 main_v149 (cmpi .slt : (⟨S800000, .i32⟩ : BufTy).Contents (Elt F) → (⟨S800000, .i32⟩ : BufTy).Contents (Elt F) → (⟨S800000, .i1⟩ : BufTy).Contents (Elt F)),
    nullary main_c_17 (constantI S_ 32 100000#32),
    unary main_c_17 main_v150 (broadcastInDim S800000 ![] bcast_S_S800000 : (⟨S_, .i32⟩ : BufTy).Contents (Elt F) → (⟨S800000, .i32⟩ : BufTy).Contents (Elt F)),
    binary main_v145 main_v150 main_v151 (addi : (⟨S800000, .i32⟩ : BufTy).Contents (Elt F) → (⟨S800000, .i32⟩ : BufTy).Contents (Elt F) → (⟨S800000, .i32⟩ : BufTy).Contents (Elt F)),
    ternary main_v149 main_v151 main_v145 main_v152 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v152 main_v153 (broadcastInDim S800000x1 ![0] bcast_S800000_S800000x1_0 : (⟨S800000, .i32⟩ : BufTy).Contents (Elt F) → (⟨S800000x1, .i32⟩ : BufTy).Contents (Elt F)),
    binary main_v115 main_v153 main_v154 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    nullary main_cst_18 (constant S_ .f32 0x00000000#32),
    unary main_cst_18 main_v155 (broadcastInDim S100000x32 ![] bcast_S_S100000x32 : (⟨S_, .f32⟩ : BufTy).Contents (Elt F) → (⟨S100000x32, .f32⟩ : BufTy).Contents (Elt F)),
    unary main_v147 main_v156 (broadcastInDim S800000x1 ![0] bcast_S800000_S800000x1_0 : (⟨S800000, .i32⟩ : BufTy).Contents (Elt F) → (⟨S800000x1, .i32⟩ : BufTy).Contents (Elt F)),
    ternary main_v155 main_v156 main_v154 main_v157 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    unary main_arg9 main_v158 ((extractStridedSlice S1x32x64 ![1, 0, 0] · slices_S7x32x64_S1x32x64_1_0_0) : (⟨S7x32x64, .f32⟩ : BufTy).Contents (Elt F) → (⟨S1x32x64, .f32⟩ : BufTy).Contents (Elt F)),
    reshape main_v158 main_v159 rfl shapeCasts_S1x32x64_S32x64,
    binary main_v157 main_v159 main_v160 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v143 main_v160 main_v161 (addf : (⟨S100000x64, .f32⟩ : BufTy).Contents (Elt F) → (⟨S100000x64, .f32⟩ : BufTy).Contents (Elt F) → (⟨S100000x64, .f32⟩ : BufTy).Contents (Elt F)),
    unary main_arg10 main_v162 ((extractStridedSlice S1x32x64 ![1, 0, 0] · slices_S7x32x64_S1x32x64_1_0_0) : (⟨S7x32x64, .f32⟩ : BufTy).Contents (Elt F) → (⟨S1x32x64, .f32⟩ : BufTy).Contents (Elt F)),
    reshape main_v162 main_v163 rfl shapeCasts_S1x32x64_S32x64,
    binary main_v115 main_v163 main_v164 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v161 main_v164 main_v165 (addf : (⟨S100000x64, .f32⟩ : BufTy).Contents (Elt F) → (⟨S100000x64, .f32⟩ : BufTy).Contents (Elt F) → (⟨S100000x64, .f32⟩ : BufTy).Contents (Elt F)),
    unary main_arg11 main_v166 ((extractStridedSlice S1x64 ![1, 0] · slices_S7x64_S1x64_1_0) : (⟨S7x64, .f32⟩ : BufTy).Contents (Elt F) → (⟨S1x64, .f32⟩ : BufTy).Contents (Elt F)),
    reshape main_v166 main_v167 rfl shapeCasts_S1x64_S64,
    unary main_v167 main_v168 (broadcastInDim S1x64 ![1] bcast_S64_S1x64_1 : (⟨S64, .f32⟩ : BufTy).Contents (Elt F) → (⟨S1x64, .f32⟩ : BufTy).Contents (Elt F)),
    unary main_v168 main_v169 (broadcastInDim S100000x64 ![0, 1] bcast_S1x64_S100000x64_0_1 : (⟨S1x64, .f32⟩ : BufTy).Contents (Elt F) → (⟨S100000x64, .f32⟩ : BufTy).Contents (Elt F)),
    binary main_v165 main_v169 main_v170 (addf : (⟨S100000x64, .f32⟩ : BufTy).Contents (Elt F) → (⟨S100000x64, .f32⟩ : BufTy).Contents (Elt F) → (⟨S100000x64, .f32⟩ : BufTy).Contents (Elt F)) ]

/-- The buffers these operations write, in order. -/
abbrev opsC2_W : List (Ref sig .tc) := [main_v144, main_v145, main_v146, main_v147, main_c_16, main_v148, main_v149, main_c_17, main_v150, main_v151, main_v152, main_v153, main_v154, main_cst_18, main_v155, main_v156, main_v157, main_v158, main_v159, main_v160, main_v161, main_v162, main_v163, main_v164, main_v165, main_v166, main_v167, main_v168, main_v169, main_v170]

set_option maxRecDepth 8192 in
set_option maxHeartbeats 0 in
theorem opsC2_writes : (opsC2 : List (HloOp τ sig (Elt F))).Forall fun op => op.writes ⊆ (opsC2_W.map (Proc.devRef (τ := τ) .tc)).toFinset := by
  simp only [List.Forall]
  exact ⟨by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written⟩

/-- A buffer these operations do not write keeps its contents through them. -/
theorem opsC2_keep (W : Valuation τ sig (Elt F)) (r : Ref sig .tc) (h : r ∉ opsC2_W) :
    after (opsC2 (F := F)) W (Proc.devRef .tc r) = W (Proc.devRef .tc r) :=
  after_of_writes_sub opsC2 W opsC2_writes h

set_option maxRecDepth 8192 in
set_option maxHeartbeats 0 in
/-- Every one of these operations determines what it writes. -/
theorem opsC2_fresh : (opsC2 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 0 in
set_option maxRecDepth 8192 in
/-- This stretch, from any contents `W` that hold the staged values of the earlier buffers it reads, leaves in `main_v170` that buffer's staged value of the argument
    arrays as `W` holds them. -/
theorem opsC2_stage (W : Valuation τ sig (Elt F)) (x0 : (⟨S100000x6, .f32⟩ : BufTy).Contents (Elt F)) (x1 : (⟨S2x6x16, .f32⟩ : BufTy).Contents (Elt F)) (x2 : (⟨S2x6x16, .f32⟩ : BufTy).Contents (Elt F)) (x3 : (⟨S2x16, .f32⟩ : BufTy).Contents (Elt F)) (x4 : (⟨S2x16x32, .f32⟩ : BufTy).Contents (Elt F)) (x5 : (⟨S2x16x32, .f32⟩ : BufTy).Contents (Elt F)) (x6 : (⟨S2x32, .f32⟩ : BufTy).Contents (Elt F)) (x7 : (⟨S16x32, .f32⟩ : BufTy).Contents (Elt F)) (x8 : (⟨S32, .f32⟩ : BufTy).Contents (Elt F)) (x9 : (⟨S7x32x64, .f32⟩ : BufTy).Contents (Elt F)) (x10 : (⟨S7x32x64, .f32⟩ : BufTy).Contents (Elt F)) (x11 : (⟨S7x64, .f32⟩ : BufTy).Contents (Elt F)) (x14 : (⟨S2x800000, .i32⟩ : BufTy).Contents (Elt F)) (x15 : (⟨S2x800000, .i32⟩ : BufTy).Contents (Elt F)) (x16 : (⟨S2x800000, .i32⟩ : BufTy).Contents (Elt F)) (x17 : (⟨S2x800000, .i32⟩ : BufTy).Contents (Elt F))
    (e0 : W (Proc.devRef .tc main_arg0) = x0) (e1 : W (Proc.devRef .tc main_arg1) = x1) (e2 : W (Proc.devRef .tc main_arg2) = x2) (e3 : W (Proc.devRef .tc main_arg3) = x3) (e4 : W (Proc.devRef .tc main_arg4) = x4) (e5 : W (Proc.devRef .tc main_arg5) = x5) (e6 : W (Proc.devRef .tc main_arg6) = x6) (e7 : W (Proc.devRef .tc main_arg7) = x7) (e8 : W (Proc.devRef .tc main_arg8) = x8) (e9 : W (Proc.devRef .tc main_arg9) = x9) (e10 : W (Proc.devRef .tc main_arg10) = x10) (e11 : W (Proc.devRef .tc main_arg11) = x11) (e14 : W (Proc.devRef .tc main_arg14) = x14) (e15 : W (Proc.devRef .tc main_arg15) = x15) (e16 : W (Proc.devRef .tc main_arg16) = x16) (e17 : W (Proc.devRef .tc main_arg17) = x17)
    (h0 : W (Proc.devRef .tc main_v115) = ReadP.val_main_v115 (F := F) x0 x1 x2 x3 x4 x5 x6 x7 x8 x14 x15)
    (h1 : W (Proc.devRef .tc main_v143) = ReadP.val_main_v143 (F := F) x0 x1 x2 x3 x4 x5 x6 x7 x8 x9 x10 x11 x14 x15 x16) :
    after (opsC2 (F := F)) W (Proc.devRef .tc main_v170) = ReadP.val_main_v170 (F := F) x0 x1 x2 x3 x4 x5 x6 x7 x8 x9 x10 x11 x14 x15 x16 x17 := by
  subst e0 e1 e2 e3 e4 e5 e6 e7 e8 e9 e10 e11 e14 e15 e16 e17
  after_results_simp
  rw [h0, h1]
  rfl

set_option maxHeartbeats 0 in
/-- The third layer, relation 3: its messages gathered from the second layer's output, scatter-added and multiplied by the relation's weights, added onto the running sum. -/
abbrev opsC3 : List (HloOp τ sig (Elt F)) :=
  [ unary main_arg18 main_v171 ((extractStridedSlice S1x800000 ![0, 0] · slices_S2x800000_S1x800000_0_0) : (⟨S2x800000, .i32⟩ : BufTy).Contents (Elt F) → (⟨S1x800000, .i32⟩ : BufTy).Contents (Elt F)),
    reshape main_v171 main_v172 rfl shapeCasts_S1x800000_S800000,
    unary main_arg18 main_v173 ((extractStridedSlice S1x800000 ![1, 0] · slices_S2x800000_S1x800000_1_0) : (⟨S2x800000, .i32⟩ : BufTy).Contents (Elt F) → (⟨S1x800000, .i32⟩ : BufTy).Contents (Elt F)),
    reshape main_v173 main_v174 rfl shapeCasts_S1x800000_S800000,
    nullary main_c_19 (constantI S_ 32 0#32),
    unary main_c_19 main_v175 (broadcastInDim S800000 ![] bcast_S_S800000 : (⟨S_, .i32⟩ : BufTy).Contents (Elt F) → (⟨S800000, .i32⟩ : BufTy).Contents (Elt F)),
    binary main_v172 main_v175 main_v176 (cmpi .slt : (⟨S800000, .i32⟩ : BufTy).Contents (Elt F) → (⟨S800000, .i32⟩ : BufTy).Contents (Elt F) → (⟨S800000, .i1⟩ : BufTy).Contents (Elt F)),
    nullary main_c_20 (constantI S_ 32 100000#32),
    unary main_c_20 main_v177 (broadcastInDim S800000 ![] bcast_S_S800000 : (⟨S_, .i32⟩ : BufTy).Contents (Elt F) → (⟨S800000, .i32⟩ : BufTy).Contents (Elt F)),
    binary main_v172 main_v177 main_v178 (addi : (⟨S800000, .i32⟩ : BufTy).Contents (Elt F) → (⟨S800000, .i32⟩ : BufTy).Contents (Elt F) → (⟨S800000, .i32⟩ : BufTy).Contents (Elt F)),
    ternary main_v176 main_v178 main_v172 main_v179 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v179 main_v180 (broadcastInDim S800000x1 ![0] bcast_S800000_S800000x1_0 : (⟨S800000, .i32⟩ : BufTy).Contents (Elt F) → (⟨S800000x1, .i32⟩ : BufTy).Contents (Elt F)),
    binary main_v115 main_v180 main_v181 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    nullary main_cst_21 (constant S_ .f32 0x00000000#32),
    unary main_cst_21 main_v182 (broadcastInDim S100000x32 ![] bcast_S_S100000x32 : (⟨S_, .f32⟩ : BufTy).Contents (Elt F) → (⟨S100000x32, .f32⟩ : BufTy).Contents (Elt F)),
    unary main_v174 main_v183 (broadcastInDim S800000x1 ![0] bcast_S800000_S800000x1_0 : (⟨S800000, .i32⟩ : BufTy).Contents (Elt F) → (⟨S800000x1, .i32⟩ : BufTy).Contents (Elt F)),
    ternary main_v182 main_v183 main_v181 main_v184 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    nullary main_cst_22 (constant S_ .f32 0x3F800000#32),
    unary main_cst_22 main_v185 (broadcastInDim S800000 ![] bcast_S_S800000 : (⟨S_, .f32⟩ : BufTy).Contents (Elt F) → (⟨S800000, .f32⟩ : BufTy).Contents (Elt F)),
    nullary main_cst_23 (constant S_ .f32 0x00000000#32),
    unary main_cst_23 main_v186 (broadcastInDim S100000 ![] bcast_S_S100000 : (⟨S_, .f32⟩ : BufTy).Contents (Elt F) → (⟨S100000, .f32⟩ : BufTy).Contents (Elt F)),
    unary main_v174 main_v187 (broadcastInDim S800000x1 ![0] bcast_S800000_S800000x1_0 : (⟨S800000, .i32⟩ : BufTy).Contents (Elt F) → (⟨S800000x1, .i32⟩ : BufTy).Contents (Elt F)),
    ternary main_v186 main_v187 main_v185 main_v188 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_24 (constant S_ .f32 0x3F800000#32),
    unary main_cst_24 main_v189 (broadcastInDim S100000 ![] bcast_S_S100000 : (⟨S_, .f32⟩ : BufTy).Contents (Elt F) → (⟨S100000, .f32⟩ : BufTy).Contents (Elt F)),
    binary main_v188 main_v189 main_v190 (maximumf : (⟨S100000, .f32⟩ : BufTy).Contents (Elt F) → (⟨S100000, .f32⟩ : BufTy).Contents (Elt F) → (⟨S100000, .f32⟩ : BufTy).Contents (Elt F)),
    unary main_v190 main_v191 (broadcastInDim S100000x1 ![0] bcast_S100000_S100000x1_0 : (⟨S100000, .f32⟩ : BufTy).Contents (Elt F) → (⟨S100000x1, .f32⟩ : BufTy).Contents (Elt F)),
    unary main_v191 main_v192 (broadcastInDim S100000x32 ![0, 1] bcast_S100000x1_S100000x32_0_1 : (⟨S100000x1, .f32⟩ : BufTy).Contents (Elt F) → (⟨S100000x32, .f32⟩ : BufTy).Contents (Elt F)),
    binary main_v184 main_v192 main_v193 (Host.divf : (⟨S100000x32, .f32⟩ : BufTy).Contents (Elt F) → (⟨S100000x32, .f32⟩ : BufTy).Contents (Elt F) → (⟨S100000x32, .f32⟩ : BufTy).Contents (Elt F)),
    unary main_arg9 main_v194 ((extractStridedSlice S1x32x64 ![2, 0, 0] · slices_S7x32x64_S1x32x64_2_0_0) : (⟨S7x32x64, .f32⟩ : BufTy).Contents (Elt F) → (⟨S1x32x64, .f32⟩ : BufTy).Contents (Elt F)),
    reshape main_v194 main_v195 rfl shapeCasts_S1x32x64_S32x64,
    binary main_v193 main_v195 main_v196 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v170 main_v196 main_v197 (addf : (⟨S100000x64, .f32⟩ : BufTy).Contents (Elt F) → (⟨S100000x64, .f32⟩ : BufTy).Contents (Elt F) → (⟨S100000x64, .f32⟩ : BufTy).Contents (Elt F)),
    unary main_arg10 main_v198 ((extractStridedSlice S1x32x64 ![2, 0, 0] · slices_S7x32x64_S1x32x64_2_0_0) : (⟨S7x32x64, .f32⟩ : BufTy).Contents (Elt F) → (⟨S1x32x64, .f32⟩ : BufTy).Contents (Elt F)),
    reshape main_v198 main_v199 rfl shapeCasts_S1x32x64_S32x64,
    binary main_v115 main_v199 main_v200 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v197 main_v200 main_v201 (addf : (⟨S100000x64, .f32⟩ : BufTy).Contents (Elt F) → (⟨S100000x64, .f32⟩ : BufTy).Contents (Elt F) → (⟨S100000x64, .f32⟩ : BufTy).Contents (Elt F)),
    unary main_arg11 main_v202 ((extractStridedSlice S1x64 ![2, 0] · slices_S7x64_S1x64_2_0) : (⟨S7x64, .f32⟩ : BufTy).Contents (Elt F) → (⟨S1x64, .f32⟩ : BufTy).Contents (Elt F)),
    reshape main_v202 main_v203 rfl shapeCasts_S1x64_S64,
    unary main_v203 main_v204 (broadcastInDim S1x64 ![1] bcast_S64_S1x64_1 : (⟨S64, .f32⟩ : BufTy).Contents (Elt F) → (⟨S1x64, .f32⟩ : BufTy).Contents (Elt F)),
    unary main_v204 main_v205 (broadcastInDim S100000x64 ![0, 1] bcast_S1x64_S100000x64_0_1 : (⟨S1x64, .f32⟩ : BufTy).Contents (Elt F) → (⟨S100000x64, .f32⟩ : BufTy).Contents (Elt F)),
    binary main_v201 main_v205 main_v206 (addf : (⟨S100000x64, .f32⟩ : BufTy).Contents (Elt F) → (⟨S100000x64, .f32⟩ : BufTy).Contents (Elt F) → (⟨S100000x64, .f32⟩ : BufTy).Contents (Elt F)) ]

/-- The buffers these operations write, in order. -/
abbrev opsC3_W : List (Ref sig .tc) := [main_v171, main_v172, main_v173, main_v174, main_c_19, main_v175, main_v176, main_c_20, main_v177, main_v178, main_v179, main_v180, main_v181, main_cst_21, main_v182, main_v183, main_v184, main_cst_22, main_v185, main_cst_23, main_v186, main_v187, main_v188, main_cst_24, main_v189, main_v190, main_v191, main_v192, main_v193, main_v194, main_v195, main_v196, main_v197, main_v198, main_v199, main_v200, main_v201, main_v202, main_v203, main_v204, main_v205, main_v206]

set_option maxRecDepth 8192 in
set_option maxHeartbeats 0 in
theorem opsC3_writes : (opsC3 : List (HloOp τ sig (Elt F))).Forall fun op => op.writes ⊆ (opsC3_W.map (Proc.devRef (τ := τ) .tc)).toFinset := by
  simp only [List.Forall]
  exact ⟨by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written⟩

/-- A buffer these operations do not write keeps its contents through them. -/
theorem opsC3_keep (W : Valuation τ sig (Elt F)) (r : Ref sig .tc) (h : r ∉ opsC3_W) :
    after (opsC3 (F := F)) W (Proc.devRef .tc r) = W (Proc.devRef .tc r) :=
  after_of_writes_sub opsC3 W opsC3_writes h

set_option maxRecDepth 8192 in
set_option maxHeartbeats 0 in
/-- Every one of these operations determines what it writes. -/
theorem opsC3_fresh : (opsC3 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 0 in
set_option maxRecDepth 8192 in
/-- This stretch, from any contents `W` that hold the staged values of the earlier buffers it reads, leaves in `main_v206` that buffer's staged value of the argument
    arrays as `W` holds them. -/
theorem opsC3_stage (W : Valuation τ sig (Elt F)) (x0 : (⟨S100000x6, .f32⟩ : BufTy).Contents (Elt F)) (x1 : (⟨S2x6x16, .f32⟩ : BufTy).Contents (Elt F)) (x2 : (⟨S2x6x16, .f32⟩ : BufTy).Contents (Elt F)) (x3 : (⟨S2x16, .f32⟩ : BufTy).Contents (Elt F)) (x4 : (⟨S2x16x32, .f32⟩ : BufTy).Contents (Elt F)) (x5 : (⟨S2x16x32, .f32⟩ : BufTy).Contents (Elt F)) (x6 : (⟨S2x32, .f32⟩ : BufTy).Contents (Elt F)) (x7 : (⟨S16x32, .f32⟩ : BufTy).Contents (Elt F)) (x8 : (⟨S32, .f32⟩ : BufTy).Contents (Elt F)) (x9 : (⟨S7x32x64, .f32⟩ : BufTy).Contents (Elt F)) (x10 : (⟨S7x32x64, .f32⟩ : BufTy).Contents (Elt F)) (x11 : (⟨S7x64, .f32⟩ : BufTy).Contents (Elt F)) (x14 : (⟨S2x800000, .i32⟩ : BufTy).Contents (Elt F)) (x15 : (⟨S2x800000, .i32⟩ : BufTy).Contents (Elt F)) (x16 : (⟨S2x800000, .i32⟩ : BufTy).Contents (Elt F)) (x17 : (⟨S2x800000, .i32⟩ : BufTy).Contents (Elt F)) (x18 : (⟨S2x800000, .i32⟩ : BufTy).Contents (Elt F))
    (e0 : W (Proc.devRef .tc main_arg0) = x0) (e1 : W (Proc.devRef .tc main_arg1) = x1) (e2 : W (Proc.devRef .tc main_arg2) = x2) (e3 : W (Proc.devRef .tc main_arg3) = x3) (e4 : W (Proc.devRef .tc main_arg4) = x4) (e5 : W (Proc.devRef .tc main_arg5) = x5) (e6 : W (Proc.devRef .tc main_arg6) = x6) (e7 : W (Proc.devRef .tc main_arg7) = x7) (e8 : W (Proc.devRef .tc main_arg8) = x8) (e9 : W (Proc.devRef .tc main_arg9) = x9) (e10 : W (Proc.devRef .tc main_arg10) = x10) (e11 : W (Proc.devRef .tc main_arg11) = x11) (e14 : W (Proc.devRef .tc main_arg14) = x14) (e15 : W (Proc.devRef .tc main_arg15) = x15) (e16 : W (Proc.devRef .tc main_arg16) = x16) (e17 : W (Proc.devRef .tc main_arg17) = x17) (e18 : W (Proc.devRef .tc main_arg18) = x18)
    (h0 : W (Proc.devRef .tc main_v115) = ReadP.val_main_v115 (F := F) x0 x1 x2 x3 x4 x5 x6 x7 x8 x14 x15)
    (h1 : W (Proc.devRef .tc main_v170) = ReadP.val_main_v170 (F := F) x0 x1 x2 x3 x4 x5 x6 x7 x8 x9 x10 x11 x14 x15 x16 x17) :
    after (opsC3 (F := F)) W (Proc.devRef .tc main_v206) = ReadP.val_main_v206 (F := F) x0 x1 x2 x3 x4 x5 x6 x7 x8 x9 x10 x11 x14 x15 x16 x17 x18 := by
  subst e0 e1 e2 e3 e4 e5 e6 e7 e8 e9 e10 e11 e14 e15 e16 e17 e18
  after_results_simp
  rw [h0, h1]
  rfl

set_option maxHeartbeats 0 in
/-- The third layer, relation 4: its messages gathered from the second layer's output, scatter-added and multiplied by the relation's weights, added onto the running sum. -/
abbrev opsC4 : List (HloOp τ sig (Elt F)) :=
  [ unary main_arg19 main_v207 ((extractStridedSlice S1x800000 ![0, 0] · slices_S2x800000_S1x800000_0_0) : (⟨S2x800000, .i32⟩ : BufTy).Contents (Elt F) → (⟨S1x800000, .i32⟩ : BufTy).Contents (Elt F)),
    reshape main_v207 main_v208 rfl shapeCasts_S1x800000_S800000,
    unary main_arg19 main_v209 ((extractStridedSlice S1x800000 ![1, 0] · slices_S2x800000_S1x800000_1_0) : (⟨S2x800000, .i32⟩ : BufTy).Contents (Elt F) → (⟨S1x800000, .i32⟩ : BufTy).Contents (Elt F)),
    reshape main_v209 main_v210 rfl shapeCasts_S1x800000_S800000,
    nullary main_c_25 (constantI S_ 32 0#32),
    unary main_c_25 main_v211 (broadcastInDim S800000 ![] bcast_S_S800000 : (⟨S_, .i32⟩ : BufTy).Contents (Elt F) → (⟨S800000, .i32⟩ : BufTy).Contents (Elt F)),
    binary main_v208 main_v211 main_v212 (cmpi .slt : (⟨S800000, .i32⟩ : BufTy).Contents (Elt F) → (⟨S800000, .i32⟩ : BufTy).Contents (Elt F) → (⟨S800000, .i1⟩ : BufTy).Contents (Elt F)),
    nullary main_c_26 (constantI S_ 32 100000#32),
    unary main_c_26 main_v213 (broadcastInDim S800000 ![] bcast_S_S800000 : (⟨S_, .i32⟩ : BufTy).Contents (Elt F) → (⟨S800000, .i32⟩ : BufTy).Contents (Elt F)),
    binary main_v208 main_v213 main_v214 (addi : (⟨S800000, .i32⟩ : BufTy).Contents (Elt F) → (⟨S800000, .i32⟩ : BufTy).Contents (Elt F) → (⟨S800000, .i32⟩ : BufTy).Contents (Elt F)),
    ternary main_v212 main_v214 main_v208 main_v215 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v215 main_v216 (broadcastInDim S800000x1 ![0] bcast_S800000_S800000x1_0 : (⟨S800000, .i32⟩ : BufTy).Contents (Elt F) → (⟨S800000x1, .i32⟩ : BufTy).Contents (Elt F)),
    binary main_v115 main_v216 main_v217 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    nullary main_cst_27 (constant S_ .f32 0x00000000#32),
    unary main_cst_27 main_v218 (broadcastInDim S100000x32 ![] bcast_S_S100000x32 : (⟨S_, .f32⟩ : BufTy).Contents (Elt F) → (⟨S100000x32, .f32⟩ : BufTy).Contents (Elt F)),
    unary main_v210 main_v219 (broadcastInDim S800000x1 ![0] bcast_S800000_S800000x1_0 : (⟨S800000, .i32⟩ : BufTy).Contents (Elt F) → (⟨S800000x1, .i32⟩ : BufTy).Contents (Elt F)),
    ternary main_v218 main_v219 main_v217 main_v220 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    nullary main_cst_28 (constant S_ .f32 0x3F800000#32),
    unary main_cst_28 main_v221 (broadcastInDim S800000 ![] bcast_S_S800000 : (⟨S_, .f32⟩ : BufTy).Contents (Elt F) → (⟨S800000, .f32⟩ : BufTy).Contents (Elt F)),
    nullary main_cst_29 (constant S_ .f32 0x00000000#32),
    unary main_cst_29 main_v222 (broadcastInDim S100000 ![] bcast_S_S100000 : (⟨S_, .f32⟩ : BufTy).Contents (Elt F) → (⟨S100000, .f32⟩ : BufTy).Contents (Elt F)),
    unary main_v210 main_v223 (broadcastInDim S800000x1 ![0] bcast_S800000_S800000x1_0 : (⟨S800000, .i32⟩ : BufTy).Contents (Elt F) → (⟨S800000x1, .i32⟩ : BufTy).Contents (Elt F)),
    ternary main_v222 main_v223 main_v221 main_v224 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_30 (constant S_ .f32 0x3F800000#32),
    unary main_cst_30 main_v225 (broadcastInDim S100000 ![] bcast_S_S100000 : (⟨S_, .f32⟩ : BufTy).Contents (Elt F) → (⟨S100000, .f32⟩ : BufTy).Contents (Elt F)),
    binary main_v224 main_v225 main_v226 (maximumf : (⟨S100000, .f32⟩ : BufTy).Contents (Elt F) → (⟨S100000, .f32⟩ : BufTy).Contents (Elt F) → (⟨S100000, .f32⟩ : BufTy).Contents (Elt F)),
    unary main_v226 main_v227 (broadcastInDim S100000x1 ![0] bcast_S100000_S100000x1_0 : (⟨S100000, .f32⟩ : BufTy).Contents (Elt F) → (⟨S100000x1, .f32⟩ : BufTy).Contents (Elt F)),
    unary main_v227 main_v228 (broadcastInDim S100000x32 ![0, 1] bcast_S100000x1_S100000x32_0_1 : (⟨S100000x1, .f32⟩ : BufTy).Contents (Elt F) → (⟨S100000x32, .f32⟩ : BufTy).Contents (Elt F)),
    binary main_v220 main_v228 main_v229 (Host.divf : (⟨S100000x32, .f32⟩ : BufTy).Contents (Elt F) → (⟨S100000x32, .f32⟩ : BufTy).Contents (Elt F) → (⟨S100000x32, .f32⟩ : BufTy).Contents (Elt F)),
    unary main_arg9 main_v230 ((extractStridedSlice S1x32x64 ![3, 0, 0] · slices_S7x32x64_S1x32x64_3_0_0) : (⟨S7x32x64, .f32⟩ : BufTy).Contents (Elt F) → (⟨S1x32x64, .f32⟩ : BufTy).Contents (Elt F)),
    reshape main_v230 main_v231 rfl shapeCasts_S1x32x64_S32x64,
    binary main_v229 main_v231 main_v232 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v206 main_v232 main_v233 (addf : (⟨S100000x64, .f32⟩ : BufTy).Contents (Elt F) → (⟨S100000x64, .f32⟩ : BufTy).Contents (Elt F) → (⟨S100000x64, .f32⟩ : BufTy).Contents (Elt F)),
    unary main_arg10 main_v234 ((extractStridedSlice S1x32x64 ![3, 0, 0] · slices_S7x32x64_S1x32x64_3_0_0) : (⟨S7x32x64, .f32⟩ : BufTy).Contents (Elt F) → (⟨S1x32x64, .f32⟩ : BufTy).Contents (Elt F)),
    reshape main_v234 main_v235 rfl shapeCasts_S1x32x64_S32x64,
    binary main_v115 main_v235 main_v236 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v233 main_v236 main_v237 (addf : (⟨S100000x64, .f32⟩ : BufTy).Contents (Elt F) → (⟨S100000x64, .f32⟩ : BufTy).Contents (Elt F) → (⟨S100000x64, .f32⟩ : BufTy).Contents (Elt F)),
    unary main_arg11 main_v238 ((extractStridedSlice S1x64 ![3, 0] · slices_S7x64_S1x64_3_0) : (⟨S7x64, .f32⟩ : BufTy).Contents (Elt F) → (⟨S1x64, .f32⟩ : BufTy).Contents (Elt F)),
    reshape main_v238 main_v239 rfl shapeCasts_S1x64_S64,
    unary main_v239 main_v240 (broadcastInDim S1x64 ![1] bcast_S64_S1x64_1 : (⟨S64, .f32⟩ : BufTy).Contents (Elt F) → (⟨S1x64, .f32⟩ : BufTy).Contents (Elt F)),
    unary main_v240 main_v241 (broadcastInDim S100000x64 ![0, 1] bcast_S1x64_S100000x64_0_1 : (⟨S1x64, .f32⟩ : BufTy).Contents (Elt F) → (⟨S100000x64, .f32⟩ : BufTy).Contents (Elt F)),
    binary main_v237 main_v241 main_v242 (addf : (⟨S100000x64, .f32⟩ : BufTy).Contents (Elt F) → (⟨S100000x64, .f32⟩ : BufTy).Contents (Elt F) → (⟨S100000x64, .f32⟩ : BufTy).Contents (Elt F)) ]

/-- The buffers these operations write, in order. -/
abbrev opsC4_W : List (Ref sig .tc) := [main_v207, main_v208, main_v209, main_v210, main_c_25, main_v211, main_v212, main_c_26, main_v213, main_v214, main_v215, main_v216, main_v217, main_cst_27, main_v218, main_v219, main_v220, main_cst_28, main_v221, main_cst_29, main_v222, main_v223, main_v224, main_cst_30, main_v225, main_v226, main_v227, main_v228, main_v229, main_v230, main_v231, main_v232, main_v233, main_v234, main_v235, main_v236, main_v237, main_v238, main_v239, main_v240, main_v241, main_v242]

set_option maxRecDepth 8192 in
set_option maxHeartbeats 0 in
theorem opsC4_writes : (opsC4 : List (HloOp τ sig (Elt F))).Forall fun op => op.writes ⊆ (opsC4_W.map (Proc.devRef (τ := τ) .tc)).toFinset := by
  simp only [List.Forall]
  exact ⟨by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written⟩

/-- A buffer these operations do not write keeps its contents through them. -/
theorem opsC4_keep (W : Valuation τ sig (Elt F)) (r : Ref sig .tc) (h : r ∉ opsC4_W) :
    after (opsC4 (F := F)) W (Proc.devRef .tc r) = W (Proc.devRef .tc r) :=
  after_of_writes_sub opsC4 W opsC4_writes h

set_option maxRecDepth 8192 in
set_option maxHeartbeats 0 in
/-- Every one of these operations determines what it writes. -/
theorem opsC4_fresh : (opsC4 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 0 in
set_option maxRecDepth 8192 in
/-- This stretch, from any contents `W` that hold the staged values of the earlier buffers it reads, leaves in `main_v242` that buffer's staged value of the argument
    arrays as `W` holds them. -/
theorem opsC4_stage (W : Valuation τ sig (Elt F)) (x0 : (⟨S100000x6, .f32⟩ : BufTy).Contents (Elt F)) (x1 : (⟨S2x6x16, .f32⟩ : BufTy).Contents (Elt F)) (x2 : (⟨S2x6x16, .f32⟩ : BufTy).Contents (Elt F)) (x3 : (⟨S2x16, .f32⟩ : BufTy).Contents (Elt F)) (x4 : (⟨S2x16x32, .f32⟩ : BufTy).Contents (Elt F)) (x5 : (⟨S2x16x32, .f32⟩ : BufTy).Contents (Elt F)) (x6 : (⟨S2x32, .f32⟩ : BufTy).Contents (Elt F)) (x7 : (⟨S16x32, .f32⟩ : BufTy).Contents (Elt F)) (x8 : (⟨S32, .f32⟩ : BufTy).Contents (Elt F)) (x9 : (⟨S7x32x64, .f32⟩ : BufTy).Contents (Elt F)) (x10 : (⟨S7x32x64, .f32⟩ : BufTy).Contents (Elt F)) (x11 : (⟨S7x64, .f32⟩ : BufTy).Contents (Elt F)) (x14 : (⟨S2x800000, .i32⟩ : BufTy).Contents (Elt F)) (x15 : (⟨S2x800000, .i32⟩ : BufTy).Contents (Elt F)) (x16 : (⟨S2x800000, .i32⟩ : BufTy).Contents (Elt F)) (x17 : (⟨S2x800000, .i32⟩ : BufTy).Contents (Elt F)) (x18 : (⟨S2x800000, .i32⟩ : BufTy).Contents (Elt F)) (x19 : (⟨S2x800000, .i32⟩ : BufTy).Contents (Elt F))
    (e0 : W (Proc.devRef .tc main_arg0) = x0) (e1 : W (Proc.devRef .tc main_arg1) = x1) (e2 : W (Proc.devRef .tc main_arg2) = x2) (e3 : W (Proc.devRef .tc main_arg3) = x3) (e4 : W (Proc.devRef .tc main_arg4) = x4) (e5 : W (Proc.devRef .tc main_arg5) = x5) (e6 : W (Proc.devRef .tc main_arg6) = x6) (e7 : W (Proc.devRef .tc main_arg7) = x7) (e8 : W (Proc.devRef .tc main_arg8) = x8) (e9 : W (Proc.devRef .tc main_arg9) = x9) (e10 : W (Proc.devRef .tc main_arg10) = x10) (e11 : W (Proc.devRef .tc main_arg11) = x11) (e14 : W (Proc.devRef .tc main_arg14) = x14) (e15 : W (Proc.devRef .tc main_arg15) = x15) (e16 : W (Proc.devRef .tc main_arg16) = x16) (e17 : W (Proc.devRef .tc main_arg17) = x17) (e18 : W (Proc.devRef .tc main_arg18) = x18) (e19 : W (Proc.devRef .tc main_arg19) = x19)
    (h0 : W (Proc.devRef .tc main_v115) = ReadP.val_main_v115 (F := F) x0 x1 x2 x3 x4 x5 x6 x7 x8 x14 x15)
    (h1 : W (Proc.devRef .tc main_v206) = ReadP.val_main_v206 (F := F) x0 x1 x2 x3 x4 x5 x6 x7 x8 x9 x10 x11 x14 x15 x16 x17 x18) :
    after (opsC4 (F := F)) W (Proc.devRef .tc main_v242) = ReadP.val_main_v242 (F := F) x0 x1 x2 x3 x4 x5 x6 x7 x8 x9 x10 x11 x14 x15 x16 x17 x18 x19 := by
  subst e0 e1 e2 e3 e4 e5 e6 e7 e8 e9 e10 e11 e14 e15 e16 e17 e18 e19
  after_results_simp
  rw [h0, h1]
  rfl

set_option maxHeartbeats 0 in
/-- The third layer, relation 5: its messages gathered from the second layer's output, scatter-added and multiplied by the relation's weights, added onto the running sum. -/
abbrev opsC5 : List (HloOp τ sig (Elt F)) :=
  [ unary main_arg20 main_v243 ((extractStridedSlice S1x800000 ![0, 0] · slices_S2x800000_S1x800000_0_0) : (⟨S2x800000, .i32⟩ : BufTy).Contents (Elt F) → (⟨S1x800000, .i32⟩ : BufTy).Contents (Elt F)),
    reshape main_v243 main_v244 rfl shapeCasts_S1x800000_S800000,
    unary main_arg20 main_v245 ((extractStridedSlice S1x800000 ![1, 0] · slices_S2x800000_S1x800000_1_0) : (⟨S2x800000, .i32⟩ : BufTy).Contents (Elt F) → (⟨S1x800000, .i32⟩ : BufTy).Contents (Elt F)),
    reshape main_v245 main_v246 rfl shapeCasts_S1x800000_S800000,
    nullary main_c_31 (constantI S_ 32 0#32),
    unary main_c_31 main_v247 (broadcastInDim S800000 ![] bcast_S_S800000 : (⟨S_, .i32⟩ : BufTy).Contents (Elt F) → (⟨S800000, .i32⟩ : BufTy).Contents (Elt F)),
    binary main_v244 main_v247 main_v248 (cmpi .slt : (⟨S800000, .i32⟩ : BufTy).Contents (Elt F) → (⟨S800000, .i32⟩ : BufTy).Contents (Elt F) → (⟨S800000, .i1⟩ : BufTy).Contents (Elt F)),
    nullary main_c_32 (constantI S_ 32 100000#32),
    unary main_c_32 main_v249 (broadcastInDim S800000 ![] bcast_S_S800000 : (⟨S_, .i32⟩ : BufTy).Contents (Elt F) → (⟨S800000, .i32⟩ : BufTy).Contents (Elt F)),
    binary main_v244 main_v249 main_v250 (addi : (⟨S800000, .i32⟩ : BufTy).Contents (Elt F) → (⟨S800000, .i32⟩ : BufTy).Contents (Elt F) → (⟨S800000, .i32⟩ : BufTy).Contents (Elt F)),
    ternary main_v248 main_v250 main_v244 main_v251 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v251 main_v252 (broadcastInDim S800000x1 ![0] bcast_S800000_S800000x1_0 : (⟨S800000, .i32⟩ : BufTy).Contents (Elt F) → (⟨S800000x1, .i32⟩ : BufTy).Contents (Elt F)),
    binary main_v115 main_v252 main_v253 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    nullary main_cst_33 (constant S_ .f32 0x00000000#32),
    unary main_cst_33 main_v254 (broadcastInDim S100000x32 ![] bcast_S_S100000x32 : (⟨S_, .f32⟩ : BufTy).Contents (Elt F) → (⟨S100000x32, .f32⟩ : BufTy).Contents (Elt F)),
    unary main_v246 main_v255 (broadcastInDim S800000x1 ![0] bcast_S800000_S800000x1_0 : (⟨S800000, .i32⟩ : BufTy).Contents (Elt F) → (⟨S800000x1, .i32⟩ : BufTy).Contents (Elt F)),
    ternary main_v254 main_v255 main_v253 main_v256 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    unary main_arg9 main_v257 ((extractStridedSlice S1x32x64 ![4, 0, 0] · slices_S7x32x64_S1x32x64_4_0_0) : (⟨S7x32x64, .f32⟩ : BufTy).Contents (Elt F) → (⟨S1x32x64, .f32⟩ : BufTy).Contents (Elt F)),
    reshape main_v257 main_v258 rfl shapeCasts_S1x32x64_S32x64,
    binary main_v256 main_v258 main_v259 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v242 main_v259 main_v260 (addf : (⟨S100000x64, .f32⟩ : BufTy).Contents (Elt F) → (⟨S100000x64, .f32⟩ : BufTy).Contents (Elt F) → (⟨S100000x64, .f32⟩ : BufTy).Contents (Elt F)),
    unary main_arg10 main_v261 ((extractStridedSlice S1x32x64 ![4, 0, 0] · slices_S7x32x64_S1x32x64_4_0_0) : (⟨S7x32x64, .f32⟩ : BufTy).Contents (Elt F) → (⟨S1x32x64, .f32⟩ : BufTy).Contents (Elt F)),
    reshape main_v261 main_v262 rfl shapeCasts_S1x32x64_S32x64,
    binary main_v115 main_v262 main_v263 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v260 main_v263 main_v264 (addf : (⟨S100000x64, .f32⟩ : BufTy).Contents (Elt F) → (⟨S100000x64, .f32⟩ : BufTy).Contents (Elt F) → (⟨S100000x64, .f32⟩ : BufTy).Contents (Elt F)),
    unary main_arg11 main_v265 ((extractStridedSlice S1x64 ![4, 0] · slices_S7x64_S1x64_4_0) : (⟨S7x64, .f32⟩ : BufTy).Contents (Elt F) → (⟨S1x64, .f32⟩ : BufTy).Contents (Elt F)),
    reshape main_v265 main_v266 rfl shapeCasts_S1x64_S64,
    unary main_v266 main_v267 (broadcastInDim S1x64 ![1] bcast_S64_S1x64_1 : (⟨S64, .f32⟩ : BufTy).Contents (Elt F) → (⟨S1x64, .f32⟩ : BufTy).Contents (Elt F)),
    unary main_v267 main_v268 (broadcastInDim S100000x64 ![0, 1] bcast_S1x64_S100000x64_0_1 : (⟨S1x64, .f32⟩ : BufTy).Contents (Elt F) → (⟨S100000x64, .f32⟩ : BufTy).Contents (Elt F)),
    binary main_v264 main_v268 main_v269 (addf : (⟨S100000x64, .f32⟩ : BufTy).Contents (Elt F) → (⟨S100000x64, .f32⟩ : BufTy).Contents (Elt F) → (⟨S100000x64, .f32⟩ : BufTy).Contents (Elt F)) ]

/-- The buffers these operations write, in order. -/
abbrev opsC5_W : List (Ref sig .tc) := [main_v243, main_v244, main_v245, main_v246, main_c_31, main_v247, main_v248, main_c_32, main_v249, main_v250, main_v251, main_v252, main_v253, main_cst_33, main_v254, main_v255, main_v256, main_v257, main_v258, main_v259, main_v260, main_v261, main_v262, main_v263, main_v264, main_v265, main_v266, main_v267, main_v268, main_v269]

set_option maxRecDepth 8192 in
set_option maxHeartbeats 0 in
theorem opsC5_writes : (opsC5 : List (HloOp τ sig (Elt F))).Forall fun op => op.writes ⊆ (opsC5_W.map (Proc.devRef (τ := τ) .tc)).toFinset := by
  simp only [List.Forall]
  exact ⟨by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written⟩

/-- A buffer these operations do not write keeps its contents through them. -/
theorem opsC5_keep (W : Valuation τ sig (Elt F)) (r : Ref sig .tc) (h : r ∉ opsC5_W) :
    after (opsC5 (F := F)) W (Proc.devRef .tc r) = W (Proc.devRef .tc r) :=
  after_of_writes_sub opsC5 W opsC5_writes h

set_option maxRecDepth 8192 in
set_option maxHeartbeats 0 in
/-- Every one of these operations determines what it writes. -/
theorem opsC5_fresh : (opsC5 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 0 in
set_option maxRecDepth 8192 in
/-- This stretch, from any contents `W` that hold the staged values of the earlier buffers it reads, leaves in `main_v269` that buffer's staged value of the argument
    arrays as `W` holds them. -/
theorem opsC5_stage (W : Valuation τ sig (Elt F)) (x0 : (⟨S100000x6, .f32⟩ : BufTy).Contents (Elt F)) (x1 : (⟨S2x6x16, .f32⟩ : BufTy).Contents (Elt F)) (x2 : (⟨S2x6x16, .f32⟩ : BufTy).Contents (Elt F)) (x3 : (⟨S2x16, .f32⟩ : BufTy).Contents (Elt F)) (x4 : (⟨S2x16x32, .f32⟩ : BufTy).Contents (Elt F)) (x5 : (⟨S2x16x32, .f32⟩ : BufTy).Contents (Elt F)) (x6 : (⟨S2x32, .f32⟩ : BufTy).Contents (Elt F)) (x7 : (⟨S16x32, .f32⟩ : BufTy).Contents (Elt F)) (x8 : (⟨S32, .f32⟩ : BufTy).Contents (Elt F)) (x9 : (⟨S7x32x64, .f32⟩ : BufTy).Contents (Elt F)) (x10 : (⟨S7x32x64, .f32⟩ : BufTy).Contents (Elt F)) (x11 : (⟨S7x64, .f32⟩ : BufTy).Contents (Elt F)) (x14 : (⟨S2x800000, .i32⟩ : BufTy).Contents (Elt F)) (x15 : (⟨S2x800000, .i32⟩ : BufTy).Contents (Elt F)) (x16 : (⟨S2x800000, .i32⟩ : BufTy).Contents (Elt F)) (x17 : (⟨S2x800000, .i32⟩ : BufTy).Contents (Elt F)) (x18 : (⟨S2x800000, .i32⟩ : BufTy).Contents (Elt F)) (x19 : (⟨S2x800000, .i32⟩ : BufTy).Contents (Elt F)) (x20 : (⟨S2x800000, .i32⟩ : BufTy).Contents (Elt F))
    (e0 : W (Proc.devRef .tc main_arg0) = x0) (e1 : W (Proc.devRef .tc main_arg1) = x1) (e2 : W (Proc.devRef .tc main_arg2) = x2) (e3 : W (Proc.devRef .tc main_arg3) = x3) (e4 : W (Proc.devRef .tc main_arg4) = x4) (e5 : W (Proc.devRef .tc main_arg5) = x5) (e6 : W (Proc.devRef .tc main_arg6) = x6) (e7 : W (Proc.devRef .tc main_arg7) = x7) (e8 : W (Proc.devRef .tc main_arg8) = x8) (e9 : W (Proc.devRef .tc main_arg9) = x9) (e10 : W (Proc.devRef .tc main_arg10) = x10) (e11 : W (Proc.devRef .tc main_arg11) = x11) (e14 : W (Proc.devRef .tc main_arg14) = x14) (e15 : W (Proc.devRef .tc main_arg15) = x15) (e16 : W (Proc.devRef .tc main_arg16) = x16) (e17 : W (Proc.devRef .tc main_arg17) = x17) (e18 : W (Proc.devRef .tc main_arg18) = x18) (e19 : W (Proc.devRef .tc main_arg19) = x19) (e20 : W (Proc.devRef .tc main_arg20) = x20)
    (h0 : W (Proc.devRef .tc main_v115) = ReadP.val_main_v115 (F := F) x0 x1 x2 x3 x4 x5 x6 x7 x8 x14 x15)
    (h1 : W (Proc.devRef .tc main_v242) = ReadP.val_main_v242 (F := F) x0 x1 x2 x3 x4 x5 x6 x7 x8 x9 x10 x11 x14 x15 x16 x17 x18 x19) :
    after (opsC5 (F := F)) W (Proc.devRef .tc main_v269) = ReadP.val_main_v269 (F := F) x0 x1 x2 x3 x4 x5 x6 x7 x8 x9 x10 x11 x14 x15 x16 x17 x18 x19 x20 := by
  subst e0 e1 e2 e3 e4 e5 e6 e7 e8 e9 e10 e11 e14 e15 e16 e17 e18 e19 e20
  after_results_simp
  rw [h0, h1]
  rfl

set_option maxHeartbeats 0 in
/-- The third layer, relation 6: its messages gathered from the second layer's output, scatter-added and multiplied by the relation's weights, added onto the running sum. -/
abbrev opsC6 : List (HloOp τ sig (Elt F)) :=
  [ unary main_arg21 main_v270 ((extractStridedSlice S1x800000 ![0, 0] · slices_S2x800000_S1x800000_0_0) : (⟨S2x800000, .i32⟩ : BufTy).Contents (Elt F) → (⟨S1x800000, .i32⟩ : BufTy).Contents (Elt F)),
    reshape main_v270 main_v271 rfl shapeCasts_S1x800000_S800000,
    unary main_arg21 main_v272 ((extractStridedSlice S1x800000 ![1, 0] · slices_S2x800000_S1x800000_1_0) : (⟨S2x800000, .i32⟩ : BufTy).Contents (Elt F) → (⟨S1x800000, .i32⟩ : BufTy).Contents (Elt F)),
    reshape main_v272 main_v273 rfl shapeCasts_S1x800000_S800000,
    nullary main_c_34 (constantI S_ 32 0#32),
    unary main_c_34 main_v274 (broadcastInDim S800000 ![] bcast_S_S800000 : (⟨S_, .i32⟩ : BufTy).Contents (Elt F) → (⟨S800000, .i32⟩ : BufTy).Contents (Elt F)),
    binary main_v271 main_v274 main_v275 (cmpi .slt : (⟨S800000, .i32⟩ : BufTy).Contents (Elt F) → (⟨S800000, .i32⟩ : BufTy).Contents (Elt F) → (⟨S800000, .i1⟩ : BufTy).Contents (Elt F)),
    nullary main_c_35 (constantI S_ 32 100000#32),
    unary main_c_35 main_v276 (broadcastInDim S800000 ![] bcast_S_S800000 : (⟨S_, .i32⟩ : BufTy).Contents (Elt F) → (⟨S800000, .i32⟩ : BufTy).Contents (Elt F)),
    binary main_v271 main_v276 main_v277 (addi : (⟨S800000, .i32⟩ : BufTy).Contents (Elt F) → (⟨S800000, .i32⟩ : BufTy).Contents (Elt F) → (⟨S800000, .i32⟩ : BufTy).Contents (Elt F)),
    ternary main_v275 main_v277 main_v271 main_v278 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v278 main_v279 (broadcastInDim S800000x1 ![0] bcast_S800000_S800000x1_0 : (⟨S800000, .i32⟩ : BufTy).Contents (Elt F) → (⟨S800000x1, .i32⟩ : BufTy).Contents (Elt F)),
    binary main_v115 main_v279 main_v280 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    nullary main_cst_36 (constant S_ .f32 0x00000000#32),
    unary main_cst_36 main_v281 (broadcastInDim S100000x32 ![] bcast_S_S100000x32 : (⟨S_, .f32⟩ : BufTy).Contents (Elt F) → (⟨S100000x32, .f32⟩ : BufTy).Contents (Elt F)),
    unary main_v273 main_v282 (broadcastInDim S800000x1 ![0] bcast_S800000_S800000x1_0 : (⟨S800000, .i32⟩ : BufTy).Contents (Elt F) → (⟨S800000x1, .i32⟩ : BufTy).Contents (Elt F)),
    ternary main_v281 main_v282 main_v280 main_v283 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    unary main_arg9 main_v284 ((extractStridedSlice S1x32x64 ![5, 0, 0] · slices_S7x32x64_S1x32x64_5_0_0) : (⟨S7x32x64, .f32⟩ : BufTy).Contents (Elt F) → (⟨S1x32x64, .f32⟩ : BufTy).Contents (Elt F)),
    reshape main_v284 main_v285 rfl shapeCasts_S1x32x64_S32x64,
    binary main_v283 main_v285 main_v286 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v269 main_v286 main_v287 (addf : (⟨S100000x64, .f32⟩ : BufTy).Contents (Elt F) → (⟨S100000x64, .f32⟩ : BufTy).Contents (Elt F) → (⟨S100000x64, .f32⟩ : BufTy).Contents (Elt F)),
    unary main_arg10 main_v288 ((extractStridedSlice S1x32x64 ![5, 0, 0] · slices_S7x32x64_S1x32x64_5_0_0) : (⟨S7x32x64, .f32⟩ : BufTy).Contents (Elt F) → (⟨S1x32x64, .f32⟩ : BufTy).Contents (Elt F)),
    reshape main_v288 main_v289 rfl shapeCasts_S1x32x64_S32x64,
    binary main_v115 main_v289 main_v290 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v287 main_v290 main_v291 (addf : (⟨S100000x64, .f32⟩ : BufTy).Contents (Elt F) → (⟨S100000x64, .f32⟩ : BufTy).Contents (Elt F) → (⟨S100000x64, .f32⟩ : BufTy).Contents (Elt F)),
    unary main_arg11 main_v292 ((extractStridedSlice S1x64 ![5, 0] · slices_S7x64_S1x64_5_0) : (⟨S7x64, .f32⟩ : BufTy).Contents (Elt F) → (⟨S1x64, .f32⟩ : BufTy).Contents (Elt F)),
    reshape main_v292 main_v293 rfl shapeCasts_S1x64_S64,
    unary main_v293 main_v294 (broadcastInDim S1x64 ![1] bcast_S64_S1x64_1 : (⟨S64, .f32⟩ : BufTy).Contents (Elt F) → (⟨S1x64, .f32⟩ : BufTy).Contents (Elt F)),
    unary main_v294 main_v295 (broadcastInDim S100000x64 ![0, 1] bcast_S1x64_S100000x64_0_1 : (⟨S1x64, .f32⟩ : BufTy).Contents (Elt F) → (⟨S100000x64, .f32⟩ : BufTy).Contents (Elt F)),
    binary main_v291 main_v295 main_v296 (addf : (⟨S100000x64, .f32⟩ : BufTy).Contents (Elt F) → (⟨S100000x64, .f32⟩ : BufTy).Contents (Elt F) → (⟨S100000x64, .f32⟩ : BufTy).Contents (Elt F)) ]

/-- The buffers these operations write, in order. -/
abbrev opsC6_W : List (Ref sig .tc) := [main_v270, main_v271, main_v272, main_v273, main_c_34, main_v274, main_v275, main_c_35, main_v276, main_v277, main_v278, main_v279, main_v280, main_cst_36, main_v281, main_v282, main_v283, main_v284, main_v285, main_v286, main_v287, main_v288, main_v289, main_v290, main_v291, main_v292, main_v293, main_v294, main_v295, main_v296]

set_option maxRecDepth 8192 in
set_option maxHeartbeats 0 in
theorem opsC6_writes : (opsC6 : List (HloOp τ sig (Elt F))).Forall fun op => op.writes ⊆ (opsC6_W.map (Proc.devRef (τ := τ) .tc)).toFinset := by
  simp only [List.Forall]
  exact ⟨by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written⟩

/-- A buffer these operations do not write keeps its contents through them. -/
theorem opsC6_keep (W : Valuation τ sig (Elt F)) (r : Ref sig .tc) (h : r ∉ opsC6_W) :
    after (opsC6 (F := F)) W (Proc.devRef .tc r) = W (Proc.devRef .tc r) :=
  after_of_writes_sub opsC6 W opsC6_writes h

set_option maxRecDepth 8192 in
set_option maxHeartbeats 0 in
/-- Every one of these operations determines what it writes. -/
theorem opsC6_fresh : (opsC6 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 0 in
set_option maxRecDepth 8192 in
/-- This stretch, from any contents `W` that hold the staged values of the earlier buffers it reads, leaves in `main_v296` that buffer's staged value of the argument
    arrays as `W` holds them. -/
theorem opsC6_stage (W : Valuation τ sig (Elt F)) (x0 : (⟨S100000x6, .f32⟩ : BufTy).Contents (Elt F)) (x1 : (⟨S2x6x16, .f32⟩ : BufTy).Contents (Elt F)) (x2 : (⟨S2x6x16, .f32⟩ : BufTy).Contents (Elt F)) (x3 : (⟨S2x16, .f32⟩ : BufTy).Contents (Elt F)) (x4 : (⟨S2x16x32, .f32⟩ : BufTy).Contents (Elt F)) (x5 : (⟨S2x16x32, .f32⟩ : BufTy).Contents (Elt F)) (x6 : (⟨S2x32, .f32⟩ : BufTy).Contents (Elt F)) (x7 : (⟨S16x32, .f32⟩ : BufTy).Contents (Elt F)) (x8 : (⟨S32, .f32⟩ : BufTy).Contents (Elt F)) (x9 : (⟨S7x32x64, .f32⟩ : BufTy).Contents (Elt F)) (x10 : (⟨S7x32x64, .f32⟩ : BufTy).Contents (Elt F)) (x11 : (⟨S7x64, .f32⟩ : BufTy).Contents (Elt F)) (x14 : (⟨S2x800000, .i32⟩ : BufTy).Contents (Elt F)) (x15 : (⟨S2x800000, .i32⟩ : BufTy).Contents (Elt F)) (x16 : (⟨S2x800000, .i32⟩ : BufTy).Contents (Elt F)) (x17 : (⟨S2x800000, .i32⟩ : BufTy).Contents (Elt F)) (x18 : (⟨S2x800000, .i32⟩ : BufTy).Contents (Elt F)) (x19 : (⟨S2x800000, .i32⟩ : BufTy).Contents (Elt F)) (x20 : (⟨S2x800000, .i32⟩ : BufTy).Contents (Elt F)) (x21 : (⟨S2x800000, .i32⟩ : BufTy).Contents (Elt F))
    (e0 : W (Proc.devRef .tc main_arg0) = x0) (e1 : W (Proc.devRef .tc main_arg1) = x1) (e2 : W (Proc.devRef .tc main_arg2) = x2) (e3 : W (Proc.devRef .tc main_arg3) = x3) (e4 : W (Proc.devRef .tc main_arg4) = x4) (e5 : W (Proc.devRef .tc main_arg5) = x5) (e6 : W (Proc.devRef .tc main_arg6) = x6) (e7 : W (Proc.devRef .tc main_arg7) = x7) (e8 : W (Proc.devRef .tc main_arg8) = x8) (e9 : W (Proc.devRef .tc main_arg9) = x9) (e10 : W (Proc.devRef .tc main_arg10) = x10) (e11 : W (Proc.devRef .tc main_arg11) = x11) (e14 : W (Proc.devRef .tc main_arg14) = x14) (e15 : W (Proc.devRef .tc main_arg15) = x15) (e16 : W (Proc.devRef .tc main_arg16) = x16) (e17 : W (Proc.devRef .tc main_arg17) = x17) (e18 : W (Proc.devRef .tc main_arg18) = x18) (e19 : W (Proc.devRef .tc main_arg19) = x19) (e20 : W (Proc.devRef .tc main_arg20) = x20) (e21 : W (Proc.devRef .tc main_arg21) = x21)
    (h0 : W (Proc.devRef .tc main_v115) = ReadP.val_main_v115 (F := F) x0 x1 x2 x3 x4 x5 x6 x7 x8 x14 x15)
    (h1 : W (Proc.devRef .tc main_v269) = ReadP.val_main_v269 (F := F) x0 x1 x2 x3 x4 x5 x6 x7 x8 x9 x10 x11 x14 x15 x16 x17 x18 x19 x20) :
    after (opsC6 (F := F)) W (Proc.devRef .tc main_v296) = ReadP.val_main_v296 (F := F) x0 x1 x2 x3 x4 x5 x6 x7 x8 x9 x10 x11 x14 x15 x16 x17 x18 x19 x20 x21 := by
  subst e0 e1 e2 e3 e4 e5 e6 e7 e8 e9 e10 e11 e14 e15 e16 e17 e18 e19 e20 e21
  after_results_simp
  rw [h0, h1]
  rfl

set_option maxHeartbeats 0 in
/-- The third layer, relation 7: its messages gathered from the second layer's output, scatter-added and multiplied by the relation's weights, added onto the running sum. -/
abbrev opsC7 : List (HloOp τ sig (Elt F)) :=
  [ unary main_arg22 main_v297 ((extractStridedSlice S1x800000 ![0, 0] · slices_S2x800000_S1x800000_0_0) : (⟨S2x800000, .i32⟩ : BufTy).Contents (Elt F) → (⟨S1x800000, .i32⟩ : BufTy).Contents (Elt F)),
    reshape main_v297 main_v298 rfl shapeCasts_S1x800000_S800000,
    unary main_arg22 main_v299 ((extractStridedSlice S1x800000 ![1, 0] · slices_S2x800000_S1x800000_1_0) : (⟨S2x800000, .i32⟩ : BufTy).Contents (Elt F) → (⟨S1x800000, .i32⟩ : BufTy).Contents (Elt F)),
    reshape main_v299 main_v300 rfl shapeCasts_S1x800000_S800000,
    nullary main_c_37 (constantI S_ 32 0#32),
    unary main_c_37 main_v301 (broadcastInDim S800000 ![] bcast_S_S800000 : (⟨S_, .i32⟩ : BufTy).Contents (Elt F) → (⟨S800000, .i32⟩ : BufTy).Contents (Elt F)),
    binary main_v298 main_v301 main_v302 (cmpi .slt : (⟨S800000, .i32⟩ : BufTy).Contents (Elt F) → (⟨S800000, .i32⟩ : BufTy).Contents (Elt F) → (⟨S800000, .i1⟩ : BufTy).Contents (Elt F)),
    nullary main_c_38 (constantI S_ 32 100000#32),
    unary main_c_38 main_v303 (broadcastInDim S800000 ![] bcast_S_S800000 : (⟨S_, .i32⟩ : BufTy).Contents (Elt F) → (⟨S800000, .i32⟩ : BufTy).Contents (Elt F)),
    binary main_v298 main_v303 main_v304 (addi : (⟨S800000, .i32⟩ : BufTy).Contents (Elt F) → (⟨S800000, .i32⟩ : BufTy).Contents (Elt F) → (⟨S800000, .i32⟩ : BufTy).Contents (Elt F)),
    ternary main_v302 main_v304 main_v298 main_v305 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v305 main_v306 (broadcastInDim S800000x1 ![0] bcast_S800000_S800000x1_0 : (⟨S800000, .i32⟩ : BufTy).Contents (Elt F) → (⟨S800000x1, .i32⟩ : BufTy).Contents (Elt F)),
    binary main_v115 main_v306 main_v307 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    nullary main_cst_39 (constant S_ .f32 0x00000000#32),
    unary main_cst_39 main_v308 (broadcastInDim S100000x32 ![] bcast_S_S100000x32 : (⟨S_, .f32⟩ : BufTy).Contents (Elt F) → (⟨S100000x32, .f32⟩ : BufTy).Contents (Elt F)),
    unary main_v300 main_v309 (broadcastInDim S800000x1 ![0] bcast_S800000_S800000x1_0 : (⟨S800000, .i32⟩ : BufTy).Contents (Elt F) → (⟨S800000x1, .i32⟩ : BufTy).Contents (Elt F)),
    ternary main_v308 main_v309 main_v307 main_v310 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    nullary main_cst_40 (constant S_ .f32 0x3F800000#32),
    unary main_cst_40 main_v311 (broadcastInDim S800000 ![] bcast_S_S800000 : (⟨S_, .f32⟩ : BufTy).Contents (Elt F) → (⟨S800000, .f32⟩ : BufTy).Contents (Elt F)),
    nullary main_cst_41 (constant S_ .f32 0x00000000#32),
    unary main_cst_41 main_v312 (broadcastInDim S100000 ![] bcast_S_S100000 : (⟨S_, .f32⟩ : BufTy).Contents (Elt F) → (⟨S100000, .f32⟩ : BufTy).Contents (Elt F)),
    unary main_v300 main_v313 (broadcastInDim S800000x1 ![0] bcast_S800000_S800000x1_0 : (⟨S800000, .i32⟩ : BufTy).Contents (Elt F) → (⟨S800000x1, .i32⟩ : BufTy).Contents (Elt F)),
    ternary main_v312 main_v313 main_v311 main_v314 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_42 (constant S_ .f32 0x3F800000#32),
    unary main_cst_42 main_v315 (broadcastInDim S100000 ![] bcast_S_S100000 : (⟨S_, .f32⟩ : BufTy).Contents (Elt F) → (⟨S100000, .f32⟩ : BufTy).Contents (Elt F)),
    binary main_v314 main_v315 main_v316 (maximumf : (⟨S100000, .f32⟩ : BufTy).Contents (Elt F) → (⟨S100000, .f32⟩ : BufTy).Contents (Elt F) → (⟨S100000, .f32⟩ : BufTy).Contents (Elt F)),
    unary main_v316 main_v317 (broadcastInDim S100000x1 ![0] bcast_S100000_S100000x1_0 : (⟨S100000, .f32⟩ : BufTy).Contents (Elt F) → (⟨S100000x1, .f32⟩ : BufTy).Contents (Elt F)),
    unary main_v317 main_v318 (broadcastInDim S100000x32 ![0, 1] bcast_S100000x1_S100000x32_0_1 : (⟨S100000x1, .f32⟩ : BufTy).Contents (Elt F) → (⟨S100000x32, .f32⟩ : BufTy).Contents (Elt F)),
    binary main_v310 main_v318 main_v319 (Host.divf : (⟨S100000x32, .f32⟩ : BufTy).Contents (Elt F) → (⟨S100000x32, .f32⟩ : BufTy).Contents (Elt F) → (⟨S100000x32, .f32⟩ : BufTy).Contents (Elt F)),
    unary main_arg9 main_v320 ((extractStridedSlice S1x32x64 ![6, 0, 0] · slices_S7x32x64_S1x32x64_6_0_0) : (⟨S7x32x64, .f32⟩ : BufTy).Contents (Elt F) → (⟨S1x32x64, .f32⟩ : BufTy).Contents (Elt F)),
    reshape main_v320 main_v321 rfl shapeCasts_S1x32x64_S32x64,
    binary main_v319 main_v321 main_v322 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v296 main_v322 main_v323 (addf : (⟨S100000x64, .f32⟩ : BufTy).Contents (Elt F) → (⟨S100000x64, .f32⟩ : BufTy).Contents (Elt F) → (⟨S100000x64, .f32⟩ : BufTy).Contents (Elt F)),
    unary main_arg10 main_v324 ((extractStridedSlice S1x32x64 ![6, 0, 0] · slices_S7x32x64_S1x32x64_6_0_0) : (⟨S7x32x64, .f32⟩ : BufTy).Contents (Elt F) → (⟨S1x32x64, .f32⟩ : BufTy).Contents (Elt F)),
    reshape main_v324 main_v325 rfl shapeCasts_S1x32x64_S32x64,
    binary main_v115 main_v325 main_v326 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v323 main_v326 main_v327 (addf : (⟨S100000x64, .f32⟩ : BufTy).Contents (Elt F) → (⟨S100000x64, .f32⟩ : BufTy).Contents (Elt F) → (⟨S100000x64, .f32⟩ : BufTy).Contents (Elt F)),
    unary main_arg11 main_v328 ((extractStridedSlice S1x64 ![6, 0] · slices_S7x64_S1x64_6_0) : (⟨S7x64, .f32⟩ : BufTy).Contents (Elt F) → (⟨S1x64, .f32⟩ : BufTy).Contents (Elt F)),
    reshape main_v328 main_v329 rfl shapeCasts_S1x64_S64,
    unary main_v329 main_v330 (broadcastInDim S1x64 ![1] bcast_S64_S1x64_1 : (⟨S64, .f32⟩ : BufTy).Contents (Elt F) → (⟨S1x64, .f32⟩ : BufTy).Contents (Elt F)),
    unary main_v330 main_v331 (broadcastInDim S100000x64 ![0, 1] bcast_S1x64_S100000x64_0_1 : (⟨S1x64, .f32⟩ : BufTy).Contents (Elt F) → (⟨S100000x64, .f32⟩ : BufTy).Contents (Elt F)),
    binary main_v327 main_v331 main_v332 (addf : (⟨S100000x64, .f32⟩ : BufTy).Contents (Elt F) → (⟨S100000x64, .f32⟩ : BufTy).Contents (Elt F) → (⟨S100000x64, .f32⟩ : BufTy).Contents (Elt F)) ]

/-- The buffers these operations write, in order. -/
abbrev opsC7_W : List (Ref sig .tc) := [main_v297, main_v298, main_v299, main_v300, main_c_37, main_v301, main_v302, main_c_38, main_v303, main_v304, main_v305, main_v306, main_v307, main_cst_39, main_v308, main_v309, main_v310, main_cst_40, main_v311, main_cst_41, main_v312, main_v313, main_v314, main_cst_42, main_v315, main_v316, main_v317, main_v318, main_v319, main_v320, main_v321, main_v322, main_v323, main_v324, main_v325, main_v326, main_v327, main_v328, main_v329, main_v330, main_v331, main_v332]

set_option maxRecDepth 8192 in
set_option maxHeartbeats 0 in
theorem opsC7_writes : (opsC7 : List (HloOp τ sig (Elt F))).Forall fun op => op.writes ⊆ (opsC7_W.map (Proc.devRef (τ := τ) .tc)).toFinset := by
  simp only [List.Forall]
  exact ⟨by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written,
    by written⟩

/-- A buffer these operations do not write keeps its contents through them. -/
theorem opsC7_keep (W : Valuation τ sig (Elt F)) (r : Ref sig .tc) (h : r ∉ opsC7_W) :
    after (opsC7 (F := F)) W (Proc.devRef .tc r) = W (Proc.devRef .tc r) :=
  after_of_writes_sub opsC7 W opsC7_writes h

set_option maxRecDepth 8192 in
set_option maxHeartbeats 0 in
/-- Every one of these operations determines what it writes. -/
theorem opsC7_fresh : (opsC7 : List (HloOp τ sig (Elt F))).Forall fun op => op.fresh = ∅ := by
  simp only [List.Forall]
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 0 in
set_option maxRecDepth 8192 in
/-- This stretch, from any contents `W` that hold the staged values of the earlier buffers it reads, leaves in `main_v332` that buffer's staged value of the argument
    arrays as `W` holds them. -/
theorem opsC7_stage (W : Valuation τ sig (Elt F)) (x0 : (⟨S100000x6, .f32⟩ : BufTy).Contents (Elt F)) (x1 : (⟨S2x6x16, .f32⟩ : BufTy).Contents (Elt F)) (x2 : (⟨S2x6x16, .f32⟩ : BufTy).Contents (Elt F)) (x3 : (⟨S2x16, .f32⟩ : BufTy).Contents (Elt F)) (x4 : (⟨S2x16x32, .f32⟩ : BufTy).Contents (Elt F)) (x5 : (⟨S2x16x32, .f32⟩ : BufTy).Contents (Elt F)) (x6 : (⟨S2x32, .f32⟩ : BufTy).Contents (Elt F)) (x7 : (⟨S16x32, .f32⟩ : BufTy).Contents (Elt F)) (x8 : (⟨S32, .f32⟩ : BufTy).Contents (Elt F)) (x9 : (⟨S7x32x64, .f32⟩ : BufTy).Contents (Elt F)) (x10 : (⟨S7x32x64, .f32⟩ : BufTy).Contents (Elt F)) (x11 : (⟨S7x64, .f32⟩ : BufTy).Contents (Elt F)) (x14 : (⟨S2x800000, .i32⟩ : BufTy).Contents (Elt F)) (x15 : (⟨S2x800000, .i32⟩ : BufTy).Contents (Elt F)) (x16 : (⟨S2x800000, .i32⟩ : BufTy).Contents (Elt F)) (x17 : (⟨S2x800000, .i32⟩ : BufTy).Contents (Elt F)) (x18 : (⟨S2x800000, .i32⟩ : BufTy).Contents (Elt F)) (x19 : (⟨S2x800000, .i32⟩ : BufTy).Contents (Elt F)) (x20 : (⟨S2x800000, .i32⟩ : BufTy).Contents (Elt F)) (x21 : (⟨S2x800000, .i32⟩ : BufTy).Contents (Elt F)) (x22 : (⟨S2x800000, .i32⟩ : BufTy).Contents (Elt F))
    (e0 : W (Proc.devRef .tc main_arg0) = x0) (e1 : W (Proc.devRef .tc main_arg1) = x1) (e2 : W (Proc.devRef .tc main_arg2) = x2) (e3 : W (Proc.devRef .tc main_arg3) = x3) (e4 : W (Proc.devRef .tc main_arg4) = x4) (e5 : W (Proc.devRef .tc main_arg5) = x5) (e6 : W (Proc.devRef .tc main_arg6) = x6) (e7 : W (Proc.devRef .tc main_arg7) = x7) (e8 : W (Proc.devRef .tc main_arg8) = x8) (e9 : W (Proc.devRef .tc main_arg9) = x9) (e10 : W (Proc.devRef .tc main_arg10) = x10) (e11 : W (Proc.devRef .tc main_arg11) = x11) (e14 : W (Proc.devRef .tc main_arg14) = x14) (e15 : W (Proc.devRef .tc main_arg15) = x15) (e16 : W (Proc.devRef .tc main_arg16) = x16) (e17 : W (Proc.devRef .tc main_arg17) = x17) (e18 : W (Proc.devRef .tc main_arg18) = x18) (e19 : W (Proc.devRef .tc main_arg19) = x19) (e20 : W (Proc.devRef .tc main_arg20) = x20) (e21 : W (Proc.devRef .tc main_arg21) = x21) (e22 : W (Proc.devRef .tc main_arg22) = x22)
    (h0 : W (Proc.devRef .tc main_v115) = ReadP.val_main_v115 (F := F) x0 x1 x2 x3 x4 x5 x6 x7 x8 x14 x15)
    (h1 : W (Proc.devRef .tc main_v296) = ReadP.val_main_v296 (F := F) x0 x1 x2 x3 x4 x5 x6 x7 x8 x9 x10 x11 x14 x15 x16 x17 x18 x19 x20 x21) :
    after (opsC7 (F := F)) W (Proc.devRef .tc main_v332) = ReadP.val_main_v332 (F := F) x0 x1 x2 x3 x4 x5 x6 x7 x8 x9 x10 x11 x14 x15 x16 x17 x18 x19 x20 x21 x22 := by
  subst e0 e1 e2 e3 e4 e5 e6 e7 e8 e9 e10 e11 e14 e15 e16 e17 e18 e19 e20 e21 e22
  after_results_simp
  rw [h0, h1]
  rfl

set_option maxHeartbeats 0 in
/-- The third layer's end: the self term, the biases and the two maxima with zero, through the result `main_v339`. -/
abbrev opsC8 : List (HloOp τ sig (Elt F)) :=
  [ binary main_v115 main_arg12 main_v333 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    binary main_v332 main_v333 main_v334 (addf : (⟨S100000x64, .f32⟩ : BufTy).Contents (Elt F) → (⟨S100000x64, .f32⟩ : BufTy).Contents (Elt F) → (⟨S100000x64, .f32⟩ : BufTy).Contents (Elt F)),
    unary main_arg13 main_v335 (broadcastInDim S1x64 ![1] bcast_S64_S1x64_1 : (⟨S64, .f32⟩ : BufTy).Contents (Elt F) → (⟨S1x64, .f32⟩ : BufTy).Contents (Elt F)),
    unary main_v335 main_v336 (broadcastInDim S100000x64 ![0, 1] bcast_S1x64_S100000x64_0_1 : (⟨S1x64, .f32⟩ : BufTy).Contents (Elt F) → (⟨S100000x64, .f32⟩ : BufTy).Contents (Elt F)),
    binary main_v334 main_v336 main_v337 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v337) (TRef.of (T := ⟨S100000x64, .f32⟩) main_call1_v0) (TRef.of (T := ⟨S100000x64, .f32⟩) main_v338) maximumf,
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v338) (TRef.of (T := ⟨S100000x64, .f32⟩) main_call2_v0) (TRef.of (T := ⟨S100000x64, .f32⟩) main_v339) maximumf ]

/-- The buffers these operations write, in order. -/
abbrev opsC8_W : List (Ref sig .tc) := [main_v333, main_v334, main_v335, main_v336, main_v337, main_call1_cst, main_call1_v0, main_v338, main_call2_cst, main_call2_v0, main_v339]

set_option maxRecDepth 8192 in
set_option maxHeartbeats 0 in
theorem opsC8_writes : (opsC8 : List (HloOp τ sig (Elt F))).Forall fun op => op.writes ⊆ (opsC8_W.map (Proc.devRef (τ := τ) .tc)).toFinset := by
  simp only [List.Forall]
  exact ⟨by written,
    by written,
    by written,
    by written,
    by written,
    by written,
    by written,
    by written,
    by written,
    by written,
    by written⟩

/-- A buffer these operations do not write keeps its contents through them. -/
theorem opsC8_keep (W : Valuation τ sig (Elt F)) (r : Ref sig .tc) (h : r ∉ opsC8_W) :
    after (opsC8 (F := F)) W (Proc.devRef .tc r) = W (Proc.devRef .tc r) :=
  after_of_writes_sub opsC8 W opsC8_writes h

set_option maxRecDepth 8192 in
set_option maxHeartbeats 0 in
/-- Every one of these operations determines what it writes. -/
theorem opsC8_fresh : (opsC8 : List (HloOp τ sig (Elt F))).Forall fun op => op.fresh = ∅ := by
  simp only [List.Forall]
  exact ⟨rfl, rfl, rfl, rfl, rfl, rfl, rfl, rfl, rfl, rfl, rfl⟩

set_option maxHeartbeats 0 in
set_option maxRecDepth 8192 in
/-- This stretch, from any contents `W` that hold the staged values of the earlier buffers it reads, leaves in `main_v339` that buffer's staged value of the argument
    arrays as `W` holds them. -/
theorem opsC8_stage (W : Valuation τ sig (Elt F)) (x0 : (⟨S100000x6, .f32⟩ : BufTy).Contents (Elt F)) (x1 : (⟨S2x6x16, .f32⟩ : BufTy).Contents (Elt F)) (x2 : (⟨S2x6x16, .f32⟩ : BufTy).Contents (Elt F)) (x3 : (⟨S2x16, .f32⟩ : BufTy).Contents (Elt F)) (x4 : (⟨S2x16x32, .f32⟩ : BufTy).Contents (Elt F)) (x5 : (⟨S2x16x32, .f32⟩ : BufTy).Contents (Elt F)) (x6 : (⟨S2x32, .f32⟩ : BufTy).Contents (Elt F)) (x7 : (⟨S16x32, .f32⟩ : BufTy).Contents (Elt F)) (x8 : (⟨S32, .f32⟩ : BufTy).Contents (Elt F)) (x9 : (⟨S7x32x64, .f32⟩ : BufTy).Contents (Elt F)) (x10 : (⟨S7x32x64, .f32⟩ : BufTy).Contents (Elt F)) (x11 : (⟨S7x64, .f32⟩ : BufTy).Contents (Elt F)) (x12 : (⟨S32x64, .f32⟩ : BufTy).Contents (Elt F)) (x13 : (⟨S64, .f32⟩ : BufTy).Contents (Elt F)) (x14 : (⟨S2x800000, .i32⟩ : BufTy).Contents (Elt F)) (x15 : (⟨S2x800000, .i32⟩ : BufTy).Contents (Elt F)) (x16 : (⟨S2x800000, .i32⟩ : BufTy).Contents (Elt F)) (x17 : (⟨S2x800000, .i32⟩ : BufTy).Contents (Elt F)) (x18 : (⟨S2x800000, .i32⟩ : BufTy).Contents (Elt F)) (x19 : (⟨S2x800000, .i32⟩ : BufTy).Contents (Elt F)) (x20 : (⟨S2x800000, .i32⟩ : BufTy).Contents (Elt F)) (x21 : (⟨S2x800000, .i32⟩ : BufTy).Contents (Elt F)) (x22 : (⟨S2x800000, .i32⟩ : BufTy).Contents (Elt F))
    (e0 : W (Proc.devRef .tc main_arg0) = x0) (e1 : W (Proc.devRef .tc main_arg1) = x1) (e2 : W (Proc.devRef .tc main_arg2) = x2) (e3 : W (Proc.devRef .tc main_arg3) = x3) (e4 : W (Proc.devRef .tc main_arg4) = x4) (e5 : W (Proc.devRef .tc main_arg5) = x5) (e6 : W (Proc.devRef .tc main_arg6) = x6) (e7 : W (Proc.devRef .tc main_arg7) = x7) (e8 : W (Proc.devRef .tc main_arg8) = x8) (e9 : W (Proc.devRef .tc main_arg9) = x9) (e10 : W (Proc.devRef .tc main_arg10) = x10) (e11 : W (Proc.devRef .tc main_arg11) = x11) (e12 : W (Proc.devRef .tc main_arg12) = x12) (e13 : W (Proc.devRef .tc main_arg13) = x13) (e14 : W (Proc.devRef .tc main_arg14) = x14) (e15 : W (Proc.devRef .tc main_arg15) = x15) (e16 : W (Proc.devRef .tc main_arg16) = x16) (e17 : W (Proc.devRef .tc main_arg17) = x17) (e18 : W (Proc.devRef .tc main_arg18) = x18) (e19 : W (Proc.devRef .tc main_arg19) = x19) (e20 : W (Proc.devRef .tc main_arg20) = x20) (e21 : W (Proc.devRef .tc main_arg21) = x21) (e22 : W (Proc.devRef .tc main_arg22) = x22)
    (h0 : W (Proc.devRef .tc main_v115) = ReadP.val_main_v115 (F := F) x0 x1 x2 x3 x4 x5 x6 x7 x8 x14 x15)
    (h1 : W (Proc.devRef .tc main_v332) = ReadP.val_main_v332 (F := F) x0 x1 x2 x3 x4 x5 x6 x7 x8 x9 x10 x11 x14 x15 x16 x17 x18 x19 x20 x21 x22) :
    after (opsC8 (F := F)) W (Proc.devRef .tc main_v339) = ReadP.val_main_v339 (F := F) x0 x1 x2 x3 x4 x5 x6 x7 x8 x9 x10 x11 x12 x13 x14 x15 x16 x17 x18 x19 x20 x21 x22 := by
  subst e0 e1 e2 e3 e4 e5 e6 e7 e8 e9 e10 e11 e12 e13 e14 e15 e16 e17 e18 e19 e20 e21 e22
  after_results_simp
  rw [h0, h1]
  rfl

end Cert.ReferenceIdeal.Chunks

end
-- ==== Proof.RefChunks.lean ====
/-
  The reference network's run, read one layer at a time.

  The reference is a straight line of 391 array operations: three graph-network layers, each a sum over its relations of
  (messages gathered along the relation's edges and scatter-added at their targets, times the relation's weights) plus the
  layer's own features times the self weights plus the biases, the two later layers clamped at zero. The second layer reads
  the first layer's output five times and the third reads the second's fifteen times, so the whole result written as one term
  of the arguments is enormous. Here the line is cut after each layer's output (and, inside the third layer, after each
  relation's running sum): each stretch of operations, run from ANY contents of the buffers, leaves in its last buffer the
  staged value of that buffer as a function of the argument arrays, the earlier outputs it reads taken as they stand; the
  stretches compose; no operation writes an argument array.
-/
import proofs.«147223_j52493090291996_1_alg».proof.Proof.RefChunks.Win
import proofs.«147223_j52493090291996_1_alg».proof.Proof.RefChunks.Layers1
import proofs.«147223_j52493090291996_1_alg».proof.Proof.RefChunks.Layers2
import proofs.«147223_j52493090291996_1_alg».proof.Proof.RefRead
import Idealize.ShloMosaic.Lib.StableHlo.Run

noncomputable section

namespace Cert.ReferenceIdeal.Chunks

open Cert.ReferenceIdeal Cert.ReferenceIdeal.Gen Idealize.ShloMosaic Idealize.ShloMosaic.TcCoe Idealize.SL.Sem Idealize.ShloMosaic.StableHlo

variable {F : FTy → Type} [FloatOps F]

/-- Two lines of operations run one after the other leave what their concatenation leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 16384 in
set_option maxHeartbeats 0 in
/-- The ten stretches, in order, are @main's line of operations (the same 391 operations, cut at other places than the
    program's windows). -/
theorem ops_layers : (opsA ++ (opsB ++ (opsC1 ++ (opsC2 ++ (opsC3 ++ (opsC4 ++ (opsC5 ++ (opsC6 ++ (opsC7 ++ (opsC8))))))))) : List (HloOp τ sig (Elt F))) = ops := rfl

/-- Every operation of the line determines what it writes. -/
theorem ops_fresh : ∀ op ∈ (ops : List (HloOp τ sig (Elt F))), op.fresh = ∅ := by
  rw [← ops_layers]
  intro op h
  simp only [List.mem_append] at h
  rcases h with h | h | h | h | h | h | h | h | h | h
  exacts [List.forall_iff_forall_mem.mp opsA_fresh op h, List.forall_iff_forall_mem.mp opsB_fresh op h, List.forall_iff_forall_mem.mp opsC1_fresh op h, List.forall_iff_forall_mem.mp opsC2_fresh op h, List.forall_iff_forall_mem.mp opsC3_fresh op h, List.forall_iff_forall_mem.mp opsC4_fresh op h, List.forall_iff_forall_mem.mp opsC5_fresh op h, List.forall_iff_forall_mem.mp opsC6_fresh op h, List.forall_iff_forall_mem.mp opsC7_fresh op h, List.forall_iff_forall_mem.mp opsC8_fresh op h]

/-- The program's argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

/-- No stretch writes an argument array. -/
theorem opsA_args : ∀ r ∈ argRefs, r ∉ opsA_W := by decide
theorem opsB_args : ∀ r ∈ argRefs, r ∉ opsB_W := by decide
theorem opsC1_args : ∀ r ∈ argRefs, r ∉ opsC1_W := by decide
theorem opsC2_args : ∀ r ∈ argRefs, r ∉ opsC2_W := by decide
theorem opsC3_args : ∀ r ∈ argRefs, r ∉ opsC3_W := by decide
theorem opsC4_args : ∀ r ∈ argRefs, r ∉ opsC4_W := by decide
theorem opsC5_args : ∀ r ∈ argRefs, r ∉ opsC5_W := by decide
theorem opsC6_args : ∀ r ∈ argRefs, r ∉ opsC6_W := by decide
theorem opsC7_args : ∀ r ∈ argRefs, r ∉ opsC7_W := by decide
theorem opsC8_args : ∀ r ∈ argRefs, r ∉ opsC8_W := by decide

/-- Through the first k stretches every argument array keeps its contents. -/
theorem args_kept1 (W : Valuation τ sig (Elt F)) (r : Ref sig .tc) (hr : r ∈ argRefs) :
    after opsA W (Proc.devRef .tc r) = W (Proc.devRef .tc r) :=
  opsA_keep W r (opsA_args r hr)
theorem args_kept2 (W : Valuation τ sig (Elt F)) (r : Ref sig .tc) (hr : r ∈ argRefs) :
    after opsB (after opsA W) (Proc.devRef .tc r) = W (Proc.devRef .tc r) :=
  (opsB_keep (after opsA W) r (opsB_args r hr)).trans (args_kept1 W r hr)
theorem args_kept3 (W : Valuation τ sig (Elt F)) (r : Ref sig .tc) (hr : r ∈ argRefs) :
    after opsC1 (after opsB (after opsA W)) (Proc.devRef .tc r) = W (Proc.devRef .tc r) :=
  (opsC1_keep (after opsB (after opsA W)) r (opsC1_args r hr)).trans (args_kept2 W r hr)
theorem args_kept4 (W : Valuation τ sig (Elt F)) (r : Ref sig .tc) (hr : r ∈ argRefs) :
    after opsC2 (after opsC1 (after opsB (after opsA W))) (Proc.devRef .tc r) = W (Proc.devRef .tc r) :=
  (opsC2_keep (after opsC1 (after opsB (after opsA W))) r (opsC2_args r hr)).trans (args_kept3 W r hr)
theorem args_kept5 (W : Valuation τ sig (Elt F)) (r : Ref sig .tc) (hr : r ∈ argRefs) :
    after opsC3 (after opsC2 (after opsC1 (after opsB (after opsA W)))) (Proc.devRef .tc r) = W (Proc.devRef .tc r) :=
  (opsC3_keep (after opsC2 (after opsC1 (after opsB (after opsA W)))) r (opsC3_args r hr)).trans (args_kept4 W r hr)
theorem args_kept6 (W : Valuation τ sig (Elt F)) (r : Ref sig .tc) (hr : r ∈ argRefs) :
    after opsC4 (after opsC3 (after opsC2 (after opsC1 (after opsB (after opsA W))))) (Proc.devRef .tc r) = W (Proc.devRef .tc r) :=
  (opsC4_keep (after opsC3 (after opsC2 (after opsC1 (after opsB (after opsA W))))) r (opsC4_args r hr)).trans (args_kept5 W r hr)
theorem args_kept7 (W : Valuation τ sig (Elt F)) (r : Ref sig .tc) (hr : r ∈ argRefs) :
    after opsC5 (after opsC4 (after opsC3 (after opsC2 (after opsC1 (after opsB (after opsA W)))))) (Proc.devRef .tc r) = W (Proc.devRef .tc r) :=
  (opsC5_keep (after opsC4 (after opsC3 (after opsC2 (after opsC1 (after opsB (after opsA W)))))) r (opsC5_args r hr)).trans (args_kept6 W r hr)
theorem args_kept8 (W : Valuation τ sig (Elt F)) (r : Ref sig .tc) (hr : r ∈ argRefs) :
    after opsC6 (after opsC5 (after opsC4 (after opsC3 (after opsC2 (after opsC1 (after opsB (after opsA W))))))) (Proc.devRef .tc r) = W (Proc.devRef .tc r) :=
  (opsC6_keep (after opsC5 (after opsC4 (after opsC3 (after opsC2 (after opsC1 (after opsB (after opsA W))))))) r (opsC6_args r hr)).trans (args_kept7 W r hr)
theorem args_kept9 (W : Valuation τ sig (Elt F)) (r : Ref sig .tc) (hr : r ∈ argRefs) :
    after opsC7 (after opsC6 (after opsC5 (after opsC4 (after opsC3 (after opsC2 (after opsC1 (after opsB (after opsA W)))))))) (Proc.devRef .tc r) = W (Proc.devRef .tc r) :=
  (opsC7_keep (after opsC6 (after opsC5 (after opsC4 (after opsC3 (after opsC2 (after opsC1 (after opsB (after opsA W)))))))) r (opsC7_args r hr)).trans (args_kept8 W r hr)
theorem args_kept10 (W : Valuation τ sig (Elt F)) (r : Ref sig .tc) (hr : r ∈ argRefs) :
    after opsC8 (after opsC7 (after opsC6 (after opsC5 (after opsC4 (after opsC3 (after opsC2 (after opsC1 (after opsB (after opsA W))))))))) (Proc.devRef .tc r) = W (Proc.devRef .tc r) :=
  (opsC8_keep (after opsC7 (after opsC6 (after opsC5 (after opsC4 (after opsC3 (after opsC2 (after opsC1 (after opsB (after opsA W))))))))) r (opsC8_args r hr)).trans (args_kept9 W r hr)

/-- A buffer no stretch writes keeps its contents through the whole line; in particular each argument array. -/
theorem args_kept (W : Valuation τ sig (Elt F)) (r : Ref sig .tc) (hr : r ∈ argRefs) :
    after (ops (F := F)) W (Proc.devRef .tc r) = W (Proc.devRef .tc r) := by
  rw [← ops_layers]
  simp only [after_append]
  exact args_kept10 W r hr

set_option maxRecDepth 8192 in
set_option maxHeartbeats 0 in
/-- The whole line, from any contents `W`, leaves in `main_v339` the staged result of the argument arrays as `W` holds them:
    each stretch is entered with the earlier outputs it reads in place and the arguments untouched. -/
theorem result (W : Valuation τ sig (Elt F)) :
    after (ops (F := F)) W (Proc.devRef .tc main_v339)
      = ReadP.val_main_v339 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (W (Proc.devRef .tc main_arg21)) (W (Proc.devRef .tc main_arg22)) := by
  rw [← ops_layers]
  simp only [after_append]
  have hA := opsA_stage W _ _ _ _ _ _
    rfl rfl rfl rfl rfl rfl
  have hB := opsB_stage (after opsA W) _ _ _ _ _ _ _ _ _ _ _
    (args_kept1 W main_arg0 (by decide)) (args_kept1 W main_arg1 (by decide)) (args_kept1 W main_arg2 (by decide)) (args_kept1 W main_arg3 (by decide)) (args_kept1 W main_arg4 (by decide)) (args_kept1 W main_arg5 (by decide)) (args_kept1 W main_arg6 (by decide)) (args_kept1 W main_arg7 (by decide)) (args_kept1 W main_arg8 (by decide)) (args_kept1 W main_arg14 (by decide)) (args_kept1 W main_arg15 (by decide))
    hA
  have hC1 := opsC1_stage (after opsB (after opsA W)) _ _ _ _ _ _ _ _ _ _ _ _ _ _ _
    (args_kept2 W main_arg0 (by decide)) (args_kept2 W main_arg1 (by decide)) (args_kept2 W main_arg2 (by decide)) (args_kept2 W main_arg3 (by decide)) (args_kept2 W main_arg4 (by decide)) (args_kept2 W main_arg5 (by decide)) (args_kept2 W main_arg6 (by decide)) (args_kept2 W main_arg7 (by decide)) (args_kept2 W main_arg8 (by decide)) (args_kept2 W main_arg9 (by decide)) (args_kept2 W main_arg10 (by decide)) (args_kept2 W main_arg11 (by decide)) (args_kept2 W main_arg14 (by decide)) (args_kept2 W main_arg15 (by decide)) (args_kept2 W main_arg16 (by decide))
    hB
  have k115_3 := (opsC1_keep (after opsB (after opsA W)) main_v115 (by decide)).trans hB
  have hC2 := opsC2_stage (after opsC1 (after opsB (after opsA W))) _ _ _ _ _ _ _ _ _ _ _ _ _ _ _ _
    (args_kept3 W main_arg0 (by decide)) (args_kept3 W main_arg1 (by decide)) (args_kept3 W main_arg2 (by decide)) (args_kept3 W main_arg3 (by decide)) (args_kept3 W main_arg4 (by decide)) (args_kept3 W main_arg5 (by decide)) (args_kept3 W main_arg6 (by decide)) (args_kept3 W main_arg7 (by decide)) (args_kept3 W main_arg8 (by decide)) (args_kept3 W main_arg9 (by decide)) (args_kept3 W main_arg10 (by decide)) (args_kept3 W main_arg11 (by decide)) (args_kept3 W main_arg14 (by decide)) (args_kept3 W main_arg15 (by decide)) (args_kept3 W main_arg16 (by decide)) (args_kept3 W main_arg17 (by decide))
    k115_3 hC1
  have k115_4 := (opsC2_keep (after opsC1 (after opsB (after opsA W))) main_v115 (by decide)).trans k115_3
  have hC3 := opsC3_stage (after opsC2 (after opsC1 (after opsB (after opsA W)))) _ _ _ _ _ _ _ _ _ _ _ _ _ _ _ _ _
    (args_kept4 W main_arg0 (by decide)) (args_kept4 W main_arg1 (by decide)) (args_kept4 W main_arg2 (by decide)) (args_kept4 W main_arg3 (by decide)) (args_kept4 W main_arg4 (by decide)) (args_kept4 W main_arg5 (by decide)) (args_kept4 W main_arg6 (by decide)) (args_kept4 W main_arg7 (by decide)) (args_kept4 W main_arg8 (by decide)) (args_kept4 W main_arg9 (by decide)) (args_kept4 W main_arg10 (by decide)) (args_kept4 W main_arg11 (by decide)) (args_kept4 W main_arg14 (by decide)) (args_kept4 W main_arg15 (by decide)) (args_kept4 W main_arg16 (by decide)) (args_kept4 W main_arg17 (by decide)) (args_kept4 W main_arg18 (by decide))
    k115_4 hC2
  have k115_5 := (opsC3_keep (after opsC2 (after opsC1 (after opsB (after opsA W)))) main_v115 (by decide)).trans k115_4
  have hC4 := opsC4_stage (after opsC3 (after opsC2 (after opsC1 (after opsB (after opsA W))))) _ _ _ _ _ _ _ _ _ _ _ _ _ _ _ _ _ _
    (args_kept5 W main_arg0 (by decide)) (args_kept5 W main_arg1 (by decide)) (args_kept5 W main_arg2 (by decide)) (args_kept5 W main_arg3 (by decide)) (args_kept5 W main_arg4 (by decide)) (args_kept5 W main_arg5 (by decide)) (args_kept5 W main_arg6 (by decide)) (args_kept5 W main_arg7 (by decide)) (args_kept5 W main_arg8 (by decide)) (args_kept5 W main_arg9 (by decide)) (args_kept5 W main_arg10 (by decide)) (args_kept5 W main_arg11 (by decide)) (args_kept5 W main_arg14 (by decide)) (args_kept5 W main_arg15 (by decide)) (args_kept5 W main_arg16 (by decide)) (args_kept5 W main_arg17 (by decide)) (args_kept5 W main_arg18 (by decide)) (args_kept5 W main_arg19 (by decide))
    k115_5 hC3
  have k115_6 := (opsC4_keep (after opsC3 (after opsC2 (after opsC1 (after opsB (after opsA W))))) main_v115 (by decide)).trans k115_5
  have hC5 := opsC5_stage (after opsC4 (after opsC3 (after opsC2 (after opsC1 (after opsB (after opsA W)))))) _ _ _ _ _ _ _ _ _ _ _ _ _ _ _ _ _ _ _
    (args_kept6 W main_arg0 (by decide)) (args_kept6 W main_arg1 (by decide)) (args_kept6 W main_arg2 (by decide)) (args_kept6 W main_arg3 (by decide)) (args_kept6 W main_arg4 (by decide)) (args_kept6 W main_arg5 (by decide)) (args_kept6 W main_arg6 (by decide)) (args_kept6 W main_arg7 (by decide)) (args_kept6 W main_arg8 (by decide)) (args_kept6 W main_arg9 (by decide)) (args_kept6 W main_arg10 (by decide)) (args_kept6 W main_arg11 (by decide)) (args_kept6 W main_arg14 (by decide)) (args_kept6 W main_arg15 (by decide)) (args_kept6 W main_arg16 (by decide)) (args_kept6 W main_arg17 (by decide)) (args_kept6 W main_arg18 (by decide)) (args_kept6 W main_arg19 (by decide)) (args_kept6 W main_arg20 (by decide))
    k115_6 hC4
  have k115_7 := (opsC5_keep (after opsC4 (after opsC3 (after opsC2 (after opsC1 (after opsB (after opsA W)))))) main_v115 (by decide)).trans k115_6
  have hC6 := opsC6_stage (after opsC5 (after opsC4 (after opsC3 (after opsC2 (after opsC1 (after opsB (after opsA W))))))) _ _ _ _ _ _ _ _ _ _ _ _ _ _ _ _ _ _ _ _
    (args_kept7 W main_arg0 (by decide)) (args_kept7 W main_arg1 (by decide)) (args_kept7 W main_arg2 (by decide)) (args_kept7 W main_arg3 (by decide)) (args_kept7 W main_arg4 (by decide)) (args_kept7 W main_arg5 (by decide)) (args_kept7 W main_arg6 (by decide)) (args_kept7 W main_arg7 (by decide)) (args_kept7 W main_arg8 (by decide)) (args_kept7 W main_arg9 (by decide)) (args_kept7 W main_arg10 (by decide)) (args_kept7 W main_arg11 (by decide)) (args_kept7 W main_arg14 (by decide)) (args_kept7 W main_arg15 (by decide)) (args_kept7 W main_arg16 (by decide)) (args_kept7 W main_arg17 (by decide)) (args_kept7 W main_arg18 (by decide)) (args_kept7 W main_arg19 (by decide)) (args_kept7 W main_arg20 (by decide)) (args_kept7 W main_arg21 (by decide))
    k115_7 hC5
  have k115_8 := (opsC6_keep (after opsC5 (after opsC4 (after opsC3 (after opsC2 (after opsC1 (after opsB (after opsA W))))))) main_v115 (by decide)).trans k115_7
  have hC7 := opsC7_stage (after opsC6 (after opsC5 (after opsC4 (after opsC3 (after opsC2 (after opsC1 (after opsB (after opsA W)))))))) _ _ _ _ _ _ _ _ _ _ _ _ _ _ _ _ _ _ _ _ _
    (args_kept8 W main_arg0 (by decide)) (args_kept8 W main_arg1 (by decide)) (args_kept8 W main_arg2 (by decide)) (args_kept8 W main_arg3 (by decide)) (args_kept8 W main_arg4 (by decide)) (args_kept8 W main_arg5 (by decide)) (args_kept8 W main_arg6 (by decide)) (args_kept8 W main_arg7 (by decide)) (args_kept8 W main_arg8 (by decide)) (args_kept8 W main_arg9 (by decide)) (args_kept8 W main_arg10 (by decide)) (args_kept8 W main_arg11 (by decide)) (args_kept8 W main_arg14 (by decide)) (args_kept8 W main_arg15 (by decide)) (args_kept8 W main_arg16 (by decide)) (args_kept8 W main_arg17 (by decide)) (args_kept8 W main_arg18 (by decide)) (args_kept8 W main_arg19 (by decide)) (args_kept8 W main_arg20 (by decide)) (args_kept8 W main_arg21 (by decide)) (args_kept8 W main_arg22 (by decide))
    k115_8 hC6
  have k115_9 := (opsC7_keep (after opsC6 (after opsC5 (after opsC4 (after opsC3 (after opsC2 (after opsC1 (after opsB (after opsA W)))))))) main_v115 (by decide)).trans k115_8
  have hC8 := opsC8_stage (after opsC7 (after opsC6 (after opsC5 (after opsC4 (after opsC3 (after opsC2 (after opsC1 (after opsB (after opsA W))))))))) _ _ _ _ _ _ _ _ _ _ _ _ _ _ _ _ _ _ _ _ _ _ _
    (args_kept9 W main_arg0 (by decide)) (args_kept9 W main_arg1 (by decide)) (args_kept9 W main_arg2 (by decide)) (args_kept9 W main_arg3 (by decide)) (args_kept9 W main_arg4 (by decide)) (args_kept9 W main_arg5 (by decide)) (args_kept9 W main_arg6 (by decide)) (args_kept9 W main_arg7 (by decide)) (args_kept9 W main_arg8 (by decide)) (args_kept9 W main_arg9 (by decide)) (args_kept9 W main_arg10 (by decide)) (args_kept9 W main_arg11 (by decide)) (args_kept9 W main_arg12 (by decide)) (args_kept9 W main_arg13 (by decide)) (args_kept9 W main_arg14 (by decide)) (args_kept9 W main_arg15 (by decide)) (args_kept9 W main_arg16 (by decide)) (args_kept9 W main_arg17 (by decide)) (args_kept9 W main_arg18 (by decide)) (args_kept9 W main_arg19 (by decide)) (args_kept9 W main_arg20 (by decide)) (args_kept9 W main_arg21 (by decide)) (args_kept9 W main_arg22 (by decide))
    k115_9 hC7
  exact hC8

/-! ## The run, read -/

set_option maxRecDepth 8192 in
/-- On every device, for any float values, from any memory with zero counters: every weakly fair execution of @main
    terminates with the result buffer at the staged value of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v339) = ReadP.val_main_v339 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨(h c main_v339).trans (result (launchContents m c)),
      (h c main_arg0).trans (args_kept (launchContents m c) main_arg0 (by decide)),
      (h c main_arg1).trans (args_kept (launchContents m c) main_arg1 (by decide)),
      (h c main_arg2).trans (args_kept (launchContents m c) main_arg2 (by decide)),
      (h c main_arg3).trans (args_kept (launchContents m c) main_arg3 (by decide)),
      (h c main_arg4).trans (args_kept (launchContents m c) main_arg4 (by decide)),
      (h c main_arg5).trans (args_kept (launchContents m c) main_arg5 (by decide)),
      (h c main_arg6).trans (args_kept (launchContents m c) main_arg6 (by decide)),
      (h c main_arg7).trans (args_kept (launchContents m c) main_arg7 (by decide)),
      (h c main_arg8).trans (args_kept (launchContents m c) main_arg8 (by decide)),
      (h c main_arg9).trans (args_kept (launchContents m c) main_arg9 (by decide)),
      (h c main_arg10).trans (args_kept (launchContents m c) main_arg10 (by decide)),
      (h c main_arg11).trans (args_kept (launchContents m c) main_arg11 (by decide)),
      (h c main_arg12).trans (args_kept (launchContents m c) main_arg12 (by decide)),
      (h c main_arg13).trans (args_kept (launchContents m c) main_arg13 (by decide)),
      (h c main_arg14).trans (args_kept (launchContents m c) main_arg14 (by decide)),
      (h c main_arg15).trans (args_kept (launchContents m c) main_arg15 (by decide)),
      (h c main_arg16).trans (args_kept (launchContents m c) main_arg16 (by decide)),
      (h c main_arg17).trans (args_kept (launchContents m c) main_arg17 (by decide)),
      (h c main_arg18).trans (args_kept (launchContents m c) main_arg18 (by decide)),
      (h c main_arg19).trans (args_kept (launchContents m c) main_arg19 (by decide)),
      (h c main_arg20).trans (args_kept (launchContents m c) main_arg20 (by decide)),
      (h c main_arg21).trans (args_kept (launchContents m c) main_arg21 (by decide)),
      (h c main_arg22).trans (args_kept (launchContents m c) main_arg22 (by decide))⟩)
    (run_seq scopedRefs_eq scopedSems_eq defs main (fun _ => ops) main_eq (fun _ => ops_sub) m ρ (fun _ => ops_fresh))

end Cert.ReferenceIdeal.Chunks

end
-- ==== Proof.LibDotSum.lean ====
/-
  A matrix product's contraction as a plain sum over the shared axis, for any record of dimension numbers whose operand
  indices are known coordinate by coordinate (at a printed program's literal records those coordinate facts hold by
  computation). Two forms: rows × columns (rank 2 by rank 2), and the same with one leading batch axis shared by both
  operands and the result (rank 3 by rank 3).
-/
import Idealize.ShloMosaic.Lib.ValueIdx

noncomputable section

open scoped BigOperators

namespace Cert.LibDotSum

open Idealize.ShloMosaic Idealize.ShloMosaic.ValueIdx

/-- `M × K` by `K × N`: the sum over the record's contraction index of a function of the two operand indices is the sum
    over `k : Fin K` of it at `(row, k)` and `(k, column)`. -/
theorem plain {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    {α : Type} [AddCommMonoid α] (f : (⟨2, ![M, K]⟩ : Shape).Idx → (⟨2, ![K, N]⟩ : Shape).Idx → α)
    (j : (⟨2, ![M, N]⟩ : Shape).Idx) :
    ∑ k : d.contr.Idx, f (d.lhsIdx j k) (d.rhsIdx j k) = ∑ k : Fin K, f (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a; apply Fin.ext
    match a with
    | ⟨0, _⟩ => exact hl0 j _
    | ⟨1, _⟩ => exact (hl1 j _).trans (contrEquiv1_symm_val d K hr hs k)
  have e2 : d.rhsIdx j ((contrEquiv1 d K hr hs).symm k) = ix2 k (j 1) := by
    funext a; apply Fin.ext
    match a with
    | ⟨0, _⟩ => exact (hr0 j _).trans (contrEquiv1_symm_val d K hr hs k)
    | ⟨1, _⟩ => exact hr1 j _
  exact congrArg₂ f e1 e2

/-- `B × M × K` by `B × K × N` with the leading axis a batch axis: at result index `(b, row, column)` the sum over `k : Fin K`
    of the function at `(b, row, k)` and `(b, k, column)`. -/
theorem batched {B M K N : Nat} (d : DotDims ⟨3, ![B, M, K]⟩ ⟨3, ![B, K, N]⟩ ⟨3, ![B, M, N]⟩)
    (hr : d.contr.rank = 1) (hs : d.contr.size ⟨0, by omega⟩ = K)
    (hl0 : ∀ j k, (d.lhsIdx j k 0).val = (j 0).val)
    (hl1 : ∀ j k, (d.lhsIdx j k 1).val = (j 1).val)
    (hl2 : ∀ j k, (d.lhsIdx j k 2).val = (k ⟨0, by omega⟩).val)
    (hr0 : ∀ j k, (d.rhsIdx j k 0).val = (j 0).val)
    (hr1 : ∀ j k, (d.rhsIdx j k 1).val = (k ⟨0, by omega⟩).val)
    (hr2 : ∀ j k, (d.rhsIdx j k 2).val = (j 2).val)
    {α : Type} [AddCommMonoid α] (f : (⟨3, ![B, M, K]⟩ : Shape).Idx → (⟨3, ![B, K, N]⟩ : Shape).Idx → α)
    (j : (⟨3, ![B, M, N]⟩ : Shape).Idx) :
    ∑ k : d.contr.Idx, f (d.lhsIdx j k) (d.rhsIdx j k) = ∑ k : Fin K, f (ix3 (j 0) (j 1) k) (ix3 (j 0) k (j 2)) := by
  rw [← Equiv.sum_comp (contrEquiv1 d K hr hs).symm]
  refine Finset.sum_congr rfl fun k _ => ?_
  have e1 : d.lhsIdx j ((contrEquiv1 d K hr hs).symm k) = ix3 (j 0) (j 1) k := by
    funext a; apply Fin.ext
    match a with
    | ⟨0, _⟩ => exact hl0 j _
    | ⟨1, _⟩ => exact hl1 j _
    | ⟨2, _⟩ => exact (hl2 j _).trans (contrEquiv1_symm_val d K hr hs k)
  have e2 : d.rhsIdx j ((contrEquiv1 d K hr hs).symm k) = ix3 (j 0) k (j 2) := by
    funext a; apply Fin.ext
    match a with
    | ⟨0, _⟩ => exact hr0 j _
    | ⟨1, _⟩ => exact (hr1 j _).trans (contrEquiv1_symm_val d K hr hs k)
    | ⟨2, _⟩ => exact hr2 j _
  exact congrArg₂ f e1 e2

end Cert.LibDotSum

end
-- ==== Proof.LibMatProd.lean ====
/-
  Matrix products at the exact (extended-real) reading, element by element. A rows-by-columns product, whether the host's
  `dot_general` or a kernel's matmul into a zero accumulator whose operands were first narrowed to a shorter float format
  (a change of format is the identity on exact values), is at (r, c) the sum over the shared axis of A(r, k) · B(k, c).
  Both are stated for any record of dimension numbers whose operand indices are known coordinate by coordinate.
-/
import Idealize.ShloMosaic.PureOps.Ideal.Laws
import Idealize.ShloMosaic.Lib.ValueIdx
import proofs.«147223_j52493090291996_1_alg».proof.Proof.LibDotSum

noncomputable section

open scoped BigOperators

namespace Cert.Spec

open Idealize.ShloMosaic Idealize.ShloMosaic.ValueIdx

/-- The product of an `M × K` array by a `K × N` array: at (r, c) the sum over k of A(r, k) · B(k, c). -/
def rowsByCols {M K N : Nat} (A : (⟨2, ![M, K]⟩ : Shape).Idx → EReal) (B : (⟨2, ![K, N]⟩ : Shape).Idx → EReal) :
    (⟨2, ![M, N]⟩ : Shape).Idx → EReal :=
  fun j => ∑ k : Fin K, A (ix2 (j 0) k) * B (ix2 k (j 1))

/-- Two `M × N` arrays added, then one row `b` added to every row, then the maximum with a fixed value `z`
    (with `z` zero: bias, then the rectifier). -/
def addRowMax {M N : Nat} (P Q : (⟨2, ![M, N]⟩ : Shape).Idx → EReal) (b : (⟨2, ![1, N]⟩ : Shape).Idx → EReal) (z : EReal) :
    (⟨2, ![M, N]⟩ : Shape).Idx → EReal :=
  fun j => max ((P j + Q j) + b (ix2 (0 : Fin 1) (j 1))) z

/-- One row `b` added to every row of an `M × N` array. -/
def addRow {M N : Nat} (P : (⟨2, ![M, N]⟩ : Shape).Idx → EReal) (b : (⟨2, ![1, N]⟩ : Shape).Idx → EReal) :
    (⟨2, ![M, N]⟩ : Shape).Idx → EReal :=
  fun j => P j + b (ix2 (0 : Fin 1) (j 1))

end Cert.Spec

namespace Cert.MatProd

open Idealize.ShloMosaic Idealize.ShloMosaic.ValueIdx

/-- The host's product of an `M × K` by a `K × N` array, at (r, c): `∑ k, A (r, k) · B (k, c)`. -/
theorem hostDot_apply {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (A : FVec Ideal ⟨2, ![M, K]⟩ .f32) (B : FVec Ideal ⟨2, ![K, N]⟩ .f32) (j : (⟨2, ![M, N]⟩ : Shape).Idx) :
    Host.dotGeneral (F := Ideal) d none A B j = Cert.Spec.rowsByCols A B j := by
  unfold Cert.Spec.rowsByCols
  simp only [Host.dotGeneral]
  rw [Ideal.dotGeneral_apply]
  exact Cert.LibDotSum.plain d hr hs hl0 hl1 hr0 hr1 (fun a b => A a * B b) j

/-- A kernel's matmul of two blocks narrowed to bf16, into the zero accumulator, at (r, c): the same sum of the
    un-narrowed blocks' products. -/
theorem tileDot_apply {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (A : FVec Ideal ⟨2, ![M, K]⟩ .f32) (B : FVec Ideal ⟨2, ![K, N]⟩ .f32)
    (hb : (FTy.bf16).bits < (FTy.f32).bits) (j : (⟨2, ![M, N]⟩ : Shape).Idx) :
    matmul (F := Ideal) d none (truncf .bf16 A hb) (truncf .bf16 B hb) (constant ⟨2, ![M, N]⟩ .f32 0x00000000#32) j
      = Cert.Spec.rowsByCols A B j := by
  unfold Cert.Spec.rowsByCols
  simp only [matmul]
  rw [Ideal.matmul_constant_zero_apply]
  exact Cert.LibDotSum.plain d hr hs hl0 hl1 hr0 hr1 (fun a b => A a * B b) j

end Cert.MatProd

end
-- ==== Proof.LibRowBias.lean ====
/-
  One row added to every row of an array: a [1, b] block broadcast over a rows reads, at (p, c), the block's one row at c.
-/
import Idealize.ShloMosaic.Lib.ValueIdx
import Idealize.ShloMosaic.Lib.ValueLayout
import Idealize.ShloMosaic.Lib.Pipeline.Value

noncomputable section

namespace Cert.RowBias

open Idealize.ShloMosaic Idealize.ShloMosaic.ValueIdx

/-- A `[1, b]` array broadcast to `[a, b]`, read at any index `y`: the one row at `y`'s column. -/
theorem bcastRow_apply {a b : ℕ} {α : Type} (v : (⟨2, ![1, b]⟩ : Shape).Idx → α)
    (h : (⟨2, ![1, b]⟩ : Shape).Broadcasts ⟨2, ![a, b]⟩) (y : (⟨2, ![a, b]⟩ : Shape).Idx) :
    broadcastTo ⟨2, ![a, b]⟩ v h y = v (ix2 (0 : Fin 1) (y 1)) := by
  obtain ⟨p, q, rfl⟩ : ∃ (p : Fin a) (q : Fin b), y = ix2 p q := ⟨y 0, y 1, eq_ix2 y⟩
  exact broadcastTo_1b_ab_apply v h p q

/-- A vector of `b` entries reshaped to one row, read at `(0, c)`: the entry `c`. -/
theorem rowOf_apply {b : ℕ} {α : Type} (x : (⟨1, ![b]⟩ : Shape).Idx → α) (h : (⟨1, ![b]⟩ : Shape).ShapeCasts ⟨2, ![1, b]⟩)
    (c : Fin b) : shapeCast ⟨2, ![1, b]⟩ x h (ix2 (0 : Fin 1) c) = x (ix1 c) :=
  shapeCast_a_1a_apply x h 0 c

end Cert.RowBias

end
-- ==== Proof.KV.Pay.lean ====
/-
  The value each of the three dense-layer tiles stores, read at one index of the tile.

  A tile holds 10000 rows of features x0, the whole weight array x1 and the one row of biases x2. It narrows the features and
  the weights to a shorter float format (the identity on exact values), multiplies them into a zero accumulator, adds the bias
  row to every row, and (second and third layer) takes the maximum with zero. At (r, c) this is
    (sum over k of x0 (r, k) * x1 (k, c)) + x2 (0, c),
  clamped at zero from below in the two later layers.
-/
import proofs.«147223_j52493090291996_1_alg».proof.Proof.Gen.KernelIdeal.Skeleton
import proofs.«147223_j52493090291996_1_alg».proof.Proof.LibMatProd
import proofs.«147223_j52493090291996_1_alg».proof.Proof.LibRowBias
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.Val

open Cert.KernelIdeal Cert.KernelIdeal.Gen Idealize.ShloMosaic Idealize.ShloMosaic.ValueIdx

/-- First layer: 18 features into 16 outputs; the tile's value at (r, c) is the row of features times the column of weights,
    plus the bias of that column. -/
theorem pay0_apply (x0 : Vec Ideal S10000x18 .f32) (x1 : Vec Ideal S18x16 .f32) (x2 : Vec Ideal S1x16 .f32) (r : Fin 10000) (c : Fin 16) :
    Gen.k0_pay1 (F := Ideal) x0 x1 x2 (ix2 r c) = (∑ k : Fin 18, x0 (ix2 r k) * x1 (ix2 k c)) + x2 (ix2 0 c) := by
  unfold Gen.k0_pay1
  simp only [shapeCast_self]
  rw [addf_apply]
  rw [Cert.RowBias.bcastRow_apply]
  rw [Cert.MatProd.tileDot_apply dot_S10000x18_S18x16_S10000x16_1_0_0_1_n_n rfl rfl (fun _ _ => rfl)
    (fun j k => DotDims.lhsIdx_val_of_single _ rfl j k) (fun j k => DotDims.rhsIdx_val_of_single _ rfl j k) (fun _ _ => rfl)]
  rfl

/-- Second layer: 48 features into 32 outputs, then the maximum with zero. -/
theorem pay1_apply (x0 : Vec Ideal S10000x48 .f32) (x1 : Vec Ideal S48x32 .f32) (x2 : Vec Ideal S1x32 .f32) (r : Fin 10000) (c : Fin 32) :
    Gen.k1_pay1 (F := Ideal) x0 x1 x2 (ix2 r c) = max ((∑ k : Fin 48, x0 (ix2 r k) * x1 (ix2 k c)) + x2 (ix2 0 c)) 0 := by
  unfold Gen.k1_pay1
  simp only [shapeCast_self]
  rw [maximumf_apply, broadcast_apply, addf_apply]
  rw [Cert.RowBias.bcastRow_apply]
  rw [Cert.MatProd.tileDot_apply dot_S10000x48_S48x32_S10000x32_1_0_0_1_n_n rfl rfl (fun _ _ => rfl)
    (fun j k => DotDims.lhsIdx_val_of_single _ rfl j k) (fun j k => DotDims.rhsIdx_val_of_single _ rfl j k) (fun _ _ => rfl)]
  refine congrArg₂ max ?_ Ideal.ofBits_zero_f32
  rfl

/-- Third layer: 256 features into 64 outputs, then the maximum with zero. -/
theorem pay2_apply (x0 : Vec Ideal S10000x256 .f32) (x1 : Vec Ideal S256x64 .f32) (x2 : Vec Ideal S1x64 .f32) (r : Fin 10000) (c : Fin 64) :
    Gen.k2_pay1 (F := Ideal) x0 x1 x2 (ix2 r c) = max ((∑ k : Fin 256, x0 (ix2 r k) * x1 (ix2 k c)) + x2 (ix2 0 c)) 0 := by
  unfold Gen.k2_pay1
  simp only [shapeCast_self]
  rw [maximumf_apply, broadcast_apply, addf_apply]
  rw [Cert.RowBias.bcastRow_apply]
  rw [Cert.MatProd.tileDot_apply dot_S10000x256_S256x64_S10000x64_1_0_0_1_n_n rfl rfl (fun _ _ => rfl)
    (fun j k => DotDims.lhsIdx_val_of_single _ rfl j k) (fun j k => DotDims.rhsIdx_val_of_single _ rfl j k) (fun _ _ => rfl)]
  refine congrArg₂ max ?_ Ideal.ofBits_zero_f32
  rfl

end Cert.KernelIdeal.Val

end
-- ==== Proof.Spec.lean ====
/-
  One dense layer of the network, as a function of whole arrays, over the extended reals.

  A layer multiplies every row of a feature array [100000, K] into a weight array [K, J] and adds one row of biases [1, J]:
    out (n, j) = (sum over k of feat (n, k) * w (k, j)) + b (0, j),
  and the two later layers clamp the result at zero from below. These are the functions the tiled matrix products of the
  three launches compute block of rows by block of rows; the order of the factors and of the two summands is the order in
  which the tile computes them.
-/
import Idealize.ShloMosaic.PureOps.Ideal
import Idealize.ShloMosaic.Lib.ValueIdx

noncomputable section

open scoped BigOperators

namespace Cert.Spec
open Idealize.ShloMosaic Idealize.ShloMosaic.ValueIdx

/-- rows of 18 features into 16 outputs, no clamp -/
def lin0 (feat : (⟨2, ![100000, 18]⟩ : Shape).Idx → EReal) (w : (⟨2, ![18, 16]⟩ : Shape).Idx → EReal)
    (b : (⟨2, ![1, 16]⟩ : Shape).Idx → EReal) : (⟨2, ![100000, 16]⟩ : Shape).Idx → EReal :=
  fun i => (∑ k : Fin 18, feat (ix2 (i 0) k) * w (ix2 k (i 1))) + b (ix2 0 (i 1))

/-- rows of 48 features into 32 outputs, clamped at zero -/
def lin1 (feat : (⟨2, ![100000, 48]⟩ : Shape).Idx → EReal) (w : (⟨2, ![48, 32]⟩ : Shape).Idx → EReal)
    (b : (⟨2, ![1, 32]⟩ : Shape).Idx → EReal) : (⟨2, ![100000, 32]⟩ : Shape).Idx → EReal :=
  fun i => max ((∑ k : Fin 48, feat (ix2 (i 0) k) * w (ix2 k (i 1))) + b (ix2 0 (i 1))) 0

/-- rows of 256 features into 64 outputs, clamped at zero -/
def lin2 (feat : (⟨2, ![100000, 256]⟩ : Shape).Idx → EReal) (w : (⟨2, ![256, 64]⟩ : Shape).Idx → EReal)
    (b : (⟨2, ![1, 64]⟩ : Shape).Idx → EReal) : (⟨2, ![100000, 64]⟩ : Shape).Idx → EReal :=
  fun i => max ((∑ k : Fin 256, feat (ix2 (i 0) k) * w (ix2 k (i 1))) + b (ix2 0 (i 1))) 0

end Cert.Spec

end
-- ==== Proof.KV.Region.lean ====
/-
  What each of the three dense-layer launches leaves in its result array, as one function of the arrays it reads.

  A launch walks the rows of its feature array in ten blocks of 10000 rows; at each block it stores the tile's value
  (the block of features times the whole weight array, plus the bias row, clamped at zero in the two later layers) and
  writes the block back at the same rows of the result. Row n of the result is therefore written by block n / 10000, and
  the result array ends holding, at (n, j), the sum over k of feat (n, k) * w (k, j) plus b (0, j) (clamped): the layer
  as a function of whole arrays.
-/
import proofs.«147223_j52493090291996_1_alg».proof.Proof.KI.Reg0
import proofs.«147223_j52493090291996_1_alg».proof.Proof.KI.Reg1
import proofs.«147223_j52493090291996_1_alg».proof.Proof.KI.Reg2
import proofs.«147223_j52493090291996_1_alg».proof.Proof.KV.Pay
import proofs.«147223_j52493090291996_1_alg».proof.Proof.Spec
import Idealize.ShloMosaic.Lib.Pipeline.Value
import Idealize.ShloMosaic.Lib.ValueIdx

noncomputable section

open scoped BigOperators

namespace Cert.KernelIdeal.Val

open Cert.KernelIdeal Cert.KernelIdeal.Gen Idealize.ShloMosaic Idealize.ShloMosaic.TcCoe Idealize.ShloMosaic.ValueIdx
open Idealize.ShloMosaic.Pipeline (Dat)

-- the TensorCore's buffer contents when a region is entered
variable (V : (c : Dev nD) → (b : Ref sig .tc) → Buf (Elt Ideal) ((c : Thread nD τ).loc b))

/-- The whole-buffer rectangle's offsets are zero on both axes. -/
theorem hz : (![0, 0] : Fin 2 → Nat) = fun _ => 0 := funext fun a => by fin_cases a <;> rfl

/-- Two indices of a rank-2 array with the same coordinates read the same entry. -/
theorem at2 {n0 n1 : Nat} {α : Type} (X : (⟨2, ![n0, n1]⟩ : Shape).Idx → α) (i i' : (⟨2, ![n0, n1]⟩ : Shape).Idx)
    (h0 : (i 0).val = (i' 0).val) (h1 : (i 1).val = (i' 1).val) : X i = X i' := by
  refine congrArg X (funext fun a => Fin.ext ?_)
  match a with
  | ⟨0, _⟩ => exact h0
  | ⟨1, _⟩ => exact h1

/-! ## Launch 0: rows of 18 features into 16 outputs -/

/-- The printed index maps, decided over the ten points: the feature and result windows sit at block (t, 0), the weights
    and the bias row at block (0, 0). -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The tile's value at point t, read at (p, q) of the tile, is the layer of the whole arrays at row t * 10000 + p. -/
theorem point0 (c : Dev nD) (t : Fin cfg0.N) (j : S10000x16.Idx) :
    Gen.k0_pay1 (F := Ideal) (Fr.iblk0 V c 0 t) (Fr.iblk0 V c 1 t) (Fr.iblk0 V c 2 t) j
      = Cert.Spec.lin0 (V c main_v29) (V c main_v35) (V c main_v37) (((cfg0.win 3).blk t).view.emb j) := by
  obtain ⟨p, q, rfl⟩ : ∃ (p : Fin 10000) (q : Fin 16), j = ix2 p q := ⟨j 0, j 1, eq_ix2 j⟩
  obtain ⟨e00, e01, e10, e11, e20, e21, e30, e31⟩ := idx0 t
  refine (pay0_apply _ _ _ p q).trans ?_
  unfold Cert.Spec.lin0
  refine congrArg₂ (· + ·) (Finset.sum_congr rfl fun k _ => congrArg₂ (· * ·) ?_ ?_) ?_
  · show V c main_v29 (((cfg0.win 0).blk t).view.emb (ix2 p k)) = _
    refine at2 (V c main_v29) _ _ ?_ ?_
    · show win0_0.index t (0 : Fin 2) * 10000 + 1 * p.val = win0_3.index t (0 : Fin 2) * 10000 + 1 * p.val
      rw [e00, e30]
    · show win0_0.index t (1 : Fin 2) * 18 + 1 * k.val = k.val
      rw [e01]; omega
  · show V c main_v35 (((cfg0.win 1).blk t).view.emb (ix2 k q)) = _
    refine at2 (V c main_v35) _ _ ?_ ?_
    · show win0_1.index t (0 : Fin 2) * 18 + 1 * k.val = k.val
      rw [e10]; omega
    · show win0_1.index t (1 : Fin 2) * 16 + 1 * q.val = win0_3.index t (1 : Fin 2) * 16 + 1 * q.val
      rw [e11, e31]
  · show V c main_v37 (((cfg0.win 2).blk t).view.emb (ix2 0 q)) = _
    refine at2 (V c main_v37) _ _ ?_ ?_
    · show win0_2.index t (0 : Fin 2) * 1 + 1 * 0 = 0
      rw [e20]
    · show win0_2.index t (1 : Fin 2) * 16 + 1 * q.val = win0_3.index t (1 : Fin 2) * 16 + 1 * q.val
      rw [e21, e31]

/-- What point t writes back is block t of the layer of the whole arrays. -/
theorem flushed0_eq (c : Dev nD) (t : Fin cfg0.N) :
    (Fr.dat0 V c).flushed 3 t
      = ((cfg0.win 3).blk t).view.read (Elt Ideal) (Cert.Spec.lin0 (V c main_v29) (V c main_v35) (V c main_v37)) := by
  show (cfg0.win 3).cut (grid0.coords t) ((Fr.dat0 V c).after 3 t) = _
  rw [Fr.after0_3]
  unfold Fr.out0_3
  rw [View.canon_unit_zero hz]
  simp only [View.ld_unit_zero (S := S10000x18) hz, View.ld_unit_zero (S := S18x16) hz, View.ld_unit_zero (S := S1x16) hz]
  funext j
  exact point0 V c t j

/-- An index of the result array is in point t's block iff each coordinate is in the block's range on its axis. -/
theorem mem_blk0 (t : Fin cfg0.N) (i : S100000x16.Idx) :
    i ∈ ((cfg0.win 3).blk t).view.set ↔ ∀ a : Fin 2, win0_3.index t a * S10000x16.size a ≤ (i a).val
      ∧ (i a).val < win0_3.index t a * S10000x16.size a + S10000x16.size a := by
  show i ∈ ((View.whole main_v38).slice (win0_3.rect t)).set ↔ _
  rw [View.set_slice_whole, Rect.mem_set_unit]
  exact Iff.rfl

/-- Row n of the result is in the block of point n / 10000. -/
theorem cover0 (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  have ht : (i 0).val / 10000 < cfg0.N := by show (i 0).val / 10000 < 10; omega
  obtain ⟨-, -, -, -, -, -, e30, e31⟩ := idx0 ⟨(i 0).val / 10000, ht⟩
  refine ⟨⟨(i 0).val / 10000, ht⟩, flush0_3 _, ?_⟩
  rw [mem_blk0]
  intro a
  match a with
  | ⟨0, _⟩ =>
    show win0_3.index ⟨(i 0).val / 10000, ht⟩ (0 : Fin 2) * 10000 ≤ (i 0).val
      ∧ (i 0).val < win0_3.index ⟨(i 0).val / 10000, ht⟩ (0 : Fin 2) * 10000 + 10000
    rw [e30]; show (i 0).val / 10000 * 10000 ≤ (i 0).val ∧ (i 0).val < (i 0).val / 10000 * 10000 + 10000; omega
  | ⟨1, _⟩ =>
    show win0_3.index ⟨(i 0).val / 10000, ht⟩ (1 : Fin 2) * 16 ≤ (i 1).val
      ∧ (i 1).val < win0_3.index ⟨(i 0).val / 10000, ht⟩ (1 : Fin 2) * 16 + 16
    rw [e31]; omega

/-- The result array after the launch: the layer of the arrays the launch reads, as the launch finds them. -/
theorem region0 (c : Dev nD) :
    (Fr.dat0 (F := Ideal) V c).arrAt 3 cfg0.N = Cert.Spec.lin0 (V c main_v29) (V c main_v35) (V c main_v37) :=
  (Fr.dat0 V c).arrAt_eq_of_cover 3 (Cert.Spec.lin0 (V c main_v29) (V c main_v35) (V c main_v37))
    (fun t _ => flushed0_eq V c t) (cover0)

/-! ## Launch 1: rows of 48 features into 32 outputs -/

/-- The printed index maps, decided over the ten points: the feature and result windows sit at block (t, 0), the weights
    and the bias row at block (0, 0). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The tile's value at point t, read at (p, q) of the tile, is the layer of the whole arrays at row t * 10000 + p. -/
theorem point1 (c : Dev nD) (t : Fin cfg1.N) (j : S10000x32.Idx) :
    Gen.k1_pay1 (F := Ideal) (Fr.iblk1 V c 0 t) (Fr.iblk1 V c 1 t) (Fr.iblk1 V c 2 t) j
      = Cert.Spec.lin1 (V c main_v68) (V c main_v75) (V c main_v78) (((cfg1.win 3).blk t).view.emb j) := by
  obtain ⟨p, q, rfl⟩ : ∃ (p : Fin 10000) (q : Fin 32), j = ix2 p q := ⟨j 0, j 1, eq_ix2 j⟩
  obtain ⟨e00, e01, e10, e11, e20, e21, e30, e31⟩ := idx1 t
  refine (pay1_apply _ _ _ p q).trans ?_
  unfold Cert.Spec.lin1
  refine congrArg (fun x : EReal => max x 0) (congrArg₂ (· + ·) (Finset.sum_congr rfl fun k _ => congrArg₂ (· * ·) ?_ ?_) ?_)
  · show V c main_v68 (((cfg1.win 0).blk t).view.emb (ix2 p k)) = _
    refine at2 (V c main_v68) _ _ ?_ ?_
    · show win1_0.index t (0 : Fin 2) * 10000 + 1 * p.val = win1_3.index t (0 : Fin 2) * 10000 + 1 * p.val
      rw [e00, e30]
    · show win1_0.index t (1 : Fin 2) * 48 + 1 * k.val = k.val
      rw [e01]; omega
  · show V c main_v75 (((cfg1.win 1).blk t).view.emb (ix2 k q)) = _
    refine at2 (V c main_v75) _ _ ?_ ?_
    · show win1_1.index t (0 : Fin 2) * 48 + 1 * k.val = k.val
      rw [e10]; omega
    · show win1_1.index t (1 : Fin 2) * 32 + 1 * q.val = win1_3.index t (1 : Fin 2) * 32 + 1 * q.val
      rw [e11, e31]
  · show V c main_v78 (((cfg1.win 2).blk t).view.emb (ix2 0 q)) = _
    refine at2 (V c main_v78) _ _ ?_ ?_
    · show win1_2.index t (0 : Fin 2) * 1 + 1 * 0 = 0
      rw [e20]
    · show win1_2.index t (1 : Fin 2) * 32 + 1 * q.val = win1_3.index t (1 : Fin 2) * 32 + 1 * q.val
      rw [e21, e31]

/-- What point t writes back is block t of the layer of the whole arrays. -/
theorem flushed1_eq (c : Dev nD) (t : Fin cfg1.N) :
    (Fr.dat1 V c).flushed 3 t
      = ((cfg1.win 3).blk t).view.read (Elt Ideal) (Cert.Spec.lin1 (V c main_v68) (V c main_v75) (V c main_v78)) := by
  show (cfg1.win 3).cut (grid1.coords t) ((Fr.dat1 V c).after 3 t) = _
  rw [Fr.after1_3]
  unfold Fr.out1_3
  rw [View.canon_unit_zero hz]
  simp only [View.ld_unit_zero (S := S10000x48) hz, View.ld_unit_zero (S := S48x32) hz, View.ld_unit_zero (S := S1x32) hz]
  funext j
  exact point1 V c t j

/-- An index of the result array is in point t's block iff each coordinate is in the block's range on its axis. -/
theorem mem_blk1 (t : Fin cfg1.N) (i : S100000x32.Idx) :
    i ∈ ((cfg1.win 3).blk t).view.set ↔ ∀ a : Fin 2, win1_3.index t a * S10000x32.size a ≤ (i a).val
      ∧ (i a).val < win1_3.index t a * S10000x32.size a + S10000x32.size a := by
  show i ∈ ((View.whole main_v79).slice (win1_3.rect t)).set ↔ _
  rw [View.set_slice_whole, Rect.mem_set_unit]
  exact Iff.rfl

/-- Row n of the result is in the block of point n / 10000. -/
theorem cover1 (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have ht : (i 0).val / 10000 < cfg1.N := by show (i 0).val / 10000 < 10; omega
  obtain ⟨-, -, -, -, -, -, e30, e31⟩ := idx1 ⟨(i 0).val / 10000, ht⟩
  refine ⟨⟨(i 0).val / 10000, ht⟩, flush1_3 _, ?_⟩
  rw [mem_blk1]
  intro a
  match a with
  | ⟨0, _⟩ =>
    show win1_3.index ⟨(i 0).val / 10000, ht⟩ (0 : Fin 2) * 10000 ≤ (i 0).val
      ∧ (i 0).val < win1_3.index ⟨(i 0).val / 10000, ht⟩ (0 : Fin 2) * 10000 + 10000
    rw [e30]; show (i 0).val / 10000 * 10000 ≤ (i 0).val ∧ (i 0).val < (i 0).val / 10000 * 10000 + 10000; omega
  | ⟨1, _⟩ =>
    show win1_3.index ⟨(i 0).val / 10000, ht⟩ (1 : Fin 2) * 32 ≤ (i 1).val
      ∧ (i 1).val < win1_3.index ⟨(i 0).val / 10000, ht⟩ (1 : Fin 2) * 32 + 32
    rw [e31]; omega

/-- The result array after the launch: the layer of the arrays the launch reads, as the launch finds them. -/
theorem region1 (c : Dev nD) :
    (Fr.dat1 (F := Ideal) V c).arrAt 3 cfg1.N = Cert.Spec.lin1 (V c main_v68) (V c main_v75) (V c main_v78) :=
  (Fr.dat1 V c).arrAt_eq_of_cover 3 (Cert.Spec.lin1 (V c main_v68) (V c main_v75) (V c main_v78))
    (fun t _ => flushed1_eq V c t) (cover1)

/-! ## Launch 2: rows of 256 features into 64 outputs -/

/-- The printed index maps, decided over the ten points: the feature and result windows sit at block (t, 0), the weights
    and the bias row at block (0, 0). -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The tile's value at point t, read at (p, q) of the tile, is the layer of the whole arrays at row t * 10000 + p. -/
theorem point2 (c : Dev nD) (t : Fin cfg2.N) (j : S10000x64.Idx) :
    Gen.k2_pay1 (F := Ideal) (Fr.iblk2 V c 0 t) (Fr.iblk2 V c 1 t) (Fr.iblk2 V c 2 t) j
      = Cert.Spec.lin2 (V c main_v206) (V c main_v223) (V c main_v226) (((cfg2.win 3).blk t).view.emb j) := by
  obtain ⟨p, q, rfl⟩ : ∃ (p : Fin 10000) (q : Fin 64), j = ix2 p q := ⟨j 0, j 1, eq_ix2 j⟩
  obtain ⟨e00, e01, e10, e11, e20, e21, e30, e31⟩ := idx2 t
  refine (pay2_apply _ _ _ p q).trans ?_
  unfold Cert.Spec.lin2
  refine congrArg (fun x : EReal => max x 0) (congrArg₂ (· + ·) (Finset.sum_congr rfl fun k _ => congrArg₂ (· * ·) ?_ ?_) ?_)
  · show V c main_v206 (((cfg2.win 0).blk t).view.emb (ix2 p k)) = _
    refine at2 (V c main_v206) _ _ ?_ ?_
    · show win2_0.index t (0 : Fin 2) * 10000 + 1 * p.val = win2_3.index t (0 : Fin 2) * 10000 + 1 * p.val
      rw [e00, e30]
    · show win2_0.index t (1 : Fin 2) * 256 + 1 * k.val = k.val
      rw [e01]; omega
  · show V c main_v223 (((cfg2.win 1).blk t).view.emb (ix2 k q)) = _
    refine at2 (V c main_v223) _ _ ?_ ?_
    · show win2_1.index t (0 : Fin 2) * 256 + 1 * k.val = k.val
      rw [e10]; omega
    · show win2_1.index t (1 : Fin 2) * 64 + 1 * q.val = win2_3.index t (1 : Fin 2) * 64 + 1 * q.val
      rw [e11, e31]
  · show V c main_v226 (((cfg2.win 2).blk t).view.emb (ix2 0 q)) = _
    refine at2 (V c main_v226) _ _ ?_ ?_
    · show win2_2.index t (0 : Fin 2) * 1 + 1 * 0 = 0
      rw [e20]
    · show win2_2.index t (1 : Fin 2) * 64 + 1 * q.val = win2_3.index t (1 : Fin 2) * 64 + 1 * q.val
      rw [e21, e31]

/-- What point t writes back is block t of the layer of the whole arrays. -/
theorem flushed2_eq (c : Dev nD) (t : Fin cfg2.N) :
    (Fr.dat2 V c).flushed 3 t
      = ((cfg2.win 3).blk t).view.read (Elt Ideal) (Cert.Spec.lin2 (V c main_v206) (V c main_v223) (V c main_v226)) := by
  show (cfg2.win 3).cut (grid2.coords t) ((Fr.dat2 V c).after 3 t) = _
  rw [Fr.after2_3]
  unfold Fr.out2_3
  rw [View.canon_unit_zero hz]
  simp only [View.ld_unit_zero (S := S10000x256) hz, View.ld_unit_zero (S := S256x64) hz, View.ld_unit_zero (S := S1x64) hz]
  funext j
  exact point2 V c t j

/-- An index of the result array is in point t's block iff each coordinate is in the block's range on its axis. -/
theorem mem_blk2 (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v227).slice (win2_3.rect t)).set ↔ _
  rw [View.set_slice_whole, Rect.mem_set_unit]
  exact Iff.rfl

/-- Row n of the result is in the block of point n / 10000. -/
theorem cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have ht : (i 0).val / 10000 < cfg2.N := by show (i 0).val / 10000 < 10; omega
  obtain ⟨-, -, -, -, -, -, e30, e31⟩ := idx2 ⟨(i 0).val / 10000, ht⟩
  refine ⟨⟨(i 0).val / 10000, ht⟩, flush2_3 _, ?_⟩
  rw [mem_blk2]
  intro a
  match a with
  | ⟨0, _⟩ =>
    show win2_3.index ⟨(i 0).val / 10000, ht⟩ (0 : Fin 2) * 10000 ≤ (i 0).val
      ∧ (i 0).val < win2_3.index ⟨(i 0).val / 10000, ht⟩ (0 : Fin 2) * 10000 + 10000
    rw [e30]; show (i 0).val / 10000 * 10000 ≤ (i 0).val ∧ (i 0).val < (i 0).val / 10000 * 10000 + 10000; omega
  | ⟨1, _⟩ =>
    show win2_3.index ⟨(i 0).val / 10000, ht⟩ (1 : Fin 2) * 64 ≤ (i 1).val
      ∧ (i 1).val < win2_3.index ⟨(i 0).val / 10000, ht⟩ (1 : Fin 2) * 64 + 64
    rw [e31]; omega

/-- The result array after the launch: the layer of the arrays the launch reads, as the launch finds them. -/
theorem region2 (c : Dev nD) :
    (Fr.dat2 (F := Ideal) V c).arrAt 3 cfg2.N = Cert.Spec.lin2 (V c main_v206) (V c main_v223) (V c main_v226) :=
  (Fr.dat2 V c).arrAt_eq_of_cover 3 (Cert.Spec.lin2 (V c main_v206) (V c main_v223) (V c main_v226))
    (fun t _ => flushed2_eq V c t) (cover2)

end Cert.KernelIdeal.Val

end
-- ==== Proof.RV.L0.lean ====
import proofs.«147223_j52493090291996_1_alg».proof.Proof.RefRead
import Idealize.ShloMosaic.Lib.ValueIdx

noncomputable section

open scoped BigOperators

namespace Cert.ReferenceIdeal.Lay

open Cert.ReferenceIdeal Idealize.ShloMosaic Idealize.ShloMosaic.ValueIdx

/-! # The reference's first layer, read at one output element

The first graph-convolution layer has two relations. Starting from the zero array, each relation q adds three terms to
the accumulator, in this order: the aggregated messages times the neighbour weights x1[q], the input features times
the root weights x2[q], and the bias row x3[q]. Every weight matrix is a slice of a stacked weight array followed by
a reshape that drops the leading unit axis, so its element (j, c) is the stacked array's element (q, j, c); the bias
row is likewise the element (q, c) of the stacked biases, broadcast over the rows. The aggregated messages
(val_main_v14, val_main_v41) are kept as opaque arrays. -/

namespace L0

/-- The arrays of the first layer, at the ideal instance. -/
abbrev X0 := (⟨S100000x6, .f32⟩ : BufTy).Contents (Elt Ideal)
abbrev W0 := (⟨S2x6x16, .f32⟩ : BufTy).Contents (Elt Ideal)
abbrev B0 := (⟨S2x16, .f32⟩ : BufTy).Contents (Elt Ideal)
abbrev E0 := (⟨S2x800000, .i32⟩ : BufTy).Contents (Elt Ideal)

/-! ## Index functions on explicit coordinates -/

theorem lidx_v17 (n : Fin 100000) (c : Fin 16) (k : Fin 6) : ReadP.lidx_main_v17 (ix2 n c) k = ix2 n k :=
  funext fun a => Fin.ext (by match a with | ⟨0, _⟩ => rfl | ⟨1, _⟩ => rfl)
theorem ridx_v17 (n : Fin 100000) (c : Fin 16) (k : Fin 6) : ReadP.ridx_main_v17 (ix2 n c) k = ix2 k c :=
  funext fun a => Fin.ext (by match a with | ⟨0, _⟩ => rfl | ⟨1, _⟩ => rfl)
theorem lidx_v21 (n : Fin 100000) (c : Fin 16) (k : Fin 6) : ReadP.lidx_main_v21 (ix2 n c) k = ix2 n k :=
  funext fun a => Fin.ext (by match a with | ⟨0, _⟩ => rfl | ⟨1, _⟩ => rfl)
theorem ridx_v21 (n : Fin 100000) (c : Fin 16) (k : Fin 6) : ReadP.ridx_main_v21 (ix2 n c) k = ix2 k c :=
  funext fun a => Fin.ext (by match a with | ⟨0, _⟩ => rfl | ⟨1, _⟩ => rfl)
theorem lidx_v44 (n : Fin 100000) (c : Fin 16) (k : Fin 6) : ReadP.lidx_main_v44 (ix2 n c) k = ix2 n k :=
  funext fun a => Fin.ext (by match a with | ⟨0, _⟩ => rfl | ⟨1, _⟩ => rfl)
theorem ridx_v44 (n : Fin 100000) (c : Fin 16) (k : Fin 6) : ReadP.ridx_main_v44 (ix2 n c) k = ix2 k c :=
  funext fun a => Fin.ext (by match a with | ⟨0, _⟩ => rfl | ⟨1, _⟩ => rfl)
theorem lidx_v48 (n : Fin 100000) (c : Fin 16) (k : Fin 6) : ReadP.lidx_main_v48 (ix2 n c) k = ix2 n k :=
  funext fun a => Fin.ext (by match a with | ⟨0, _⟩ => rfl | ⟨1, _⟩ => rfl)
theorem ridx_v48 (n : Fin 100000) (c : Fin 16) (k : Fin 6) : ReadP.ridx_main_v48 (ix2 n c) k = ix2 k c :=
  funext fun a => Fin.ext (by match a with | ⟨0, _⟩ => rfl | ⟨1, _⟩ => rfl)

/-- A slice [q:q+1] of the stacked weights, then dropping the unit axis: element (j, c) is the stack's (q, j, c). -/
theorem widx_n0 (j : Fin 6) (c : Fin 16) : ReadP.idx_main_v15 (ReadP.idx_main_v16 (ix2 j c)) = ix3 0 j c :=
  funext fun a => Fin.ext (by
    match a with
    | ⟨0, _⟩ => rfl
    | ⟨1, _⟩ => show (j.val * 16 + c.val) / 16 % 6 = j.val; omega
    | ⟨2, _⟩ => show (j.val * 16 + c.val) % 16 = c.val; omega)
theorem widx_r0 (j : Fin 6) (c : Fin 16) : ReadP.idx_main_v19 (ReadP.idx_main_v20 (ix2 j c)) = ix3 0 j c :=
  funext fun a => Fin.ext (by
    match a with
    | ⟨0, _⟩ => rfl
    | ⟨1, _⟩ => show (j.val * 16 + c.val) / 16 % 6 = j.val; omega
    | ⟨2, _⟩ => show (j.val * 16 + c.val) % 16 = c.val; omega)
theorem widx_n1 (j : Fin 6) (c : Fin 16) : ReadP.idx_main_v42 (ReadP.idx_main_v43 (ix2 j c)) = ix3 1 j c :=
  funext fun a => Fin.ext (by
    match a with
    | ⟨0, _⟩ => rfl
    | ⟨1, _⟩ => show (j.val * 16 + c.val) / 16 % 6 = j.val; omega
    | ⟨2, _⟩ => show (j.val * 16 + c.val) % 16 = c.val; omega)
theorem widx_r1 (j : Fin 6) (c : Fin 16) : ReadP.idx_main_v46 (ReadP.idx_main_v47 (ix2 j c)) = ix3 1 j c :=
  funext fun a => Fin.ext (by
    match a with
    | ⟨0, _⟩ => rfl
    | ⟨1, _⟩ => show (j.val * 16 + c.val) / 16 % 6 = j.val; omega
    | ⟨2, _⟩ => show (j.val * 16 + c.val) % 16 = c.val; omega)

/-- The bias row q broadcast over the rows: element (n, c) is the stacked biases' (q, c). -/
theorem bidx_0 (n : Fin 100000) (c : Fin 16) :
    ReadP.idx_main_v23 (ReadP.idx_main_v24 (ReadP.idx_main_v25 (ReadP.idx_main_v26 (ix2 n c)))) = ix2 0 c :=
  funext fun a => Fin.ext (by
    match a with
    | ⟨0, _⟩ => rfl
    | ⟨1, _⟩ => show c.val % 16 = c.val; omega)
theorem bidx_1 (n : Fin 100000) (c : Fin 16) :
    ReadP.idx_main_v50 (ReadP.idx_main_v51 (ReadP.idx_main_v52 (ReadP.idx_main_v53 (ix2 n c)))) = ix2 1 c :=
  funext fun a => Fin.ext (by
    match a with
    | ⟨0, _⟩ => rfl
    | ⟨1, _⟩ => show c.val % 16 = c.val; omega)

/-! ## The weight matrices, the bias rows and the products at an element -/

theorem wn0 (x1 : W0) (j : Fin 6) (c : Fin 16) : ReadP.val_main_v16 (F := Ideal) x1 (ix2 j c) = x1 (ix3 0 j c) := by
  rw [ReadP.val_main_v16_apply, ReadP.val_main_v15_apply, widx_n0]
theorem wr0 (x2 : W0) (j : Fin 6) (c : Fin 16) : ReadP.val_main_v20 (F := Ideal) x2 (ix2 j c) = x2 (ix3 0 j c) := by
  rw [ReadP.val_main_v20_apply, ReadP.val_main_v19_apply, widx_r0]
theorem wn1 (x1 : W0) (j : Fin 6) (c : Fin 16) : ReadP.val_main_v43 (F := Ideal) x1 (ix2 j c) = x1 (ix3 1 j c) := by
  rw [ReadP.val_main_v43_apply, ReadP.val_main_v42_apply, widx_n1]
theorem wr1 (x2 : W0) (j : Fin 6) (c : Fin 16) : ReadP.val_main_v47 (F := Ideal) x2 (ix2 j c) = x2 (ix3 1 j c) := by
  rw [ReadP.val_main_v47_apply, ReadP.val_main_v46_apply, widx_r1]
theorem b0 (x3 : B0) (n : Fin 100000) (c : Fin 16) : ReadP.val_main_v26 (F := Ideal) x3 (ix2 n c) = x3 (ix2 0 c) := by
  rw [ReadP.val_main_v26_apply, ReadP.val_main_v25_apply, ReadP.val_main_v24_apply, ReadP.val_main_v23_apply, bidx_0]
theorem b1 (x3 : B0) (n : Fin 100000) (c : Fin 16) : ReadP.val_main_v53 (F := Ideal) x3 (ix2 n c) = x3 (ix2 1 c) := by
  rw [ReadP.val_main_v53_apply, ReadP.val_main_v52_apply, ReadP.val_main_v51_apply, ReadP.val_main_v50_apply, bidx_1]

/-- The zero array the accumulation starts from. -/
theorem z0 (i : S100000x16.Idx) : ReadP.val_main_v0 (F := Ideal) i = 0 := by
  rw [ReadP.val_main_v0_apply, ReadP.val_main_cst_apply, Ideal.ofBits_def, Ideal.ofBits_zero_f32]

theorem d17 (x0 : X0) (x1 : W0) (x14 : E0) (n : Fin 100000) (c : Fin 16) :
    ReadP.val_main_v17 (F := Ideal) x0 x1 x14 (ix2 n c)
      = ∑ j : Fin 6, ReadP.val_main_v14 (F := Ideal) x0 x14 (ix2 n j) * x1 (ix3 0 j c) := by
  rw [ReadP.val_main_v17_apply]
  exact Finset.sum_congr rfl fun j _ => by rw [lidx_v17, ridx_v17, wn0]
theorem d21 (x0 : X0) (x2 : W0) (n : Fin 100000) (c : Fin 16) :
    ReadP.val_main_v21 (F := Ideal) x0 x2 (ix2 n c) = ∑ j : Fin 6, x0 (ix2 n j) * x2 (ix3 0 j c) := by
  rw [ReadP.val_main_v21_apply]
  exact Finset.sum_congr rfl fun j _ => by rw [lidx_v21, ridx_v21, wr0]
theorem d44 (x0 : X0) (x1 : W0) (x15 : E0) (n : Fin 100000) (c : Fin 16) :
    ReadP.val_main_v44 (F := Ideal) x0 x1 x15 (ix2 n c)
      = ∑ j : Fin 6, ReadP.val_main_v41 (F := Ideal) x0 x15 (ix2 n j) * x1 (ix3 1 j c) := by
  rw [ReadP.val_main_v44_apply]
  exact Finset.sum_congr rfl fun j _ => by rw [lidx_v44, ridx_v44, wn1]
theorem d48 (x0 : X0) (x2 : W0) (n : Fin 100000) (c : Fin 16) :
    ReadP.val_main_v48 (F := Ideal) x0 x2 (ix2 n c) = ∑ j : Fin 6, x0 (ix2 n j) * x2 (ix3 1 j c) := by
  rw [ReadP.val_main_v48_apply]
  exact Finset.sum_congr rfl fun j _ => by rw [lidx_v48, ridx_v48, wr1]

end L0

open L0

/-! ## The layer -/

/-- THE FIRST LAYER AT AN ELEMENT: from zero, relation by relation, messages times neighbour weights, then features times
    root weights, then the bias; the accumulator is the left operand of every sum. -/
theorem ref0 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x14 x15 : (⟨S2x800000, .i32⟩ : BufTy).Contents (Elt Ideal)) (n : Fin 100000) (c : Fin 16) :
    ReadP.val_main_v54 (F := Ideal) x0 x1 x2 x3 x14 x15 (ix2 n c) =
      (((((0 + ∑ j : Fin 6, ReadP.val_main_v14 (F := Ideal) x0 x14 (ix2 n j) * x1 (ix3 0 j c))
          + ∑ j : Fin 6, x0 (ix2 n j) * x2 (ix3 0 j c)) + x3 (ix2 0 c))
        + ∑ j : Fin 6, ReadP.val_main_v41 (F := Ideal) x0 x15 (ix2 n j) * x1 (ix3 1 j c))
        + ∑ j : Fin 6, x0 (ix2 n j) * x2 (ix3 1 j c)) + x3 (ix2 1 c) := by
  rw [ReadP.val_main_v54_apply, ReadP.val_main_v49_apply, ReadP.val_main_v45_apply, ReadP.val_main_v27_apply,
    ReadP.val_main_v22_apply, ReadP.val_main_v18_apply, z0, d17, d21, b0, d44, d48, b1]
  simp only [Ideal.addf_def]

end Cert.ReferenceIdeal.Lay
-- ==== Proof.RV.L1.lean ====
import proofs.«147223_j52493090291996_1_alg».proof.Proof.RefRead
import Idealize.ShloMosaic.Lib.ValueIdx

noncomputable section

open scoped BigOperators

namespace Cert.ReferenceIdeal.Lay

open Cert.ReferenceIdeal Idealize.ShloMosaic Idealize.ShloMosaic.ValueIdx

/-! # The reference's second layer, read at one output element

The second graph-convolution layer has two relations and reads the first layer's output val_main_v54 (kept opaque, as
are the aggregated messages val_main_v69 and val_main_v96). Starting from the zero array, each relation q adds the messages
times the neighbour weights x4[q], the input times the root weights x5[q], and the bias row x6[q]; then the input times the
projection x7 and the projection's bias x8 are added, and the result is clamped at zero. A weight matrix is a slice of the
stacked weights followed by a reshape dropping the unit axis, so its element (j, c) is the stack's (q, j, c); a bias row
is the stacked biases' (q, c), broadcast over the rows. -/

namespace L1

/-- The zero array the accumulation starts from. -/
theorem zero_acc (i : S100000x32.Idx) : ReadP.val_main_v55 (F := Ideal) i = 0 := by
  rw [ReadP.val_main_v55_apply, ReadP.val_main_cst_5_apply, Ideal.ofBits_def, Ideal.ofBits_zero_f32]

/-! ### Relation 0 -/

theorem lidx_v72 (n : Fin 100000) (c : Fin 32) (k : Fin 16) : ReadP.lidx_main_v72 (ix2 n c) k = ix2 n k :=
  funext fun a => Fin.ext (by match a with | ⟨0, _⟩ => rfl | ⟨1, _⟩ => rfl)
theorem ridx_v72 (n : Fin 100000) (c : Fin 32) (k : Fin 16) : ReadP.ridx_main_v72 (ix2 n c) k = ix2 k c :=
  funext fun a => Fin.ext (by match a with | ⟨0, _⟩ => rfl | ⟨1, _⟩ => rfl)
theorem lidx_v76 (n : Fin 100000) (c : Fin 32) (k : Fin 16) : ReadP.lidx_main_v76 (ix2 n c) k = ix2 n k :=
  funext fun a => Fin.ext (by match a with | ⟨0, _⟩ => rfl | ⟨1, _⟩ => rfl)
theorem ridx_v76 (n : Fin 100000) (c : Fin 32) (k : Fin 16) : ReadP.ridx_main_v76 (ix2 n c) k = ix2 k c :=
  funext fun a => Fin.ext (by match a with | ⟨0, _⟩ => rfl | ⟨1, _⟩ => rfl)
theorem widx_n0 (j : Fin 16) (c : Fin 32) : ReadP.idx_main_v70 (ReadP.idx_main_v71 (ix2 j c)) = ix3 (0 : Fin 2) j c :=
  funext fun a => Fin.ext (by
    match a with
    | ⟨0, _⟩ => rfl
    | ⟨1, _⟩ => show (j.val * 32 + c.val) / 32 % 16 = j.val; omega
    | ⟨2, _⟩ => show (j.val * 32 + c.val) % 32 = c.val; omega)
theorem widx_r0 (j : Fin 16) (c : Fin 32) : ReadP.idx_main_v74 (ReadP.idx_main_v75 (ix2 j c)) = ix3 (0 : Fin 2) j c :=
  funext fun a => Fin.ext (by
    match a with
    | ⟨0, _⟩ => rfl
    | ⟨1, _⟩ => show (j.val * 32 + c.val) / 32 % 16 = j.val; omega
    | ⟨2, _⟩ => show (j.val * 32 + c.val) % 32 = c.val; omega)
theorem bidx_0 (n : Fin 100000) (c : Fin 32) :
    ReadP.idx_main_v78 (ReadP.idx_main_v79 (ReadP.idx_main_v80 (ReadP.idx_main_v81 (ix2 n c)))) = ix2 (0 : Fin 2) c :=
  funext fun a => Fin.ext (by
    match a with
    | ⟨0, _⟩ => rfl
    | ⟨1, _⟩ => show c.val % 32 = c.val; omega)
theorem wn0 (x4 : (⟨S2x16x32, .f32⟩ : BufTy).Contents (Elt Ideal)) (j : Fin 16) (c : Fin 32) :
    ReadP.val_main_v71 (F := Ideal) x4 (ix2 j c) = x4 (ix3 (0 : Fin 2) j c) := by
  rw [ReadP.val_main_v71_apply, ReadP.val_main_v70_apply, widx_n0]
theorem wr0 (x5 : (⟨S2x16x32, .f32⟩ : BufTy).Contents (Elt Ideal)) (j : Fin 16) (c : Fin 32) :
    ReadP.val_main_v75 (F := Ideal) x5 (ix2 j c) = x5 (ix3 (0 : Fin 2) j c) := by
  rw [ReadP.val_main_v75_apply, ReadP.val_main_v74_apply, widx_r0]
theorem bias0 (x6 : (⟨S2x32, .f32⟩ : BufTy).Contents (Elt Ideal)) (n : Fin 100000) (c : Fin 32) :
    ReadP.val_main_v81 (F := Ideal) x6 (ix2 n c) = x6 (ix2 (0 : Fin 2) c) := by
  rw [ReadP.val_main_v81_apply, ReadP.val_main_v80_apply, ReadP.val_main_v79_apply, ReadP.val_main_v78_apply, bidx_0]
/-- The messages of relation 0 times its neighbour weights, at an element. -/
theorem dn0 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 : (⟨S2x16x32, .f32⟩ : BufTy).Contents (Elt Ideal)) (x14 x15 : (⟨S2x800000, .i32⟩ : BufTy).Contents (Elt Ideal)) (n : Fin 100000) (c : Fin 32) :
    ReadP.val_main_v72 (F := Ideal) x0 x1 x2 x3 x4 x14 x15 (ix2 n c)
      = ∑ j : Fin 16, (ReadP.val_main_v69 (F := Ideal) x0 x1 x2 x3 x14 x15) (ix2 n j) * x4 (ix3 (0 : Fin 2) j c) := by
  rw [ReadP.val_main_v72_apply]
  exact Finset.sum_congr rfl fun j _ => by rw [lidx_v72, ridx_v72, wn0]
/-- The layer's input times the root weights of relation 0, at an element. -/
theorem dr0 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x5 : (⟨S2x16x32, .f32⟩ : BufTy).Contents (Elt Ideal)) (x14 x15 : (⟨S2x800000, .i32⟩ : BufTy).Contents (Elt Ideal)) (n : Fin 100000) (c : Fin 32) :
    ReadP.val_main_v76 (F := Ideal) x0 x1 x2 x3 x5 x14 x15 (ix2 n c)
      = ∑ j : Fin 16, (ReadP.val_main_v54 (F := Ideal) x0 x1 x2 x3 x14 x15) (ix2 n j) * x5 (ix3 (0 : Fin 2) j c) := by
  rw [ReadP.val_main_v76_apply]
  exact Finset.sum_congr rfl fun j _ => by rw [lidx_v76, ridx_v76, wr0]
/-- Relation 0's three additions to the accumulator, in program order. -/
theorem step0 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x14 x15 : (⟨S2x800000, .i32⟩ : BufTy).Contents (Elt Ideal)) (n : Fin 100000) (c : Fin 32) :
    ReadP.val_main_v82 (F := Ideal) x0 x1 x2 x3 x4 x5 x6 x14 x15 (ix2 n c)
      = ((ReadP.val_main_v55 (F := Ideal) (ix2 n c)
          + ∑ j : Fin 16, (ReadP.val_main_v69 (F := Ideal) x0 x1 x2 x3 x14 x15) (ix2 n j) * x4 (ix3 (0 : Fin 2) j c))
          + ∑ j : Fin 16, (ReadP.val_main_v54 (F := Ideal) x0 x1 x2 x3 x14 x15) (ix2 n j) * x5 (ix3 (0 : Fin 2) j c))
          + x6 (ix2 (0 : Fin 2) c) := by
  rw [ReadP.val_main_v82_apply, ReadP.val_main_v77_apply, ReadP.val_main_v73_apply, dn0, dr0, bias0]
  simp only [Ideal.addf_def]

/-! ### Relation 1 -/

theorem lidx_v99 (n : Fin 100000) (c : Fin 32) (k : Fin 16) : ReadP.lidx_main_v99 (ix2 n c) k = ix2 n k :=
  funext fun a => Fin.ext (by match a with | ⟨0, _⟩ => rfl | ⟨1, _⟩ => rfl)
theorem ridx_v99 (n : Fin 100000) (c : Fin 32) (k : Fin 16) : ReadP.ridx_main_v99 (ix2 n c) k = ix2 k c :=
  funext fun a => Fin.ext (by match a with | ⟨0, _⟩ => rfl | ⟨1, _⟩ => rfl)
theorem lidx_v103 (n : Fin 100000) (c : Fin 32) (k : Fin 16) : ReadP.lidx_main_v103 (ix2 n c) k = ix2 n k :=
  funext fun a => Fin.ext (by match a with | ⟨0, _⟩ => rfl | ⟨1, _⟩ => rfl)
theorem ridx_v103 (n : Fin 100000) (c : Fin 32) (k : Fin 16) : ReadP.ridx_main_v103 (ix2 n c) k = ix2 k c :=
  funext fun a => Fin.ext (by match a with | ⟨0, _⟩ => rfl | ⟨1, _⟩ => rfl)
theorem widx_n1 (j : Fin 16) (c : Fin 32) : ReadP.idx_main_v97 (ReadP.idx_main_v98 (ix2 j c)) = ix3 (1 : Fin 2) j c :=
  funext fun a => Fin.ext (by
    match a with
    | ⟨0, _⟩ => rfl
    | ⟨1, _⟩ => show (j.val * 32 + c.val) / 32 % 16 = j.val; omega
    | ⟨2, _⟩ => show (j.val * 32 + c.val) % 32 = c.val; omega)
theorem widx_r1 (j : Fin 16) (c : Fin 32) : ReadP.idx_main_v101 (ReadP.idx_main_v102 (ix2 j c)) = ix3 (1 : Fin 2) j c :=
  funext fun a => Fin.ext (by
    match a with
    | ⟨0, _⟩ => rfl
    | ⟨1, _⟩ => show (j.val * 32 + c.val) / 32 % 16 = j.val; omega
    | ⟨2, _⟩ => show (j.val * 32 + c.val) % 32 = c.val; omega)
theorem bidx_1 (n : Fin 100000) (c : Fin 32) :
    ReadP.idx_main_v105 (ReadP.idx_main_v106 (ReadP.idx_main_v107 (ReadP.idx_main_v108 (ix2 n c)))) = ix2 (1 : Fin 2) c :=
  funext fun a => Fin.ext (by
    match a with
    | ⟨0, _⟩ => rfl
    | ⟨1, _⟩ => show c.val % 32 = c.val; omega)
theorem wn1 (x4 : (⟨S2x16x32, .f32⟩ : BufTy).Contents (Elt Ideal)) (j : Fin 16) (c : Fin 32) :
    ReadP.val_main_v98 (F := Ideal) x4 (ix2 j c) = x4 (ix3 (1 : Fin 2) j c) := by
  rw [ReadP.val_main_v98_apply, ReadP.val_main_v97_apply, widx_n1]
theorem wr1 (x5 : (⟨S2x16x32, .f32⟩ : BufTy).Contents (Elt Ideal)) (j : Fin 16) (c : Fin 32) :
    ReadP.val_main_v102 (F := Ideal) x5 (ix2 j c) = x5 (ix3 (1 : Fin 2) j c) := by
  rw [ReadP.val_main_v102_apply, ReadP.val_main_v101_apply, widx_r1]
theorem bias1 (x6 : (⟨S2x32, .f32⟩ : BufTy).Contents (Elt Ideal)) (n : Fin 100000) (c : Fin 32) :
    ReadP.val_main_v108 (F := Ideal) x6 (ix2 n c) = x6 (ix2 (1 : Fin 2) c) := by
  rw [ReadP.val_main_v108_apply, ReadP.val_main_v107_apply, ReadP.val_main_v106_apply, ReadP.val_main_v105_apply, bidx_1]
/-- The messages of relation 1 times its neighbour weights, at an element. -/
theorem dn1 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 : (⟨S2x16x32, .f32⟩ : BufTy).Contents (Elt Ideal)) (x14 x15 : (⟨S2x800000, .i32⟩ : BufTy).Contents (Elt Ideal)) (n : Fin 100000) (c : Fin 32) :
    ReadP.val_main_v99 (F := Ideal) x0 x1 x2 x3 x4 x14 x15 (ix2 n c)
      = ∑ j : Fin 16, (ReadP.val_main_v96 (F := Ideal) x0 x1 x2 x3 x14 x15) (ix2 n j) * x4 (ix3 (1 : Fin 2) j c) := by
  rw [ReadP.val_main_v99_apply]
  exact Finset.sum_congr rfl fun j _ => by rw [lidx_v99, ridx_v99, wn1]
/-- The layer's input times the root weights of relation 1, at an element. -/
theorem dr1 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x5 : (⟨S2x16x32, .f32⟩ : BufTy).Contents (Elt Ideal)) (x14 x15 : (⟨S2x800000, .i32⟩ : BufTy).Contents (Elt Ideal)) (n : Fin 100000) (c : Fin 32) :
    ReadP.val_main_v103 (F := Ideal) x0 x1 x2 x3 x5 x14 x15 (ix2 n c)
      = ∑ j : Fin 16, (ReadP.val_main_v54 (F := Ideal) x0 x1 x2 x3 x14 x15) (ix2 n j) * x5 (ix3 (1 : Fin 2) j c) := by
  rw [ReadP.val_main_v103_apply]
  exact Finset.sum_congr rfl fun j _ => by rw [lidx_v103, ridx_v103, wr1]
/-- Relation 1's three additions to the accumulator, in program order. -/
theorem step1 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x14 x15 : (⟨S2x800000, .i32⟩ : BufTy).Contents (Elt Ideal)) (n : Fin 100000) (c : Fin 32) :
    ReadP.val_main_v109 (F := Ideal) x0 x1 x2 x3 x4 x5 x6 x14 x15 (ix2 n c)
      = ((ReadP.val_main_v82 (F := Ideal) x0 x1 x2 x3 x4 x5 x6 x14 x15 (ix2 n c)
          + ∑ j : Fin 16, (ReadP.val_main_v96 (F := Ideal) x0 x1 x2 x3 x14 x15) (ix2 n j) * x4 (ix3 (1 : Fin 2) j c))
          + ∑ j : Fin 16, (ReadP.val_main_v54 (F := Ideal) x0 x1 x2 x3 x14 x15) (ix2 n j) * x5 (ix3 (1 : Fin 2) j c))
          + x6 (ix2 (1 : Fin 2) c) := by
  rw [ReadP.val_main_v109_apply, ReadP.val_main_v104_apply, ReadP.val_main_v100_apply, dn1, dr1, bias1]
  simp only [Ideal.addf_def]

/-! ## The projection of the layer's input, its bias, and the clamp at zero -/

theorem lidx_v110 (n : Fin 100000) (c : Fin 32) (k : Fin 16) : ReadP.lidx_main_v110 (ix2 n c) k = ix2 n k :=
  funext fun a => Fin.ext (by match a with | ⟨0, _⟩ => rfl | ⟨1, _⟩ => rfl)
theorem ridx_v110 (n : Fin 100000) (c : Fin 32) (k : Fin 16) : ReadP.ridx_main_v110 (ix2 n c) k = ix2 k c :=
  funext fun a => Fin.ext (by match a with | ⟨0, _⟩ => rfl | ⟨1, _⟩ => rfl)
theorem pbidx (n : Fin 100000) (c : Fin 32) : ReadP.idx_main_v112 (ReadP.idx_main_v113 (ix2 n c)) = ix1 c :=
  funext fun a => Fin.ext (by match a with | ⟨0, _⟩ => rfl)
theorem pbias (x8 : (⟨S32, .f32⟩ : BufTy).Contents (Elt Ideal)) (n : Fin 100000) (c : Fin 32) :
    ReadP.val_main_v113 (F := Ideal) x8 (ix2 n c) = x8 (ix1 c) := by
  rw [ReadP.val_main_v113_apply, ReadP.val_main_v112_apply, pbidx]
theorem proj (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x7 : (⟨S16x32, .f32⟩ : BufTy).Contents (Elt Ideal)) (x14 x15 : (⟨S2x800000, .i32⟩ : BufTy).Contents (Elt Ideal)) (n : Fin 100000) (c : Fin 32) :
    ReadP.val_main_v110 (F := Ideal) x0 x1 x2 x3 x7 x14 x15 (ix2 n c) = ∑ j : Fin 16, (ReadP.val_main_v54 (F := Ideal) x0 x1 x2 x3 x14 x15) (ix2 n j) * x7 (ix2 j c) := by
  rw [ReadP.val_main_v110_apply]
  exact Finset.sum_congr rfl fun j _ => by rw [lidx_v110, ridx_v110]
/-- The zero the clamp compares with. -/
theorem relu_zero (i : S100000x32.Idx) : ReadP.val_main_call0_v0 (F := Ideal) i = 0 := by
  rw [ReadP.val_main_call0_v0_apply, ReadP.val_main_call0_cst_apply, Ideal.ofBits_def, Ideal.ofBits_zero_f32]

/-- The accumulation over all relations, from zero. -/
theorem acc_all (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x14 x15 : (⟨S2x800000, .i32⟩ : BufTy).Contents (Elt Ideal)) (n : Fin 100000) (c : Fin 32) :
    ReadP.val_main_v109 (F := Ideal) x0 x1 x2 x3 x4 x5 x6 x14 x15 (ix2 n c) =
      ((((((0
        + ∑ j : Fin 16, (ReadP.val_main_v69 (F := Ideal) x0 x1 x2 x3 x14 x15) (ix2 n j) * x4 (ix3 (0 : Fin 2) j c))
        + ∑ j : Fin 16, (ReadP.val_main_v54 (F := Ideal) x0 x1 x2 x3 x14 x15) (ix2 n j) * x5 (ix3 (0 : Fin 2) j c))
        + x6 (ix2 (0 : Fin 2) c))
        + ∑ j : Fin 16, (ReadP.val_main_v96 (F := Ideal) x0 x1 x2 x3 x14 x15) (ix2 n j) * x4 (ix3 (1 : Fin 2) j c))
        + ∑ j : Fin 16, (ReadP.val_main_v54 (F := Ideal) x0 x1 x2 x3 x14 x15) (ix2 n j) * x5 (ix3 (1 : Fin 2) j c))
        + x6 (ix2 (1 : Fin 2) c)) := by
  rw [step1, step0, zero_acc]

end L1

open L1

/-! ## The layer -/

/-- THE LAYER AT AN ELEMENT: the accumulation over the relations, then the projected input, then the projection's bias,
    clamped at zero; the accumulator is the left operand of every sum. -/
theorem ref1 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x14 x15 : (⟨S2x800000, .i32⟩ : BufTy).Contents (Elt Ideal)) (n : Fin 100000) (c : Fin 32) :
    ReadP.val_main_v115 (F := Ideal) x0 x1 x2 x3 x4 x5 x6 x7 x8 x14 x15 (ix2 n c) =
      max ((((((((0
        + ∑ j : Fin 16, (ReadP.val_main_v69 (F := Ideal) x0 x1 x2 x3 x14 x15) (ix2 n j) * x4 (ix3 (0 : Fin 2) j c))
        + ∑ j : Fin 16, (ReadP.val_main_v54 (F := Ideal) x0 x1 x2 x3 x14 x15) (ix2 n j) * x5 (ix3 (0 : Fin 2) j c))
        + x6 (ix2 (0 : Fin 2) c))
        + ∑ j : Fin 16, (ReadP.val_main_v96 (F := Ideal) x0 x1 x2 x3 x14 x15) (ix2 n j) * x4 (ix3 (1 : Fin 2) j c))
        + ∑ j : Fin 16, (ReadP.val_main_v54 (F := Ideal) x0 x1 x2 x3 x14 x15) (ix2 n j) * x5 (ix3 (1 : Fin 2) j c))
        + x6 (ix2 (1 : Fin 2) c))
        + ∑ j : Fin 16, (ReadP.val_main_v54 (F := Ideal) x0 x1 x2 x3 x14 x15) (ix2 n j) * x7 (ix2 j c))
        + x8 (ix1 c)) 0 := by
  rw [ReadP.val_main_v115_apply, ReadP.val_main_v114_apply, ReadP.val_main_v111_apply, acc_all, proj, pbias, relu_zero]
  simp only [Ideal.addf_def, Ideal.maximumf_def]

end Cert.ReferenceIdeal.Lay
-- ==== Proof.RV.L2.lean ====
import proofs.«147223_j52493090291996_1_alg».proof.Proof.RefRead
import Idealize.ShloMosaic.Lib.ValueIdx

noncomputable section

open scoped BigOperators

namespace Cert.ReferenceIdeal.Lay

open Cert.ReferenceIdeal Idealize.ShloMosaic Idealize.ShloMosaic.ValueIdx

/-! # The reference's third layer, read at one output element

The third graph-convolution layer has seven relations and reads the second layer's output val_main_v115 (kept opaque, as
are the seven aggregated message arrays val_main_v130, v157, v193, v229, v256, v283 and v319). Starting from the zero array,
each relation q adds the messages times the neighbour weights x9[q], the input times the root weights x10[q], and the bias
row x11[q]; then the input times the projection x12 and the projection's bias x13 are added, and the result is clamped at
zero. The program's result clamps once more. A weight matrix is a slice of the stacked weights followed by a reshape
dropping the unit axis, so its element (j, c) is the stack's (q, j, c); a bias row is the stacked biases' (q, c), broadcast
over the rows. -/

namespace L2

/-- The zero array the accumulation starts from. -/
theorem zero_acc (i : S100000x64.Idx) : ReadP.val_main_v116 (F := Ideal) i = 0 := by
  rw [ReadP.val_main_v116_apply, ReadP.val_main_cst_12_apply, Ideal.ofBits_def, Ideal.ofBits_zero_f32]

/-! ### Relation 0 -/

theorem lidx_v133 (n : Fin 100000) (c : Fin 64) (k : Fin 32) : ReadP.lidx_main_v133 (ix2 n c) k = ix2 n k :=
  funext fun a => Fin.ext (by match a with | ⟨0, _⟩ => rfl | ⟨1, _⟩ => rfl)
theorem ridx_v133 (n : Fin 100000) (c : Fin 64) (k : Fin 32) : ReadP.ridx_main_v133 (ix2 n c) k = ix2 k c :=
  funext fun a => Fin.ext (by match a with | ⟨0, _⟩ => rfl | ⟨1, _⟩ => rfl)
theorem lidx_v137 (n : Fin 100000) (c : Fin 64) (k : Fin 32) : ReadP.lidx_main_v137 (ix2 n c) k = ix2 n k :=
  funext fun a => Fin.ext (by match a with | ⟨0, _⟩ => rfl | ⟨1, _⟩ => rfl)
theorem ridx_v137 (n : Fin 100000) (c : Fin 64) (k : Fin 32) : ReadP.ridx_main_v137 (ix2 n c) k = ix2 k c :=
  funext fun a => Fin.ext (by match a with | ⟨0, _⟩ => rfl | ⟨1, _⟩ => rfl)
theorem widx_n0 (j : Fin 32) (c : Fin 64) : ReadP.idx_main_v131 (ReadP.idx_main_v132 (ix2 j c)) = ix3 (0 : Fin 7) j c :=
  funext fun a => Fin.ext (by
    match a with
    | ⟨0, _⟩ => rfl
    | ⟨1, _⟩ => show (j.val * 64 + c.val) / 64 % 32 = j.val; omega
    | ⟨2, _⟩ => show (j.val * 64 + c.val) % 64 = c.val; omega)
theorem widx_r0 (j : Fin 32) (c : Fin 64) : ReadP.idx_main_v135 (ReadP.idx_main_v136 (ix2 j c)) = ix3 (0 : Fin 7) j c :=
  funext fun a => Fin.ext (by
    match a with
    | ⟨0, _⟩ => rfl
    | ⟨1, _⟩ => show (j.val * 64 + c.val) / 64 % 32 = j.val; omega
    | ⟨2, _⟩ => show (j.val * 64 + c.val) % 64 = c.val; omega)
theorem bidx_0 (n : Fin 100000) (c : Fin 64) :
    ReadP.idx_main_v139 (ReadP.idx_main_v140 (ReadP.idx_main_v141 (ReadP.idx_main_v142 (ix2 n c)))) = ix2 (0 : Fin 7) c :=
  funext fun a => Fin.ext (by
    match a with
    | ⟨0, _⟩ => rfl
    | ⟨1, _⟩ => show c.val % 64 = c.val; omega)
theorem wn0 (x9 : (⟨S7x32x64, .f32⟩ : BufTy).Contents (Elt Ideal)) (j : Fin 32) (c : Fin 64) :
    ReadP.val_main_v132 (F := Ideal) x9 (ix2 j c) = x9 (ix3 (0 : Fin 7) j c) := by
  rw [ReadP.val_main_v132_apply, ReadP.val_main_v131_apply, widx_n0]
theorem wr0 (x10 : (⟨S7x32x64, .f32⟩ : BufTy).Contents (Elt Ideal)) (j : Fin 32) (c : Fin 64) :
    ReadP.val_main_v136 (F := Ideal) x10 (ix2 j c) = x10 (ix3 (0 : Fin 7) j c) := by
  rw [ReadP.val_main_v136_apply, ReadP.val_main_v135_apply, widx_r0]
theorem bias0 (x11 : (⟨S7x64, .f32⟩ : BufTy).Contents (Elt Ideal)) (n : Fin 100000) (c : Fin 64) :
    ReadP.val_main_v142 (F := Ideal) x11 (ix2 n c) = x11 (ix2 (0 : Fin 7) c) := by
  rw [ReadP.val_main_v142_apply, ReadP.val_main_v141_apply, ReadP.val_main_v140_apply, ReadP.val_main_v139_apply, bidx_0]
/-- The messages of relation 0 times its neighbour weights, at an element. -/
theorem dn0 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x9 : (⟨S7x32x64, .f32⟩ : BufTy).Contents (Elt Ideal)) (x14 x15 x16 : (⟨S2x800000, .i32⟩ : BufTy).Contents (Elt Ideal)) (n : Fin 100000) (c : Fin 64) :
    ReadP.val_main_v133 (F := Ideal) x0 x1 x2 x3 x4 x5 x6 x7 x8 x9 x14 x15 x16 (ix2 n c)
      = ∑ j : Fin 32, (ReadP.val_main_v130 (F := Ideal) x0 x1 x2 x3 x4 x5 x6 x7 x8 x14 x15 x16) (ix2 n j) * x9 (ix3 (0 : Fin 7) j c) := by
  rw [ReadP.val_main_v133_apply]
  exact Finset.sum_congr rfl fun j _ => by rw [lidx_v133, ridx_v133, wn0]
/-- The layer's input times the root weights of relation 0, at an element. -/
theorem dr0 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x10 : (⟨S7x32x64, .f32⟩ : BufTy).Contents (Elt Ideal)) (x14 x15 : (⟨S2x800000, .i32⟩ : BufTy).Contents (Elt Ideal)) (n : Fin 100000) (c : Fin 64) :
    ReadP.val_main_v137 (F := Ideal) x0 x1 x2 x3 x4 x5 x6 x7 x8 x10 x14 x15 (ix2 n c)
      = ∑ j : Fin 32, (ReadP.val_main_v115 (F := Ideal) x0 x1 x2 x3 x4 x5 x6 x7 x8 x14 x15) (ix2 n j) * x10 (ix3 (0 : Fin 7) j c) := by
  rw [ReadP.val_main_v137_apply]
  exact Finset.sum_congr rfl fun j _ => by rw [lidx_v137, ridx_v137, wr0]
/-- Relation 0's three additions to the accumulator, in program order. -/
theorem step0 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x9 x10 : (⟨S7x32x64, .f32⟩ : BufTy).Contents (Elt Ideal)) (x11 : (⟨S7x64, .f32⟩ : BufTy).Contents (Elt Ideal)) (x14 x15 x16 : (⟨S2x800000, .i32⟩ : BufTy).Contents (Elt Ideal)) (n : Fin 100000) (c : Fin 64) :
    ReadP.val_main_v143 (F := Ideal) x0 x1 x2 x3 x4 x5 x6 x7 x8 x9 x10 x11 x14 x15 x16 (ix2 n c)
      = ((ReadP.val_main_v116 (F := Ideal) (ix2 n c)
          + ∑ j : Fin 32, (ReadP.val_main_v130 (F := Ideal) x0 x1 x2 x3 x4 x5 x6 x7 x8 x14 x15 x16) (ix2 n j) * x9 (ix3 (0 : Fin 7) j c))
          + ∑ j : Fin 32, (ReadP.val_main_v115 (F := Ideal) x0 x1 x2 x3 x4 x5 x6 x7 x8 x14 x15) (ix2 n j) * x10 (ix3 (0 : Fin 7) j c))
          + x11 (ix2 (0 : Fin 7) c) := by
  rw [ReadP.val_main_v143_apply, ReadP.val_main_v138_apply, ReadP.val_main_v134_apply, dn0, dr0, bias0]
  simp only [Ideal.addf_def]

/-! ### Relation 1 -/

theorem lidx_v160 (n : Fin 100000) (c : Fin 64) (k : Fin 32) : ReadP.lidx_main_v160 (ix2 n c) k = ix2 n k :=
  funext fun a => Fin.ext (by match a with | ⟨0, _⟩ => rfl | ⟨1, _⟩ => rfl)
theorem ridx_v160 (n : Fin 100000) (c : Fin 64) (k : Fin 32) : ReadP.ridx_main_v160 (ix2 n c) k = ix2 k c :=
  funext fun a => Fin.ext (by match a with | ⟨0, _⟩ => rfl | ⟨1, _⟩ => rfl)
theorem lidx_v164 (n : Fin 100000) (c : Fin 64) (k : Fin 32) : ReadP.lidx_main_v164 (ix2 n c) k = ix2 n k :=
  funext fun a => Fin.ext (by match a with | ⟨0, _⟩ => rfl | ⟨1, _⟩ => rfl)
theorem ridx_v164 (n : Fin 100000) (c : Fin 64) (k : Fin 32) : ReadP.ridx_main_v164 (ix2 n c) k = ix2 k c :=
  funext fun a => Fin.ext (by match a with | ⟨0, _⟩ => rfl | ⟨1, _⟩ => rfl)
theorem widx_n1 (j : Fin 32) (c : Fin 64) : ReadP.idx_main_v158 (ReadP.idx_main_v159 (ix2 j c)) = ix3 (1 : Fin 7) j c :=
  funext fun a => Fin.ext (by
    match a with
    | ⟨0, _⟩ => rfl
    | ⟨1, _⟩ => show (j.val * 64 + c.val) / 64 % 32 = j.val; omega
    | ⟨2, _⟩ => show (j.val * 64 + c.val) % 64 = c.val; omega)
theorem widx_r1 (j : Fin 32) (c : Fin 64) : ReadP.idx_main_v162 (ReadP.idx_main_v163 (ix2 j c)) = ix3 (1 : Fin 7) j c :=
  funext fun a => Fin.ext (by
    match a with
    | ⟨0, _⟩ => rfl
    | ⟨1, _⟩ => show (j.val * 64 + c.val) / 64 % 32 = j.val; omega
    | ⟨2, _⟩ => show (j.val * 64 + c.val) % 64 = c.val; omega)
theorem bidx_1 (n : Fin 100000) (c : Fin 64) :
    ReadP.idx_main_v166 (ReadP.idx_main_v167 (ReadP.idx_main_v168 (ReadP.idx_main_v169 (ix2 n c)))) = ix2 (1 : Fin 7) c :=
  funext fun a => Fin.ext (by
    match a with
    | ⟨0, _⟩ => rfl
    | ⟨1, _⟩ => show c.val % 64 = c.val; omega)
theorem wn1 (x9 : (⟨S7x32x64, .f32⟩ : BufTy).Contents (Elt Ideal)) (j : Fin 32) (c : Fin 64) :
    ReadP.val_main_v159 (F := Ideal) x9 (ix2 j c) = x9 (ix3 (1 : Fin 7) j c) := by
  rw [ReadP.val_main_v159_apply, ReadP.val_main_v158_apply, widx_n1]
theorem wr1 (x10 : (⟨S7x32x64, .f32⟩ : BufTy).Contents (Elt Ideal)) (j : Fin 32) (c : Fin 64) :
    ReadP.val_main_v163 (F := Ideal) x10 (ix2 j c) = x10 (ix3 (1 : Fin 7) j c) := by
  rw [ReadP.val_main_v163_apply, ReadP.val_main_v162_apply, widx_r1]
theorem bias1 (x11 : (⟨S7x64, .f32⟩ : BufTy).Contents (Elt Ideal)) (n : Fin 100000) (c : Fin 64) :
    ReadP.val_main_v169 (F := Ideal) x11 (ix2 n c) = x11 (ix2 (1 : Fin 7) c) := by
  rw [ReadP.val_main_v169_apply, ReadP.val_main_v168_apply, ReadP.val_main_v167_apply, ReadP.val_main_v166_apply, bidx_1]
/-- The messages of relation 1 times its neighbour weights, at an element. -/
theorem dn1 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x9 : (⟨S7x32x64, .f32⟩ : BufTy).Contents (Elt Ideal)) (x14 x15 x17 : (⟨S2x800000, .i32⟩ : BufTy).Contents (Elt Ideal)) (n : Fin 100000) (c : Fin 64) :
    ReadP.val_main_v160 (F := Ideal) x0 x1 x2 x3 x4 x5 x6 x7 x8 x9 x14 x15 x17 (ix2 n c)
      = ∑ j : Fin 32, (ReadP.val_main_v157 (F := Ideal) x0 x1 x2 x3 x4 x5 x6 x7 x8 x14 x15 x17) (ix2 n j) * x9 (ix3 (1 : Fin 7) j c) := by
  rw [ReadP.val_main_v160_apply]
  exact Finset.sum_congr rfl fun j _ => by rw [lidx_v160, ridx_v160, wn1]
/-- The layer's input times the root weights of relation 1, at an element. -/
theorem dr1 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x10 : (⟨S7x32x64, .f32⟩ : BufTy).Contents (Elt Ideal)) (x14 x15 : (⟨S2x800000, .i32⟩ : BufTy).Contents (Elt Ideal)) (n : Fin 100000) (c : Fin 64) :
    ReadP.val_main_v164 (F := Ideal) x0 x1 x2 x3 x4 x5 x6 x7 x8 x10 x14 x15 (ix2 n c)
      = ∑ j : Fin 32, (ReadP.val_main_v115 (F := Ideal) x0 x1 x2 x3 x4 x5 x6 x7 x8 x14 x15) (ix2 n j) * x10 (ix3 (1 : Fin 7) j c) := by
  rw [ReadP.val_main_v164_apply]
  exact Finset.sum_congr rfl fun j _ => by rw [lidx_v164, ridx_v164, wr1]
/-- Relation 1's three additions to the accumulator, in program order. -/
theorem step1 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x9 x10 : (⟨S7x32x64, .f32⟩ : BufTy).Contents (Elt Ideal)) (x11 : (⟨S7x64, .f32⟩ : BufTy).Contents (Elt Ideal)) (x14 x15 x16 x17 : (⟨S2x800000, .i32⟩ : BufTy).Contents (Elt Ideal)) (n : Fin 100000) (c : Fin 64) :
    ReadP.val_main_v170 (F := Ideal) x0 x1 x2 x3 x4 x5 x6 x7 x8 x9 x10 x11 x14 x15 x16 x17 (ix2 n c)
      = ((ReadP.val_main_v143 (F := Ideal) x0 x1 x2 x3 x4 x5 x6 x7 x8 x9 x10 x11 x14 x15 x16 (ix2 n c)
          + ∑ j : Fin 32, (ReadP.val_main_v157 (F := Ideal) x0 x1 x2 x3 x4 x5 x6 x7 x8 x14 x15 x17) (ix2 n j) * x9 (ix3 (1 : Fin 7) j c))
          + ∑ j : Fin 32, (ReadP.val_main_v115 (F := Ideal) x0 x1 x2 x3 x4 x5 x6 x7 x8 x14 x15) (ix2 n j) * x10 (ix3 (1 : Fin 7) j c))
          + x11 (ix2 (1 : Fin 7) c) := by
  rw [ReadP.val_main_v170_apply, ReadP.val_main_v165_apply, ReadP.val_main_v161_apply, dn1, dr1, bias1]
  simp only [Ideal.addf_def]

/-! ### Relation 2 -/

theorem lidx_v196 (n : Fin 100000) (c : Fin 64) (k : Fin 32) : ReadP.lidx_main_v196 (ix2 n c) k = ix2 n k :=
  funext fun a => Fin.ext (by match a with | ⟨0, _⟩ => rfl | ⟨1, _⟩ => rfl)
theorem ridx_v196 (n : Fin 100000) (c : Fin 64) (k : Fin 32) : ReadP.ridx_main_v196 (ix2 n c) k = ix2 k c :=
  funext fun a => Fin.ext (by match a with | ⟨0, _⟩ => rfl | ⟨1, _⟩ => rfl)
theorem lidx_v200 (n : Fin 100000) (c : Fin 64) (k : Fin 32) : ReadP.lidx_main_v200 (ix2 n c) k = ix2 n k :=
  funext fun a => Fin.ext (by match a with | ⟨0, _⟩ => rfl | ⟨1, _⟩ => rfl)
theorem ridx_v200 (n : Fin 100000) (c : Fin 64) (k : Fin 32) : ReadP.ridx_main_v200 (ix2 n c) k = ix2 k c :=
  funext fun a => Fin.ext (by match a with | ⟨0, _⟩ => rfl | ⟨1, _⟩ => rfl)
theorem widx_n2 (j : Fin 32) (c : Fin 64) : ReadP.idx_main_v194 (ReadP.idx_main_v195 (ix2 j c)) = ix3 (2 : Fin 7) j c :=
  funext fun a => Fin.ext (by
    match a with
    | ⟨0, _⟩ => rfl
    | ⟨1, _⟩ => show (j.val * 64 + c.val) / 64 % 32 = j.val; omega
    | ⟨2, _⟩ => show (j.val * 64 + c.val) % 64 = c.val; omega)
theorem widx_r2 (j : Fin 32) (c : Fin 64) : ReadP.idx_main_v198 (ReadP.idx_main_v199 (ix2 j c)) = ix3 (2 : Fin 7) j c :=
  funext fun a => Fin.ext (by
    match a with
    | ⟨0, _⟩ => rfl
    | ⟨1, _⟩ => show (j.val * 64 + c.val) / 64 % 32 = j.val; omega
    | ⟨2, _⟩ => show (j.val * 64 + c.val) % 64 = c.val; omega)
theorem bidx_2 (n : Fin 100000) (c : Fin 64) :
    ReadP.idx_main_v202 (ReadP.idx_main_v203 (ReadP.idx_main_v204 (ReadP.idx_main_v205 (ix2 n c)))) = ix2 (2 : Fin 7) c :=
  funext fun a => Fin.ext (by
    match a with
    | ⟨0, _⟩ => rfl
    | ⟨1, _⟩ => show c.val % 64 = c.val; omega)
theorem wn2 (x9 : (⟨S7x32x64, .f32⟩ : BufTy).Contents (Elt Ideal)) (j : Fin 32) (c : Fin 64) :
    ReadP.val_main_v195 (F := Ideal) x9 (ix2 j c) = x9 (ix3 (2 : Fin 7) j c) := by
  rw [ReadP.val_main_v195_apply, ReadP.val_main_v194_apply, widx_n2]
theorem wr2 (x10 : (⟨S7x32x64, .f32⟩ : BufTy).Contents (Elt Ideal)) (j : Fin 32) (c : Fin 64) :
    ReadP.val_main_v199 (F := Ideal) x10 (ix2 j c) = x10 (ix3 (2 : Fin 7) j c) := by
  rw [ReadP.val_main_v199_apply, ReadP.val_main_v198_apply, widx_r2]
theorem bias2 (x11 : (⟨S7x64, .f32⟩ : BufTy).Contents (Elt Ideal)) (n : Fin 100000) (c : Fin 64) :
    ReadP.val_main_v205 (F := Ideal) x11 (ix2 n c) = x11 (ix2 (2 : Fin 7) c) := by
  rw [ReadP.val_main_v205_apply, ReadP.val_main_v204_apply, ReadP.val_main_v203_apply, ReadP.val_main_v202_apply, bidx_2]
/-- The messages of relation 2 times its neighbour weights, at an element. -/
theorem dn2 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x9 : (⟨S7x32x64, .f32⟩ : BufTy).Contents (Elt Ideal)) (x14 x15 x18 : (⟨S2x800000, .i32⟩ : BufTy).Contents (Elt Ideal)) (n : Fin 100000) (c : Fin 64) :
    ReadP.val_main_v196 (F := Ideal) x0 x1 x2 x3 x4 x5 x6 x7 x8 x9 x14 x15 x18 (ix2 n c)
      = ∑ j : Fin 32, (ReadP.val_main_v193 (F := Ideal) x0 x1 x2 x3 x4 x5 x6 x7 x8 x14 x15 x18) (ix2 n j) * x9 (ix3 (2 : Fin 7) j c) := by
  rw [ReadP.val_main_v196_apply]
  exact Finset.sum_congr rfl fun j _ => by rw [lidx_v196, ridx_v196, wn2]
/-- The layer's input times the root weights of relation 2, at an element. -/
theorem dr2 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x10 : (⟨S7x32x64, .f32⟩ : BufTy).Contents (Elt Ideal)) (x14 x15 : (⟨S2x800000, .i32⟩ : BufTy).Contents (Elt Ideal)) (n : Fin 100000) (c : Fin 64) :
    ReadP.val_main_v200 (F := Ideal) x0 x1 x2 x3 x4 x5 x6 x7 x8 x10 x14 x15 (ix2 n c)
      = ∑ j : Fin 32, (ReadP.val_main_v115 (F := Ideal) x0 x1 x2 x3 x4 x5 x6 x7 x8 x14 x15) (ix2 n j) * x10 (ix3 (2 : Fin 7) j c) := by
  rw [ReadP.val_main_v200_apply]
  exact Finset.sum_congr rfl fun j _ => by rw [lidx_v200, ridx_v200, wr2]
/-- Relation 2's three additions to the accumulator, in program order. -/
theorem step2 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x9 x10 : (⟨S7x32x64, .f32⟩ : BufTy).Contents (Elt Ideal)) (x11 : (⟨S7x64, .f32⟩ : BufTy).Contents (Elt Ideal)) (x14 x15 x16 x17 x18 : (⟨S2x800000, .i32⟩ : BufTy).Contents (Elt Ideal)) (n : Fin 100000) (c : Fin 64) :
    ReadP.val_main_v206 (F := Ideal) x0 x1 x2 x3 x4 x5 x6 x7 x8 x9 x10 x11 x14 x15 x16 x17 x18 (ix2 n c)
      = ((ReadP.val_main_v170 (F := Ideal) x0 x1 x2 x3 x4 x5 x6 x7 x8 x9 x10 x11 x14 x15 x16 x17 (ix2 n c)
          + ∑ j : Fin 32, (ReadP.val_main_v193 (F := Ideal) x0 x1 x2 x3 x4 x5 x6 x7 x8 x14 x15 x18) (ix2 n j) * x9 (ix3 (2 : Fin 7) j c))
          + ∑ j : Fin 32, (ReadP.val_main_v115 (F := Ideal) x0 x1 x2 x3 x4 x5 x6 x7 x8 x14 x15) (ix2 n j) * x10 (ix3 (2 : Fin 7) j c))
          + x11 (ix2 (2 : Fin 7) c) := by
  rw [ReadP.val_main_v206_apply, ReadP.val_main_v201_apply, ReadP.val_main_v197_apply, dn2, dr2, bias2]
  simp only [Ideal.addf_def]

/-! ### Relation 3 -/

theorem lidx_v232 (n : Fin 100000) (c : Fin 64) (k : Fin 32) : ReadP.lidx_main_v232 (ix2 n c) k = ix2 n k :=
  funext fun a => Fin.ext (by match a with | ⟨0, _⟩ => rfl | ⟨1, _⟩ => rfl)
theorem ridx_v232 (n : Fin 100000) (c : Fin 64) (k : Fin 32) : ReadP.ridx_main_v232 (ix2 n c) k = ix2 k c :=
  funext fun a => Fin.ext (by match a with | ⟨0, _⟩ => rfl | ⟨1, _⟩ => rfl)
theorem lidx_v236 (n : Fin 100000) (c : Fin 64) (k : Fin 32) : ReadP.lidx_main_v236 (ix2 n c) k = ix2 n k :=
  funext fun a => Fin.ext (by match a with | ⟨0, _⟩ => rfl | ⟨1, _⟩ => rfl)
theorem ridx_v236 (n : Fin 100000) (c : Fin 64) (k : Fin 32) : ReadP.ridx_main_v236 (ix2 n c) k = ix2 k c :=
  funext fun a => Fin.ext (by match a with | ⟨0, _⟩ => rfl | ⟨1, _⟩ => rfl)
theorem widx_n3 (j : Fin 32) (c : Fin 64) : ReadP.idx_main_v230 (ReadP.idx_main_v231 (ix2 j c)) = ix3 (3 : Fin 7) j c :=
  funext fun a => Fin.ext (by
    match a with
    | ⟨0, _⟩ => rfl
    | ⟨1, _⟩ => show (j.val * 64 + c.val) / 64 % 32 = j.val; omega
    | ⟨2, _⟩ => show (j.val * 64 + c.val) % 64 = c.val; omega)
theorem widx_r3 (j : Fin 32) (c : Fin 64) : ReadP.idx_main_v234 (ReadP.idx_main_v235 (ix2 j c)) = ix3 (3 : Fin 7) j c :=
  funext fun a => Fin.ext (by
    match a with
    | ⟨0, _⟩ => rfl
    | ⟨1, _⟩ => show (j.val * 64 + c.val) / 64 % 32 = j.val; omega
    | ⟨2, _⟩ => show (j.val * 64 + c.val) % 64 = c.val; omega)
theorem bidx_3 (n : Fin 100000) (c : Fin 64) :
    ReadP.idx_main_v238 (ReadP.idx_main_v239 (ReadP.idx_main_v240 (ReadP.idx_main_v241 (ix2 n c)))) = ix2 (3 : Fin 7) c :=
  funext fun a => Fin.ext (by
    match a with
    | ⟨0, _⟩ => rfl
    | ⟨1, _⟩ => show c.val % 64 = c.val; omega)
theorem wn3 (x9 : (⟨S7x32x64, .f32⟩ : BufTy).Contents (Elt Ideal)) (j : Fin 32) (c : Fin 64) :
    ReadP.val_main_v231 (F := Ideal) x9 (ix2 j c) = x9 (ix3 (3 : Fin 7) j c) := by
  rw [ReadP.val_main_v231_apply, ReadP.val_main_v230_apply, widx_n3]
theorem wr3 (x10 : (⟨S7x32x64, .f32⟩ : BufTy).Contents (Elt Ideal)) (j : Fin 32) (c : Fin 64) :
    ReadP.val_main_v235 (F := Ideal) x10 (ix2 j c) = x10 (ix3 (3 : Fin 7) j c) := by
  rw [ReadP.val_main_v235_apply, ReadP.val_main_v234_apply, widx_r3]
theorem bias3 (x11 : (⟨S7x64, .f32⟩ : BufTy).Contents (Elt Ideal)) (n : Fin 100000) (c : Fin 64) :
    ReadP.val_main_v241 (F := Ideal) x11 (ix2 n c) = x11 (ix2 (3 : Fin 7) c) := by
  rw [ReadP.val_main_v241_apply, ReadP.val_main_v240_apply, ReadP.val_main_v239_apply, ReadP.val_main_v238_apply, bidx_3]
/-- The messages of relation 3 times its neighbour weights, at an element. -/
theorem dn3 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x9 : (⟨S7x32x64, .f32⟩ : BufTy).Contents (Elt Ideal)) (x14 x15 x19 : (⟨S2x800000, .i32⟩ : BufTy).Contents (Elt Ideal)) (n : Fin 100000) (c : Fin 64) :
    ReadP.val_main_v232 (F := Ideal) x0 x1 x2 x3 x4 x5 x6 x7 x8 x9 x14 x15 x19 (ix2 n c)
      = ∑ j : Fin 32, (ReadP.val_main_v229 (F := Ideal) x0 x1 x2 x3 x4 x5 x6 x7 x8 x14 x15 x19) (ix2 n j) * x9 (ix3 (3 : Fin 7) j c) := by
  rw [ReadP.val_main_v232_apply]
  exact Finset.sum_congr rfl fun j _ => by rw [lidx_v232, ridx_v232, wn3]
/-- The layer's input times the root weights of relation 3, at an element. -/
theorem dr3 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x10 : (⟨S7x32x64, .f32⟩ : BufTy).Contents (Elt Ideal)) (x14 x15 : (⟨S2x800000, .i32⟩ : BufTy).Contents (Elt Ideal)) (n : Fin 100000) (c : Fin 64) :
    ReadP.val_main_v236 (F := Ideal) x0 x1 x2 x3 x4 x5 x6 x7 x8 x10 x14 x15 (ix2 n c)
      = ∑ j : Fin 32, (ReadP.val_main_v115 (F := Ideal) x0 x1 x2 x3 x4 x5 x6 x7 x8 x14 x15) (ix2 n j) * x10 (ix3 (3 : Fin 7) j c) := by
  rw [ReadP.val_main_v236_apply]
  exact Finset.sum_congr rfl fun j _ => by rw [lidx_v236, ridx_v236, wr3]
/-- Relation 3's three additions to the accumulator, in program order. -/
theorem step3 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x9 x10 : (⟨S7x32x64, .f32⟩ : BufTy).Contents (Elt Ideal)) (x11 : (⟨S7x64, .f32⟩ : BufTy).Contents (Elt Ideal)) (x14 x15 x16 x17 x18 x19 : (⟨S2x800000, .i32⟩ : BufTy).Contents (Elt Ideal)) (n : Fin 100000) (c : Fin 64) :
    ReadP.val_main_v242 (F := Ideal) x0 x1 x2 x3 x4 x5 x6 x7 x8 x9 x10 x11 x14 x15 x16 x17 x18 x19 (ix2 n c)
      = ((ReadP.val_main_v206 (F := Ideal) x0 x1 x2 x3 x4 x5 x6 x7 x8 x9 x10 x11 x14 x15 x16 x17 x18 (ix2 n c)
          + ∑ j : Fin 32, (ReadP.val_main_v229 (F := Ideal) x0 x1 x2 x3 x4 x5 x6 x7 x8 x14 x15 x19) (ix2 n j) * x9 (ix3 (3 : Fin 7) j c))
          + ∑ j : Fin 32, (ReadP.val_main_v115 (F := Ideal) x0 x1 x2 x3 x4 x5 x6 x7 x8 x14 x15) (ix2 n j) * x10 (ix3 (3 : Fin 7) j c))
          + x11 (ix2 (3 : Fin 7) c) := by
  rw [ReadP.val_main_v242_apply, ReadP.val_main_v237_apply, ReadP.val_main_v233_apply, dn3, dr3, bias3]
  simp only [Ideal.addf_def]

/-! ### Relation 4 -/

theorem lidx_v259 (n : Fin 100000) (c : Fin 64) (k : Fin 32) : ReadP.lidx_main_v259 (ix2 n c) k = ix2 n k :=
  funext fun a => Fin.ext (by match a with | ⟨0, _⟩ => rfl | ⟨1, _⟩ => rfl)
theorem ridx_v259 (n : Fin 100000) (c : Fin 64) (k : Fin 32) : ReadP.ridx_main_v259 (ix2 n c) k = ix2 k c :=
  funext fun a => Fin.ext (by match a with | ⟨0, _⟩ => rfl | ⟨1, _⟩ => rfl)
theorem lidx_v263 (n : Fin 100000) (c : Fin 64) (k : Fin 32) : ReadP.lidx_main_v263 (ix2 n c) k = ix2 n k :=
  funext fun a => Fin.ext (by match a with | ⟨0, _⟩ => rfl | ⟨1, _⟩ => rfl)
theorem ridx_v263 (n : Fin 100000) (c : Fin 64) (k : Fin 32) : ReadP.ridx_main_v263 (ix2 n c) k = ix2 k c :=
  funext fun a => Fin.ext (by match a with | ⟨0, _⟩ => rfl | ⟨1, _⟩ => rfl)
theorem widx_n4 (j : Fin 32) (c : Fin 64) : ReadP.idx_main_v257 (ReadP.idx_main_v258 (ix2 j c)) = ix3 (4 : Fin 7) j c :=
  funext fun a => Fin.ext (by
    match a with
    | ⟨0, _⟩ => rfl
    | ⟨1, _⟩ => show (j.val * 64 + c.val) / 64 % 32 = j.val; omega
    | ⟨2, _⟩ => show (j.val * 64 + c.val) % 64 = c.val; omega)
theorem widx_r4 (j : Fin 32) (c : Fin 64) : ReadP.idx_main_v261 (ReadP.idx_main_v262 (ix2 j c)) = ix3 (4 : Fin 7) j c :=
  funext fun a => Fin.ext (by
    match a with
    | ⟨0, _⟩ => rfl
    | ⟨1, _⟩ => show (j.val * 64 + c.val) / 64 % 32 = j.val; omega
    | ⟨2, _⟩ => show (j.val * 64 + c.val) % 64 = c.val; omega)
theorem bidx_4 (n : Fin 100000) (c : Fin 64) :
    ReadP.idx_main_v265 (ReadP.idx_main_v266 (ReadP.idx_main_v267 (ReadP.idx_main_v268 (ix2 n c)))) = ix2 (4 : Fin 7) c :=
  funext fun a => Fin.ext (by
    match a with
    | ⟨0, _⟩ => rfl
    | ⟨1, _⟩ => show c.val % 64 = c.val; omega)
theorem wn4 (x9 : (⟨S7x32x64, .f32⟩ : BufTy).Contents (Elt Ideal)) (j : Fin 32) (c : Fin 64) :
    ReadP.val_main_v258 (F := Ideal) x9 (ix2 j c) = x9 (ix3 (4 : Fin 7) j c) := by
  rw [ReadP.val_main_v258_apply, ReadP.val_main_v257_apply, widx_n4]
theorem wr4 (x10 : (⟨S7x32x64, .f32⟩ : BufTy).Contents (Elt Ideal)) (j : Fin 32) (c : Fin 64) :
    ReadP.val_main_v262 (F := Ideal) x10 (ix2 j c) = x10 (ix3 (4 : Fin 7) j c) := by
  rw [ReadP.val_main_v262_apply, ReadP.val_main_v261_apply, widx_r4]
theorem bias4 (x11 : (⟨S7x64, .f32⟩ : BufTy).Contents (Elt Ideal)) (n : Fin 100000) (c : Fin 64) :
    ReadP.val_main_v268 (F := Ideal) x11 (ix2 n c) = x11 (ix2 (4 : Fin 7) c) := by
  rw [ReadP.val_main_v268_apply, ReadP.val_main_v267_apply, ReadP.val_main_v266_apply, ReadP.val_main_v265_apply, bidx_4]
/-- The messages of relation 4 times its neighbour weights, at an element. -/
theorem dn4 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x9 : (⟨S7x32x64, .f32⟩ : BufTy).Contents (Elt Ideal)) (x14 x15 x20 : (⟨S2x800000, .i32⟩ : BufTy).Contents (Elt Ideal)) (n : Fin 100000) (c : Fin 64) :
    ReadP.val_main_v259 (F := Ideal) x0 x1 x2 x3 x4 x5 x6 x7 x8 x9 x14 x15 x20 (ix2 n c)
      = ∑ j : Fin 32, (ReadP.val_main_v256 (F := Ideal) x0 x1 x2 x3 x4 x5 x6 x7 x8 x14 x15 x20) (ix2 n j) * x9 (ix3 (4 : Fin 7) j c) := by
  rw [ReadP.val_main_v259_apply]
  exact Finset.sum_congr rfl fun j _ => by rw [lidx_v259, ridx_v259, wn4]
/-- The layer's input times the root weights of relation 4, at an element. -/
theorem dr4 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x10 : (⟨S7x32x64, .f32⟩ : BufTy).Contents (Elt Ideal)) (x14 x15 : (⟨S2x800000, .i32⟩ : BufTy).Contents (Elt Ideal)) (n : Fin 100000) (c : Fin 64) :
    ReadP.val_main_v263 (F := Ideal) x0 x1 x2 x3 x4 x5 x6 x7 x8 x10 x14 x15 (ix2 n c)
      = ∑ j : Fin 32, (ReadP.val_main_v115 (F := Ideal) x0 x1 x2 x3 x4 x5 x6 x7 x8 x14 x15) (ix2 n j) * x10 (ix3 (4 : Fin 7) j c) := by
  rw [ReadP.val_main_v263_apply]
  exact Finset.sum_congr rfl fun j _ => by rw [lidx_v263, ridx_v263, wr4]
/-- Relation 4's three additions to the accumulator, in program order. -/
theorem step4 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x9 x10 : (⟨S7x32x64, .f32⟩ : BufTy).Contents (Elt Ideal)) (x11 : (⟨S7x64, .f32⟩ : BufTy).Contents (Elt Ideal)) (x14 x15 x16 x17 x18 x19 x20 : (⟨S2x800000, .i32⟩ : BufTy).Contents (Elt Ideal)) (n : Fin 100000) (c : Fin 64) :
    ReadP.val_main_v269 (F := Ideal) x0 x1 x2 x3 x4 x5 x6 x7 x8 x9 x10 x11 x14 x15 x16 x17 x18 x19 x20 (ix2 n c)
      = ((ReadP.val_main_v242 (F := Ideal) x0 x1 x2 x3 x4 x5 x6 x7 x8 x9 x10 x11 x14 x15 x16 x17 x18 x19 (ix2 n c)
          + ∑ j : Fin 32, (ReadP.val_main_v256 (F := Ideal) x0 x1 x2 x3 x4 x5 x6 x7 x8 x14 x15 x20) (ix2 n j) * x9 (ix3 (4 : Fin 7) j c))
          + ∑ j : Fin 32, (ReadP.val_main_v115 (F := Ideal) x0 x1 x2 x3 x4 x5 x6 x7 x8 x14 x15) (ix2 n j) * x10 (ix3 (4 : Fin 7) j c))
          + x11 (ix2 (4 : Fin 7) c) := by
  rw [ReadP.val_main_v269_apply, ReadP.val_main_v264_apply, ReadP.val_main_v260_apply, dn4, dr4, bias4]
  simp only [Ideal.addf_def]

/-! ### Relation 5 -/

theorem lidx_v286 (n : Fin 100000) (c : Fin 64) (k : Fin 32) : ReadP.lidx_main_v286 (ix2 n c) k = ix2 n k :=
  funext fun a => Fin.ext (by match a with | ⟨0, _⟩ => rfl | ⟨1, _⟩ => rfl)
theorem ridx_v286 (n : Fin 100000) (c : Fin 64) (k : Fin 32) : ReadP.ridx_main_v286 (ix2 n c) k = ix2 k c :=
  funext fun a => Fin.ext (by match a with | ⟨0, _⟩ => rfl | ⟨1, _⟩ => rfl)
theorem lidx_v290 (n : Fin 100000) (c : Fin 64) (k : Fin 32) : ReadP.lidx_main_v290 (ix2 n c) k = ix2 n k :=
  funext fun a => Fin.ext (by match a with | ⟨0, _⟩ => rfl | ⟨1, _⟩ => rfl)
theorem ridx_v290 (n : Fin 100000) (c : Fin 64) (k : Fin 32) : ReadP.ridx_main_v290 (ix2 n c) k = ix2 k c :=
  funext fun a => Fin.ext (by match a with | ⟨0, _⟩ => rfl | ⟨1, _⟩ => rfl)
theorem widx_n5 (j : Fin 32) (c : Fin 64) : ReadP.idx_main_v284 (ReadP.idx_main_v285 (ix2 j c)) = ix3 (5 : Fin 7) j c :=
  funext fun a => Fin.ext (by
    match a with
    | ⟨0, _⟩ => rfl
    | ⟨1, _⟩ => show (j.val * 64 + c.val) / 64 % 32 = j.val; omega
    | ⟨2, _⟩ => show (j.val * 64 + c.val) % 64 = c.val; omega)
theorem widx_r5 (j : Fin 32) (c : Fin 64) : ReadP.idx_main_v288 (ReadP.idx_main_v289 (ix2 j c)) = ix3 (5 : Fin 7) j c :=
  funext fun a => Fin.ext (by
    match a with
    | ⟨0, _⟩ => rfl
    | ⟨1, _⟩ => show (j.val * 64 + c.val) / 64 % 32 = j.val; omega
    | ⟨2, _⟩ => show (j.val * 64 + c.val) % 64 = c.val; omega)
theorem bidx_5 (n : Fin 100000) (c : Fin 64) :
    ReadP.idx_main_v292 (ReadP.idx_main_v293 (ReadP.idx_main_v294 (ReadP.idx_main_v295 (ix2 n c)))) = ix2 (5 : Fin 7) c :=
  funext fun a => Fin.ext (by
    match a with
    | ⟨0, _⟩ => rfl
    | ⟨1, _⟩ => show c.val % 64 = c.val; omega)
theorem wn5 (x9 : (⟨S7x32x64, .f32⟩ : BufTy).Contents (Elt Ideal)) (j : Fin 32) (c : Fin 64) :
    ReadP.val_main_v285 (F := Ideal) x9 (ix2 j c) = x9 (ix3 (5 : Fin 7) j c) := by
  rw [ReadP.val_main_v285_apply, ReadP.val_main_v284_apply, widx_n5]
theorem wr5 (x10 : (⟨S7x32x64, .f32⟩ : BufTy).Contents (Elt Ideal)) (j : Fin 32) (c : Fin 64) :
    ReadP.val_main_v289 (F := Ideal) x10 (ix2 j c) = x10 (ix3 (5 : Fin 7) j c) := by
  rw [ReadP.val_main_v289_apply, ReadP.val_main_v288_apply, widx_r5]
theorem bias5 (x11 : (⟨S7x64, .f32⟩ : BufTy).Contents (Elt Ideal)) (n : Fin 100000) (c : Fin 64) :
    ReadP.val_main_v295 (F := Ideal) x11 (ix2 n c) = x11 (ix2 (5 : Fin 7) c) := by
  rw [ReadP.val_main_v295_apply, ReadP.val_main_v294_apply, ReadP.val_main_v293_apply, ReadP.val_main_v292_apply, bidx_5]
/-- The messages of relation 5 times its neighbour weights, at an element. -/
theorem dn5 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x9 : (⟨S7x32x64, .f32⟩ : BufTy).Contents (Elt Ideal)) (x14 x15 x21 : (⟨S2x800000, .i32⟩ : BufTy).Contents (Elt Ideal)) (n : Fin 100000) (c : Fin 64) :
    ReadP.val_main_v286 (F := Ideal) x0 x1 x2 x3 x4 x5 x6 x7 x8 x9 x14 x15 x21 (ix2 n c)
      = ∑ j : Fin 32, (ReadP.val_main_v283 (F := Ideal) x0 x1 x2 x3 x4 x5 x6 x7 x8 x14 x15 x21) (ix2 n j) * x9 (ix3 (5 : Fin 7) j c) := by
  rw [ReadP.val_main_v286_apply]
  exact Finset.sum_congr rfl fun j _ => by rw [lidx_v286, ridx_v286, wn5]
/-- The layer's input times the root weights of relation 5, at an element. -/
theorem dr5 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x10 : (⟨S7x32x64, .f32⟩ : BufTy).Contents (Elt Ideal)) (x14 x15 : (⟨S2x800000, .i32⟩ : BufTy).Contents (Elt Ideal)) (n : Fin 100000) (c : Fin 64) :
    ReadP.val_main_v290 (F := Ideal) x0 x1 x2 x3 x4 x5 x6 x7 x8 x10 x14 x15 (ix2 n c)
      = ∑ j : Fin 32, (ReadP.val_main_v115 (F := Ideal) x0 x1 x2 x3 x4 x5 x6 x7 x8 x14 x15) (ix2 n j) * x10 (ix3 (5 : Fin 7) j c) := by
  rw [ReadP.val_main_v290_apply]
  exact Finset.sum_congr rfl fun j _ => by rw [lidx_v290, ridx_v290, wr5]
/-- Relation 5's three additions to the accumulator, in program order. -/
theorem step5 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x9 x10 : (⟨S7x32x64, .f32⟩ : BufTy).Contents (Elt Ideal)) (x11 : (⟨S7x64, .f32⟩ : BufTy).Contents (Elt Ideal)) (x14 x15 x16 x17 x18 x19 x20 x21 : (⟨S2x800000, .i32⟩ : BufTy).Contents (Elt Ideal)) (n : Fin 100000) (c : Fin 64) :
    ReadP.val_main_v296 (F := Ideal) x0 x1 x2 x3 x4 x5 x6 x7 x8 x9 x10 x11 x14 x15 x16 x17 x18 x19 x20 x21 (ix2 n c)
      = ((ReadP.val_main_v269 (F := Ideal) x0 x1 x2 x3 x4 x5 x6 x7 x8 x9 x10 x11 x14 x15 x16 x17 x18 x19 x20 (ix2 n c)
          + ∑ j : Fin 32, (ReadP.val_main_v283 (F := Ideal) x0 x1 x2 x3 x4 x5 x6 x7 x8 x14 x15 x21) (ix2 n j) * x9 (ix3 (5 : Fin 7) j c))
          + ∑ j : Fin 32, (ReadP.val_main_v115 (F := Ideal) x0 x1 x2 x3 x4 x5 x6 x7 x8 x14 x15) (ix2 n j) * x10 (ix3 (5 : Fin 7) j c))
          + x11 (ix2 (5 : Fin 7) c) := by
  rw [ReadP.val_main_v296_apply, ReadP.val_main_v291_apply, ReadP.val_main_v287_apply, dn5, dr5, bias5]
  simp only [Ideal.addf_def]

/-! ### Relation 6 -/

theorem lidx_v322 (n : Fin 100000) (c : Fin 64) (k : Fin 32) : ReadP.lidx_main_v322 (ix2 n c) k = ix2 n k :=
  funext fun a => Fin.ext (by match a with | ⟨0, _⟩ => rfl | ⟨1, _⟩ => rfl)
theorem ridx_v322 (n : Fin 100000) (c : Fin 64) (k : Fin 32) : ReadP.ridx_main_v322 (ix2 n c) k = ix2 k c :=
  funext fun a => Fin.ext (by match a with | ⟨0, _⟩ => rfl | ⟨1, _⟩ => rfl)
theorem lidx_v326 (n : Fin 100000) (c : Fin 64) (k : Fin 32) : ReadP.lidx_main_v326 (ix2 n c) k = ix2 n k :=
  funext fun a => Fin.ext (by match a with | ⟨0, _⟩ => rfl | ⟨1, _⟩ => rfl)
theorem ridx_v326 (n : Fin 100000) (c : Fin 64) (k : Fin 32) : ReadP.ridx_main_v326 (ix2 n c) k = ix2 k c :=
  funext fun a => Fin.ext (by match a with | ⟨0, _⟩ => rfl | ⟨1, _⟩ => rfl)
theorem widx_n6 (j : Fin 32) (c : Fin 64) : ReadP.idx_main_v320 (ReadP.idx_main_v321 (ix2 j c)) = ix3 (6 : Fin 7) j c :=
  funext fun a => Fin.ext (by
    match a with
    | ⟨0, _⟩ => rfl
    | ⟨1, _⟩ => show (j.val * 64 + c.val) / 64 % 32 = j.val; omega
    | ⟨2, _⟩ => show (j.val * 64 + c.val) % 64 = c.val; omega)
theorem widx_r6 (j : Fin 32) (c : Fin 64) : ReadP.idx_main_v324 (ReadP.idx_main_v325 (ix2 j c)) = ix3 (6 : Fin 7) j c :=
  funext fun a => Fin.ext (by
    match a with
    | ⟨0, _⟩ => rfl
    | ⟨1, _⟩ => show (j.val * 64 + c.val) / 64 % 32 = j.val; omega
    | ⟨2, _⟩ => show (j.val * 64 + c.val) % 64 = c.val; omega)
theorem bidx_6 (n : Fin 100000) (c : Fin 64) :
    ReadP.idx_main_v328 (ReadP.idx_main_v329 (ReadP.idx_main_v330 (ReadP.idx_main_v331 (ix2 n c)))) = ix2 (6 : Fin 7) c :=
  funext fun a => Fin.ext (by
    match a with
    | ⟨0, _⟩ => rfl
    | ⟨1, _⟩ => show c.val % 64 = c.val; omega)
theorem wn6 (x9 : (⟨S7x32x64, .f32⟩ : BufTy).Contents (Elt Ideal)) (j : Fin 32) (c : Fin 64) :
    ReadP.val_main_v321 (F := Ideal) x9 (ix2 j c) = x9 (ix3 (6 : Fin 7) j c) := by
  rw [ReadP.val_main_v321_apply, ReadP.val_main_v320_apply, widx_n6]
theorem wr6 (x10 : (⟨S7x32x64, .f32⟩ : BufTy).Contents (Elt Ideal)) (j : Fin 32) (c : Fin 64) :
    ReadP.val_main_v325 (F := Ideal) x10 (ix2 j c) = x10 (ix3 (6 : Fin 7) j c) := by
  rw [ReadP.val_main_v325_apply, ReadP.val_main_v324_apply, widx_r6]
theorem bias6 (x11 : (⟨S7x64, .f32⟩ : BufTy).Contents (Elt Ideal)) (n : Fin 100000) (c : Fin 64) :
    ReadP.val_main_v331 (F := Ideal) x11 (ix2 n c) = x11 (ix2 (6 : Fin 7) c) := by
  rw [ReadP.val_main_v331_apply, ReadP.val_main_v330_apply, ReadP.val_main_v329_apply, ReadP.val_main_v328_apply, bidx_6]
/-- The messages of relation 6 times its neighbour weights, at an element. -/
theorem dn6 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x9 : (⟨S7x32x64, .f32⟩ : BufTy).Contents (Elt Ideal)) (x14 x15 x22 : (⟨S2x800000, .i32⟩ : BufTy).Contents (Elt Ideal)) (n : Fin 100000) (c : Fin 64) :
    ReadP.val_main_v322 (F := Ideal) x0 x1 x2 x3 x4 x5 x6 x7 x8 x9 x14 x15 x22 (ix2 n c)
      = ∑ j : Fin 32, (ReadP.val_main_v319 (F := Ideal) x0 x1 x2 x3 x4 x5 x6 x7 x8 x14 x15 x22) (ix2 n j) * x9 (ix3 (6 : Fin 7) j c) := by
  rw [ReadP.val_main_v322_apply]
  exact Finset.sum_congr rfl fun j _ => by rw [lidx_v322, ridx_v322, wn6]
/-- The layer's input times the root weights of relation 6, at an element. -/
theorem dr6 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x10 : (⟨S7x32x64, .f32⟩ : BufTy).Contents (Elt Ideal)) (x14 x15 : (⟨S2x800000, .i32⟩ : BufTy).Contents (Elt Ideal)) (n : Fin 100000) (c : Fin 64) :
    ReadP.val_main_v326 (F := Ideal) x0 x1 x2 x3 x4 x5 x6 x7 x8 x10 x14 x15 (ix2 n c)
      = ∑ j : Fin 32, (ReadP.val_main_v115 (F := Ideal) x0 x1 x2 x3 x4 x5 x6 x7 x8 x14 x15) (ix2 n j) * x10 (ix3 (6 : Fin 7) j c) := by
  rw [ReadP.val_main_v326_apply]
  exact Finset.sum_congr rfl fun j _ => by rw [lidx_v326, ridx_v326, wr6]
/-- Relation 6's three additions to the accumulator, in program order. -/
theorem step6 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x9 x10 : (⟨S7x32x64, .f32⟩ : BufTy).Contents (Elt Ideal)) (x11 : (⟨S7x64, .f32⟩ : BufTy).Contents (Elt Ideal)) (x14 x15 x16 x17 x18 x19 x20 x21 x22 : (⟨S2x800000, .i32⟩ : BufTy).Contents (Elt Ideal)) (n : Fin 100000) (c : Fin 64) :
    ReadP.val_main_v332 (F := Ideal) x0 x1 x2 x3 x4 x5 x6 x7 x8 x9 x10 x11 x14 x15 x16 x17 x18 x19 x20 x21 x22 (ix2 n c)
      = ((ReadP.val_main_v296 (F := Ideal) x0 x1 x2 x3 x4 x5 x6 x7 x8 x9 x10 x11 x14 x15 x16 x17 x18 x19 x20 x21 (ix2 n c)
          + ∑ j : Fin 32, (ReadP.val_main_v319 (F := Ideal) x0 x1 x2 x3 x4 x5 x6 x7 x8 x14 x15 x22) (ix2 n j) * x9 (ix3 (6 : Fin 7) j c))
          + ∑ j : Fin 32, (ReadP.val_main_v115 (F := Ideal) x0 x1 x2 x3 x4 x5 x6 x7 x8 x14 x15) (ix2 n j) * x10 (ix3 (6 : Fin 7) j c))
          + x11 (ix2 (6 : Fin 7) c) := by
  rw [ReadP.val_main_v332_apply, ReadP.val_main_v327_apply, ReadP.val_main_v323_apply, dn6, dr6, bias6]
  simp only [Ideal.addf_def]

/-! ## The projection of the layer's input, its bias, and the clamp at zero -/

theorem lidx_v333 (n : Fin 100000) (c : Fin 64) (k : Fin 32) : ReadP.lidx_main_v333 (ix2 n c) k = ix2 n k :=
  funext fun a => Fin.ext (by match a with | ⟨0, _⟩ => rfl | ⟨1, _⟩ => rfl)
theorem ridx_v333 (n : Fin 100000) (c : Fin 64) (k : Fin 32) : ReadP.ridx_main_v333 (ix2 n c) k = ix2 k c :=
  funext fun a => Fin.ext (by match a with | ⟨0, _⟩ => rfl | ⟨1, _⟩ => rfl)
theorem pbidx (n : Fin 100000) (c : Fin 64) : ReadP.idx_main_v335 (ReadP.idx_main_v336 (ix2 n c)) = ix1 c :=
  funext fun a => Fin.ext (by match a with | ⟨0, _⟩ => rfl)
theorem pbias (x13 : (⟨S64, .f32⟩ : BufTy).Contents (Elt Ideal)) (n : Fin 100000) (c : Fin 64) :
    ReadP.val_main_v336 (F := Ideal) x13 (ix2 n c) = x13 (ix1 c) := by
  rw [ReadP.val_main_v336_apply, ReadP.val_main_v335_apply, pbidx]
theorem proj (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x12 : (⟨S32x64, .f32⟩ : BufTy).Contents (Elt Ideal)) (x14 x15 : (⟨S2x800000, .i32⟩ : BufTy).Contents (Elt Ideal)) (n : Fin 100000) (c : Fin 64) :
    ReadP.val_main_v333 (F := Ideal) x0 x1 x2 x3 x4 x5 x6 x7 x8 x12 x14 x15 (ix2 n c) = ∑ j : Fin 32, (ReadP.val_main_v115 (F := Ideal) x0 x1 x2 x3 x4 x5 x6 x7 x8 x14 x15) (ix2 n j) * x12 (ix2 j c) := by
  rw [ReadP.val_main_v333_apply]
  exact Finset.sum_congr rfl fun j _ => by rw [lidx_v333, ridx_v333]
/-- The zero the clamp compares with. -/
theorem relu_zero (i : S100000x64.Idx) : ReadP.val_main_call1_v0 (F := Ideal) i = 0 := by
  rw [ReadP.val_main_call1_v0_apply, ReadP.val_main_call1_cst_apply, Ideal.ofBits_def, Ideal.ofBits_zero_f32]
/-- The zero the program's last clamp compares with. -/
theorem relu_zero2 (i : S100000x64.Idx) : ReadP.val_main_call2_v0 (F := Ideal) i = 0 := by
  rw [ReadP.val_main_call2_v0_apply, ReadP.val_main_call2_cst_apply, Ideal.ofBits_def, Ideal.ofBits_zero_f32]

/-- The accumulation over all relations, from zero. -/
theorem acc_all (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x9 x10 : (⟨S7x32x64, .f32⟩ : BufTy).Contents (Elt Ideal)) (x11 : (⟨S7x64, .f32⟩ : BufTy).Contents (Elt Ideal)) (x14 x15 x16 x17 x18 x19 x20 x21 x22 : (⟨S2x800000, .i32⟩ : BufTy).Contents (Elt Ideal)) (n : Fin 100000) (c : Fin 64) :
    ReadP.val_main_v332 (F := Ideal) x0 x1 x2 x3 x4 x5 x6 x7 x8 x9 x10 x11 x14 x15 x16 x17 x18 x19 x20 x21 x22 (ix2 n c) =
      (((((((((((((((((((((0
        + ∑ j : Fin 32, (ReadP.val_main_v130 (F := Ideal) x0 x1 x2 x3 x4 x5 x6 x7 x8 x14 x15 x16) (ix2 n j) * x9 (ix3 (0 : Fin 7) j c))
        + ∑ j : Fin 32, (ReadP.val_main_v115 (F := Ideal) x0 x1 x2 x3 x4 x5 x6 x7 x8 x14 x15) (ix2 n j) * x10 (ix3 (0 : Fin 7) j c))
        + x11 (ix2 (0 : Fin 7) c))
        + ∑ j : Fin 32, (ReadP.val_main_v157 (F := Ideal) x0 x1 x2 x3 x4 x5 x6 x7 x8 x14 x15 x17) (ix2 n j) * x9 (ix3 (1 : Fin 7) j c))
        + ∑ j : Fin 32, (ReadP.val_main_v115 (F := Ideal) x0 x1 x2 x3 x4 x5 x6 x7 x8 x14 x15) (ix2 n j) * x10 (ix3 (1 : Fin 7) j c))
        + x11 (ix2 (1 : Fin 7) c))
        + ∑ j : Fin 32, (ReadP.val_main_v193 (F := Ideal) x0 x1 x2 x3 x4 x5 x6 x7 x8 x14 x15 x18) (ix2 n j) * x9 (ix3 (2 : Fin 7) j c))
        + ∑ j : Fin 32, (ReadP.val_main_v115 (F := Ideal) x0 x1 x2 x3 x4 x5 x6 x7 x8 x14 x15) (ix2 n j) * x10 (ix3 (2 : Fin 7) j c))
        + x11 (ix2 (2 : Fin 7) c))
        + ∑ j : Fin 32, (ReadP.val_main_v229 (F := Ideal) x0 x1 x2 x3 x4 x5 x6 x7 x8 x14 x15 x19) (ix2 n j) * x9 (ix3 (3 : Fin 7) j c))
        + ∑ j : Fin 32, (ReadP.val_main_v115 (F := Ideal) x0 x1 x2 x3 x4 x5 x6 x7 x8 x14 x15) (ix2 n j) * x10 (ix3 (3 : Fin 7) j c))
        + x11 (ix2 (3 : Fin 7) c))
        + ∑ j : Fin 32, (ReadP.val_main_v256 (F := Ideal) x0 x1 x2 x3 x4 x5 x6 x7 x8 x14 x15 x20) (ix2 n j) * x9 (ix3 (4 : Fin 7) j c))
        + ∑ j : Fin 32, (ReadP.val_main_v115 (F := Ideal) x0 x1 x2 x3 x4 x5 x6 x7 x8 x14 x15) (ix2 n j) * x10 (ix3 (4 : Fin 7) j c))
        + x11 (ix2 (4 : Fin 7) c))
        + ∑ j : Fin 32, (ReadP.val_main_v283 (F := Ideal) x0 x1 x2 x3 x4 x5 x6 x7 x8 x14 x15 x21) (ix2 n j) * x9 (ix3 (5 : Fin 7) j c))
        + ∑ j : Fin 32, (ReadP.val_main_v115 (F := Ideal) x0 x1 x2 x3 x4 x5 x6 x7 x8 x14 x15) (ix2 n j) * x10 (ix3 (5 : Fin 7) j c))
        + x11 (ix2 (5 : Fin 7) c))
        + ∑ j : Fin 32, (ReadP.val_main_v319 (F := Ideal) x0 x1 x2 x3 x4 x5 x6 x7 x8 x14 x15 x22) (ix2 n j) * x9 (ix3 (6 : Fin 7) j c))
        + ∑ j : Fin 32, (ReadP.val_main_v115 (F := Ideal) x0 x1 x2 x3 x4 x5 x6 x7 x8 x14 x15) (ix2 n j) * x10 (ix3 (6 : Fin 7) j c))
        + x11 (ix2 (6 : Fin 7) c)) := by
  rw [step6, step5, step4, step3, step2, step1, step0, zero_acc]

end L2

open L2

/-! ## The layer -/

/-- THE LAYER AT AN ELEMENT: the accumulation over the relations, then the projected input, then the projection's bias,
    clamped at zero; the accumulator is the left operand of every sum. -/
theorem ref2 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x9 x10 : (⟨S7x32x64, .f32⟩ : BufTy).Contents (Elt Ideal)) (x11 : (⟨S7x64, .f32⟩ : BufTy).Contents (Elt Ideal)) (x12 : (⟨S32x64, .f32⟩ : BufTy).Contents (Elt Ideal)) (x13 : (⟨S64, .f32⟩ : BufTy).Contents (Elt Ideal)) (x14 x15 x16 x17 x18 x19 x20 x21 x22 : (⟨S2x800000, .i32⟩ : BufTy).Contents (Elt Ideal)) (n : Fin 100000) (c : Fin 64) :
    ReadP.val_main_v338 (F := Ideal) x0 x1 x2 x3 x4 x5 x6 x7 x8 x9 x10 x11 x12 x13 x14 x15 x16 x17 x18 x19 x20 x21 x22 (ix2 n c) =
      max (((((((((((((((((((((((0
        + ∑ j : Fin 32, (ReadP.val_main_v130 (F := Ideal) x0 x1 x2 x3 x4 x5 x6 x7 x8 x14 x15 x16) (ix2 n j) * x9 (ix3 (0 : Fin 7) j c))
        + ∑ j : Fin 32, (ReadP.val_main_v115 (F := Ideal) x0 x1 x2 x3 x4 x5 x6 x7 x8 x14 x15) (ix2 n j) * x10 (ix3 (0 : Fin 7) j c))
        + x11 (ix2 (0 : Fin 7) c))
        + ∑ j : Fin 32, (ReadP.val_main_v157 (F := Ideal) x0 x1 x2 x3 x4 x5 x6 x7 x8 x14 x15 x17) (ix2 n j) * x9 (ix3 (1 : Fin 7) j c))
        + ∑ j : Fin 32, (ReadP.val_main_v115 (F := Ideal) x0 x1 x2 x3 x4 x5 x6 x7 x8 x14 x15) (ix2 n j) * x10 (ix3 (1 : Fin 7) j c))
        + x11 (ix2 (1 : Fin 7) c))
        + ∑ j : Fin 32, (ReadP.val_main_v193 (F := Ideal) x0 x1 x2 x3 x4 x5 x6 x7 x8 x14 x15 x18) (ix2 n j) * x9 (ix3 (2 : Fin 7) j c))
        + ∑ j : Fin 32, (ReadP.val_main_v115 (F := Ideal) x0 x1 x2 x3 x4 x5 x6 x7 x8 x14 x15) (ix2 n j) * x10 (ix3 (2 : Fin 7) j c))
        + x11 (ix2 (2 : Fin 7) c))
        + ∑ j : Fin 32, (ReadP.val_main_v229 (F := Ideal) x0 x1 x2 x3 x4 x5 x6 x7 x8 x14 x15 x19) (ix2 n j) * x9 (ix3 (3 : Fin 7) j c))
        + ∑ j : Fin 32, (ReadP.val_main_v115 (F := Ideal) x0 x1 x2 x3 x4 x5 x6 x7 x8 x14 x15) (ix2 n j) * x10 (ix3 (3 : Fin 7) j c))
        + x11 (ix2 (3 : Fin 7) c))
        + ∑ j : Fin 32, (ReadP.val_main_v256 (F := Ideal) x0 x1 x2 x3 x4 x5 x6 x7 x8 x14 x15 x20) (ix2 n j) * x9 (ix3 (4 : Fin 7) j c))
        + ∑ j : Fin 32, (ReadP.val_main_v115 (F := Ideal) x0 x1 x2 x3 x4 x5 x6 x7 x8 x14 x15) (ix2 n j) * x10 (ix3 (4 : Fin 7) j c))
        + x11 (ix2 (4 : Fin 7) c))
        + ∑ j : Fin 32, (ReadP.val_main_v283 (F := Ideal) x0 x1 x2 x3 x4 x5 x6 x7 x8 x14 x15 x21) (ix2 n j) * x9 (ix3 (5 : Fin 7) j c))
        + ∑ j : Fin 32, (ReadP.val_main_v115 (F := Ideal) x0 x1 x2 x3 x4 x5 x6 x7 x8 x14 x15) (ix2 n j) * x10 (ix3 (5 : Fin 7) j c))
        + x11 (ix2 (5 : Fin 7) c))
        + ∑ j : Fin 32, (ReadP.val_main_v319 (F := Ideal) x0 x1 x2 x3 x4 x5 x6 x7 x8 x14 x15 x22) (ix2 n j) * x9 (ix3 (6 : Fin 7) j c))
        + ∑ j : Fin 32, (ReadP.val_main_v115 (F := Ideal) x0 x1 x2 x3 x4 x5 x6 x7 x8 x14 x15) (ix2 n j) * x10 (ix3 (6 : Fin 7) j c))
        + x11 (ix2 (6 : Fin 7) c))
        + ∑ j : Fin 32, (ReadP.val_main_v115 (F := Ideal) x0 x1 x2 x3 x4 x5 x6 x7 x8 x14 x15) (ix2 n j) * x12 (ix2 j c))
        + x13 (ix1 c)) 0 := by
  rw [ReadP.val_main_v338_apply, ReadP.val_main_v337_apply, ReadP.val_main_v334_apply, acc_all, proj, pbias, relu_zero]
  simp only [Ideal.addf_def, Ideal.maximumf_def]

/-- THE PROGRAM'S RESULT AT AN ELEMENT: the third layer's output clamped at zero once more. -/
theorem ref_out (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x9 x10 : (⟨S7x32x64, .f32⟩ : BufTy).Contents (Elt Ideal)) (x11 : (⟨S7x64, .f32⟩ : BufTy).Contents (Elt Ideal)) (x12 : (⟨S32x64, .f32⟩ : BufTy).Contents (Elt Ideal)) (x13 : (⟨S64, .f32⟩ : BufTy).Contents (Elt Ideal)) (x14 x15 x16 x17 x18 x19 x20 x21 x22 : (⟨S2x800000, .i32⟩ : BufTy).Contents (Elt Ideal)) (n : Fin 100000) (c : Fin 64) :
    ReadP.val_main_v339 (F := Ideal) x0 x1 x2 x3 x4 x5 x6 x7 x8 x9 x10 x11 x12 x13 x14 x15 x16 x17 x18 x19 x20 x21 x22 (ix2 n c) = max (ReadP.val_main_v338 (F := Ideal) x0 x1 x2 x3 x4 x5 x6 x7 x8 x9 x10 x11 x12 x13 x14 x15 x16 x17 x18 x19 x20 x21 x22 (ix2 n c)) 0 := by
  rw [ReadP.val_main_v339_apply, relu_zero2]
  simp only [Ideal.maximumf_def]

end Cert.ReferenceIdeal.Lay
-- ==== Proof.LibRealEntries.lean ====
/-
  Real entries on the extended reals: what a proof needs when the law joining two programs holds on the reals but fails at
  the infinities (distributivity, cancelling, moving a factor across a sum).

  * `AllReal f`: every value of f is a real number.
  * `coe_sum`: the coercion of a finite sum of reals is the sum of the coercions.
  * `sum_mul_real`: a finite sum of products of real entries is a real.
  * `add_mul_real`: (a + b) * c = a * c + b * c for real a, b, c.
  * `allReal_of_reduce`, generic in the array's shape: if the "and" over all axes of the comparisons |v i| < +infinity is 1,
    every entry of v is a real — one array's part of the precondition "every float input is finite". An extended real whose
    absolute value max z (-z) is strictly below the top is neither infinity (both have absolute value top), hence a real.
-/
import Idealize.ShloMosaic.PureOps.Ideal
import Idealize.ShloMosaic.PureOps.Ideal.Laws
import Idealize.ShloMosaic.Lib.ValueIdx
import Idealize.ShloMosaic.Lib.ReduceAll

noncomputable section

namespace Cert.RealEntries

open Idealize.ShloMosaic
open scoped BigOperators

/-! ## Real entries and their arithmetic -/

/-- Every value of `f` is a real number (neither infinity). -/
def AllReal {ι : Type} (f : ι → EReal) : Prop := ∀ i, ∃ r : ℝ, f i = (r : EReal)

/-- The coercion of a finite sum of reals is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of products of real entries is a real. -/
theorem sum_mul_real {ι : Type} (s : Finset ι) (f g : ι → EReal) (hf : AllReal f) (hg : AllReal g) :
    ∃ r : ℝ, ∑ k ∈ s, f k * g k = (r : EReal) := by
  choose f' hf' using hf
  choose g' hg' using hg
  refine ⟨∑ k ∈ s, f' k * g' k, ?_⟩
  rw [coe_sum]
  exact Finset.sum_congr rfl fun k _ => by rw [hf', hg', EReal.coe_mul]

/-- The distributive law on real entries: it is the reals' own. (On the extended reals it fails at the infinities: for a
    negative real x, (top + bot) * x = top while top * x + bot * x = bot.) -/
theorem add_mul_real {a b c : EReal} (ha : ∃ r : ℝ, a = (r : EReal)) (hb : ∃ r : ℝ, b = (r : EReal))
    (hc : ∃ r : ℝ, c = (r : EReal)) : (a + b) * c = a * c + b * c := by
  obtain ⟨a, rfl⟩ := ha
  obtain ⟨b, rfl⟩ := hb
  obtain ⟨c, rfl⟩ := hc
  rw [← EReal.coe_add, ← EReal.coe_mul, ← EReal.coe_mul, ← EReal.coe_mul, ← EReal.coe_add, add_mul]

/-! ## From "every entry is finite" to "every entry is a real" -/

/-- The single-precision pattern `0x7F800000` denotes +infinity. -/
theorem ofBits_inf : Ideal.ofBits .f32 0x7F800000#32 = (⊤ : EReal) := by
  simp [Ideal.ofBits, Ideal.ieee]

/-- An extended real whose absolute value `max z (-z)` compares strictly below +infinity is a real:
    both infinities have absolute value `⊤`. -/
theorem real_of_abs_lt_inf (z : EReal)
    (h : Ideal.cmp .olt (max z (-z)) (Ideal.ofBits .f32 0x7F800000#32) = 1#1) : ∃ r : ℝ, z = (r : EReal) := by
  rw [ofBits_inf] at h
  induction z using EReal.rec with
  | bot => simp [Ideal.cmp] at h
  | coe r => exact ⟨r, rfl⟩
  | top => simp [Ideal.cmp] at h

/-- The scalar shape has exactly one index. -/
instance scalarIdx_subsingleton : Subsingleton (⟨0, ![]⟩ : Shape).Idx :=
  ⟨fun a b => funext fun d => d.elim0⟩

/-- One array's part of the predicate, for any shape: if the "and" over all axes of the comparisons
    `|v i| < +inf` is 1, every entry of `v` is a real. -/
theorem allReal_of_reduce {S T U C : Shape} [Subsingleton T.Idx] {axes : List (Fin S.rank)}
    (hr : S.ReducesTo axes T) (hu : 0 < U.numel) (dims : Fin C.rank → Fin S.rank) (hb : C.BroadcastsInDim S dims)
    (v : FVec Ideal S .f32) (init : IVec U 1) (j : T.Idx)
    (e : Host.reduce IntOp.andi
          (cmpf .olt (Host.absf v) (broadcastInDim S dims hb (constant C .f32 0x7F800000#32))) init hr hu j = 1#1) :
    ∀ i, ∃ r : ℝ, v i = (r : EReal) := by
  intro i
  have h1 : Ideal.cmp .olt (max (v i) (-(v i))) (Ideal.ofBits .f32 0x7F800000#32) = 1#1 :=
    Host.reduce_andi_all _ init hr hu j e i
  exact real_of_abs_lt_inf (v i) h1

end Cert.RealEntries

end
-- ==== Proof.Alg.lean ====
/-
  The algebra that joins the two programs, on the extended reals with real entries.

  The tiled program multiplies a row of features into ONE weight column that holds, in its last block, the SUM over the
  relations of the root weights (plus the residual projection); the plain program multiplies the same row into each
  relation's root weights separately and adds the products up. The two agree by the distributive law
      h * ((0 + sum over r of W r) + P) = (sum over r of h * W r) + h * P,
  summed over the features — a law of the reals that fails at the infinities, so it is stated for real entries.
  Everything else that differs between the two programs is the order and grouping of additions.
-/
import proofs.«147223_j52493090291996_1_alg».proof.Proof.LibRealEntries

noncomputable section

open scoped BigOperators

namespace Cert.Alg
open Cert.RealEntries

/-- A row of real features against the summed root weights plus a residual column: the products distribute over the
    relations. -/
theorem dist_real {R d : ℕ} (h : Fin d → EReal) (Wr : Fin R → Fin d → EReal) (P : Fin d → EReal)
    (hh : AllReal h) (hW : ∀ r, AllReal (Wr r)) (hP : AllReal P) :
    ∑ j, h j * ((0 + ∑ r, Wr r j) + P j) = (∑ r, ∑ j, h j * Wr r j) + ∑ j, h j * P j := by
  choose h' hh' using hh
  choose W' hW' using hW
  choose P' hP' using hP
  have eW : ∀ j, (∑ r, Wr r j) = ((∑ r, W' r j : ℝ) : EReal) := fun j => by
    rw [coe_sum]; exact Finset.sum_congr rfl fun r _ => hW' r j
  have e1 : ∀ j, h j * ((0 + ∑ r, Wr r j) + P j) = ((h' j * ((∑ r, W' r j) + P' j) : ℝ) : EReal) := fun j => by
    rw [hh', hP', zero_add, eW, ← EReal.coe_add, ← EReal.coe_mul]
  have e2 : ∀ r j, h j * Wr r j = ((h' j * W' r j : ℝ) : EReal) := fun r j => by
    rw [hh', hW', EReal.coe_mul]
  have e3 : ∀ j, h j * P j = ((h' j * P' j : ℝ) : EReal) := fun j => by
    rw [hh', hP', EReal.coe_mul]
  calc ∑ j, h j * ((0 + ∑ r, Wr r j) + P j)
      = ∑ j, ((h' j * ((∑ r, W' r j) + P' j) : ℝ) : EReal) := Finset.sum_congr rfl fun j _ => e1 j
    _ = ((∑ j, h' j * ((∑ r, W' r j) + P' j) : ℝ) : EReal) := (coe_sum _ _).symm
    _ = (((∑ r, ∑ j, h' j * W' r j) + ∑ j, h' j * P' j : ℝ) : EReal) := by
          congr 1
          simp only [mul_add, Finset.mul_sum, Finset.sum_add_distrib]
          rw [Finset.sum_comm]
    _ = (∑ r, ∑ j, h j * Wr r j) + ∑ j, h j * P j := by
          rw [EReal.coe_add, coe_sum, coe_sum]
          congr 1
          · exact Finset.sum_congr rfl fun r _ => by
              rw [coe_sum]; exact Finset.sum_congr rfl fun j _ => (e2 r j).symm
          · exact Finset.sum_congr rfl fun j _ => (e3 j).symm

/-- The same with no residual column (the first layer). -/
theorem dist_real0 {R d : ℕ} (h : Fin d → EReal) (Wr : Fin R → Fin d → EReal)
    (hh : AllReal h) (hW : ∀ r, AllReal (Wr r)) :
    ∑ j, h j * (0 + ∑ r, Wr r j) = ∑ r, ∑ j, h j * Wr r j := by
  have key := dist_real h Wr (fun _ => 0) hh hW (fun _ => ⟨0, rfl⟩)
  simp only [add_zero, mul_zero, Finset.sum_const_zero] at key
  exact key

/-! ## Real entries are closed under the operations of a layer -/

theorem real_zero : ∃ r : ℝ, (0 : EReal) = (r : EReal) := ⟨0, rfl⟩

theorem real_add {a b : EReal} (ha : ∃ r : ℝ, a = (r : EReal)) (hb : ∃ r : ℝ, b = (r : EReal)) :
    ∃ r : ℝ, a + b = (r : EReal) := by
  obtain ⟨a, rfl⟩ := ha; obtain ⟨b, rfl⟩ := hb; exact ⟨a + b, (EReal.coe_add a b).symm⟩

theorem real_mul {a b : EReal} (ha : ∃ r : ℝ, a = (r : EReal)) (hb : ∃ r : ℝ, b = (r : EReal)) :
    ∃ r : ℝ, a * b = (r : EReal) := by
  obtain ⟨a, rfl⟩ := ha; obtain ⟨b, rfl⟩ := hb; exact ⟨a * b, (EReal.coe_mul a b).symm⟩

theorem real_max {a b : EReal} (ha : ∃ r : ℝ, a = (r : EReal)) (hb : ∃ r : ℝ, b = (r : EReal)) :
    ∃ r : ℝ, max a b = (r : EReal) := by
  rcases max_choice a b with h | h <;> rw [h] <;> assumption

theorem real_sum {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (hf a (Finset.mem_insert_self a s)) (ih fun i hi => hf i (Finset.mem_insert_of_mem hi))

end Cert.Alg

end
-- ==== Proof.LibBlockSum.lean ====
/-
  A sum over a range cut into equal consecutive blocks, and a running total built one block at a time.

  The a·b indices below a·b are the pairs (block t below a, offset y below b) through t·b + y, so a sum over all of
  them is the sum over the blocks of the sums within each block; only the commutativity and associativity of the
  addition is used. A running total that starts at z plus the first term and adds one more term at every step ends at z
  plus the sum of all the terms.
-/
import Mathlib

open scoped BigOperators

namespace Cert.LibBlockSum

variable {M : Type*} [AddCommMonoid M]

/-- Offset y of block t lies below a·b. -/
theorem blk_lt {a b : ℕ} (t : Fin a) (y : Fin b) : t.val * b + y.val < a * b :=
  calc t.val * b + y.val < t.val * b + b := Nat.add_lt_add_left y.isLt _
    _ = (t.val + 1) * b := (Nat.succ_mul _ _).symm
    _ ≤ a * b := Nat.mul_le_mul_right b t.isLt

/-- The same with the product written the other way round. -/
theorem blk_lt' {a b : ℕ} (t : Fin a) (y : Fin b) : b * t.val + y.val < a * b := by
  rw [Nat.mul_comm b]; exact blk_lt t y

/-- A sum over the indices below a·b is the sum over the a blocks of the sums over the b offsets within a block, the index
    written t·b + y. -/
theorem sum_blocks (a b : ℕ) (f : Fin (a * b) → M) (h : ∀ (t : Fin a) (y : Fin b), t.val * b + y.val < a * b) :
    ∑ t : Fin a, ∑ y : Fin b, f ⟨t.val * b + y.val, h t y⟩ = ∑ r : Fin (a * b), f r := by
  rw [← Equiv.sum_comp finProdFinEquiv f, Fintype.sum_prod_type]
  refine Finset.sum_congr rfl fun t _ => Finset.sum_congr rfl fun y _ => congrArg f (Fin.ext ?_)
  show t.val * b + y.val = y.val + b * t.val
  rw [Nat.mul_comm, Nat.add_comm]

/-- The same with the index written b·t + y. -/
theorem sum_blocks' (a b : ℕ) (f : Fin (a * b) → M) (h : ∀ (t : Fin a) (y : Fin b), b * t.val + y.val < a * b) :
    ∑ t : Fin a, ∑ y : Fin b, f ⟨b * t.val + y.val, h t y⟩ = ∑ r : Fin (a * b), f r := by
  rw [← sum_blocks a b f fun t y => blk_lt t y]
  exact Finset.sum_congr rfl fun t _ => Finset.sum_congr rfl fun y _ => congrArg f (Fin.ext (by
    show b * t.val + y.val = t.val * b + y.val
    rw [Nat.mul_comm]))

/-- 50000 rows as 10 blocks of 5000, the row written t·5000 + y. -/
theorem sum_rows_10x5000 (f : Fin 50000 → M) (h : ∀ (t : Fin 10) (y : Fin 5000), t.val * 5000 + y.val < 50000) :
    ∑ t : Fin 10, ∑ y : Fin 5000, f ⟨t.val * 5000 + y.val, h t y⟩ = ∑ r : Fin 50000, f r :=
  sum_blocks 10 5000 f h

/-- 50000 rows as 10 blocks of 5000, the row written 5000·t + y. -/
theorem sum_rows_10x5000' (f : Fin 50000 → M) (h : ∀ (t : Fin 10) (y : Fin 5000), 5000 * t.val + y.val < 50000) :
    ∑ t : Fin 10, ∑ y : Fin 5000, f ⟨5000 * t.val + y.val, h t y⟩ = ∑ r : Fin 50000, f r :=
  sum_blocks' 10 5000 f h

/-- A running total over terms indexed by the naturals: from z plus term 0, one more term added at each of n steps, it
    ends at z plus the sum of the terms 0 … n. -/
theorem acc_range (n : ℕ) (g : ℕ → M) (z : M) (acc : ℕ → M) (h0 : acc 0 = z + g 0)
    (hs : ∀ t, t < n → acc (t + 1) = acc t + g (t + 1)) : acc n = z + ∑ t ∈ Finset.range (n + 1), g t := by
  induction n with
  | zero => rw [h0, Finset.sum_range_one]
  | succ k ih =>
    rw [hs k (Nat.lt_succ_self k), ih fun t ht => hs t (Nat.lt_succ_of_lt ht), Finset.sum_range_succ _ (k + 1), add_assoc]

/-- The same over n + 1 terms indexed below n + 1. -/
theorem acc_fin (n : ℕ) (g : Fin (n + 1) → M) (z : M) (acc : ℕ → M) (h0 : acc 0 = z + g 0)
    (hs : ∀ t (ht : t < n), acc (t + 1) = acc t + g ⟨t + 1, Nat.succ_lt_succ ht⟩) :
    acc n = z + ∑ t : Fin (n + 1), g t := by
  have key := acc_range n (fun t => if ht : t < n + 1 then g ⟨t, ht⟩ else 0) z acc
    (by rw [h0, dif_pos (Nat.succ_pos n)]; rfl)
    (fun t ht => by rw [hs t ht, dif_pos (Nat.succ_lt_succ ht)])
  rw [key, ← Fin.sum_univ_eq_sum_range (fun t => if ht : t < n + 1 then g ⟨t, ht⟩ else 0) (n + 1)]
  exact congrArg (z + ·) (Finset.sum_congr rfl fun t _ => by rw [dif_pos t.isLt])

/-- Ten terms: from z plus term 0, one more term added at each of nine steps, the total ends at z plus the sum of the ten. -/
theorem acc_fin_10 (g : Fin 10 → M) (z : M) (acc : ℕ → M) (h0 : acc 0 = z + g 0)
    (hs : ∀ t (ht : t < 9), acc (t + 1) = acc t + g ⟨t + 1, Nat.succ_lt_succ ht⟩) :
    acc 9 = z + ∑ t : Fin 10, g t :=
  acc_fin 9 g z acc h0 hs

end Cert.LibBlockSum
-- ==== Proof.Blocks.lean ====
/-
  A sum over the columns of a concatenated feature row, block by block: 18 = 6 + 6 + 6, 48 = 16 + 16 + 16 and
  256 = 7 · 32 + 32 (seven message blocks and the node's own features).
-/
import proofs.«147223_j52493090291996_1_alg».proof.Proof.LibBlockSum

noncomputable section

open scoped BigOperators

namespace Cert.Alg
open Cert.LibBlockSum

variable {M : Type*} [AddCommMonoid M]

/-- eighteen columns as three blocks of six -/
theorem sum18 (F : Fin 18 → M) :
    ∑ k, F k = (∑ j : Fin 6, F ⟨j.val, by omega⟩) + (∑ j : Fin 6, F ⟨6 + j.val, by omega⟩)
      + ∑ j : Fin 6, F ⟨12 + j.val, by omega⟩ := by
  refine (sum_blocks' 3 6 F (fun t y => blk_lt' t y)).symm.trans ?_
  rw [Fin.sum_univ_three]
  refine congrArg₂ (· + ·) (congrArg₂ (· + ·) ?_ ?_) ?_ <;>
    exact Finset.sum_congr rfl fun j _ => congrArg F (Fin.ext (by simp))

/-- forty-eight columns as three blocks of sixteen -/
theorem sum48 (F : Fin 48 → M) :
    ∑ k, F k = (∑ j : Fin 16, F ⟨j.val, by omega⟩) + (∑ j : Fin 16, F ⟨16 + j.val, by omega⟩)
      + ∑ j : Fin 16, F ⟨32 + j.val, by omega⟩ := by
  refine (sum_blocks' 3 16 F (fun t y => blk_lt' t y)).symm.trans ?_
  rw [Fin.sum_univ_three]
  refine congrArg₂ (· + ·) (congrArg₂ (· + ·) ?_ ?_) ?_ <;>
    exact Finset.sum_congr rfl fun j _ => congrArg F (Fin.ext (by simp))

/-- two hundred and fifty-six columns as seven blocks of thirty-two and a last block of thirty-two -/
theorem sum256 (F : Fin 256 → M) :
    ∑ k, F k = (∑ q : Fin 7, ∑ j : Fin 32, F ⟨32 * q.val + j.val, by omega⟩)
      + ∑ j : Fin 32, F ⟨224 + j.val, by omega⟩ := by
  refine (sum_blocks' 8 32 F (fun t y => blk_lt' t y)).symm.trans ?_
  rw [Fin.sum_univ_castSucc]
  refine congrArg₂ (· + ·)
    (Finset.sum_congr rfl fun q _ => Finset.sum_congr rfl fun j _ => congrArg F (Fin.ext (by simp)))
    (Finset.sum_congr rfl fun j _ => congrArg F (Fin.ext (by simp)))

end Cert.Alg

end
-- ==== Proof.Bridge.lean ====
/-
  The tiled layer and the plain layer are one function of their inputs, entry by entry, when the entries are real.

  Tiled: out (n, c) = (sum over the columns k of the concatenated feature row of feat (n, k) * wcat (k, c)) + bcat (0, c),
  where the feature row is [message of relation 0 | … | message of relation R-1 | the node's own features], the weight
  column is [neighbour weights of relation 0 | … | of relation R-1 | (0 + sum over relations of the root weights) (+ the
  residual projection)] and the bias is (0 + sum over relations of the biases) (+ the residual bias).
  Plain: starting from 0, relation by relation, acc := ((acc + message_q · Wn_q) + features · Wr_q) + b_q, then (+ features · P)
  + pb; the two later layers clamp at zero.
  The sum over the concatenated row splits into its blocks; the last block distributes over the relations (real entries);
  what remains is a reordering of additions.
-/
import proofs.«147223_j52493090291996_1_alg».proof.Proof.Spec
import proofs.«147223_j52493090291996_1_alg».proof.Proof.Alg
import proofs.«147223_j52493090291996_1_alg».proof.Proof.Blocks
import Idealize.ShloMosaic.Lib.ValueIdxCoords

noncomputable section

open scoped BigOperators

namespace Cert.Bridge
open Idealize.ShloMosaic Idealize.ShloMosaic.ValueIdx Cert.RealEntries Cert.Alg

/-- The first layer: two relations, no residual, no clamp. -/
theorem bridge0
    (feat : (⟨2, ![100000, 18]⟩ : Shape).Idx → EReal) (wcat : (⟨2, ![18, 16]⟩ : Shape).Idx → EReal)
    (bcat : (⟨2, ![1, 16]⟩ : Shape).Idx → EReal)
    (MA MB x0 : (⟨2, ![100000, 6]⟩ : Shape).Idx → EReal) (x1 x2 : (⟨3, ![2, 6, 16]⟩ : Shape).Idx → EReal)
    (x3 : (⟨2, ![2, 16]⟩ : Shape).Idx → EReal)
    (hfA : ∀ (n : Fin 100000) (j : Fin 6), feat (ix2 n ⟨j.val, by omega⟩) = MA (ix2 n j))
    (hfB : ∀ (n : Fin 100000) (j : Fin 6), feat (ix2 n ⟨6 + j.val, by omega⟩) = MB (ix2 n j))
    (hfX : ∀ (n : Fin 100000) (j : Fin 6), feat (ix2 n ⟨12 + j.val, by omega⟩) = x0 (ix2 n j))
    (hwA : ∀ (j : Fin 6) (c : Fin 16), wcat (ix2 ⟨j.val, by omega⟩ c) = x1 (ix3 0 j c))
    (hwB : ∀ (j : Fin 6) (c : Fin 16), wcat (ix2 ⟨6 + j.val, by omega⟩ c) = x1 (ix3 1 j c))
    (hwR : ∀ (j : Fin 6) (c : Fin 16), wcat (ix2 ⟨12 + j.val, by omega⟩ c) = 0 + ∑ r : Fin 2, x2 (ix3 r j c))
    (hb : ∀ c : Fin 16, bcat (ix2 0 c) = 0 + ∑ r : Fin 2, x3 (ix2 r c))
    (rx0 : AllReal x0) (rx2 : AllReal x2) (n : Fin 100000) (c : Fin 16) :
    Cert.Spec.lin0 feat wcat bcat (ix2 n c) = ((((((0 + ∑ j : Fin 6, MA (ix2 n j) * x1 (ix3 0 j c)) + ∑ j : Fin 6, x0 (ix2 n j) * x2 (ix3 0 j c)) + x3 (ix2 0 c)) + ∑ j : Fin 6, MB (ix2 n j) * x1 (ix3 1 j c)) + ∑ j : Fin 6, x0 (ix2 n j) * x2 (ix3 1 j c)) + x3 (ix2 1 c)) := by
  unfold Cert.Spec.lin0
  simp only [ix2_0, ix2_1]
  rw [sum18]
  simp only [hfA, hfB, hfX, hwA, hwB, hwR, hb]
  rw [dist_real0 (fun j => x0 (ix2 n j)) (fun r j => x2 (ix3 r j c)) (fun j => rx0 _) (fun r j => rx2 _)]
  simp only [Fin.sum_univ_two, zero_add]
  ac_rfl

/-- The second layer: two relations, the residual projection, clamped at zero. -/
theorem bridge1
    (feat : (⟨2, ![100000, 48]⟩ : Shape).Idx → EReal) (wcat : (⟨2, ![48, 32]⟩ : Shape).Idx → EReal)
    (bcat : (⟨2, ![1, 32]⟩ : Shape).Idx → EReal)
    (MA MB H : (⟨2, ![100000, 16]⟩ : Shape).Idx → EReal) (x4 x5 : (⟨3, ![2, 16, 32]⟩ : Shape).Idx → EReal)
    (x6 : (⟨2, ![2, 32]⟩ : Shape).Idx → EReal) (x7 : (⟨2, ![16, 32]⟩ : Shape).Idx → EReal)
    (x8 : (⟨1, ![32]⟩ : Shape).Idx → EReal)
    (hfA : ∀ (n : Fin 100000) (j : Fin 16), feat (ix2 n ⟨j.val, by omega⟩) = MA (ix2 n j))
    (hfB : ∀ (n : Fin 100000) (j : Fin 16), feat (ix2 n ⟨16 + j.val, by omega⟩) = MB (ix2 n j))
    (hfX : ∀ (n : Fin 100000) (j : Fin 16), feat (ix2 n ⟨32 + j.val, by omega⟩) = H (ix2 n j))
    (hwA : ∀ (j : Fin 16) (c : Fin 32), wcat (ix2 ⟨j.val, by omega⟩ c) = x4 (ix3 0 j c))
    (hwB : ∀ (j : Fin 16) (c : Fin 32), wcat (ix2 ⟨16 + j.val, by omega⟩ c) = x4 (ix3 1 j c))
    (hwR : ∀ (j : Fin 16) (c : Fin 32), wcat (ix2 ⟨32 + j.val, by omega⟩ c)
      = (0 + ∑ r : Fin 2, x5 (ix3 r j c)) + x7 (ix2 j c))
    (hb : ∀ c : Fin 32, bcat (ix2 0 c) = (0 + ∑ r : Fin 2, x6 (ix2 r c)) + x8 (ix1 c))
    (rH : AllReal H) (rx5 : AllReal x5) (rx7 : AllReal x7) (n : Fin 100000) (c : Fin 32) :
    Cert.Spec.lin1 feat wcat bcat (ix2 n c)
      = max ((((((((0 + ∑ j : Fin 16, MA (ix2 n j) * x4 (ix3 0 j c)) + ∑ j : Fin 16, H (ix2 n j) * x5 (ix3 0 j c)) + x6 (ix2 0 c)) + ∑ j : Fin 16, MB (ix2 n j) * x4 (ix3 1 j c)) + ∑ j : Fin 16, H (ix2 n j) * x5 (ix3 1 j c)) + x6 (ix2 1 c)) + ∑ j : Fin 16, H (ix2 n j) * x7 (ix2 j c)) + x8 (ix1 c)) 0 := by
  unfold Cert.Spec.lin1
  simp only [ix2_0, ix2_1]
  rw [sum48]
  simp only [hfA, hfB, hfX, hwA, hwB, hwR, hb]
  rw [dist_real (fun j => H (ix2 n j)) (fun r j => x5 (ix3 r j c)) (fun j => x7 (ix2 j c)) (fun j => rH _)
    (fun r j => rx5 _) (fun j => rx7 _)]
  simp only [Fin.sum_univ_two, zero_add]
  congr 1
  ac_rfl

/-- The third layer: seven relations, the residual projection, clamped at zero. -/
theorem bridge2
    (feat : (⟨2, ![100000, 256]⟩ : Shape).Idx → EReal) (wcat : (⟨2, ![256, 64]⟩ : Shape).Idx → EReal)
    (bcat : (⟨2, ![1, 64]⟩ : Shape).Idx → EReal)
    (Mq : Fin 7 → (⟨2, ![100000, 32]⟩ : Shape).Idx → EReal) (H : (⟨2, ![100000, 32]⟩ : Shape).Idx → EReal)
    (x9 x10 : (⟨3, ![7, 32, 64]⟩ : Shape).Idx → EReal)
    (x11 : (⟨2, ![7, 64]⟩ : Shape).Idx → EReal) (x12 : (⟨2, ![32, 64]⟩ : Shape).Idx → EReal)
    (x13 : (⟨1, ![64]⟩ : Shape).Idx → EReal)
    (hfM : ∀ (q : Fin 7) (n : Fin 100000) (j : Fin 32), feat (ix2 n ⟨32 * q.val + j.val, by omega⟩) = Mq q (ix2 n j))
    (hfX : ∀ (n : Fin 100000) (j : Fin 32), feat (ix2 n ⟨224 + j.val, by omega⟩) = H (ix2 n j))
    (hwM : ∀ (q : Fin 7) (j : Fin 32) (c : Fin 64), wcat (ix2 ⟨32 * q.val + j.val, by omega⟩ c) = x9 (ix3 q j c))
    (hwR : ∀ (j : Fin 32) (c : Fin 64), wcat (ix2 ⟨224 + j.val, by omega⟩ c)
      = (0 + ∑ r : Fin 7, x10 (ix3 r j c)) + x12 (ix2 j c))
    (hb : ∀ c : Fin 64, bcat (ix2 0 c) = (0 + ∑ r : Fin 7, x11 (ix2 r c)) + x13 (ix1 c))
    (rH : AllReal H) (rx10 : AllReal x10) (rx12 : AllReal x12) (n : Fin 100000) (c : Fin 64) :
    Cert.Spec.lin2 feat wcat bcat (ix2 n c)
      = max (((((((((((((((((((((((0 + ∑ j : Fin 32, (Mq 0) (ix2 n j) * x9 (ix3 0 j c)) + ∑ j : Fin 32, H (ix2 n j) * x10 (ix3 0 j c)) + x11 (ix2 0 c)) + ∑ j : Fin 32, (Mq 1) (ix2 n j) * x9 (ix3 1 j c)) + ∑ j : Fin 32, H (ix2 n j) * x10 (ix3 1 j c)) + x11 (ix2 1 c)) + ∑ j : Fin 32, (Mq 2) (ix2 n j) * x9 (ix3 2 j c)) + ∑ j : Fin 32, H (ix2 n j) * x10 (ix3 2 j c)) + x11 (ix2 2 c)) + ∑ j : Fin 32, (Mq 3) (ix2 n j) * x9 (ix3 3 j c)) + ∑ j : Fin 32, H (ix2 n j) * x10 (ix3 3 j c)) + x11 (ix2 3 c)) + ∑ j : Fin 32, (Mq 4) (ix2 n j) * x9 (ix3 4 j c)) + ∑ j : Fin 32, H (ix2 n j) * x10 (ix3 4 j c)) + x11 (ix2 4 c)) + ∑ j : Fin 32, (Mq 5) (ix2 n j) * x9 (ix3 5 j c)) + ∑ j : Fin 32, H (ix2 n j) * x10 (ix3 5 j c)) + x11 (ix2 5 c)) + ∑ j : Fin 32, (Mq 6) (ix2 n j) * x9 (ix3 6 j c)) + ∑ j : Fin 32, H (ix2 n j) * x10 (ix3 6 j c)) + x11 (ix2 6 c)) + ∑ j : Fin 32, H (ix2 n j) * x12 (ix2 j c)) + x13 (ix1 c)) 0 := by
  unfold Cert.Spec.lin2
  simp only [ix2_0, ix2_1]
  rw [sum256]
  simp only [hfM, hfX, hwM, hwR, hb]
  rw [dist_real (fun j => H (ix2 n j)) (fun r j => x10 (ix3 r j c)) (fun j => x12 (ix2 j c)) (fun j => rH _)
    (fun r j => rx10 _) (fun j => rx12 _)]
  simp only [Fin.sum_univ_seven, zero_add]
  congr 1
  ac_rfl

end Cert.Bridge

end
-- ==== Proof.KValLayers.lean ====
/-
  Each launch's result array is the plain program's layer output.

  A launch's result is the dense layer of its three operand arrays (Proof/KV/Region.lean). Given what the stretch of host
  operations before the launch leaves in those operands — block by block of the concatenated feature row, of the stacked
  weights, and the summed bias row — and given real entries where the distributive step needs them, the dense layer of the
  operands is, entry by entry, the plain program's accumulation over the relations (Proof/Bridge.lean against the plain
  program's layer read at an entry, Proof/RV).
-/
import proofs.«147223_j52493090291996_1_alg».proof.Proof.KI.Fold
import proofs.«147223_j52493090291996_1_alg».proof.Proof.KV.Region
import proofs.«147223_j52493090291996_1_alg».proof.Proof.RV.L0
import proofs.«147223_j52493090291996_1_alg».proof.Proof.RV.L1
import proofs.«147223_j52493090291996_1_alg».proof.Proof.RV.L2
import proofs.«147223_j52493090291996_1_alg».proof.Proof.Bridge

noncomputable section

open scoped BigOperators

namespace Cert.KernelIdeal.Val

open Cert.KernelIdeal Cert.KernelIdeal.Gen Cert.KernelIdeal.Fr Idealize.ShloMosaic Idealize.ShloMosaic.TcCoe
open Idealize.ShloMosaic.ValueIdx Idealize.SL.Sem Cert.RealEntries

variable (m : (ℓ : Loc nD τ sig) → Buf (Elt Ideal) ℓ) (ρ : Dev nD → PrngReg) (c : Dev nD)

/-- The first launch's result array is the plain program's first layer, given what the first stretch of host operations
    leaves in the launch's three operands (block by block of the concatenated row) and real inputs. -/
theorem layer0_of
    (x0 : (⟨Cert.ReferenceIdeal.S100000x6, .f32⟩ : BufTy).Contents (Elt Ideal)) (x1 x2 : (⟨Cert.ReferenceIdeal.S2x6x16, .f32⟩ : BufTy).Contents (Elt Ideal)) (x3 : (⟨Cert.ReferenceIdeal.S2x16, .f32⟩ : BufTy).Contents (Elt Ideal)) (x14 x15 : (⟨Cert.ReferenceIdeal.S2x800000, .i32⟩ : BufTy).Contents (Elt Ideal))
    (hfA : ∀ (n : Fin 100000) (j : Fin 6), V1 m ρ c main_v29 (ix2 n ⟨j.val, by omega⟩) = Cert.ReferenceIdeal.ReadP.val_main_v14 (F := Ideal) x0 x14 (ix2 n j))
    (hfB : ∀ (n : Fin 100000) (j : Fin 6), V1 m ρ c main_v29 (ix2 n ⟨6 + j.val, by omega⟩) = Cert.ReferenceIdeal.ReadP.val_main_v41 (F := Ideal) x0 x15 (ix2 n j))
    (hfX : ∀ (n : Fin 100000) (j : Fin 6), V1 m ρ c main_v29 (ix2 n ⟨12 + j.val, by omega⟩) = x0 (ix2 n j))
    (hwA : ∀ (j : Fin 6) (k : Fin 16), V1 m ρ c main_v35 (ix2 ⟨j.val, by omega⟩ k) = x1 (ix3 0 j k))
    (hwB : ∀ (j : Fin 6) (k : Fin 16), V1 m ρ c main_v35 (ix2 ⟨6 + j.val, by omega⟩ k) = x1 (ix3 1 j k))
    (hwR : ∀ (j : Fin 6) (k : Fin 16), V1 m ρ c main_v35 (ix2 ⟨12 + j.val, by omega⟩ k) = 0 + ∑ r : Fin 2, x2 (ix3 r j k))
    (hb : ∀ k : Fin 16, V1 m ρ c main_v37 (ix2 0 k) = 0 + ∑ r : Fin 2, x3 (ix2 r k))
    (rx0 : AllReal x0) (rx2 : AllReal x2) :
    W2 (F := Ideal) m ρ c (Proc.devRef .tc main_v38) = Cert.ReferenceIdeal.ReadP.val_main_v54 (F := Ideal) x0 x1 x2 x3 x14 x15 := by
  rw [W2_out, region0 (V1 m ρ) c]
  funext i
  obtain ⟨n, k, rfl⟩ : ∃ (n : Fin 100000) (k : Fin 16), i = ix2 n k := ⟨i 0, i 1, eq_ix2 i⟩
  rw [Cert.ReferenceIdeal.Lay.ref0]
  exact Cert.Bridge.bridge0 _ _ _ _ _ _ _ _ _ hfA hfB hfX hwA hwB hwR hb rx0 rx2 n k

/-- The second launch's result array is the plain program's second layer, given the second stretch's operands and the
    first layer's agreement. -/
theorem layer1_of
    (x0 : (⟨Cert.ReferenceIdeal.S100000x6, .f32⟩ : BufTy).Contents (Elt Ideal)) (x1 x2 : (⟨Cert.ReferenceIdeal.S2x6x16, .f32⟩ : BufTy).Contents (Elt Ideal)) (x3 : (⟨Cert.ReferenceIdeal.S2x16, .f32⟩ : BufTy).Contents (Elt Ideal)) (x4 x5 : (⟨Cert.ReferenceIdeal.S2x16x32, .f32⟩ : BufTy).Contents (Elt Ideal))
    (x6 : (⟨Cert.ReferenceIdeal.S2x32, .f32⟩ : BufTy).Contents (Elt Ideal)) (x7 : (⟨Cert.ReferenceIdeal.S16x32, .f32⟩ : BufTy).Contents (Elt Ideal)) (x8 : (⟨Cert.ReferenceIdeal.S32, .f32⟩ : BufTy).Contents (Elt Ideal)) (x14 x15 : (⟨Cert.ReferenceIdeal.S2x800000, .i32⟩ : BufTy).Contents (Elt Ideal))
    (hfA : ∀ (n : Fin 100000) (j : Fin 16), V3 m ρ c main_v68 (ix2 n ⟨j.val, by omega⟩) = Cert.ReferenceIdeal.ReadP.val_main_v69 (F := Ideal) x0 x1 x2 x3 x14 x15 (ix2 n j))
    (hfB : ∀ (n : Fin 100000) (j : Fin 16), V3 m ρ c main_v68 (ix2 n ⟨16 + j.val, by omega⟩) = Cert.ReferenceIdeal.ReadP.val_main_v96 (F := Ideal) x0 x1 x2 x3 x14 x15 (ix2 n j))
    (hfX : ∀ (n : Fin 100000) (j : Fin 16), V3 m ρ c main_v68 (ix2 n ⟨32 + j.val, by omega⟩) = Cert.ReferenceIdeal.ReadP.val_main_v54 (F := Ideal) x0 x1 x2 x3 x14 x15 (ix2 n j))
    (hwA : ∀ (j : Fin 16) (k : Fin 32), V3 m ρ c main_v75 (ix2 ⟨j.val, by omega⟩ k) = x4 (ix3 0 j k))
    (hwB : ∀ (j : Fin 16) (k : Fin 32), V3 m ρ c main_v75 (ix2 ⟨16 + j.val, by omega⟩ k) = x4 (ix3 1 j k))
    (hwR : ∀ (j : Fin 16) (k : Fin 32), V3 m ρ c main_v75 (ix2 ⟨32 + j.val, by omega⟩ k) = (0 + ∑ r : Fin 2, x5 (ix3 r j k)) + x7 (ix2 j k))
    (hb : ∀ k : Fin 32, V3 m ρ c main_v78 (ix2 0 k) = (0 + ∑ r : Fin 2, x6 (ix2 r k)) + x8 (ix1 k))
    (rH : AllReal (Cert.ReferenceIdeal.ReadP.val_main_v54 (F := Ideal) x0 x1 x2 x3 x14 x15)) (rx5 : AllReal x5) (rx7 : AllReal x7) :
    W4 (F := Ideal) m ρ c (Proc.devRef .tc main_v79) = Cert.ReferenceIdeal.ReadP.val_main_v115 (F := Ideal) x0 x1 x2 x3 x4 x5 x6 x7 x8 x14 x15 := by
  rw [W4_out, region1 (V3 m ρ) c]
  funext i
  obtain ⟨n, k, rfl⟩ : ∃ (n : Fin 100000) (k : Fin 32), i = ix2 n k := ⟨i 0, i 1, eq_ix2 i⟩
  rw [Cert.ReferenceIdeal.Lay.ref1]
  exact Cert.Bridge.bridge1 _ _ _ _ _ _ _ _ _ _ _ hfA hfB hfX hwA hwB hwR hb rH rx5 rx7 n k

/-- The seven messages of the last layer, by relation. -/
def msgs2 (x0 : (⟨Cert.ReferenceIdeal.S100000x6, .f32⟩ : BufTy).Contents (Elt Ideal)) (x1 x2 : (⟨Cert.ReferenceIdeal.S2x6x16, .f32⟩ : BufTy).Contents (Elt Ideal)) (x3 : (⟨Cert.ReferenceIdeal.S2x16, .f32⟩ : BufTy).Contents (Elt Ideal)) (x4 x5 : (⟨Cert.ReferenceIdeal.S2x16x32, .f32⟩ : BufTy).Contents (Elt Ideal))
    (x6 : (⟨Cert.ReferenceIdeal.S2x32, .f32⟩ : BufTy).Contents (Elt Ideal)) (x7 : (⟨Cert.ReferenceIdeal.S16x32, .f32⟩ : BufTy).Contents (Elt Ideal)) (x8 : (⟨Cert.ReferenceIdeal.S32, .f32⟩ : BufTy).Contents (Elt Ideal)) (x14 x15 x16 x17 x18 x19 x20 x21 x22 : (⟨Cert.ReferenceIdeal.S2x800000, .i32⟩ : BufTy).Contents (Elt Ideal)) :
    Fin 7 → (⟨2, ![100000, 32]⟩ : Shape).Idx → EReal
  | ⟨0, _⟩ => Cert.ReferenceIdeal.ReadP.val_main_v130 (F := Ideal) x0 x1 x2 x3 x4 x5 x6 x7 x8 x14 x15 x16
  | ⟨1, _⟩ => Cert.ReferenceIdeal.ReadP.val_main_v157 (F := Ideal) x0 x1 x2 x3 x4 x5 x6 x7 x8 x14 x15 x17
  | ⟨2, _⟩ => Cert.ReferenceIdeal.ReadP.val_main_v193 (F := Ideal) x0 x1 x2 x3 x4 x5 x6 x7 x8 x14 x15 x18
  | ⟨3, _⟩ => Cert.ReferenceIdeal.ReadP.val_main_v229 (F := Ideal) x0 x1 x2 x3 x4 x5 x6 x7 x8 x14 x15 x19
  | ⟨4, _⟩ => Cert.ReferenceIdeal.ReadP.val_main_v256 (F := Ideal) x0 x1 x2 x3 x4 x5 x6 x7 x8 x14 x15 x20
  | ⟨5, _⟩ => Cert.ReferenceIdeal.ReadP.val_main_v283 (F := Ideal) x0 x1 x2 x3 x4 x5 x6 x7 x8 x14 x15 x21
  | ⟨6, _⟩ => Cert.ReferenceIdeal.ReadP.val_main_v319 (F := Ideal) x0 x1 x2 x3 x4 x5 x6 x7 x8 x14 x15 x22

/-- The third launch's result array is the plain program's third layer (clamped once), given the third stretch's operands
    and the second layer's agreement. -/
theorem layer2_of
    (x0 : (⟨Cert.ReferenceIdeal.S100000x6, .f32⟩ : BufTy).Contents (Elt Ideal)) (x1 x2 : (⟨Cert.ReferenceIdeal.S2x6x16, .f32⟩ : BufTy).Contents (Elt Ideal)) (x3 : (⟨Cert.ReferenceIdeal.S2x16, .f32⟩ : BufTy).Contents (Elt Ideal)) (x4 x5 : (⟨Cert.ReferenceIdeal.S2x16x32, .f32⟩ : BufTy).Contents (Elt Ideal))
    (x6 : (⟨Cert.ReferenceIdeal.S2x32, .f32⟩ : BufTy).Contents (Elt Ideal)) (x7 : (⟨Cert.ReferenceIdeal.S16x32, .f32⟩ : BufTy).Contents (Elt Ideal)) (x8 : (⟨Cert.ReferenceIdeal.S32, .f32⟩ : BufTy).Contents (Elt Ideal)) (x9 x10 : (⟨Cert.ReferenceIdeal.S7x32x64, .f32⟩ : BufTy).Contents (Elt Ideal)) (x11 : (⟨Cert.ReferenceIdeal.S7x64, .f32⟩ : BufTy).Contents (Elt Ideal))
    (x12 : (⟨Cert.ReferenceIdeal.S32x64, .f32⟩ : BufTy).Contents (Elt Ideal)) (x13 : (⟨Cert.ReferenceIdeal.S64, .f32⟩ : BufTy).Contents (Elt Ideal)) (x14 x15 x16 x17 x18 x19 x20 x21 x22 : (⟨Cert.ReferenceIdeal.S2x800000, .i32⟩ : BufTy).Contents (Elt Ideal))
    (hfM : ∀ (q : Fin 7) (n : Fin 100000) (j : Fin 32), V5 m ρ c main_v206 (ix2 n ⟨32 * q.val + j.val, by omega⟩)
      = msgs2 x0 x1 x2 x3 x4 x5 x6 x7 x8 x14 x15 x16 x17 x18 x19 x20 x21 x22 q (ix2 n j))
    (hfX : ∀ (n : Fin 100000) (j : Fin 32), V5 m ρ c main_v206 (ix2 n ⟨224 + j.val, by omega⟩) = Cert.ReferenceIdeal.ReadP.val_main_v115 (F := Ideal) x0 x1 x2 x3 x4 x5 x6 x7 x8 x14 x15 (ix2 n j))
    (hwM : ∀ (q : Fin 7) (j : Fin 32) (k : Fin 64), V5 m ρ c main_v223 (ix2 ⟨32 * q.val + j.val, by omega⟩ k) = x9 (ix3 q j k))
    (hwR : ∀ (j : Fin 32) (k : Fin 64), V5 m ρ c main_v223 (ix2 ⟨224 + j.val, by omega⟩ k) = (0 + ∑ r : Fin 7, x10 (ix3 r j k)) + x12 (ix2 j k))
    (hb : ∀ k : Fin 64, V5 m ρ c main_v226 (ix2 0 k) = (0 + ∑ r : Fin 7, x11 (ix2 r k)) + x13 (ix1 k))
    (rH : AllReal (Cert.ReferenceIdeal.ReadP.val_main_v115 (F := Ideal) x0 x1 x2 x3 x4 x5 x6 x7 x8 x14 x15)) (rx10 : AllReal x10) (rx12 : AllReal x12) :
    W6 (F := Ideal) m ρ c (Proc.devRef .tc main_v227) = Cert.ReferenceIdeal.ReadP.val_main_v338 (F := Ideal) x0 x1 x2 x3 x4 x5 x6 x7 x8 x9 x10 x11 x12 x13 x14 x15 x16 x17 x18 x19 x20 x21 x22 := by
  rw [W6_out, region2 (V5 m ρ) c]
  funext i
  obtain ⟨n, k, rfl⟩ : ∃ (n : Fin 100000) (k : Fin 64), i = ix2 n k := ⟨i 0, i 1, eq_ix2 i⟩
  rw [Cert.ReferenceIdeal.Lay.ref2]
  exact Cert.Bridge.bridge2 _ _ _ _ _ _ _ _ _ _ hfM hfX hwM hwR hb rH rx10 rx12 n k

end Cert.KernelIdeal.Val

end
-- ==== Proof.LibConcatenateSimp.lean ====
/-
  Lemmas that let `simp` evaluate a fold of host operations through a `concatenate`.

  The contents of a buffer after a list of host operations is a fold; the library's result lemmas rewrite it one
  operation at a time. A `concatenate` holds its operands as the second components of dependent pairs, where `simp`
  does not rewrite on its own, and a `concatenate` of four operands printed over a literal family `![a, b, c, d]` looks
  its operands up at `![a, b, c, d] k`. With the two congruence lemmas below (tagged `congr` where they are used) and the
  four evaluations of a literal 4-vector added to the simp set, the fold is evaluated inside the operands as well.
-/
import Idealize.ShloMosaic.Lib.Pipeline.Value

namespace Cert.LibConcatenateSimp

open Idealize.ShloMosaic

/-- A two-operand `concatenate` of equal operands is the same array. -/
theorem concatenate2_congr {α : Type} {t s₁ s₂ : Shape} (a : Fin t.rank) {x₁ x₁' : s₁.Idx → α} {x₂ x₂' : s₂.Idx → α}
    (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by subst e₁ e₂; rfl

/-- A four-operand `concatenate` of equal operands is the same array. -/
theorem concatenate4_congr {α : Type} {t s₁ s₂ s₃ s₄ : Shape} (a : Fin t.rank) {x₁ x₁' : s₁.Idx → α} {x₂ x₂' : s₂.Idx → α}
    {x₃ x₃' : s₃.Idx → α} {x₄ x₄' : s₄.Idx → α}
    (h : Shape.Concatenates [s₁, s₂, s₃, s₄] t a) (e₁ : x₁ = x₁') (e₂ : x₂ = x₂') (e₃ : x₃ = x₃') (e₄ : x₄ = x₄') :
    concatenate t a [⟨s₁, x₁⟩, ⟨s₂, x₂⟩, ⟨s₃, x₃⟩, ⟨s₄, x₄⟩] h = concatenate t a [⟨s₁, x₁'⟩, ⟨s₂, x₂'⟩, ⟨s₃, x₃'⟩, ⟨s₄, x₄'⟩] h := by
  subst e₁ e₂ e₃ e₄; rfl

theorem vec4_at0 {α : Type} (a b c d : α) : (![a, b, c, d] : Fin 4 → α) 0 = a := rfl
theorem vec4_at1 {α : Type} (a b c d : α) : (![a, b, c, d] : Fin 4 → α) 1 = b := rfl
theorem vec4_at2 {α : Type} (a b c d : α) : (![a, b, c, d] : Fin 4 → α) 2 = c := rfl
theorem vec4_at3 {α : Type} (a b c d : α) : (![a, b, c, d] : Fin 4 → α) 3 = d := rfl

end Cert.LibConcatenateSimp
-- ==== Proof.KH.Nary.lean ====
/-
  Computing the contents of a buffer after a list of host operations, through concatenations.

  The contents after a list of operations is a fold; the library's result lemmas rewrite it one operation at a time.
  A concatenation holds its operands as the second components of dependent pairs, where a simplification pass does not
  rewrite on its own, and a concatenation of several operands printed over a literal family `![x₀, …]` looks its
  operands up at `![x₀, …] k`. With the congruence lemmas below (tagged `congr` where they are used) and the
  evaluations of a literal vector at its positions, the fold is evaluated inside the operands as well. The two- and
  four-operand congruences are the imported general file's; here are the other arities this program concatenates:
  three, seven and eight arrays.
-/
import Idealize.ShloMosaic.Lib.StableHlo.Run
import Idealize.ShloMosaic.Lib.Pipeline.Value
import proofs.«147223_j52493090291996_1_alg».proof.Proof.LibConcatenateSimp

namespace Cert.KernelIdeal.Host

open Idealize.ShloMosaic Idealize.ShloMosaic.StableHlo Idealize.SL.Sem

/-- A concatenation of 3 arrays of equal operands is the same array. -/
theorem concatenate3_congr {α : Type} {t s0 s1 s2 : Shape} (a : Fin t.rank) {x0 x0' : s0.Idx → α} {x1 x1' : s1.Idx → α} {x2 x2' : s2.Idx → α}
    (h : Shape.Concatenates [s0, s1, s2] t a) (e0 : x0 = x0') (e1 : x1 = x1') (e2 : x2 = x2') :
    concatenate t a [⟨s0, x0⟩, ⟨s1, x1⟩, ⟨s2, x2⟩] h = concatenate t a [⟨s0, x0'⟩, ⟨s1, x1'⟩, ⟨s2, x2'⟩] h := by
  subst e0 e1 e2; rfl

/-- A concatenation of 7 arrays of equal operands is the same array. -/
theorem concatenate7_congr {α : Type} {t s0 s1 s2 s3 s4 s5 s6 : Shape} (a : Fin t.rank) {x0 x0' : s0.Idx → α} {x1 x1' : s1.Idx → α} {x2 x2' : s2.Idx → α} {x3 x3' : s3.Idx → α} {x4 x4' : s4.Idx → α} {x5 x5' : s5.Idx → α} {x6 x6' : s6.Idx → α}
    (h : Shape.Concatenates [s0, s1, s2, s3, s4, s5, s6] t a) (e0 : x0 = x0') (e1 : x1 = x1') (e2 : x2 = x2') (e3 : x3 = x3') (e4 : x4 = x4') (e5 : x5 = x5') (e6 : x6 = x6') :
    concatenate t a [⟨s0, x0⟩, ⟨s1, x1⟩, ⟨s2, x2⟩, ⟨s3, x3⟩, ⟨s4, x4⟩, ⟨s5, x5⟩, ⟨s6, x6⟩] h = concatenate t a [⟨s0, x0'⟩, ⟨s1, x1'⟩, ⟨s2, x2'⟩, ⟨s3, x3'⟩, ⟨s4, x4'⟩, ⟨s5, x5'⟩, ⟨s6, x6'⟩] h := by
  subst e0 e1 e2 e3 e4 e5 e6; rfl

/-- A concatenation of 8 arrays of equal operands is the same array. -/
theorem concatenate8_congr {α : Type} {t s0 s1 s2 s3 s4 s5 s6 s7 : Shape} (a : Fin t.rank) {x0 x0' : s0.Idx → α} {x1 x1' : s1.Idx → α} {x2 x2' : s2.Idx → α} {x3 x3' : s3.Idx → α} {x4 x4' : s4.Idx → α} {x5 x5' : s5.Idx → α} {x6 x6' : s6.Idx → α} {x7 x7' : s7.Idx → α}
    (h : Shape.Concatenates [s0, s1, s2, s3, s4, s5, s6, s7] t a) (e0 : x0 = x0') (e1 : x1 = x1') (e2 : x2 = x2') (e3 : x3 = x3') (e4 : x4 = x4') (e5 : x5 = x5') (e6 : x6 = x6') (e7 : x7 = x7') :
    concatenate t a [⟨s0, x0⟩, ⟨s1, x1⟩, ⟨s2, x2⟩, ⟨s3, x3⟩, ⟨s4, x4⟩, ⟨s5, x5⟩, ⟨s6, x6⟩, ⟨s7, x7⟩] h = concatenate t a [⟨s0, x0'⟩, ⟨s1, x1'⟩, ⟨s2, x2'⟩, ⟨s3, x3'⟩, ⟨s4, x4'⟩, ⟨s5, x5'⟩, ⟨s6, x6'⟩, ⟨s7, x7'⟩] h := by
  subst e0 e1 e2 e3 e4 e5 e6 e7; rfl

theorem vec3_at0 {α : Type} (v0 v1 v2 : α) : (![v0, v1, v2] : Fin 3 → α) 0 = v0 := rfl
theorem vec3_at1 {α : Type} (v0 v1 v2 : α) : (![v0, v1, v2] : Fin 3 → α) 1 = v1 := rfl
theorem vec3_at2 {α : Type} (v0 v1 v2 : α) : (![v0, v1, v2] : Fin 3 → α) 2 = v2 := rfl
theorem vec7_at0 {α : Type} (v0 v1 v2 v3 v4 v5 v6 : α) : (![v0, v1, v2, v3, v4, v5, v6] : Fin 7 → α) 0 = v0 := rfl
theorem vec7_at1 {α : Type} (v0 v1 v2 v3 v4 v5 v6 : α) : (![v0, v1, v2, v3, v4, v5, v6] : Fin 7 → α) 1 = v1 := rfl
theorem vec7_at2 {α : Type} (v0 v1 v2 v3 v4 v5 v6 : α) : (![v0, v1, v2, v3, v4, v5, v6] : Fin 7 → α) 2 = v2 := rfl
theorem vec7_at3 {α : Type} (v0 v1 v2 v3 v4 v5 v6 : α) : (![v0, v1, v2, v3, v4, v5, v6] : Fin 7 → α) 3 = v3 := rfl
theorem vec7_at4 {α : Type} (v0 v1 v2 v3 v4 v5 v6 : α) : (![v0, v1, v2, v3, v4, v5, v6] : Fin 7 → α) 4 = v4 := rfl
theorem vec7_at5 {α : Type} (v0 v1 v2 v3 v4 v5 v6 : α) : (![v0, v1, v2, v3, v4, v5, v6] : Fin 7 → α) 5 = v5 := rfl
theorem vec7_at6 {α : Type} (v0 v1 v2 v3 v4 v5 v6 : α) : (![v0, v1, v2, v3, v4, v5, v6] : Fin 7 → α) 6 = v6 := rfl
theorem vec8_at0 {α : Type} (v0 v1 v2 v3 v4 v5 v6 v7 : α) : (![v0, v1, v2, v3, v4, v5, v6, v7] : Fin 8 → α) 0 = v0 := rfl
theorem vec8_at1 {α : Type} (v0 v1 v2 v3 v4 v5 v6 v7 : α) : (![v0, v1, v2, v3, v4, v5, v6, v7] : Fin 8 → α) 1 = v1 := rfl
theorem vec8_at2 {α : Type} (v0 v1 v2 v3 v4 v5 v6 v7 : α) : (![v0, v1, v2, v3, v4, v5, v6, v7] : Fin 8 → α) 2 = v2 := rfl
theorem vec8_at3 {α : Type} (v0 v1 v2 v3 v4 v5 v6 v7 : α) : (![v0, v1, v2, v3, v4, v5, v6, v7] : Fin 8 → α) 3 = v3 := rfl
theorem vec8_at4 {α : Type} (v0 v1 v2 v3 v4 v5 v6 v7 : α) : (![v0, v1, v2, v3, v4, v5, v6, v7] : Fin 8 → α) 4 = v4 := rfl
theorem vec8_at5 {α : Type} (v0 v1 v2 v3 v4 v5 v6 v7 : α) : (![v0, v1, v2, v3, v4, v5, v6, v7] : Fin 8 → α) 5 = v5 := rfl
theorem vec8_at6 {α : Type} (v0 v1 v2 v3 v4 v5 v6 v7 : α) : (![v0, v1, v2, v3, v4, v5, v6, v7] : Fin 8 → α) 6 = v6 := rfl
theorem vec8_at7 {α : Type} (v0 v1 v2 v3 v4 v5 v6 v7 : α) : (![v0, v1, v2, v3, v4, v5, v6, v7] : Fin 8 → α) 7 = v7 := rfl

/-- The contents of one buffer after a literal list of host operations, as one simplification pass: each operation's
    result at its own buffer is its function of the operands' contents, at another buffer what was there before; a
    concatenation's operands are looked up in its literal family. -/
macro "after_results_cat" : tactic =>
  `(tactic| (simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne',
      vec3_at0, vec3_at1, vec3_at2,
      vec7_at0, vec7_at1, vec7_at2, vec7_at3, vec7_at4, vec7_at5, vec7_at6,
      vec8_at0, vec8_at1, vec8_at2, vec8_at3, vec8_at4, vec8_at5, vec8_at6, vec8_at7]))

end Cert.KernelIdeal.Host
-- ==== Proof.KH.S0.lean ====
import proofs.«147223_j52493090291996_1_alg».proof.Proof.Gen.KernelIdeal.Launch
import proofs.«147223_j52493090291996_1_alg».proof.Proof.RefRead
import proofs.«147223_j52493090291996_1_alg».proof.Proof.KH.Nary
import Idealize.ShloMosaic.Lib.Pipeline.Value
import Idealize.ShloMosaic.Lib.ValueIdx
import Idealize.ShloMosaic.Lib.IdealHost
import Idealize.ShloMosaic.PureOps.Ideal.Laws

set_option maxRecDepth 3224

noncomputable section

namespace Cert.KernelIdeal.Host

open Idealize.ShloMosaic Idealize.ShloMosaic.TcCoe Idealize.SL.Sem Idealize.ShloMosaic.StableHlo
open Idealize.ShloMosaic.ValueIdx
open Cert.KernelIdeal Cert.KernelIdeal.Gen
open scoped BigOperators

attribute [local congr] Cert.LibConcatenateSimp.concatenate2_congr concatenate3_congr concatenate7_congr concatenate8_congr

open Cert.ReferenceIdeal.ReadP (val_main_v14 val_main_v41)

variable (W : Valuation τ sig (Elt Ideal))

/-! ## The features of launch 0: the two messages of the node features, then the node features, side by side -/

/-- The feature array as a term: the reference's two layer-0 messages and the node features, concatenated along the
    feature axis. The messages are the same gathers and scatter-adds as the reference's, over the same index arrays. -/
theorem feat0_term :
    StableHlo.after (hostOps0 (F := Ideal)) W (Proc.devRef .tc main_v29) =
      concatenate S100000x18 1
        [⟨S100000x12, concatenate S100000x12 1
            [⟨S100000x6, val_main_v14 (F := Ideal) (W (Proc.devRef .tc main_arg0)) (W (Proc.devRef .tc main_arg14))⟩,
             ⟨S100000x6, val_main_v41 (F := Ideal) (W (Proc.devRef .tc main_arg0)) (W (Proc.devRef .tc main_arg15))⟩]
            concatenates_S100000x6_S100000x6_S100000x12_d1⟩,
         ⟨S100000x6, (W (Proc.devRef .tc main_arg0))⟩]
        concatenates_S100000x12_S100000x6_S100000x18_d1 := by
  after_results_cat
  rfl

/-- Columns 0 … 5 of the features: the message along the first edge set. -/
theorem feat0_msg0 (n : Fin 100000) (j : Fin 6) :
    StableHlo.after (hostOps0 (F := Ideal)) W (Proc.devRef .tc main_v29) (ix2 n (⟨j.val, Nat.lt_of_lt_of_le j.isLt (by decide)⟩ : Fin 18))
      = val_main_v14 (F := Ideal) (W (Proc.devRef .tc main_arg0)) (W (Proc.devRef .tc main_arg14)) (ix2 n j) := by
  rw [feat0_term]
  refine Eq.trans (concatenate_pair_apply_left (t := S100000x18) (s₁ := S100000x12) (s₂ := S100000x6) 1 _ _
    concatenates_S100000x12_S100000x6_S100000x18_d1 _ rfl
    (ix2 n (⟨j.val, Nat.lt_of_lt_of_le j.isLt (by decide)⟩ : Fin 12)) (fun b => match b with | ⟨0, _⟩ => rfl | ⟨1, _⟩ => rfl)) ?_
  exact concatenate_pair_apply_left (t := S100000x12) (s₁ := S100000x6) (s₂ := S100000x6) 1 _ _
    concatenates_S100000x6_S100000x6_S100000x12_d1 _ rfl (ix2 n j) (fun b => match b with | ⟨0, _⟩ => rfl | ⟨1, _⟩ => rfl)

/-- Columns 6 … 11 of the features: the message along the second edge set. -/
theorem feat0_msg1 (n : Fin 100000) (j : Fin 6) :
    StableHlo.after (hostOps0 (F := Ideal)) W (Proc.devRef .tc main_v29) (ix2 n (⟨6 + j.val, by have := j.isLt; omega⟩ : Fin 18))
      = val_main_v41 (F := Ideal) (W (Proc.devRef .tc main_arg0)) (W (Proc.devRef .tc main_arg15)) (ix2 n j) := by
  rw [feat0_term]
  refine Eq.trans (concatenate_pair_apply_left (t := S100000x18) (s₁ := S100000x12) (s₂ := S100000x6) 1 _ _
    concatenates_S100000x12_S100000x6_S100000x18_d1 _ rfl
    (ix2 n (⟨6 + j.val, by have := j.isLt; omega⟩ : Fin 12)) (fun b => match b with | ⟨0, _⟩ => rfl | ⟨1, _⟩ => rfl)) ?_
  exact concatenate_pair_apply_right (t := S100000x12) (s₁ := S100000x6) (s₂ := S100000x6) 1 _ _
    concatenates_S100000x6_S100000x6_S100000x12_d1 _ rfl rfl (ix2 n j) (fun b hb => match b, hb with | ⟨0, _⟩, _ => rfl | ⟨1, _⟩, hb => absurd rfl hb)
    (by show j.val + 6 = 6 + j.val; omega)

/-- Columns 12 … 17 of the features: the node features themselves. -/
theorem feat0_self (n : Fin 100000) (j : Fin 6) :
    StableHlo.after (hostOps0 (F := Ideal)) W (Proc.devRef .tc main_v29) (ix2 n (⟨12 + j.val, by have := j.isLt; omega⟩ : Fin 18))
      = (W (Proc.devRef .tc main_arg0)) (ix2 n j) := by
  rw [feat0_term]
  exact concatenate_pair_apply_right (t := S100000x18) (s₁ := S100000x12) (s₂ := S100000x6) 1 _ _
    concatenates_S100000x12_S100000x6_S100000x18_d1 _ rfl rfl (ix2 n j) (fun b hb => match b, hb with | ⟨0, _⟩, _ => rfl | ⟨1, _⟩, hb => absurd rfl hb)
    (by show j.val + 12 = 12 + j.val; omega)

/-! ## The weights of launch 0: the two neighbour weights and the sum over relations of the root weights, stacked -/

theorem wcat0_term :
    StableHlo.after (hostOps0 (F := Ideal)) W (Proc.devRef .tc main_v35) =
      concatenate S18x16 0
        [⟨S6x16, shapeCast S6x16 (extractStridedSlice S1x6x16 ![0, 0, 0] (W (Proc.devRef .tc main_arg1)) slices_S2x6x16_S1x6x16_0_0_0) shapeCasts_S1x6x16_S6x16⟩,
         ⟨S6x16, shapeCast S6x16 (extractStridedSlice S1x6x16 ![1, 0, 0] (W (Proc.devRef .tc main_arg1)) slices_S2x6x16_S1x6x16_1_0_0) shapeCasts_S1x6x16_S6x16⟩,
         ⟨S6x16, Host.reduceAdd (W (Proc.devRef .tc main_arg2)) (constant (F := Ideal) S_ .f32 0x00000000#32) reducesTo_S2x6x16_S6x16_d0 h_S_⟩]
        concatenates_S6x16_S6x16_S6x16_S18x16_d0 := by
  after_results_cat
  rfl

/-- A slice of one relation of a [2, 6, 16] weight, reshaped to [6, 16], read at an entry. -/
theorem nbr0_apply (x : S2x6x16.Idx → EReal) (r : Fin 2) (hs : S2x6x16.Slices ![r.val, 0, 0] S1x6x16) (j : Fin 6) (c : Fin 16) :
    shapeCast S6x16 (extractStridedSlice S1x6x16 ![r.val, 0, 0] x hs) shapeCasts_S1x6x16_S6x16 (ix2 j c) = x (ix3 r j c) := by
  refine Eq.trans (shapeCast_apply _ shapeCasts_S1x6x16_S6x16 (ix2 j c) (ix3 (0 : Fin 1) j c)
    (by rewrite [Shape.rowMajor_val_three, Shape.rowMajor_val_two]
        show ((0 : Nat) * 6 + j.val) * 16 + c.val = j.val * 16 + c.val; omega)) ?_
  exact extractStridedSlice_apply ![r.val, 0, 0] x hs (ix3 (0 : Fin 1) j c) (ix3 r j c)
    (fun a => match a with
      | ⟨0, _⟩ => by show r.val = r.val + 0; omega
      | ⟨1, _⟩ => by show j.val = 0 + j.val; omega
      | ⟨2, _⟩ => by show c.val = 0 + c.val; omega)

/-- Rows 0 … 5 of the weights: the neighbour weight of the first relation. -/
theorem wcat0_nbr0 (j : Fin 6) (c : Fin 16) :
    StableHlo.after (hostOps0 (F := Ideal)) W (Proc.devRef .tc main_v35) (ix2 (⟨j.val, Nat.lt_of_lt_of_le j.isLt (by decide)⟩ : Fin 18) c)
      = (W (Proc.devRef .tc main_arg1)) (ix3 (0 : Fin 2) j c) := by
  rw [wcat0_term]
  refine Eq.trans (concatenate_apply_piece (t := S18x16) 0 _ _ _ 0 (by show (0 : Nat) < 3; decide) S6x16 _ rfl rfl 0 rfl
    (ix2 j c) (fun b hb => match b, hb with | ⟨0, _⟩, hb => absurd rfl hb | ⟨1, _⟩, _ => rfl) (by show 0 + j.val = j.val; omega)) ?_
  exact nbr0_apply (W (Proc.devRef .tc main_arg1)) 0 slices_S2x6x16_S1x6x16_0_0_0 j c

/-- Rows 6 … 11 of the weights: the neighbour weight of the second relation. -/
theorem wcat0_nbr1 (j : Fin 6) (c : Fin 16) :
    StableHlo.after (hostOps0 (F := Ideal)) W (Proc.devRef .tc main_v35) (ix2 (⟨6 + j.val, by have := j.isLt; omega⟩ : Fin 18) c)
      = (W (Proc.devRef .tc main_arg1)) (ix3 (1 : Fin 2) j c) := by
  rw [wcat0_term]
  refine Eq.trans (concatenate_apply_piece (t := S18x16) 0 _ _ _ 1 (by show (1 : Nat) < 3; decide) S6x16 _ rfl rfl 6 rfl
    (ix2 j c) (fun b hb => match b, hb with | ⟨0, _⟩, hb => absurd rfl hb | ⟨1, _⟩, _ => rfl) (by show 6 + j.val = 6 + j.val; rfl)) ?_
  exact nbr0_apply (W (Proc.devRef .tc main_arg1)) 1 slices_S2x6x16_S1x6x16_1_0_0 j c

/-- Rows 12 … 17 of the weights: the root weights summed over the two relations, from the printed zero. -/
theorem wcat0_root (j : Fin 6) (c : Fin 16) :
    StableHlo.after (hostOps0 (F := Ideal)) W (Proc.devRef .tc main_v35) (ix2 (⟨12 + j.val, by have := j.isLt; omega⟩ : Fin 18) c)
      = (0 : EReal) + Finset.sum (M := EReal) Finset.univ fun r : Fin 2 => W (Proc.devRef .tc main_arg2) (ix3 r j c) := by
  rw [wcat0_term]
  refine Eq.trans (concatenate_apply_piece (t := S18x16) 0 _ _ _ 2 (by show (2 : Nat) < 3; decide) S6x16 _ rfl rfl 12 rfl
    (ix2 j c) (fun b hb => match b, hb with | ⟨0, _⟩, hb => absurd rfl hb | ⟨1, _⟩, _ => rfl) (by show 12 + j.val = 12 + j.val; rfl)) ?_
  rw [hostReduceAdd_apply, Ideal.hostReduceAdd_single reducesTo_S2x6x16_S6x16_d0 (by decide : S2x6x16.Reduces [0] S6x16)]
  refine congrArg₂ (· + ·) Ideal.ofBits_zero_f32 (Finset.sum_congr rfl fun r _ => congrArg _ ?_)
  funext a
  match a with
  | ⟨0, _⟩ => rfl
  | ⟨1, _⟩ => rfl
  | ⟨2, _⟩ => rfl

/-! ## The bias of launch 0: the biases summed over the two relations, as a row -/

theorem bcat0_term :
    StableHlo.after (hostOps0 (F := Ideal)) W (Proc.devRef .tc main_v37) =
      shapeCast S1x16 (Host.reduceAdd (W (Proc.devRef .tc main_arg3)) (constant (F := Ideal) S_ .f32 0x00000000#32) reducesTo_S2x16_S16_d0 h_S_) shapeCasts_S16_S1x16 := by
  after_results_cat
  rfl

theorem bcat0_apply (c : Fin 16) :
    StableHlo.after (hostOps0 (F := Ideal)) W (Proc.devRef .tc main_v37) (ix2 (0 : Fin 1) c) = (0 : EReal) + Finset.sum (M := EReal) Finset.univ fun r : Fin 2 => W (Proc.devRef .tc main_arg3) (ix2 r c) := by
  rw [bcat0_term]
  refine Eq.trans (shapeCast_apply _ shapeCasts_S16_S1x16 (ix2 (0 : Fin 1) c) (ix1 c)
    (by rewrite [Shape.rowMajor_val_one, Shape.rowMajor_val_two]
        show c.val = (0 : Nat) * 16 + c.val; omega)) ?_
  rw [hostReduceAdd_apply, Ideal.hostReduceAdd_single reducesTo_S2x16_S16_d0 (by decide : S2x16.Reduces [0] S16)]
  refine congrArg₂ (· + ·) Ideal.ofBits_zero_f32 (Finset.sum_congr rfl fun r _ => congrArg _ ?_)
  funext a
  match a with
  | ⟨0, _⟩ => rfl
  | ⟨1, _⟩ => rfl

end Cert.KernelIdeal.Host

end
-- ==== Proof.KH.S1.lean ====
import proofs.«147223_j52493090291996_1_alg».proof.Proof.Gen.KernelIdeal.Launch
import proofs.«147223_j52493090291996_1_alg».proof.Proof.RefRead
import proofs.«147223_j52493090291996_1_alg».proof.Proof.KH.Nary
import Idealize.ShloMosaic.Lib.Pipeline.Value
import Idealize.ShloMosaic.Lib.ValueIdx
import Idealize.ShloMosaic.Lib.IdealHost
import Idealize.ShloMosaic.PureOps.Ideal.Laws

set_option maxRecDepth 3224

noncomputable section

namespace Cert.KernelIdeal.Host

open Idealize.ShloMosaic Idealize.ShloMosaic.TcCoe Idealize.SL.Sem Idealize.ShloMosaic.StableHlo
open Idealize.ShloMosaic.ValueIdx
open Cert.KernelIdeal Cert.KernelIdeal.Gen
open scoped BigOperators

attribute [local congr] Cert.LibConcatenateSimp.concatenate2_congr concatenate3_congr concatenate7_congr concatenate8_congr

open Cert.ReferenceIdeal.ReadP (val_main_v54 val_main_v69 val_main_v96)

variable (W : Valuation τ sig (Elt Ideal))

/-! ## The features of launch 1: the two messages of the first layer's output, then that output, side by side

The stretch gathers rows of the buffer holding the first layer's output and adds them up at their destination rows,
once per edge set, exactly as the reference does on its own first-layer output; so once that buffer holds the
reference's first-layer output, the two messages are the reference's. -/

/-- The feature array as a term: the reference's two layer-1 messages and the first layer's output, concatenated along
    the feature axis. -/
theorem feat1_term (hh : W (Proc.devRef .tc main_v38) = val_main_v54 (F := Ideal) (W (Proc.devRef .tc main_arg0)) (W (Proc.devRef .tc main_arg1)) (W (Proc.devRef .tc main_arg2)) (W (Proc.devRef .tc main_arg3)) (W (Proc.devRef .tc main_arg14)) (W (Proc.devRef .tc main_arg15))) :
    StableHlo.after (hostOps1 (F := Ideal)) W (Proc.devRef .tc main_v68) =
      concatenate S100000x48 1
        [⟨S100000x32, concatenate S100000x32 1
            [⟨S100000x16, val_main_v69 (F := Ideal) (W (Proc.devRef .tc main_arg0)) (W (Proc.devRef .tc main_arg1)) (W (Proc.devRef .tc main_arg2)) (W (Proc.devRef .tc main_arg3)) (W (Proc.devRef .tc main_arg14)) (W (Proc.devRef .tc main_arg15))⟩,
             ⟨S100000x16, val_main_v96 (F := Ideal) (W (Proc.devRef .tc main_arg0)) (W (Proc.devRef .tc main_arg1)) (W (Proc.devRef .tc main_arg2)) (W (Proc.devRef .tc main_arg3)) (W (Proc.devRef .tc main_arg14)) (W (Proc.devRef .tc main_arg15))⟩]
            concatenates_S100000x16_S100000x16_S100000x32_d1⟩,
         ⟨S100000x16, (W (Proc.devRef .tc main_v38))⟩]
        concatenates_S100000x32_S100000x16_S100000x48_d1 := by
  after_results_cat
  rw [hh]
  rfl

/-- Columns 0 … 15 of the features: the message along the first edge set. -/
theorem feat1_msg0 (hh : W (Proc.devRef .tc main_v38) = val_main_v54 (F := Ideal) (W (Proc.devRef .tc main_arg0)) (W (Proc.devRef .tc main_arg1)) (W (Proc.devRef .tc main_arg2)) (W (Proc.devRef .tc main_arg3)) (W (Proc.devRef .tc main_arg14)) (W (Proc.devRef .tc main_arg15))) (n : Fin 100000) (j : Fin 16) :
    StableHlo.after (hostOps1 (F := Ideal)) W (Proc.devRef .tc main_v68) (ix2 n (⟨j.val, by have := j.isLt; omega⟩ : Fin 48))
      = val_main_v69 (F := Ideal) (W (Proc.devRef .tc main_arg0)) (W (Proc.devRef .tc main_arg1)) (W (Proc.devRef .tc main_arg2)) (W (Proc.devRef .tc main_arg3)) (W (Proc.devRef .tc main_arg14)) (W (Proc.devRef .tc main_arg15)) (ix2 n j) := by
  rw [feat1_term W hh]
  refine Eq.trans (concatenate_pair_apply_left (t := S100000x48) (s₁ := S100000x32) (s₂ := S100000x16) 1 _ _
    concatenates_S100000x32_S100000x16_S100000x48_d1 _ rfl
    (ix2 n (⟨j.val, by have := j.isLt; omega⟩ : Fin 32)) (fun b => match b with | ⟨0, _⟩ => rfl | ⟨1, _⟩ => rfl)) ?_
  exact concatenate_pair_apply_left (t := S100000x32) (s₁ := S100000x16) (s₂ := S100000x16) 1 _ _
    concatenates_S100000x16_S100000x16_S100000x32_d1 _ rfl (ix2 n j) (fun b => match b with | ⟨0, _⟩ => rfl | ⟨1, _⟩ => rfl)

/-- Columns 16 … 31 of the features: the message along the second edge set. -/
theorem feat1_msg1 (hh : W (Proc.devRef .tc main_v38) = val_main_v54 (F := Ideal) (W (Proc.devRef .tc main_arg0)) (W (Proc.devRef .tc main_arg1)) (W (Proc.devRef .tc main_arg2)) (W (Proc.devRef .tc main_arg3)) (W (Proc.devRef .tc main_arg14)) (W (Proc.devRef .tc main_arg15))) (n : Fin 100000) (j : Fin 16) :
    StableHlo.after (hostOps1 (F := Ideal)) W (Proc.devRef .tc main_v68) (ix2 n (⟨16 + j.val, by have := j.isLt; omega⟩ : Fin 48))
      = val_main_v96 (F := Ideal) (W (Proc.devRef .tc main_arg0)) (W (Proc.devRef .tc main_arg1)) (W (Proc.devRef .tc main_arg2)) (W (Proc.devRef .tc main_arg3)) (W (Proc.devRef .tc main_arg14)) (W (Proc.devRef .tc main_arg15)) (ix2 n j) := by
  rw [feat1_term W hh]
  refine Eq.trans (concatenate_pair_apply_left (t := S100000x48) (s₁ := S100000x32) (s₂ := S100000x16) 1 _ _
    concatenates_S100000x32_S100000x16_S100000x48_d1 _ rfl
    (ix2 n (⟨16 + j.val, by have := j.isLt; omega⟩ : Fin 32)) (fun b => match b with | ⟨0, _⟩ => rfl | ⟨1, _⟩ => rfl)) ?_
  exact concatenate_pair_apply_right (t := S100000x32) (s₁ := S100000x16) (s₂ := S100000x16) 1 _ _
    concatenates_S100000x16_S100000x16_S100000x32_d1 _ rfl rfl (ix2 n j) (fun b hb => match b, hb with | ⟨0, _⟩, _ => rfl | ⟨1, _⟩, hb => absurd rfl hb)
    (by show j.val + 16 = 16 + j.val; omega)

/-- Columns 32 … 47 of the features: the first layer's output itself. -/
theorem feat1_self (hh : W (Proc.devRef .tc main_v38) = val_main_v54 (F := Ideal) (W (Proc.devRef .tc main_arg0)) (W (Proc.devRef .tc main_arg1)) (W (Proc.devRef .tc main_arg2)) (W (Proc.devRef .tc main_arg3)) (W (Proc.devRef .tc main_arg14)) (W (Proc.devRef .tc main_arg15))) (n : Fin 100000) (j : Fin 16) :
    StableHlo.after (hostOps1 (F := Ideal)) W (Proc.devRef .tc main_v68) (ix2 n (⟨32 + j.val, by have := j.isLt; omega⟩ : Fin 48))
      = (W (Proc.devRef .tc main_v38)) (ix2 n j) := by
  rw [feat1_term W hh]
  exact concatenate_pair_apply_right (t := S100000x48) (s₁ := S100000x32) (s₂ := S100000x16) 1 _ _
    concatenates_S100000x32_S100000x16_S100000x48_d1 _ rfl rfl (ix2 n j) (fun b hb => match b, hb with | ⟨0, _⟩, _ => rfl | ⟨1, _⟩, hb => absurd rfl hb)
    (by show j.val + 32 = 32 + j.val; omega)

/-! ## The weights of launch 1: the two neighbour weights, then the root weights summed over the relations plus the
projection, stacked -/

theorem wcat1_term :
    StableHlo.after (hostOps1 (F := Ideal)) W (Proc.devRef .tc main_v75) =
      concatenate S48x32 0
        [⟨S16x32, shapeCast S16x32 (extractStridedSlice S1x16x32 ![0, 0, 0] (W (Proc.devRef .tc main_arg4)) slices_S2x16x32_S1x16x32_0_0_0) shapeCasts_S1x16x32_S16x32⟩,
         ⟨S16x32, shapeCast S16x32 (extractStridedSlice S1x16x32 ![1, 0, 0] (W (Proc.devRef .tc main_arg4)) slices_S2x16x32_S1x16x32_1_0_0) shapeCasts_S1x16x32_S16x32⟩,
         ⟨S16x32, addf (Host.reduceAdd (W (Proc.devRef .tc main_arg5)) (constant (F := Ideal) S_ .f32 0x00000000#32) reducesTo_S2x16x32_S16x32_d0 h_S_) (W (Proc.devRef .tc main_arg7))⟩]
        concatenates_S16x32_S16x32_S16x32_S48x32_d0 := by
  after_results_cat
  rfl

/-- A slice of one relation of a [2, 16, 32] weight, reshaped to [16, 32], read at an entry. -/
theorem nbr1_apply (x : S2x16x32.Idx → EReal) (r : Fin 2) (hs : S2x16x32.Slices ![r.val, 0, 0] S1x16x32) (j : Fin 16) (c : Fin 32) :
    shapeCast S16x32 (extractStridedSlice S1x16x32 ![r.val, 0, 0] x hs) shapeCasts_S1x16x32_S16x32 (ix2 j c) = x (ix3 r j c) := by
  refine Eq.trans (shapeCast_apply _ shapeCasts_S1x16x32_S16x32 (ix2 j c) (ix3 (0 : Fin 1) j c)
    (by rewrite [Shape.rowMajor_val_three, Shape.rowMajor_val_two]
        show ((0 : Nat) * 16 + j.val) * 32 + c.val = j.val * 32 + c.val; omega)) ?_
  exact extractStridedSlice_apply ![r.val, 0, 0] x hs (ix3 (0 : Fin 1) j c) (ix3 r j c)
    (fun a => match a with
      | ⟨0, _⟩ => by show r.val = r.val + 0; omega
      | ⟨1, _⟩ => by show j.val = 0 + j.val; omega
      | ⟨2, _⟩ => by show c.val = 0 + c.val; omega)

/-- Rows 0 … 15 of the weights: the neighbour weight of the first relation. -/
theorem wcat1_nbr0 (j : Fin 16) (c : Fin 32) :
    StableHlo.after (hostOps1 (F := Ideal)) W (Proc.devRef .tc main_v75) (ix2 (⟨j.val, by have := j.isLt; omega⟩ : Fin 48) c)
      = (W (Proc.devRef .tc main_arg4)) (ix3 (0 : Fin 2) j c) := by
  rw [wcat1_term]
  refine Eq.trans (concatenate_apply_piece (t := S48x32) 0 _ _ _ 0 (by show (0 : Nat) < 3; decide) S16x32 _ rfl rfl 0 rfl
    (ix2 j c) (fun b hb => match b, hb with | ⟨0, _⟩, hb => absurd rfl hb | ⟨1, _⟩, _ => rfl) (by show 0 + j.val = j.val; omega)) ?_
  exact nbr1_apply (W (Proc.devRef .tc main_arg4)) 0 slices_S2x16x32_S1x16x32_0_0_0 j c

/-- Rows 16 … 31 of the weights: the neighbour weight of the second relation. -/
theorem wcat1_nbr1 (j : Fin 16) (c : Fin 32) :
    StableHlo.after (hostOps1 (F := Ideal)) W (Proc.devRef .tc main_v75) (ix2 (⟨16 + j.val, by have := j.isLt; omega⟩ : Fin 48) c)
      = (W (Proc.devRef .tc main_arg4)) (ix3 (1 : Fin 2) j c) := by
  rw [wcat1_term]
  refine Eq.trans (concatenate_apply_piece (t := S48x32) 0 _ _ _ 1 (by show (1 : Nat) < 3; decide) S16x32 _ rfl rfl 16 rfl
    (ix2 j c) (fun b hb => match b, hb with | ⟨0, _⟩, hb => absurd rfl hb | ⟨1, _⟩, _ => rfl) (by show 16 + j.val = 16 + j.val; rfl)) ?_
  exact nbr1_apply (W (Proc.devRef .tc main_arg4)) 1 slices_S2x16x32_S1x16x32_1_0_0 j c

/-- Rows 32 … 47 of the weights: the root weights summed over the two relations, from the printed zero, plus the
    projection. -/
theorem wcat1_root (j : Fin 16) (c : Fin 32) :
    StableHlo.after (hostOps1 (F := Ideal)) W (Proc.devRef .tc main_v75) (ix2 (⟨32 + j.val, by have := j.isLt; omega⟩ : Fin 48) c)
      = HAdd.hAdd (α := EReal) (β := EReal)
          ((0 : EReal) + Finset.sum (M := EReal) Finset.univ fun r : Fin 2 => (W (Proc.devRef .tc main_arg5)) (ix3 r j c))
          ((W (Proc.devRef .tc main_arg7)) (ix2 j c)) := by
  rw [wcat1_term]
  refine Eq.trans (concatenate_apply_piece (t := S48x32) 0 _ _ _ 2 (by show (2 : Nat) < 3; decide) S16x32 _ rfl rfl 32 rfl
    (ix2 j c) (fun b hb => match b, hb with | ⟨0, _⟩, hb => absurd rfl hb | ⟨1, _⟩, _ => rfl) (by show 32 + j.val = 32 + j.val; rfl)) ?_
  refine (addf_apply _ _ _).trans (congrArg₂ (· + ·) ?_ rfl)
  rw [hostReduceAdd_apply, Ideal.hostReduceAdd_single reducesTo_S2x16x32_S16x32_d0 (by decide : S2x16x32.Reduces [0] S16x32)]
  refine congrArg₂ (· + ·) Ideal.ofBits_zero_f32 (Finset.sum_congr rfl fun r _ => congrArg _ ?_)
  funext a
  match a with
  | ⟨0, _⟩ => rfl
  | ⟨1, _⟩ => rfl
  | ⟨2, _⟩ => rfl

/-! ## The bias of launch 1: the biases summed over the two relations plus the projection's bias, as a row -/

theorem bcat1_term :
    StableHlo.after (hostOps1 (F := Ideal)) W (Proc.devRef .tc main_v78) =
      shapeCast S1x32 (addf (Host.reduceAdd (W (Proc.devRef .tc main_arg6)) (constant (F := Ideal) S_ .f32 0x00000000#32) reducesTo_S2x32_S32_d0 h_S_) (W (Proc.devRef .tc main_arg8))) shapeCasts_S32_S1x32 := by
  after_results_cat
  rfl

theorem bcat1_apply (c : Fin 32) :
    StableHlo.after (hostOps1 (F := Ideal)) W (Proc.devRef .tc main_v78) (ix2 (0 : Fin 1) c)
      = HAdd.hAdd (α := EReal) (β := EReal)
          ((0 : EReal) + Finset.sum (M := EReal) Finset.univ fun r : Fin 2 => (W (Proc.devRef .tc main_arg6)) (ix2 r c))
          ((W (Proc.devRef .tc main_arg8)) (ix1 c)) := by
  rw [bcat1_term]
  refine Eq.trans (shapeCast_apply _ shapeCasts_S32_S1x32 (ix2 (0 : Fin 1) c) (ix1 c)
    (by rewrite [Shape.rowMajor_val_one, Shape.rowMajor_val_two]
        show c.val = (0 : Nat) * 32 + c.val; omega)) ?_
  refine (addf_apply _ _ _).trans (congrArg₂ (· + ·) ?_ rfl)
  rw [hostReduceAdd_apply, Ideal.hostReduceAdd_single reducesTo_S2x32_S32_d0 (by decide : S2x32.Reduces [0] S32)]
  refine congrArg₂ (· + ·) Ideal.ofBits_zero_f32 (Finset.sum_congr rfl fun r _ => congrArg _ ?_)
  funext a
  match a with
  | ⟨0, _⟩ => rfl
  | ⟨1, _⟩ => rfl

end Cert.KernelIdeal.Host

end
-- ==== Proof.KH.S2.lean ====
import proofs.«147223_j52493090291996_1_alg».proof.Proof.Gen.KernelIdeal.Launch
import proofs.«147223_j52493090291996_1_alg».proof.Proof.RefRead
import proofs.«147223_j52493090291996_1_alg».proof.Proof.KH.Nary
import Idealize.ShloMosaic.Lib.Pipeline.Value
import Idealize.ShloMosaic.Lib.ValueIdx
import Idealize.ShloMosaic.Lib.IdealHost
import Idealize.ShloMosaic.PureOps.Ideal.Laws

set_option maxRecDepth 3224

noncomputable section

namespace Cert.KernelIdeal.Host

open Idealize.ShloMosaic Idealize.ShloMosaic.TcCoe Idealize.SL.Sem Idealize.ShloMosaic.StableHlo
open Idealize.ShloMosaic.ValueIdx
open Cert.KernelIdeal Cert.KernelIdeal.Gen
open scoped BigOperators

attribute [local congr] Cert.LibConcatenateSimp.concatenate2_congr concatenate3_congr concatenate7_congr concatenate8_congr
open Cert.ReferenceIdeal.ReadP (val_main_v115 val_main_v130 val_main_v157 val_main_v193 val_main_v229 val_main_v256 val_main_v283 val_main_v319)

variable (W : Valuation τ sig (Elt Ideal))

/-! ## The features of launch 2 -/

set_option maxHeartbeats 6000000 in
/-- The feature array of launch 2 as a term: the reference's seven layer-2 messages (four sums and three means, each
    the same gathers, scatter-adds and division by the clamped in-degree as the reference's, over the same index
    arrays) and the layer-1 output, concatenated along the feature axis. -/
theorem feat2_term (hh : W (Proc.devRef .tc main_v79) = val_main_v115 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg14)) (W (Proc.devRef .tc main_arg15))) :
    StableHlo.after (hostOps2 (F := Ideal)) W (Proc.devRef .tc main_v206) =
      concatenate S100000x256 1
        [⟨S100000x224, concatenate S100000x224 1
            [⟨S100000x32, val_main_v130 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg14)) (W (Proc.devRef .tc main_arg15)) (W (Proc.devRef .tc main_arg16))⟩,
             ⟨S100000x32, val_main_v157 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg14)) (W (Proc.devRef .tc main_arg15)) (W (Proc.devRef .tc main_arg17))⟩,
             ⟨S100000x32, val_main_v193 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg14)) (W (Proc.devRef .tc main_arg15)) (W (Proc.devRef .tc main_arg18))⟩,
             ⟨S100000x32, val_main_v229 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg14)) (W (Proc.devRef .tc main_arg15)) (W (Proc.devRef .tc main_arg19))⟩,
             ⟨S100000x32, val_main_v256 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg14)) (W (Proc.devRef .tc main_arg15)) (W (Proc.devRef .tc main_arg20))⟩,
             ⟨S100000x32, val_main_v283 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg14)) (W (Proc.devRef .tc main_arg15)) (W (Proc.devRef .tc main_arg21))⟩,
             ⟨S100000x32, val_main_v319 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg14)) (W (Proc.devRef .tc main_arg15)) (W (Proc.devRef .tc main_arg22))⟩]
            concatenates_S100000x32_S100000x32_S100000x32_S100000x32_S100000x32_S100000x32_S100000x32_S100000x224_d1⟩,
         ⟨S100000x32, W (Proc.devRef .tc main_v79)⟩]
        concatenates_S100000x224_S100000x32_S100000x256_d1 := by
  after_results_cat
  rw [hh]
  rfl

/-- Columns 0 … 31 of the features: the sum message along the first edge set of layer 2. -/
theorem feat2_msg0 (hh : W (Proc.devRef .tc main_v79) = val_main_v115 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg14)) (W (Proc.devRef .tc main_arg15))) (n : Fin 100000) (j : Fin 32) :
    StableHlo.after (hostOps2 (F := Ideal)) W (Proc.devRef .tc main_v206) (ix2 n (⟨32 * 0 + j.val, by have := j.isLt; omega⟩ : Fin 256))
      = val_main_v130 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg14)) (W (Proc.devRef .tc main_arg15)) (W (Proc.devRef .tc main_arg16)) (ix2 n j) := by
  rw [feat2_term W hh]
  refine Eq.trans (concatenate_pair_apply_left (t := S100000x256) (s₁ := S100000x224) (s₂ := S100000x32) 1 _ _
    concatenates_S100000x224_S100000x32_S100000x256_d1 _ rfl
    (ix2 n (⟨32 * 0 + j.val, by have := j.isLt; omega⟩ : Fin 224)) (fun b => match b with | ⟨0, _⟩ => rfl | ⟨1, _⟩ => rfl)) ?_
  exact concatenate_apply_piece (t := S100000x224) 1 _ _ _ 0 (by show (0 : Nat) < 7; decide) S100000x32 _ rfl rfl 0 rfl
    (ix2 n j) (fun b hb => match b, hb with | ⟨0, _⟩, _ => rfl | ⟨1, _⟩, hb => absurd rfl hb) (by show (0 : Nat) + j.val = 32 * 0 + j.val; omega)

/-- Columns 32 … 63 of the features: the sum message along the second edge set of layer 2. -/
theorem feat2_msg1 (hh : W (Proc.devRef .tc main_v79) = val_main_v115 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg14)) (W (Proc.devRef .tc main_arg15))) (n : Fin 100000) (j : Fin 32) :
    StableHlo.after (hostOps2 (F := Ideal)) W (Proc.devRef .tc main_v206) (ix2 n (⟨32 * 1 + j.val, by have := j.isLt; omega⟩ : Fin 256))
      = val_main_v157 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg14)) (W (Proc.devRef .tc main_arg15)) (W (Proc.devRef .tc main_arg17)) (ix2 n j) := by
  rw [feat2_term W hh]
  refine Eq.trans (concatenate_pair_apply_left (t := S100000x256) (s₁ := S100000x224) (s₂ := S100000x32) 1 _ _
    concatenates_S100000x224_S100000x32_S100000x256_d1 _ rfl
    (ix2 n (⟨32 * 1 + j.val, by have := j.isLt; omega⟩ : Fin 224)) (fun b => match b with | ⟨0, _⟩ => rfl | ⟨1, _⟩ => rfl)) ?_
  exact concatenate_apply_piece (t := S100000x224) 1 _ _ _ 1 (by show (1 : Nat) < 7; decide) S100000x32 _ rfl rfl 32 rfl
    (ix2 n j) (fun b hb => match b, hb with | ⟨0, _⟩, _ => rfl | ⟨1, _⟩, hb => absurd rfl hb) (by show (32 : Nat) + j.val = 32 * 1 + j.val; omega)

/-- Columns 64 … 95 of the features: the mean message along the third edge set of layer 2. -/
theorem feat2_msg2 (hh : W (Proc.devRef .tc main_v79) = val_main_v115 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg14)) (W (Proc.devRef .tc main_arg15))) (n : Fin 100000) (j : Fin 32) :
    StableHlo.after (hostOps2 (F := Ideal)) W (Proc.devRef .tc main_v206) (ix2 n (⟨32 * 2 + j.val, by have := j.isLt; omega⟩ : Fin 256))
      = val_main_v193 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg14)) (W (Proc.devRef .tc main_arg15)) (W (Proc.devRef .tc main_arg18)) (ix2 n j) := by
  rw [feat2_term W hh]
  refine Eq.trans (concatenate_pair_apply_left (t := S100000x256) (s₁ := S100000x224) (s₂ := S100000x32) 1 _ _
    concatenates_S100000x224_S100000x32_S100000x256_d1 _ rfl
    (ix2 n (⟨32 * 2 + j.val, by have := j.isLt; omega⟩ : Fin 224)) (fun b => match b with | ⟨0, _⟩ => rfl | ⟨1, _⟩ => rfl)) ?_
  exact concatenate_apply_piece (t := S100000x224) 1 _ _ _ 2 (by show (2 : Nat) < 7; decide) S100000x32 _ rfl rfl 64 rfl
    (ix2 n j) (fun b hb => match b, hb with | ⟨0, _⟩, _ => rfl | ⟨1, _⟩, hb => absurd rfl hb) (by show (64 : Nat) + j.val = 32 * 2 + j.val; omega)

/-- Columns 96 … 127 of the features: the mean message along the fourth edge set of layer 2. -/
theorem feat2_msg3 (hh : W (Proc.devRef .tc main_v79) = val_main_v115 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg14)) (W (Proc.devRef .tc main_arg15))) (n : Fin 100000) (j : Fin 32) :
    StableHlo.after (hostOps2 (F := Ideal)) W (Proc.devRef .tc main_v206) (ix2 n (⟨32 * 3 + j.val, by have := j.isLt; omega⟩ : Fin 256))
      = val_main_v229 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg14)) (W (Proc.devRef .tc main_arg15)) (W (Proc.devRef .tc main_arg19)) (ix2 n j) := by
  rw [feat2_term W hh]
  refine Eq.trans (concatenate_pair_apply_left (t := S100000x256) (s₁ := S100000x224) (s₂ := S100000x32) 1 _ _
    concatenates_S100000x224_S100000x32_S100000x256_d1 _ rfl
    (ix2 n (⟨32 * 3 + j.val, by have := j.isLt; omega⟩ : Fin 224)) (fun b => match b with | ⟨0, _⟩ => rfl | ⟨1, _⟩ => rfl)) ?_
  exact concatenate_apply_piece (t := S100000x224) 1 _ _ _ 3 (by show (3 : Nat) < 7; decide) S100000x32 _ rfl rfl 96 rfl
    (ix2 n j) (fun b hb => match b, hb with | ⟨0, _⟩, _ => rfl | ⟨1, _⟩, hb => absurd rfl hb) (by show (96 : Nat) + j.val = 32 * 3 + j.val; omega)

/-- Columns 128 … 159 of the features: the sum message along the fifth edge set of layer 2. -/
theorem feat2_msg4 (hh : W (Proc.devRef .tc main_v79) = val_main_v115 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg14)) (W (Proc.devRef .tc main_arg15))) (n : Fin 100000) (j : Fin 32) :
    StableHlo.after (hostOps2 (F := Ideal)) W (Proc.devRef .tc main_v206) (ix2 n (⟨32 * 4 + j.val, by have := j.isLt; omega⟩ : Fin 256))
      = val_main_v256 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg14)) (W (Proc.devRef .tc main_arg15)) (W (Proc.devRef .tc main_arg20)) (ix2 n j) := by
  rw [feat2_term W hh]
  refine Eq.trans (concatenate_pair_apply_left (t := S100000x256) (s₁ := S100000x224) (s₂ := S100000x32) 1 _ _
    concatenates_S100000x224_S100000x32_S100000x256_d1 _ rfl
    (ix2 n (⟨32 * 4 + j.val, by have := j.isLt; omega⟩ : Fin 224)) (fun b => match b with | ⟨0, _⟩ => rfl | ⟨1, _⟩ => rfl)) ?_
  exact concatenate_apply_piece (t := S100000x224) 1 _ _ _ 4 (by show (4 : Nat) < 7; decide) S100000x32 _ rfl rfl 128 rfl
    (ix2 n j) (fun b hb => match b, hb with | ⟨0, _⟩, _ => rfl | ⟨1, _⟩, hb => absurd rfl hb) (by show (128 : Nat) + j.val = 32 * 4 + j.val; omega)

/-- Columns 160 … 191 of the features: the sum message along the sixth edge set of layer 2. -/
theorem feat2_msg5 (hh : W (Proc.devRef .tc main_v79) = val_main_v115 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg14)) (W (Proc.devRef .tc main_arg15))) (n : Fin 100000) (j : Fin 32) :
    StableHlo.after (hostOps2 (F := Ideal)) W (Proc.devRef .tc main_v206) (ix2 n (⟨32 * 5 + j.val, by have := j.isLt; omega⟩ : Fin 256))
      = val_main_v283 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg14)) (W (Proc.devRef .tc main_arg15)) (W (Proc.devRef .tc main_arg21)) (ix2 n j) := by
  rw [feat2_term W hh]
  refine Eq.trans (concatenate_pair_apply_left (t := S100000x256) (s₁ := S100000x224) (s₂ := S100000x32) 1 _ _
    concatenates_S100000x224_S100000x32_S100000x256_d1 _ rfl
    (ix2 n (⟨32 * 5 + j.val, by have := j.isLt; omega⟩ : Fin 224)) (fun b => match b with | ⟨0, _⟩ => rfl | ⟨1, _⟩ => rfl)) ?_
  exact concatenate_apply_piece (t := S100000x224) 1 _ _ _ 5 (by show (5 : Nat) < 7; decide) S100000x32 _ rfl rfl 160 rfl
    (ix2 n j) (fun b hb => match b, hb with | ⟨0, _⟩, _ => rfl | ⟨1, _⟩, hb => absurd rfl hb) (by show (160 : Nat) + j.val = 32 * 5 + j.val; omega)

/-- Columns 192 … 223 of the features: the mean message along the seventh edge set of layer 2. -/
theorem feat2_msg6 (hh : W (Proc.devRef .tc main_v79) = val_main_v115 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg14)) (W (Proc.devRef .tc main_arg15))) (n : Fin 100000) (j : Fin 32) :
    StableHlo.after (hostOps2 (F := Ideal)) W (Proc.devRef .tc main_v206) (ix2 n (⟨32 * 6 + j.val, by have := j.isLt; omega⟩ : Fin 256))
      = val_main_v319 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg14)) (W (Proc.devRef .tc main_arg15)) (W (Proc.devRef .tc main_arg22)) (ix2 n j) := by
  rw [feat2_term W hh]
  refine Eq.trans (concatenate_pair_apply_left (t := S100000x256) (s₁ := S100000x224) (s₂ := S100000x32) 1 _ _
    concatenates_S100000x224_S100000x32_S100000x256_d1 _ rfl
    (ix2 n (⟨32 * 6 + j.val, by have := j.isLt; omega⟩ : Fin 224)) (fun b => match b with | ⟨0, _⟩ => rfl | ⟨1, _⟩ => rfl)) ?_
  exact concatenate_apply_piece (t := S100000x224) 1 _ _ _ 6 (by show (6 : Nat) < 7; decide) S100000x32 _ rfl rfl 192 rfl
    (ix2 n j) (fun b hb => match b, hb with | ⟨0, _⟩, _ => rfl | ⟨1, _⟩, hb => absurd rfl hb) (by show (192 : Nat) + j.val = 32 * 6 + j.val; omega)

/-- Columns 224 … 255 of the features: the layer-1 output itself. -/
theorem feat2_self (hh : W (Proc.devRef .tc main_v79) = val_main_v115 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg14)) (W (Proc.devRef .tc main_arg15))) (n : Fin 100000) (j : Fin 32) :
    StableHlo.after (hostOps2 (F := Ideal)) W (Proc.devRef .tc main_v206) (ix2 n (⟨224 + j.val, by have := j.isLt; omega⟩ : Fin 256))
      = W (Proc.devRef .tc main_v79) (ix2 n j) := by
  rw [feat2_term W hh]
  exact concatenate_pair_apply_right (t := S100000x256) (s₁ := S100000x224) (s₂ := S100000x32) 1 _ _
    concatenates_S100000x224_S100000x32_S100000x256_d1 _ rfl rfl (ix2 n j) (fun b hb => match b, hb with | ⟨0, _⟩, _ => rfl | ⟨1, _⟩, hb => absurd rfl hb)
    (by show j.val + 224 = 224 + j.val; omega)

end Cert.KernelIdeal.Host

end
-- ==== Proof.KH.S2w.lean ====
import proofs.«147223_j52493090291996_1_alg».proof.Proof.Gen.KernelIdeal.Launch
import proofs.«147223_j52493090291996_1_alg».proof.Proof.RefRead
import proofs.«147223_j52493090291996_1_alg».proof.Proof.KH.Nary
import Idealize.ShloMosaic.Lib.Pipeline.Value
import Idealize.ShloMosaic.Lib.ValueIdx
import Idealize.ShloMosaic.Lib.IdealHost
import Idealize.ShloMosaic.PureOps.Ideal.Laws

set_option maxRecDepth 3224

noncomputable section

namespace Cert.KernelIdeal.Host

open Idealize.ShloMosaic Idealize.ShloMosaic.TcCoe Idealize.SL.Sem Idealize.ShloMosaic.StableHlo
open Idealize.ShloMosaic.ValueIdx
open Cert.KernelIdeal Cert.KernelIdeal.Gen
open scoped BigOperators

attribute [local congr] Cert.LibConcatenateSimp.concatenate2_congr concatenate3_congr concatenate7_congr concatenate8_congr

variable (W : Valuation τ sig (Elt Ideal))

/-! ## The weights of launch 2: the seven neighbour weights, then the root weights summed over the relations plus the
projection, stacked -/

set_option maxHeartbeats 8000000 in  -- the walk over the 179 operations of the stretch exceeds the default budget
theorem wcat2_term :
    StableHlo.after (hostOps2 (F := Ideal)) W (Proc.devRef .tc main_v223) =
      concatenate S256x64 0
        [⟨S32x64, shapeCast S32x64 (extractStridedSlice S1x32x64 ![0, 0, 0] (W (Proc.devRef .tc main_arg9)) slices_S7x32x64_S1x32x64_0_0_0) shapeCasts_S1x32x64_S32x64⟩,
         ⟨S32x64, shapeCast S32x64 (extractStridedSlice S1x32x64 ![1, 0, 0] (W (Proc.devRef .tc main_arg9)) slices_S7x32x64_S1x32x64_1_0_0) shapeCasts_S1x32x64_S32x64⟩,
         ⟨S32x64, shapeCast S32x64 (extractStridedSlice S1x32x64 ![2, 0, 0] (W (Proc.devRef .tc main_arg9)) slices_S7x32x64_S1x32x64_2_0_0) shapeCasts_S1x32x64_S32x64⟩,
         ⟨S32x64, shapeCast S32x64 (extractStridedSlice S1x32x64 ![3, 0, 0] (W (Proc.devRef .tc main_arg9)) slices_S7x32x64_S1x32x64_3_0_0) shapeCasts_S1x32x64_S32x64⟩,
         ⟨S32x64, shapeCast S32x64 (extractStridedSlice S1x32x64 ![4, 0, 0] (W (Proc.devRef .tc main_arg9)) slices_S7x32x64_S1x32x64_4_0_0) shapeCasts_S1x32x64_S32x64⟩,
         ⟨S32x64, shapeCast S32x64 (extractStridedSlice S1x32x64 ![5, 0, 0] (W (Proc.devRef .tc main_arg9)) slices_S7x32x64_S1x32x64_5_0_0) shapeCasts_S1x32x64_S32x64⟩,
         ⟨S32x64, shapeCast S32x64 (extractStridedSlice S1x32x64 ![6, 0, 0] (W (Proc.devRef .tc main_arg9)) slices_S7x32x64_S1x32x64_6_0_0) shapeCasts_S1x32x64_S32x64⟩,
         ⟨S32x64, addf (Host.reduceAdd (W (Proc.devRef .tc main_arg10)) (constant (F := Ideal) S_ .f32 0x00000000#32) reducesTo_S7x32x64_S32x64_d0 h_S_) (W (Proc.devRef .tc main_arg12))⟩]
        concatenates_S32x64_S32x64_S32x64_S32x64_S32x64_S32x64_S32x64_S32x64_S256x64_d0 := by
  after_results_cat
  rfl

/-- A slice of one relation of a [7, 32, 64] weight, reshaped to [32, 64], read at an entry. -/
theorem nbr2_apply (x : S7x32x64.Idx → EReal) (r : Fin 7) (hs : S7x32x64.Slices ![r.val, 0, 0] S1x32x64) (j : Fin 32) (c : Fin 64) :
    shapeCast S32x64 (extractStridedSlice S1x32x64 ![r.val, 0, 0] x hs) shapeCasts_S1x32x64_S32x64 (ix2 j c) = x (ix3 r j c) := by
  refine Eq.trans (shapeCast_apply _ shapeCasts_S1x32x64_S32x64 (ix2 j c) (ix3 (0 : Fin 1) j c)
    (by rewrite [Shape.rowMajor_val_three, Shape.rowMajor_val_two]
        show ((0 : Nat) * 32 + j.val) * 64 + c.val = j.val * 64 + c.val; omega)) ?_
  exact extractStridedSlice_apply ![r.val, 0, 0] x hs (ix3 (0 : Fin 1) j c) (ix3 r j c)
    (fun a => match a with
      | ⟨0, _⟩ => by show r.val = r.val + 0; omega
      | ⟨1, _⟩ => by show j.val = 0 + j.val; omega
      | ⟨2, _⟩ => by show c.val = 0 + c.val; omega)

/-- Rows 0 … 31 of the weights: the neighbour weight of relation 0. -/
theorem wcat2_nbr0 (j : Fin 32) (c : Fin 64) :
    StableHlo.after (hostOps2 (F := Ideal)) W (Proc.devRef .tc main_v223) (ix2 (⟨32 * 0 + j.val, by have := j.isLt; omega⟩ : Fin 256) c)
      = (W (Proc.devRef .tc main_arg9)) (ix3 (0 : Fin 7) j c) := by
  rw [wcat2_term]
  refine Eq.trans (concatenate_apply_piece (t := S256x64) 0 _ _ _ 0 (by show (0 : Nat) < 8; decide) S32x64 _ rfl rfl 0 rfl
    (ix2 j c) (fun b hb => match b, hb with | ⟨0, _⟩, hb => absurd rfl hb | ⟨1, _⟩, _ => rfl) (by show 0 + j.val = 32 * 0 + j.val; omega)) ?_
  exact nbr2_apply (W (Proc.devRef .tc main_arg9)) 0 slices_S7x32x64_S1x32x64_0_0_0 j c

/-- Rows 32 … 63 of the weights: the neighbour weight of relation 1. -/
theorem wcat2_nbr1 (j : Fin 32) (c : Fin 64) :
    StableHlo.after (hostOps2 (F := Ideal)) W (Proc.devRef .tc main_v223) (ix2 (⟨32 * 1 + j.val, by have := j.isLt; omega⟩ : Fin 256) c)
      = (W (Proc.devRef .tc main_arg9)) (ix3 (1 : Fin 7) j c) := by
  rw [wcat2_term]
  refine Eq.trans (concatenate_apply_piece (t := S256x64) 0 _ _ _ 1 (by show (1 : Nat) < 8; decide) S32x64 _ rfl rfl 32 rfl
    (ix2 j c) (fun b hb => match b, hb with | ⟨0, _⟩, hb => absurd rfl hb | ⟨1, _⟩, _ => rfl) (by show 32 + j.val = 32 * 1 + j.val; omega)) ?_
  exact nbr2_apply (W (Proc.devRef .tc main_arg9)) 1 slices_S7x32x64_S1x32x64_1_0_0 j c

/-- Rows 64 … 95 of the weights: the neighbour weight of relation 2. -/
theorem wcat2_nbr2 (j : Fin 32) (c : Fin 64) :
    StableHlo.after (hostOps2 (F := Ideal)) W (Proc.devRef .tc main_v223) (ix2 (⟨32 * 2 + j.val, by have := j.isLt; omega⟩ : Fin 256) c)
      = (W (Proc.devRef .tc main_arg9)) (ix3 (2 : Fin 7) j c) := by
  rw [wcat2_term]
  refine Eq.trans (concatenate_apply_piece (t := S256x64) 0 _ _ _ 2 (by show (2 : Nat) < 8; decide) S32x64 _ rfl rfl 64 rfl
    (ix2 j c) (fun b hb => match b, hb with | ⟨0, _⟩, hb => absurd rfl hb | ⟨1, _⟩, _ => rfl) (by show 64 + j.val = 32 * 2 + j.val; omega)) ?_
  exact nbr2_apply (W (Proc.devRef .tc main_arg9)) 2 slices_S7x32x64_S1x32x64_2_0_0 j c

/-- Rows 96 … 127 of the weights: the neighbour weight of relation 3. -/
theorem wcat2_nbr3 (j : Fin 32) (c : Fin 64) :
    StableHlo.after (hostOps2 (F := Ideal)) W (Proc.devRef .tc main_v223) (ix2 (⟨32 * 3 + j.val, by have := j.isLt; omega⟩ : Fin 256) c)
      = (W (Proc.devRef .tc main_arg9)) (ix3 (3 : Fin 7) j c) := by
  rw [wcat2_term]
  refine Eq.trans (concatenate_apply_piece (t := S256x64) 0 _ _ _ 3 (by show (3 : Nat) < 8; decide) S32x64 _ rfl rfl 96 rfl
    (ix2 j c) (fun b hb => match b, hb with | ⟨0, _⟩, hb => absurd rfl hb | ⟨1, _⟩, _ => rfl) (by show 96 + j.val = 32 * 3 + j.val; omega)) ?_
  exact nbr2_apply (W (Proc.devRef .tc main_arg9)) 3 slices_S7x32x64_S1x32x64_3_0_0 j c

/-- Rows 128 … 159 of the weights: the neighbour weight of relation 4. -/
theorem wcat2_nbr4 (j : Fin 32) (c : Fin 64) :
    StableHlo.after (hostOps2 (F := Ideal)) W (Proc.devRef .tc main_v223) (ix2 (⟨32 * 4 + j.val, by have := j.isLt; omega⟩ : Fin 256) c)
      = (W (Proc.devRef .tc main_arg9)) (ix3 (4 : Fin 7) j c) := by
  rw [wcat2_term]
  refine Eq.trans (concatenate_apply_piece (t := S256x64) 0 _ _ _ 4 (by show (4 : Nat) < 8; decide) S32x64 _ rfl rfl 128 rfl
    (ix2 j c) (fun b hb => match b, hb with | ⟨0, _⟩, hb => absurd rfl hb | ⟨1, _⟩, _ => rfl) (by show 128 + j.val = 32 * 4 + j.val; omega)) ?_
  exact nbr2_apply (W (Proc.devRef .tc main_arg9)) 4 slices_S7x32x64_S1x32x64_4_0_0 j c

/-- Rows 160 … 191 of the weights: the neighbour weight of relation 5. -/
theorem wcat2_nbr5 (j : Fin 32) (c : Fin 64) :
    StableHlo.after (hostOps2 (F := Ideal)) W (Proc.devRef .tc main_v223) (ix2 (⟨32 * 5 + j.val, by have := j.isLt; omega⟩ : Fin 256) c)
      = (W (Proc.devRef .tc main_arg9)) (ix3 (5 : Fin 7) j c) := by
  rw [wcat2_term]
  refine Eq.trans (concatenate_apply_piece (t := S256x64) 0 _ _ _ 5 (by show (5 : Nat) < 8; decide) S32x64 _ rfl rfl 160 rfl
    (ix2 j c) (fun b hb => match b, hb with | ⟨0, _⟩, hb => absurd rfl hb | ⟨1, _⟩, _ => rfl) (by show 160 + j.val = 32 * 5 + j.val; omega)) ?_
  exact nbr2_apply (W (Proc.devRef .tc main_arg9)) 5 slices_S7x32x64_S1x32x64_5_0_0 j c

/-- Rows 192 … 223 of the weights: the neighbour weight of relation 6. -/
theorem wcat2_nbr6 (j : Fin 32) (c : Fin 64) :
    StableHlo.after (hostOps2 (F := Ideal)) W (Proc.devRef .tc main_v223) (ix2 (⟨32 * 6 + j.val, by have := j.isLt; omega⟩ : Fin 256) c)
      = (W (Proc.devRef .tc main_arg9)) (ix3 (6 : Fin 7) j c) := by
  rw [wcat2_term]
  refine Eq.trans (concatenate_apply_piece (t := S256x64) 0 _ _ _ 6 (by show (6 : Nat) < 8; decide) S32x64 _ rfl rfl 192 rfl
    (ix2 j c) (fun b hb => match b, hb with | ⟨0, _⟩, hb => absurd rfl hb | ⟨1, _⟩, _ => rfl) (by show 192 + j.val = 32 * 6 + j.val; omega)) ?_
  exact nbr2_apply (W (Proc.devRef .tc main_arg9)) 6 slices_S7x32x64_S1x32x64_6_0_0 j c

/-- Rows 32 q … 32 q + 31 of the weights, for any relation q: its neighbour weight. -/
theorem wcat2_nbr (q : Fin 7) (j : Fin 32) (c : Fin 64) :
    StableHlo.after (hostOps2 (F := Ideal)) W (Proc.devRef .tc main_v223) (ix2 (⟨32 * q.val + j.val, by have := q.isLt; have := j.isLt; omega⟩ : Fin 256) c)
      = (W (Proc.devRef .tc main_arg9)) (ix3 q j c) := by
  match q with
  | ⟨0, _⟩ => exact wcat2_nbr0 W j c
  | ⟨1, _⟩ => exact wcat2_nbr1 W j c
  | ⟨2, _⟩ => exact wcat2_nbr2 W j c
  | ⟨3, _⟩ => exact wcat2_nbr3 W j c
  | ⟨4, _⟩ => exact wcat2_nbr4 W j c
  | ⟨5, _⟩ => exact wcat2_nbr5 W j c
  | ⟨6, _⟩ => exact wcat2_nbr6 W j c

/-- Rows 224 … 255 of the weights: the root weights summed over the seven relations, from the printed zero, plus the
    projection. -/
theorem wcat2_root (j : Fin 32) (c : Fin 64) :
    StableHlo.after (hostOps2 (F := Ideal)) W (Proc.devRef .tc main_v223) (ix2 (⟨224 + j.val, by have := j.isLt; omega⟩ : Fin 256) c)
      = HAdd.hAdd (α := EReal) (β := EReal)
          ((0 : EReal) + Finset.sum (M := EReal) Finset.univ fun r : Fin 7 => (W (Proc.devRef .tc main_arg10)) (ix3 r j c))
          ((W (Proc.devRef .tc main_arg12)) (ix2 j c)) := by
  rw [wcat2_term]
  refine Eq.trans (concatenate_apply_piece (t := S256x64) 0 _ _ _ 7 (by show (7 : Nat) < 8; decide) S32x64 _ rfl rfl 224 rfl
    (ix2 j c) (fun b hb => match b, hb with | ⟨0, _⟩, hb => absurd rfl hb | ⟨1, _⟩, _ => rfl) (by show 224 + j.val = 224 + j.val; rfl)) ?_
  refine (addf_apply _ _ _).trans (congrArg₂ (· + ·) ?_ rfl)
  rw [hostReduceAdd_apply, Ideal.hostReduceAdd_single reducesTo_S7x32x64_S32x64_d0 (by decide : S7x32x64.Reduces [0] S32x64)]
  refine congrArg₂ (· + ·) Ideal.ofBits_zero_f32 (Finset.sum_congr rfl fun r _ => congrArg _ ?_)
  funext a
  match a with
  | ⟨0, _⟩ => rfl
  | ⟨1, _⟩ => rfl
  | ⟨2, _⟩ => rfl

/-! ## The bias of launch 2: the biases summed over the seven relations plus the projection's bias, as a row -/

theorem bcat2_term :
    StableHlo.after (hostOps2 (F := Ideal)) W (Proc.devRef .tc main_v226) =
      shapeCast S1x64 (addf (Host.reduceAdd (W (Proc.devRef .tc main_arg11)) (constant (F := Ideal) S_ .f32 0x00000000#32) reducesTo_S7x64_S64_d0 h_S_) (W (Proc.devRef .tc main_arg13))) shapeCasts_S64_S1x64 := by
  after_results_cat
  rfl

theorem bcat2_apply (c : Fin 64) :
    StableHlo.after (hostOps2 (F := Ideal)) W (Proc.devRef .tc main_v226) (ix2 (0 : Fin 1) c)
      = HAdd.hAdd (α := EReal) (β := EReal)
          ((0 : EReal) + Finset.sum (M := EReal) Finset.univ fun r : Fin 7 => (W (Proc.devRef .tc main_arg11)) (ix2 r c))
          ((W (Proc.devRef .tc main_arg13)) (ix1 c)) := by
  rw [bcat2_term]
  refine Eq.trans (shapeCast_apply _ shapeCasts_S64_S1x64 (ix2 (0 : Fin 1) c) (ix1 c)
    (by rewrite [Shape.rowMajor_val_one, Shape.rowMajor_val_two]
        show c.val = (0 : Nat) * 64 + c.val; omega)) ?_
  refine (addf_apply _ _ _).trans (congrArg₂ (· + ·) ?_ rfl)
  rw [hostReduceAdd_apply, Ideal.hostReduceAdd_single reducesTo_S7x64_S64_d0 (by decide : S7x64.Reduces [0] S64)]
  refine congrArg₂ (· + ·) Ideal.ofBits_zero_f32 (Finset.sum_congr rfl fun r _ => congrArg _ ?_)
  funext a
  match a with
  | ⟨0, _⟩ => rfl
  | ⟨1, _⟩ => rfl

end Cert.KernelIdeal.Host

end
-- ==== Proof.KH.S3.lean ====
import proofs.«147223_j52493090291996_1_alg».proof.Proof.Gen.KernelIdeal.Launch
import proofs.«147223_j52493090291996_1_alg».proof.Proof.RefRead
import proofs.«147223_j52493090291996_1_alg».proof.Proof.KH.Nary
import Idealize.ShloMosaic.Lib.Pipeline.Value
import Idealize.ShloMosaic.Lib.ValueIdx
import Idealize.ShloMosaic.Lib.IdealHost
import Idealize.ShloMosaic.PureOps.Ideal.Laws

set_option maxRecDepth 3224

noncomputable section

namespace Cert.KernelIdeal.Host

open Idealize.ShloMosaic Idealize.ShloMosaic.TcCoe Idealize.SL.Sem Idealize.ShloMosaic.StableHlo
open Idealize.ShloMosaic.ValueIdx
open Cert.KernelIdeal Cert.KernelIdeal.Gen
open scoped BigOperators

attribute [local congr] Cert.LibConcatenateSimp.concatenate2_congr concatenate3_congr concatenate7_congr concatenate8_congr

variable (W : Valuation τ sig (Elt Ideal))

/-! ## The last stretch of host operations: the result is the last launch's output clamped at zero -/

/-- The program's result buffer after the last three host operations: the maximum of the last launch's output and the
    splat of zero, entry by entry. -/
theorem out3 :
    StableHlo.after (hostOps3 (F := Ideal)) W (Proc.devRef .tc main_v229) =
      fun i : S100000x64.Idx => @max EReal _ (W (Proc.devRef .tc main_v227) i) 0 := by
  after_results_cat
  funext i
  show @max EReal _ (W (Proc.devRef .tc main_v227) i)
    (broadcastInDim S100000x64 ![] bcast_S_S100000x64 (constant (F := Ideal) S_ .f32 0x00000000#32) i) = _
  rw [broadcastInDim_apply _ bcast_S_S100000x64 _ i ix0 (fun a => a.elim0)]
  exact congrArg (@max EReal _ _) Ideal.ofBits_zero_f32

end Cert.KernelIdeal.Host

end
-- ==== Proof.Real.lean ====
/-
  Real entries pass through the host operations of a message step.

  A message gathers rows of a feature array, adds them up at their destination rows (a scatter-add into zeros), and for a
  "mean" relation divides each destination row by max(count, 1), where the count is the scatter-add of ones. None of these
  steps can produce an infinity out of real entries: a gathered entry IS an entry of the operand, a scatter-add's entry is an
  operand entry plus a finite sum of update entries, and the divisor max(count, 1) is a real that is at least one.
-/
import proofs.«147223_j52493090291996_1_alg».proof.Proof.Alg
import Idealize.ShloMosaic.PureOps.Ideal
import Idealize.ShloMosaic.PureOps.Ideal.Laws

noncomputable section

open scoped BigOperators

namespace Cert.Alg
open Idealize.ShloMosaic Cert.RealEntries

/-- The single-precision pattern of 1.0 denotes 1. -/
theorem ofBits_one_f32 : Ideal.ofBits .f32 0x3F800000#32 = 1 := by
  simp [Ideal.ofBits, Ideal.ieee, -EReal.coe_mul]; norm_num

/-- A gathered entry is an entry of the operand. -/
theorem allReal_gather {s si t : Shape} {w : Nat} (d : GatherDims s si t) (x : FVec Ideal s .f32) (idx : IVec si w)
    (hx : AllReal x) : AllReal (Host.gather d x idx) := fun j => hx _

/-- An accumulating scatter's entry is the operand's plus a finite sum of update entries. -/
theorem allReal_scatterAdd {s si u : Shape} {w : Nat} (d : ScatterDims s si u) (x : FVec Ideal s .f32) (idx : IVec si w)
    (upd : FVec Ideal u .f32) (hx : AllReal x) (hu : AllReal upd) : AllReal (Host.scatterAdd d x idx upd) := fun i => by
  show ∃ r : ℝ, Ideal.hostScatterAdd d x idx upd i = (r : EReal)
  unfold Ideal.hostScatterAdd
  exact real_add (hx i) (real_sum _ _ fun j _ => hu j)

/-- A broadcast repeats entries of its operand. -/
theorem allReal_broadcastInDim {s t : Shape} (dims : Fin s.rank → Fin t.rank) (h : s.BroadcastsInDim t dims)
    (x : s.Idx → EReal) (hx : AllReal x) : AllReal (broadcastInDim t dims h x) := fun j => hx _

/-- The splat of zero. -/
theorem allReal_zero (s : Shape) : AllReal (constant (F := Ideal) s .f32 0x00000000#32) := fun _ =>
  ⟨0, Ideal.ofBits_zero_f32⟩

/-- The splat of one. -/
theorem allReal_one (s : Shape) : AllReal (constant (F := Ideal) s .f32 0x3F800000#32) := fun _ =>
  ⟨1, ofBits_one_f32⟩

theorem allReal_addf {s : Shape} (x y : FVec Ideal s .f32) (hx : AllReal x) (hy : AllReal y) : AllReal (addf x y) :=
  fun i => real_add (hx i) (hy i)

theorem allReal_maximumf {s : Shape} (x y : FVec Ideal s .f32) (hx : AllReal x) (hy : AllReal y) :
    AllReal (maximumf x y) := fun i => real_max (hx i) (hy i)

/-- A real divided by max(c, 1) for a real c is a real: the divisor is at least one. -/
theorem real_div_max_one {a c : EReal} (ha : ∃ r : ℝ, a = (r : EReal)) (hc : ∃ r : ℝ, c = (r : EReal)) :
    ∃ r : ℝ, Ideal.div a (max c 1) = (r : EReal) := by
  obtain ⟨a, rfl⟩ := ha
  obtain ⟨c, rfl⟩ := hc
  have hm : max (c : EReal) 1 = ((max c 1 : ℝ) : EReal) := by
    rcases le_total c 1 with h | h
    · rw [max_eq_right h, max_eq_right (by exact_mod_cast h)]; rfl
    · rw [max_eq_left h, max_eq_left (by exact_mod_cast h)]
  have hne : (max c 1 : ℝ) ≠ 0 := ne_of_gt (lt_of_lt_of_le one_pos (le_max_right c 1))
  rw [hm, Ideal.div_coe hne, ← EReal.coe_mul]
  exact ⟨_, rfl⟩

end Cert.Alg

end
-- ==== Proof.RV.Reals.lean ====
import proofs.«147223_j52493090291996_1_alg».proof.Proof.RV.L0
import proofs.«147223_j52493090291996_1_alg».proof.Proof.RV.L1
import proofs.«147223_j52493090291996_1_alg».proof.Proof.RV.L2
import proofs.«147223_j52493090291996_1_alg».proof.Proof.Real

noncomputable section

open scoped BigOperators

namespace Cert.ReferenceIdeal.Lay

open Cert.ReferenceIdeal Idealize.ShloMosaic Idealize.ShloMosaic.ValueIdx Cert.RealEntries Cert.Alg

/-! # The reference's stages have real entries when its float arguments do

Every stage is built from the float arguments by gathers (an entry of the operand), accumulating scatters into zeros (an
operand entry plus a finite sum of update entries), finite sums of products, additions, maxima with zero, and, for a mean
relation, a division by max(count, 1), a real that is at least one. None of these produces an infinity from reals. The
integer edge arrays need no hypothesis. -/

/-- Every rank-2 index is given by two coordinates of literal range. -/
theorem ex_ix2 {n0 n1 : ℕ} (i : (⟨2, ![n0, n1]⟩ : Shape).Idx) : ∃ (a : Fin n0) (b : Fin n1), i = ix2 a b :=
  ⟨i 0, i 1, eq_ix2 i⟩

/-- A finite sum of products of reals is a real. -/
theorem real_dot {K : ℕ} {f g : Fin K → EReal} (hf : ∀ j, ∃ r : ℝ, f j = (r : EReal))
    (hg : ∀ j, ∃ r : ℝ, g j = (r : EReal)) : ∃ r : ℝ, ∑ j, f j * g j = (r : EReal) :=
  sum_mul_real _ f g hf hg

/-! ## The first layer -/

/-- The messages val_main_v14: rows of a real array gathered and added up into zeros. -/
theorem real_m14 (x0 : (⟨S100000x6, .f32⟩ : BufTy).Contents (Elt Ideal)) (x14 : (⟨S2x800000, .i32⟩ : BufTy).Contents (Elt Ideal)) (h0 : AllReal x0) :
    AllReal (ReadP.val_main_v14 (F := Ideal) x0 x14) := by
  unfold ReadP.val_main_v14 ReadP.val_main_v12 ReadP.val_main_cst_1 ReadP.val_main_v11
  exact allReal_scatterAdd _ _ _ _ (allReal_broadcastInDim _ _ _ (allReal_zero _)) (allReal_gather _ _ _ h0)
/-- The messages val_main_v41: rows of a real array gathered and added up into zeros. -/
theorem real_m41 (x0 : (⟨S100000x6, .f32⟩ : BufTy).Contents (Elt Ideal)) (x15 : (⟨S2x800000, .i32⟩ : BufTy).Contents (Elt Ideal)) (h0 : AllReal x0) :
    AllReal (ReadP.val_main_v41 (F := Ideal) x0 x15) := by
  unfold ReadP.val_main_v41 ReadP.val_main_v39 ReadP.val_main_cst_4 ReadP.val_main_v38
  exact allReal_scatterAdd _ _ _ _ (allReal_broadcastInDim _ _ _ (allReal_zero _)) (allReal_gather _ _ _ h0)

/-- The first layer's output. -/
theorem real_h0 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x14 x15 : (⟨S2x800000, .i32⟩ : BufTy).Contents (Elt Ideal)) (h0 : AllReal x0) (h1 : AllReal x1) (h2 : AllReal x2) (h3 : AllReal x3) :
    AllReal (ReadP.val_main_v54 (F := Ideal) x0 x1 x2 x3 x14 x15) := fun i => by
  obtain ⟨n, c, rfl⟩ := ex_ix2 i
  rw [ref0]
  exact (real_add (real_add (real_add (real_add (real_add (real_add real_zero
      (real_dot (fun _ => real_m14 x0 x14 h0 _) (fun _ => h1 _)))
      (real_dot (fun _ => h0 _) (fun _ => h2 _))) (h3 _))
      (real_dot (fun _ => real_m41 x0 x15 h0 _) (fun _ => h1 _)))
      (real_dot (fun _ => h0 _) (fun _ => h2 _))) (h3 _))

/-! ## The second layer -/

/-- The messages val_main_v69: rows of a real array gathered and added up into zeros. -/
theorem real_m69 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x14 x15 : (⟨S2x800000, .i32⟩ : BufTy).Contents (Elt Ideal)) (h0 : AllReal x0) (h1 : AllReal x1) (h2 : AllReal x2) (h3 : AllReal x3) :
    AllReal (ReadP.val_main_v69 (F := Ideal) x0 x1 x2 x3 x14 x15) := by
  unfold ReadP.val_main_v69 ReadP.val_main_v67 ReadP.val_main_cst_8 ReadP.val_main_v66
  exact allReal_scatterAdd _ _ _ _ (allReal_broadcastInDim _ _ _ (allReal_zero _)) (allReal_gather _ _ _ (real_h0 x0 x1 x2 x3 x14 x15 h0 h1 h2 h3))
/-- The messages val_main_v96: rows of a real array gathered and added up into zeros. -/
theorem real_m96 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x14 x15 : (⟨S2x800000, .i32⟩ : BufTy).Contents (Elt Ideal)) (h0 : AllReal x0) (h1 : AllReal x1) (h2 : AllReal x2) (h3 : AllReal x3) :
    AllReal (ReadP.val_main_v96 (F := Ideal) x0 x1 x2 x3 x14 x15) := by
  unfold ReadP.val_main_v96 ReadP.val_main_v94 ReadP.val_main_cst_11 ReadP.val_main_v93
  exact allReal_scatterAdd _ _ _ _ (allReal_broadcastInDim _ _ _ (allReal_zero _)) (allReal_gather _ _ _ (real_h0 x0 x1 x2 x3 x14 x15 h0 h1 h2 h3))

/-- The second layer's output. -/
theorem real_h1 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x14 x15 : (⟨S2x800000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) :
    AllReal (ReadP.val_main_v115 (F := Ideal) x0 x1 x2 x3 x4 x5 x6 x7 x8 x14 x15) := fun i => by
  obtain ⟨n, c, rfl⟩ := ex_ix2 i
  rw [ref1]
  have H := real_h0 x0 x1 x2 x3 x14 x15 h0 h1 h2 h3
  exact real_max (real_add (real_add (real_add (real_add (real_add (real_add (real_add (real_add real_zero
      (real_dot (fun _ => real_m69 x0 x1 x2 x3 x14 x15 h0 h1 h2 h3 _) (fun _ => h4 _)))
      (real_dot (fun _ => H _) (fun _ => h5 _))) (h6 _))
      (real_dot (fun _ => real_m96 x0 x1 x2 x3 x14 x15 h0 h1 h2 h3 _) (fun _ => h4 _)))
      (real_dot (fun _ => H _) (fun _ => h5 _))) (h6 _))
      (real_dot (fun _ => H _) (fun _ => h7 _))) (h8 _)) real_zero

/-! ## The third layer's messages -/

/-- The messages val_main_v130: rows of a real array gathered and added up into zeros. -/
theorem real_m130 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x14 x15 x16 : (⟨S2x800000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) :
    AllReal (ReadP.val_main_v130 (F := Ideal) x0 x1 x2 x3 x4 x5 x6 x7 x8 x14 x15 x16) := by
  unfold ReadP.val_main_v130 ReadP.val_main_v128 ReadP.val_main_cst_15 ReadP.val_main_v127
  exact allReal_scatterAdd _ _ _ _ (allReal_broadcastInDim _ _ _ (allReal_zero _)) (allReal_gather _ _ _ (real_h1 x0 x1 x2 x3 x4 x5 x6 x7 x8 x14 x15 h0 h1 h2 h3 h4 h5 h6 h7 h8))

/-- The messages val_main_v157: rows of a real array gathered and added up into zeros. -/
theorem real_m157 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x14 x15 x17 : (⟨S2x800000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) :
    AllReal (ReadP.val_main_v157 (F := Ideal) x0 x1 x2 x3 x4 x5 x6 x7 x8 x14 x15 x17) := by
  unfold ReadP.val_main_v157 ReadP.val_main_v155 ReadP.val_main_cst_18 ReadP.val_main_v154
  exact allReal_scatterAdd _ _ _ _ (allReal_broadcastInDim _ _ _ (allReal_zero _)) (allReal_gather _ _ _ (real_h1 x0 x1 x2 x3 x4 x5 x6 x7 x8 x14 x15 h0 h1 h2 h3 h4 h5 h6 h7 h8))

/-- The summed rows of the mean relation whose messages are val_main_v193. -/
theorem real_s184 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x14 x15 x18 : (⟨S2x800000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) :
    AllReal (ReadP.val_main_v184 (F := Ideal) x0 x1 x2 x3 x4 x5 x6 x7 x8 x14 x15 x18) := by
  unfold ReadP.val_main_v184 ReadP.val_main_v182 ReadP.val_main_cst_21 ReadP.val_main_v181
  exact allReal_scatterAdd _ _ _ _ (allReal_broadcastInDim _ _ _ (allReal_zero _)) (allReal_gather _ _ _ (real_h1 x0 x1 x2 x3 x4 x5 x6 x7 x8 x14 x15 h0 h1 h2 h3 h4 h5 h6 h7 h8))
/-- Its row counts: ones added up into zeros. -/
theorem real_c188 (x18 : (⟨S2x800000, .i32⟩ : BufTy).Contents (Elt Ideal)) : AllReal (ReadP.val_main_v188 (F := Ideal) x18) := by
  unfold ReadP.val_main_v188 ReadP.val_main_v186 ReadP.val_main_cst_23 ReadP.val_main_v185 ReadP.val_main_cst_22
  exact allReal_scatterAdd _ _ _ _ (allReal_broadcastInDim _ _ _ (allReal_zero _)) (allReal_broadcastInDim _ _ _ (allReal_one _))
/-- The messages val_main_v193: the summed rows divided by max(count, 1), a real that is at least one. -/
theorem real_m193 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x14 x15 x18 : (⟨S2x800000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) :
    AllReal (ReadP.val_main_v193 (F := Ideal) x0 x1 x2 x3 x4 x5 x6 x7 x8 x14 x15 x18) := fun i => by
  rw [ReadP.val_main_v193_apply, ReadP.val_main_v192_apply, ReadP.val_main_v191_apply, ReadP.val_main_v190_apply,
    ReadP.val_main_v189_apply, ReadP.val_main_cst_24_apply, Ideal.hostDivf_def, Ideal.maximumf_def, Ideal.ofBits_def, ofBits_one_f32]
  exact real_div_max_one (real_s184 x0 x1 x2 x3 x4 x5 x6 x7 x8 x14 x15 x18 h0 h1 h2 h3 h4 h5 h6 h7 h8 i) (real_c188 x18 _)

/-- The summed rows of the mean relation whose messages are val_main_v229. -/
theorem real_s220 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x14 x15 x19 : (⟨S2x800000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) :
    AllReal (ReadP.val_main_v220 (F := Ideal) x0 x1 x2 x3 x4 x5 x6 x7 x8 x14 x15 x19) := by
  unfold ReadP.val_main_v220 ReadP.val_main_v218 ReadP.val_main_cst_27 ReadP.val_main_v217
  exact allReal_scatterAdd _ _ _ _ (allReal_broadcastInDim _ _ _ (allReal_zero _)) (allReal_gather _ _ _ (real_h1 x0 x1 x2 x3 x4 x5 x6 x7 x8 x14 x15 h0 h1 h2 h3 h4 h5 h6 h7 h8))
/-- Its row counts: ones added up into zeros. -/
theorem real_c224 (x19 : (⟨S2x800000, .i32⟩ : BufTy).Contents (Elt Ideal)) : AllReal (ReadP.val_main_v224 (F := Ideal) x19) := by
  unfold ReadP.val_main_v224 ReadP.val_main_v222 ReadP.val_main_cst_29 ReadP.val_main_v221 ReadP.val_main_cst_28
  exact allReal_scatterAdd _ _ _ _ (allReal_broadcastInDim _ _ _ (allReal_zero _)) (allReal_broadcastInDim _ _ _ (allReal_one _))
/-- The messages val_main_v229: the summed rows divided by max(count, 1), a real that is at least one. -/
theorem real_m229 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x14 x15 x19 : (⟨S2x800000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) :
    AllReal (ReadP.val_main_v229 (F := Ideal) x0 x1 x2 x3 x4 x5 x6 x7 x8 x14 x15 x19) := fun i => by
  rw [ReadP.val_main_v229_apply, ReadP.val_main_v228_apply, ReadP.val_main_v227_apply, ReadP.val_main_v226_apply,
    ReadP.val_main_v225_apply, ReadP.val_main_cst_30_apply, Ideal.hostDivf_def, Ideal.maximumf_def, Ideal.ofBits_def, ofBits_one_f32]
  exact real_div_max_one (real_s220 x0 x1 x2 x3 x4 x5 x6 x7 x8 x14 x15 x19 h0 h1 h2 h3 h4 h5 h6 h7 h8 i) (real_c224 x19 _)

/-- The messages val_main_v256: rows of a real array gathered and added up into zeros. -/
theorem real_m256 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x14 x15 x20 : (⟨S2x800000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) :
    AllReal (ReadP.val_main_v256 (F := Ideal) x0 x1 x2 x3 x4 x5 x6 x7 x8 x14 x15 x20) := by
  unfold ReadP.val_main_v256 ReadP.val_main_v254 ReadP.val_main_cst_33 ReadP.val_main_v253
  exact allReal_scatterAdd _ _ _ _ (allReal_broadcastInDim _ _ _ (allReal_zero _)) (allReal_gather _ _ _ (real_h1 x0 x1 x2 x3 x4 x5 x6 x7 x8 x14 x15 h0 h1 h2 h3 h4 h5 h6 h7 h8))

/-- The messages val_main_v283: rows of a real array gathered and added up into zeros. -/
theorem real_m283 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x14 x15 x21 : (⟨S2x800000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) :
    AllReal (ReadP.val_main_v283 (F := Ideal) x0 x1 x2 x3 x4 x5 x6 x7 x8 x14 x15 x21) := by
  unfold ReadP.val_main_v283 ReadP.val_main_v281 ReadP.val_main_cst_36 ReadP.val_main_v280
  exact allReal_scatterAdd _ _ _ _ (allReal_broadcastInDim _ _ _ (allReal_zero _)) (allReal_gather _ _ _ (real_h1 x0 x1 x2 x3 x4 x5 x6 x7 x8 x14 x15 h0 h1 h2 h3 h4 h5 h6 h7 h8))

/-- The summed rows of the mean relation whose messages are val_main_v319. -/
theorem real_s310 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x14 x15 x22 : (⟨S2x800000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) :
    AllReal (ReadP.val_main_v310 (F := Ideal) x0 x1 x2 x3 x4 x5 x6 x7 x8 x14 x15 x22) := by
  unfold ReadP.val_main_v310 ReadP.val_main_v308 ReadP.val_main_cst_39 ReadP.val_main_v307
  exact allReal_scatterAdd _ _ _ _ (allReal_broadcastInDim _ _ _ (allReal_zero _)) (allReal_gather _ _ _ (real_h1 x0 x1 x2 x3 x4 x5 x6 x7 x8 x14 x15 h0 h1 h2 h3 h4 h5 h6 h7 h8))
/-- Its row counts: ones added up into zeros. -/
theorem real_c314 (x22 : (⟨S2x800000, .i32⟩ : BufTy).Contents (Elt Ideal)) : AllReal (ReadP.val_main_v314 (F := Ideal) x22) := by
  unfold ReadP.val_main_v314 ReadP.val_main_v312 ReadP.val_main_cst_41 ReadP.val_main_v311 ReadP.val_main_cst_40
  exact allReal_scatterAdd _ _ _ _ (allReal_broadcastInDim _ _ _ (allReal_zero _)) (allReal_broadcastInDim _ _ _ (allReal_one _))
/-- The messages val_main_v319: the summed rows divided by max(count, 1), a real that is at least one. -/
theorem real_m319 (x0 : (⟨S100000x6, .f32⟩ : BufTy).Contents (Elt Ideal)) (x1 x2 : (⟨S2x6x16, .f32⟩ : BufTy).Contents (Elt Ideal)) (x3 : (⟨S2x16, .f32⟩ : BufTy).Contents (Elt Ideal)) (x4 x5 : (⟨S2x16x32, .f32⟩ : BufTy).Contents (Elt Ideal)) (x6 : (⟨S2x32, .f32⟩ : BufTy).Contents (Elt Ideal)) (x7 : (⟨S16x32, .f32⟩ : BufTy).Contents (Elt Ideal)) (x8 : (⟨S32, .f32⟩ : BufTy).Contents (Elt Ideal)) (x14 x15 x22 : (⟨S2x800000, .i32⟩ : BufTy).Contents (Elt Ideal)) (h0 : AllReal x0) (h1 : AllReal x1) (h2 : AllReal x2) (h3 : AllReal x3) (h4 : AllReal x4) (h5 : AllReal x5) (h6 : AllReal x6) (h7 : AllReal x7) (h8 : AllReal x8) :
    AllReal (ReadP.val_main_v319 (F := Ideal) x0 x1 x2 x3 x4 x5 x6 x7 x8 x14 x15 x22) := fun i => by
  rw [ReadP.val_main_v319_apply, ReadP.val_main_v318_apply, ReadP.val_main_v317_apply, ReadP.val_main_v316_apply,
    ReadP.val_main_v315_apply, ReadP.val_main_cst_42_apply, Ideal.hostDivf_def, Ideal.maximumf_def, Ideal.ofBits_def, ofBits_one_f32]
  exact real_div_max_one (real_s310 x0 x1 x2 x3 x4 x5 x6 x7 x8 x14 x15 x22 h0 h1 h2 h3 h4 h5 h6 h7 h8 i) (real_c314 x22 _)

end Cert.ReferenceIdeal.Lay
-- ==== Proof.KVal.lean ====
/-
  The tiled program's result buffer holds the plain program's last stage of the argument arrays.

  Layer by layer: the first stretch of host operations builds the first launch's operands from the arguments, and the launch's
  result is the plain program's first layer; that array, which the second stretch gathers its messages from, being the plain
  program's, the second stretch's messages are the plain program's messages, and so on. Real inputs make every layer's output
  real, which the next layer's agreement needs. The last stretch clamps the third launch's result at zero, as the plain
  program's last operation does.
-/
import proofs.«147223_j52493090291996_1_alg».proof.Proof.KValLayers
import proofs.«147223_j52493090291996_1_alg».proof.Proof.KH.S0
import proofs.«147223_j52493090291996_1_alg».proof.Proof.KH.S1
import proofs.«147223_j52493090291996_1_alg».proof.Proof.KH.S2
import proofs.«147223_j52493090291996_1_alg».proof.Proof.KH.S2w
import proofs.«147223_j52493090291996_1_alg».proof.Proof.KH.S3
import proofs.«147223_j52493090291996_1_alg».proof.Proof.RV.Reals

noncomputable section

open scoped BigOperators

namespace Cert.KernelIdeal.Val

open Cert.KernelIdeal Cert.KernelIdeal.Gen Cert.KernelIdeal.Fr Cert.KernelIdeal.Host Idealize.ShloMosaic Idealize.ShloMosaic.TcCoe
open Idealize.ShloMosaic.ValueIdx Idealize.SL.Sem Cert.RealEntries Cert.ReferenceIdeal.Lay

variable (m : (ℓ : Loc nD τ sig) → Buf (Elt Ideal) ℓ) (ρ : Dev nD → PrngReg) (c : Dev nD)

/-- The first launch's result is the plain program's first layer of the arguments. -/
theorem layer0 (r0 : AllReal (m ((c.tc : Thread nD τ).loc main_arg0))) (r2 : AllReal (m ((c.tc : Thread nD τ).loc main_arg2))) :
    W2 (F := Ideal) m ρ c (Proc.devRef .tc main_v38)
      = Cert.ReferenceIdeal.ReadP.val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg14)) (m ((c.tc : Thread nD τ).loc main_arg15)) :=
  layer0_of m ρ c _ _ _ _ _ _ (feat0_msg0 (W0 m ρ c)) (feat0_msg1 (W0 m ρ c)) (feat0_self (W0 m ρ c))
    (wcat0_nbr0 (W0 m ρ c)) (wcat0_nbr1 (W0 m ρ c)) (wcat0_root (W0 m ρ c)) (bcat0_apply (W0 m ρ c)) r0 r2

/-- The second launch's result is the plain program's second layer. -/
theorem layer1 (r0 : AllReal (m ((c.tc : Thread nD τ).loc main_arg0))) (r1 : AllReal (m ((c.tc : Thread nD τ).loc main_arg1))) (r2 : AllReal (m ((c.tc : Thread nD τ).loc main_arg2))) (r3 : AllReal (m ((c.tc : Thread nD τ).loc main_arg3)))
    (r5 : AllReal (m ((c.tc : Thread nD τ).loc main_arg5))) (r7 : AllReal (m ((c.tc : Thread nD τ).loc main_arg7))) :
    W4 (F := Ideal) m ρ c (Proc.devRef .tc main_v79)
      = Cert.ReferenceIdeal.ReadP.val_main_v115 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg14)) (m ((c.tc : Thread nD τ).loc main_arg15)) := by
  have e0 := layer0 m ρ c r0 r2
  have hh : W2 (F := Ideal) m ρ c (Proc.devRef .tc main_v38) = Cert.ReferenceIdeal.ReadP.val_main_v54 (F := Ideal)
      (W2 m ρ c (Proc.devRef .tc main_arg0)) (W2 m ρ c (Proc.devRef .tc main_arg1)) (W2 m ρ c (Proc.devRef .tc main_arg2)) (W2 m ρ c (Proc.devRef .tc main_arg3)) (W2 m ρ c (Proc.devRef .tc main_arg14)) (W2 m ρ c (Proc.devRef .tc main_arg15)) := by
    rw [W2_main_arg0 m ρ c, W2_main_arg1 m ρ c, W2_main_arg2 m ρ c, W2_main_arg3 m ρ c, W2_main_arg14 m ρ c, W2_main_arg15 m ρ c]; exact e0
  have f1 := feat1_msg0 (W2 m ρ c) hh
  have f2 := feat1_msg1 (W2 m ρ c) hh
  have f3 := feat1_self (W2 m ρ c) hh
  have f4 := wcat1_nbr0 (W2 m ρ c)
  have f5 := wcat1_nbr1 (W2 m ρ c)
  have f6 := wcat1_root (W2 m ρ c)
  have f7 := bcat1_apply (W2 m ρ c)
  simp only [W2_main_arg0 m ρ c, W2_main_arg1 m ρ c, W2_main_arg2 m ρ c, W2_main_arg3 m ρ c, W2_main_arg4 m ρ c, W2_main_arg5 m ρ c, W2_main_arg6 m ρ c, W2_main_arg7 m ρ c, W2_main_arg8 m ρ c, W2_main_arg14 m ρ c, W2_main_arg15 m ρ c] at f1 f2 f3 f4 f5 f6 f7
  simp only [e0] at f3
  exact layer1_of m ρ c _ _ _ _ _ _ _ _ _ _ _ f1 f2 f3 f4 f5 f6 f7 (real_h0 _ _ _ _ _ _ r0 r1 r2 r3) r5 r7

/-- The third launch's result is the plain program's third layer, clamped once. -/
theorem layer2 (hre : AllReal (m ((c.tc : Thread nD τ).loc main_arg0)) ∧ AllReal (m ((c.tc : Thread nD τ).loc main_arg1)) ∧ AllReal (m ((c.tc : Thread nD τ).loc main_arg2)) ∧ AllReal (m ((c.tc : Thread nD τ).loc main_arg3)) ∧ AllReal (m ((c.tc : Thread nD τ).loc main_arg4)) ∧ AllReal (m ((c.tc : Thread nD τ).loc main_arg5)) ∧ AllReal (m ((c.tc : Thread nD τ).loc main_arg6)) ∧ AllReal (m ((c.tc : Thread nD τ).loc main_arg7)) ∧ AllReal (m ((c.tc : Thread nD τ).loc main_arg8)) ∧ AllReal (m ((c.tc : Thread nD τ).loc main_arg9)) ∧ AllReal (m ((c.tc : Thread nD τ).loc main_arg10)) ∧ AllReal (m ((c.tc : Thread nD τ).loc main_arg11)) ∧ AllReal (m ((c.tc : Thread nD τ).loc main_arg12)) ∧ AllReal (m ((c.tc : Thread nD τ).loc main_arg13))) :
    W6 (F := Ideal) m ρ c (Proc.devRef .tc main_v227)
      = Cert.ReferenceIdeal.ReadP.val_main_v338 (F := Ideal)
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13))
      (m ((c.tc : Thread nD τ).loc main_arg14))
      (m ((c.tc : Thread nD τ).loc main_arg15))
      (m ((c.tc : Thread nD τ).loc main_arg16))
      (m ((c.tc : Thread nD τ).loc main_arg17))
      (m ((c.tc : Thread nD τ).loc main_arg18))
      (m ((c.tc : Thread nD τ).loc main_arg19))
      (m ((c.tc : Thread nD τ).loc main_arg20))
      (m ((c.tc : Thread nD τ).loc main_arg21))
      (m ((c.tc : Thread nD τ).loc main_arg22)) := by
  obtain ⟨r0, r1, r2, r3, r4, r5, r6, r7, r8, r9, r10, r11, r12, r13⟩ := hre
  have e1 := layer1 m ρ c r0 r1 r2 r3 r5 r7
  have hh : W4 (F := Ideal) m ρ c (Proc.devRef .tc main_v79) = Cert.ReferenceIdeal.ReadP.val_main_v115 (F := Ideal)
      (W4 m ρ c (Proc.devRef .tc main_arg0)) (W4 m ρ c (Proc.devRef .tc main_arg1)) (W4 m ρ c (Proc.devRef .tc main_arg2)) (W4 m ρ c (Proc.devRef .tc main_arg3)) (W4 m ρ c (Proc.devRef .tc main_arg4)) (W4 m ρ c (Proc.devRef .tc main_arg5)) (W4 m ρ c (Proc.devRef .tc main_arg6)) (W4 m ρ c (Proc.devRef .tc main_arg7)) (W4 m ρ c (Proc.devRef .tc main_arg8)) (W4 m ρ c (Proc.devRef .tc main_arg14)) (W4 m ρ c (Proc.devRef .tc main_arg15)) := by
    rw [W4_main_arg0 m ρ c, W4_main_arg1 m ρ c, W4_main_arg2 m ρ c, W4_main_arg3 m ρ c, W4_main_arg4 m ρ c, W4_main_arg5 m ρ c, W4_main_arg6 m ρ c, W4_main_arg7 m ρ c, W4_main_arg8 m ρ c, W4_main_arg14 m ρ c, W4_main_arg15 m ρ c]; exact e1
  have g0 := feat2_msg0 (W4 m ρ c) hh
  have g1 := feat2_msg1 (W4 m ρ c) hh
  have g2 := feat2_msg2 (W4 m ρ c) hh
  have g3 := feat2_msg3 (W4 m ρ c) hh
  have g4 := feat2_msg4 (W4 m ρ c) hh
  have g5 := feat2_msg5 (W4 m ρ c) hh
  have g6 := feat2_msg6 (W4 m ρ c) hh
  have gs := feat2_self (W4 m ρ c) hh
  have gw := wcat2_nbr (W4 m ρ c)
  have gr := wcat2_root (W4 m ρ c)
  have gb := bcat2_apply (W4 m ρ c)
  simp only [W4_main_arg0 m ρ c, W4_main_arg1 m ρ c, W4_main_arg2 m ρ c, W4_main_arg3 m ρ c, W4_main_arg4 m ρ c, W4_main_arg5 m ρ c, W4_main_arg6 m ρ c, W4_main_arg7 m ρ c, W4_main_arg8 m ρ c, W4_main_arg9 m ρ c, W4_main_arg10 m ρ c, W4_main_arg11 m ρ c, W4_main_arg12 m ρ c, W4_main_arg13 m ρ c, W4_main_arg14 m ρ c, W4_main_arg15 m ρ c, W4_main_arg16 m ρ c, W4_main_arg17 m ρ c, W4_main_arg18 m ρ c, W4_main_arg19 m ρ c, W4_main_arg20 m ρ c, W4_main_arg21 m ρ c, W4_main_arg22 m ρ c] at g0 g1 g2 g3 g4 g5 g6 gs gw gr gb
  simp only [e1] at gs
  refine layer2_of m ρ c _ _ _ _ _ _ _ _ _ _ _ _ _ _ _ _ _ _ _ _ _ _ _ ?_ gs gw gr gb
    (real_h1 _ _ _ _ _ _ _ _ _ _ _ r0 r1 r2 r3 r4 r5 r6 r7 r8) r10 r12
  intro q n j
  match q with
  | ⟨0, _⟩ => exact g0 n j
  | ⟨1, _⟩ => exact g1 n j
  | ⟨2, _⟩ => exact g2 n j
  | ⟨3, _⟩ => exact g3 n j
  | ⟨4, _⟩ => exact g4 n j
  | ⟨5, _⟩ => exact g5 n j
  | ⟨6, _⟩ => exact g6 n j

/-- The result buffer: the last stretch clamps the third launch's result at zero, which is the plain program's last stage. -/
theorem result (hre : AllReal (m ((c.tc : Thread nD τ).loc main_arg0)) ∧ AllReal (m ((c.tc : Thread nD τ).loc main_arg1)) ∧ AllReal (m ((c.tc : Thread nD τ).loc main_arg2)) ∧ AllReal (m ((c.tc : Thread nD τ).loc main_arg3)) ∧ AllReal (m ((c.tc : Thread nD τ).loc main_arg4)) ∧ AllReal (m ((c.tc : Thread nD τ).loc main_arg5)) ∧ AllReal (m ((c.tc : Thread nD τ).loc main_arg6)) ∧ AllReal (m ((c.tc : Thread nD τ).loc main_arg7)) ∧ AllReal (m ((c.tc : Thread nD τ).loc main_arg8)) ∧ AllReal (m ((c.tc : Thread nD τ).loc main_arg9)) ∧ AllReal (m ((c.tc : Thread nD τ).loc main_arg10)) ∧ AllReal (m ((c.tc : Thread nD τ).loc main_arg11)) ∧ AllReal (m ((c.tc : Thread nD τ).loc main_arg12)) ∧ AllReal (m ((c.tc : Thread nD τ).loc main_arg13))) :
    W7 (F := Ideal) m ρ c (Proc.devRef .tc main_v229)
      = Cert.ReferenceIdeal.ReadP.val_main_v339 (F := Ideal)
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13))
      (m ((c.tc : Thread nD τ).loc main_arg14))
      (m ((c.tc : Thread nD τ).loc main_arg15))
      (m ((c.tc : Thread nD τ).loc main_arg16))
      (m ((c.tc : Thread nD τ).loc main_arg17))
      (m ((c.tc : Thread nD τ).loc main_arg18))
      (m ((c.tc : Thread nD τ).loc main_arg19))
      (m ((c.tc : Thread nD τ).loc main_arg20))
      (m ((c.tc : Thread nD τ).loc main_arg21))
      (m ((c.tc : Thread nD τ).loc main_arg22)) := by
  refine (out3 (W6 m ρ c)).trans ?_
  funext i
  obtain ⟨n, k, rfl⟩ : ∃ (n : Fin 100000) (k : Fin 64), i = ix2 n k := ⟨i 0, i 1, eq_ix2 i⟩
  rw [layer2 m ρ c hre]
  exact (ref_out _ _ _ _ _ _ _ _ _ _ _ _ _ _ _ _ _ _ _ _ _ _ _ n k).symm

end Cert.KernelIdeal.Val

end
-- ==== Proof.Finite.lean ====
/-
  The precondition "every float input is finite" gives real entries.

  The predicate is the conjunction, array by array, of "the and over all axes of |v i| < +infinity"; it is all ones, so each
  conjunct is one, and an array all of whose entries have absolute value below +infinity has real entries.
-/
import proofs.«147223_j52493090291996_1_alg».proof.Pre_finite_inputs
import proofs.«147223_j52493090291996_1_alg».proof.Proof.LibRealEntries
import Idealize.ShloMosaic.Lib.Affine
import Idealize.ShloMosaic.Lib.ReduceAll
import Idealize.ShloMosaic.Lib.ValueIdx

noncomputable section

namespace Cert.Finite
open Idealize.ShloMosaic Cert.RealEntries Cert.Pre_finite_inputs Cert.Pre_finite_inputs.Facts

/-- The fourteen float arguments have real entries when the predicate holds. -/
theorem reals_of_pre [Cert.Pre_finite_inputs.Facts] (a0 : FVec Ideal S100000x6 .f32) (a1 : FVec Ideal S2x6x16 .f32) (a2 : FVec Ideal S2x6x16 .f32) (a3 : FVec Ideal S2x16 .f32) (a4 : FVec Ideal S2x16x32 .f32) (a5 : FVec Ideal S2x16x32 .f32) (a6 : FVec Ideal S2x32 .f32) (a7 : FVec Ideal S16x32 .f32) (a8 : FVec Ideal S32 .f32) (a9 : FVec Ideal S7x32x64 .f32) (a10 : FVec Ideal S7x32x64 .f32) (a11 : FVec Ideal S7x64 .f32) (a12 : FVec Ideal S32x64 .f32) (a13 : FVec Ideal S64 .f32) (a14 : IVec S2x800000 32) (a15 : IVec S2x800000 32) (a16 : IVec S2x800000 32) (a17 : IVec S2x800000 32) (a18 : IVec S2x800000 32) (a19 : IVec S2x800000 32) (a20 : IVec S2x800000 32) (a21 : IVec S2x800000 32) (a22 : IVec S2x800000 32)
    (h : Cert.Pre_finite_inputs.fn (F := Ideal) a0 a1 a2 a3 a4 a5 a6 a7 a8 a9 a10 a11 a12 a13 a14 a15 a16 a17 a18 a19 a20 a21 a22 = fun _ => 1#1) :
    AllReal a0 ∧ AllReal a1 ∧ AllReal a2 ∧ AllReal a3 ∧ AllReal a4 ∧ AllReal a5 ∧ AllReal a6 ∧ AllReal a7 ∧ AllReal a8 ∧ AllReal a9 ∧ AllReal a10 ∧ AllReal a11 ∧ AllReal a12 ∧ AllReal a13 := by
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨h0, e1⟩ := IntOp.andi_eq_one.1 h0
  exact ⟨allReal_of_reduce _ _ _ _ a0 _ _ h0,
    allReal_of_reduce _ _ _ _ a1 _ _ e1,
    allReal_of_reduce _ _ _ _ a2 _ _ e2,
    allReal_of_reduce _ _ _ _ a3 _ _ e3,
    allReal_of_reduce _ _ _ _ a4 _ _ e4,
    allReal_of_reduce _ _ _ _ a5 _ _ e5,
    allReal_of_reduce _ _ _ _ a6 _ _ e6,
    allReal_of_reduce _ _ _ _ a7 _ _ e7,
    allReal_of_reduce _ _ _ _ a8 _ _ e8,
    allReal_of_reduce _ _ _ _ a9 _ _ e9,
    allReal_of_reduce _ _ _ _ a10 _ _ e10,
    allReal_of_reduce _ _ _ _ a11 _ _ e11,
    allReal_of_reduce _ _ _ _ a12 _ _ e12,
    allReal_of_reduce _ _ _ _ a13 _ _ e13⟩

end Cert.Finite

end
-- ==== Proof.lean ====
/-
  The certificate of a three-layer graph network: each layer gathers node features along the edges of every relation,
  adds them up at the destination nodes (for three relations of the last layer: averages them), and maps the messages and the
  node's own features through dense weights, one relation at a time, summing over the relations (plus a residual projection in
  the two later layers, which also clamp at zero).

  The tiled program does each layer's dense part as ONE matrix product: the messages of all relations and the node's features
  concatenated into one row, against the neighbour weights of all relations stacked over the SUM of the root weights (plus the
  projection), with the summed bias. The plain program multiplies relation by relation and accumulates. On the extended reals
  the two agree, entry by entry, when the inputs are real: splitting the long row's sum into its blocks is a regrouping, and
  the last block distributes over the relations because its factors are real (Proof/Bridge.lean). Real inputs keep every
  intermediate array real (Proof/Real.lean, Proof/RV/Reals.lean), which is what the next layer's distributive step needs.

  Frames: both kernel programs run three launches between four stretches of host operations; each launch's body loads its
  blocks, multiplies, adds the bias (clamps) and stores, and the argument arrays are never written (Proof/KI, Proof/K).
  The reference runs as a list of host operations, read back one layer's stretch at a time (Proof/RefChunks.lean).
-/
import proofs.«147223_j52493090291996_1_alg».proof.Defs
import proofs.«147223_j52493090291996_1_alg».proof.Proof.Gen.Kernel
import proofs.«147223_j52493090291996_1_alg».proof.Proof.Gen.KernelIdeal
import proofs.«147223_j52493090291996_1_alg».proof.Proof.Gen.ReferenceIdeal
import proofs.«147223_j52493090291996_1_alg».proof.Proof.Gen.Pre_finite_inputs
import proofs.«147223_j52493090291996_1_alg».proof.Proof.K.Run
import proofs.«147223_j52493090291996_1_alg».proof.Proof.KI.Run
import proofs.«147223_j52493090291996_1_alg».proof.Proof.RefChunks
import proofs.«147223_j52493090291996_1_alg».proof.Proof.KVal
import proofs.«147223_j52493090291996_1_alg».proof.Proof.Finite
import Idealize.ShloMosaic.Adequacy
import Idealize.ShloMosaic.Init

noncomputable section

namespace Cert.Proof

open Idealize.ShloMosaic Idealize.SL.Sem

/-- The word-level program runs to the end and leaves its arguments as launched. -/
theorem frame_k : Cert.frame_Kernel := fun m ρ _ => Cert.Kernel.Fr.frame (F := Bits) m ρ

/-- So does the same program read on the extended reals. -/
theorem frame_ki : Cert.frame_KernelIdeal := fun m ρ _ => Cert.KernelIdeal.Fr.frame (F := Ideal) m ρ

/-- The reference is a list of host operations: its run, with the result dropped. -/
theorem frame_ri : Cert.frame_ReferenceIdeal := fun m ρ _ =>
  (θ_run Cert.ReferenceIdeal.defs _ _).mono (fun _ h c => (h c).2) (Cert.ReferenceIdeal.Chunks.run (F := Ideal) m ρ)

/-- Both programs end with the plain program's last stage of the (shared) arguments: the tiled program by the three layers'
    agreement (Proof/KVal.lean, which uses that the float inputs are real), the plain one by its run. -/
theorem algebraic : Cert.algebraic_KernelIdeal_ReferenceIdeal := by
  intro m ρ m' ρ' hpre hagree
  refine ⟨fun c => Cert.ReferenceIdeal.ReadP.val_main_v339 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22)), ?_, ?_⟩
  · exact (θ_run (Cert.KernelIdeal.defs (F := Ideal)) _ _).mono
      (fun r h c => ⟨(h c).1.trans (Cert.KernelIdeal.Val.result m ρ c (Cert.Finite.reals_of_pre _ _ _ _ _ _ _ _ _ _ _ _ _ _ _ _ _ _ _ _ _ _ _ (hpre c))), (h c).2⟩)
      (Cert.KernelIdeal.Fr.run_result (F := Ideal) m ρ)
  · refine (θ_run (Cert.ReferenceIdeal.defs (F := Ideal)) _ _).mono (fun r h c => ⟨(h c).1.trans ?_, (h c).2⟩)
      (Cert.ReferenceIdeal.Chunks.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
